-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v104)) (v1 : (c : Dev Cert.KernelIdeal.nD) → Buf (Elt Ideal) ((c.tc : Thread Cert.KernelIdeal.nD Cert.KernelIdeal.τ).loc Cert.KernelIdeal.main_v133)) (v2 : (c : Dev Cert.KernelIdeal.nD) → Buf (Elt Ideal) ((c.tc : Thread Cert.KernelIdeal.nD Cert.KernelIdeal.τ).loc Cert.KernelIdeal.main_v164)) (v3 : (c : Dev Cert.KernelIdeal.nD) → Buf (Elt Ideal) ((c.tc : Thread Cert.KernelIdeal.nD Cert.KernelIdeal.τ).loc Cert.KernelIdeal.main_v135)) (v4 : (c : Dev Cert.KernelIdeal.nD) → Buf (Elt Ideal) ((c.tc : Thread Cert.KernelIdeal.nD Cert.KernelIdeal.τ).loc Cert.KernelIdeal.main_v166)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_v133) = v1 c
          ∧ r.2.mem ((c.tc : Thread Cert.KernelIdeal.nD Cert.KernelIdeal.τ).loc Cert.KernelIdeal.main_v164) = v2 c
          ∧ r.2.mem ((c.tc : Thread Cert.KernelIdeal.nD Cert.KernelIdeal.τ).loc Cert.KernelIdeal.main_v135) = v3 c
          ∧ r.2.mem ((c.tc : Thread Cert.KernelIdeal.nD Cert.KernelIdeal.τ).loc Cert.KernelIdeal.main_v166) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_v187) = v2 c
          ∧ r.2.mem ((c.tc : Thread Cert.ReferenceIdeal.nD Cert.ReferenceIdeal.τ).loc Cert.ReferenceIdeal.main_v158) = v3 c
          ∧ r.2.mem ((c.tc : Thread Cert.ReferenceIdeal.nD Cert.ReferenceIdeal.τ).loc Cert.ReferenceIdeal.main_v189) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128 : Shape := ⟨2, ![256, 128]⟩
abbrev S32000x1024 : Shape := ⟨2, ![32000, 1024]⟩
abbrev S1024x1024 : Shape := ⟨2, ![1024, 1024]⟩
abbrev S1024 : Shape := ⟨1, ![1024]⟩
abbrev S1024x2 : Shape := ⟨2, ![1024, 2]⟩
abbrev S2 : Shape := ⟨1, ![2]⟩
abbrev S4096x1024 : Shape := ⟨2, ![4096, 1024]⟩
abbrev S1024x3 : Shape := ⟨2, ![1024, 3]⟩
abbrev S3 : Shape := ⟨1, ![3]⟩
abbrev S_ : Shape := ⟨0, ![]⟩
abbrev S128 : Shape := ⟨1, ![128]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  natLt_1_32 : 1 < 32
  reducesTo_S256x128_S128_d0 : S256x128.ReducesTo [0] S128
  bcast_S_S128 : S_.BroadcastsInDim S128 (![] : Fin 0 → Fin S128.rank)
  reducesTo_S128_S_d0 : S128.ReducesTo [0] S_
  bcast_S_S32000x1024 : S_.BroadcastsInDim S32000x1024 (![] : Fin 0 → Fin S32000x1024.rank)
  reducesTo_S32000x1024_S_d0_1 : S32000x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2 : S_.BroadcastsInDim S1024x2 (![] : Fin 0 → Fin S1024x2.rank)
  reducesTo_S1024x2_S_d0_1 : S1024x2.ReducesTo [0, 1] S_
  bcast_S_S2 : S_.BroadcastsInDim S2 (![] : Fin 0 → Fin S2.rank)
  reducesTo_S2_S_d0 : S2.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024x3 : S_.BroadcastsInDim S1024x3 (![] : Fin 0 → Fin S1024x3.rank)
  reducesTo_S1024x3_S_d0_1 : S1024x3.ReducesTo [0, 1] S_
  bcast_S_S3 : S_.BroadcastsInDim S3 (![] : Fin 0 → Fin S3.rank)
  reducesTo_S3_S_d0 : S3.ReducesTo [0] S_

variable [Facts]

def fn_part7 {F : FTy → Type} [FloatOps F] (main_arg9 : FVec F S1024x3 .f32) (main_arg10 : FVec F S3 .f32) (main_v112 : IVec S_ 1) (main_v113 : FVec F S1024 .f32) (main_v114 : FVec F S1024 .f32) : IVec S_ 1 :=
  let main_v115 : IVec S1024 1 := cmpf .olt main_v113 main_v114
  let main_c_51 : IVec S_ 1 := constantI S_ 1 1#1
  let main_v116 : IVec S_ 1 := (fun x v => Host.reduce IntOp.andi x v reducesTo_S1024_S_d0 h_S_) main_v115 main_c_51
  let main_v117 : IVec S_ 1 := andi main_v112 main_v116
  let main_v118 : FVec F S1024x3 .f32 := Host.absf main_arg9
  let main_cst_52 : FVec F S_ .f32 := constant S_ .f32 0x7F800000#32
  let main_v119 : FVec F S1024x3 .f32 := broadcastInDim S1024x3 ![] bcast_S_S1024x3 main_cst_52
  let main_v120 : IVec S1024x3 1 := cmpf .olt main_v118 main_v119
  let main_c_53 : IVec S_ 1 := constantI S_ 1 1#1
  let main_v121 : IVec S_ 1 := (fun x v => Host.reduce IntOp.andi x v reducesTo_S1024x3_S_d0_1 h_S_) main_v120 main_c_53
  let main_v122 : IVec S_ 1 := andi main_v117 main_v121
  let main_v123 : FVec F S3 .f32 := Host.absf main_arg10
  let main_cst_54 : FVec F S_ .f32 := constant S_ .f32 0x7F800000#32
  let main_v124 : FVec F S3 .f32 := broadcastInDim S3 ![] bcast_S_S3 main_cst_54
  let main_v125 : IVec S3 1 := cmpf .olt main_v123 main_v124
  let main_c_55 : IVec S_ 1 := constantI S_ 1 1#1
  let main_v126 : IVec S_ 1 := (fun x v => Host.reduce IntOp.andi x v reducesTo_S3_S_d0 h_S_) main_v125 main_c_55
  let main_v127 : IVec S_ 1 := andi main_v122 main_v126
  main_v127

def fn_part6 {F : FTy → Type} [FloatOps F] (main_arg5 : FVec F S1024x2 .f32) (main_arg6 : FVec F S2 .f32) (main_arg7 : FVec F S4096x1024 .f32) (main_arg8 : FVec F S1024 .f32) (main_arg9 : FVec F S1024x3 .f32) (main_arg10 : FVec F S3 .f32) (main_v97 : IVec S_ 1) : IVec S_ 1 :=
  let main_v98 : FVec F S1024x2 .f32 := Host.absf main_arg5
  let main_cst_44 : FVec F S_ .f32 := constant S_ .f32 0x7F800000#32
  let main_v99 : FVec F S1024x2 .f32 := broadcastInDim S1024x2 ![] bcast_S_S1024x2 main_cst_44
  let main_v100 : IVec S1024x2 1 := cmpf .olt main_v98 main_v99
  let main_c_45 : IVec S_ 1 := constantI S_ 1 1#1
  let main_v101 : IVec S_ 1 := (fun x v => Host.reduce IntOp.andi x v reducesTo_S1024x2_S_d0_1 h_S_) main_v100 main_c_45
  let main_v102 : IVec S_ 1 := andi main_v97 main_v101
  let main_v103 : FVec F S2 .f32 := Host.absf main_arg6
  let main_cst_46 : FVec F S_ .f32 := constant S_ .f32 0x7F800000#32
  let main_v104 : FVec F S2 .f32 := broadcastInDim S2 ![] bcast_S_S2 main_cst_46
  let main_v105 : IVec S2 1 := cmpf .olt main_v103 main_v104
  let main_c_47 : IVec S_ 1 := constantI S_ 1 1#1
  let main_v106 : IVec S_ 1 := (fun x v => Host.reduce IntOp.andi x v reducesTo_S2_S_d0 h_S_) main_v105 main_c_47
  let main_v107 : IVec S_ 1 := andi main_v102 main_v106
  let main_v108 : FVec F S4096x1024 .f32 := Host.absf main_arg7
  let main_cst_48 : FVec F S_ .f32 := constant S_ .f32 0x7F800000#32
  let main_v109 : FVec F S4096x1024 .f32 := broadcastInDim S4096x1024 ![] bcast_S_S4096x1024 main_cst_48
  let main_v110 : IVec S4096x1024 1 := cmpf .olt main_v108 main_v109
  let main_c_49 : IVec S_ 1 := constantI S_ 1 1#1
  let main_v111 : IVec S_ 1 := (fun x v => Host.reduce IntOp.andi x v reducesTo_S4096x1024_S_d0_1 h_S_) main_v110 main_c_49
  let main_v112 : IVec S_ 1 := andi main_v107 main_v111
  let main_v113 : FVec F S1024 .f32 := Host.absf main_arg8
  let main_cst_50 : FVec F S_ .f32 := constant S_ .f32 0x7F800000#32
  let main_v114 : FVec F S1024 .f32 := broadcastInDim S1024 ![] bcast_S_S1024 main_cst_50
  fn_part7 (F := F) main_arg9 main_arg10 main_v112 main_v113 main_v114

def fn_part5 {F : FTy → Type} [FloatOps F] (main_arg2 : FVec F S32000x1024 .f32) (main_arg3 : FVec F S1024x1024 .f32) (main_arg4 : FVec F S1024 .f32) (main_arg5 : FVec F S1024x2 .f32) (main_arg6 : FVec F S2 .f32) (main_arg7 : FVec F S4096x1024 .f32) (main_arg8 : FVec F S1024 .f32) (main_arg9 : FVec F S1024x3 .f32) (main_arg10 : FVec F S3 .f32) (main_v47 : IVec S_ 1) (main_v80 : IVec S128 1) : IVec S_ 1 :=
  let main_c_38 : IVec S_ 1 := constantI S_ 1 1#1
  let main_v81 : IVec S_ 1 := (fun x v => Host.reduce IntOp.andi x v reducesTo_S128_S_d0 h_S_) main_v80 main_c_38
  let main_v82 : IVec S_ 1 := andi main_v47 main_v81
  let main_v83 : FVec F S32000x1024 .f32 := Host.absf main_arg2
  let main_cst : FVec F S_ .f32 := constant S_ .f32 0x7F800000#32
  let main_v84 : FVec F S32000x1024 .f32 := broadcastInDim S32000x1024 ![] bcast_S_S32000x1024 main_cst
  let main_v85 : IVec S32000x1024 1 := cmpf .olt main_v83 main_v84
  let main_c_39 : IVec S_ 1 := constantI S_ 1 1#1
  let main_v86 : IVec S_ 1 := (fun x v => Host.reduce IntOp.andi x v reducesTo_S32000x1024_S_d0_1 h_S_) main_v85 main_c_39
  let main_v87 : IVec S_ 1 := andi main_v82 main_v86
  let main_v88 : FVec F S1024x1024 .f32 := Host.absf main_arg3
  let main_cst_40 : FVec F S_ .f32 := constant S_ .f32 0x7F800000#32
  let main_v89 : FVec F S1024x1024 .f32 := broadcastInDim S1024x1024 ![] bcast_S_S1024x1024 main_cst_40
  let main_v90 : IVec S1024x1024 1 := cmpf .olt main_v88 main_v89
  let main_c_41 : IVec S_ 1 := constantI S_ 1 1#1
  let main_v91 : IVec S_ 1 := (fun x v => Host.reduce IntOp.andi x v reducesTo_S1024x1024_S_d0_1 h_S_) main_v90 main_c_41
  let main_v92 : IVec S_ 1 := andi main_v87 main_v91
  let main_v93 : FVec F S1024 .f32 := Host.absf main_arg4
  let main_cst_42 : FVec F S_ .f32 := constant S_ .f32 0x7F800000#32
  let main_v94 : FVec F S1024 .f32 := broadcastInDim S1024 ![] bcast_S_S1024 main_cst_42
  let main_v95 : IVec S1024 1 := cmpf .olt main_v93 main_v94
  let main_c_43 : IVec S_ 1 := constantI S_ 1 1#1
  let main_v96 : IVec S_ 1 := (fun x v => Host.reduce IntOp.andi x v reducesTo_S1024_S_d0 h_S_) main_v95 main_c_43
  let main_v97 : IVec S_ 1 := andi main_v92 main_v96
  fn_part6 (F := F) main_arg5 main_arg6 main_arg7 main_arg8 main_arg9 main_arg10 main_v97

def fn_part4 {F : FTy → Type} [FloatOps F] (main_arg1 : IVec S256x128 32) (main_arg2 : FVec F S32000x1024 .f32) (main_arg3 : FVec F S1024x1024 .f32) (main_arg4 : FVec F S1024 .f32) (main_arg5 : FVec F S1024x2 .f32) (main_arg6 : FVec F S2 .f32) (main_arg7 : FVec F S4096x1024 .f32) (main_arg8 : FVec F S1024 .f32) (main_arg9 : FVec F S1024x3 .f32) (main_arg10 : FVec F S3 .f32) (main_v47 : IVec S_ 1) (main_v63 : IVec S128 1) (main_c_30 : IVec S_ 32) : IVec S_ 1 :=
  let main_v64 : IVec S256x128 32 := broadcastInDim S256x128 ![] bcast_S_S256x128 main_c_30
  let main_v65 : IVec S256x128 1 := cmpi .eq main_arg1 main_v64
  let main_v66 : IVec S256x128 32 := (extui 32 · natLt_1_32) main_v65
  let main_c_31 : IVec S_ 32 := constantI S_ 32 0#32
  let main_v67 : IVec S128 32 := (fun x v => Host.reduce IntOp.addi x v reducesTo_S256x128_S128_d0 h_S_) main_v66 main_c_31
  let main_c_32 : IVec S_ 32 := constantI S_ 32 256#32
  let main_v68 : IVec S128 32 := broadcastInDim S128 ![] bcast_S_S128 main_c_32
  let main_v69 : IVec S128 32 := subi main_v68 main_v67
  let main_c_33 : IVec S_ 32 := constantI S_ 32 1#32
  let main_v70 : IVec S128 32 := broadcastInDim S128 ![] bcast_S_S128 main_c_33
  let main_v71 : IVec S128 32 := subi main_v69 main_v70
  let main_c_34 : IVec S_ 32 := constantI S_ 32 2#32
  let main_v72 : IVec S128 32 := broadcastInDim S128 ![] bcast_S_S128 main_c_34
  let main_v73 : IVec S128 32 := muli main_v72 main_v71
  let main_c_35 : IVec S_ 32 := constantI S_ 32 1#32
  let main_v74 : IVec S128 32 := broadcastInDim S128 ![] bcast_S_S128 main_c_35
  let main_v75 : IVec S128 32 := subi main_v73 main_v74
  let main_c_36 : IVec S_ 32 := constantI S_ 32 1#32
  let main_v76 : IVec S128 32 := broadcastInDim S128 ![] bcast_S_S128 main_c_36
  let main_v77 : IVec S128 32 := subi main_v75 main_v76
  let main_c_37 : IVec S_ 32 := constantI S_ 32 511#32
  let main_v78 : IVec S128 32 := broadcastInDim S128 ![] bcast_S_S128 main_c_37
  let main_v79 : IVec S128 1 := cmpi .slt main_v77 main_v78
  let main_v80 : IVec S128 1 := andi main_v63 main_v79
  fn_part5 (F := F) main_arg2 main_arg3 main_arg4 main_arg5 main_arg6 main_arg7 main_arg8 main_arg9 main_arg10 main_v47 main_v80

def fn_part3 {F : FTy → Type} [FloatOps F] (main_arg1 : IVec S256x128 32) (main_arg2 : FVec F S32000x1024 .f32) (main_arg3 : FVec F S1024x1024 .f32) (main_arg4 : FVec F S1024 .f32) (main_arg5 : FVec F S1024x2 .f32) (main_arg6 : FVec F S2 .f32) (main_arg7 : FVec F S4096x1024 .f32) (main_arg8 : FVec F S1024 .f32) (main_arg9 : FVec F S1024x3 .f32) (main_arg10 : FVec F S3 .f32) (main_v47 : IVec S_ 1) (main_c_22 : IVec S_ 32) : IVec S_ 1 :=
  let main_v48 : IVec S256x128 32 := broadcastInDim S256x128 ![] bcast_S_S256x128 main_c_22
  let main_v49 : IVec S256x128 1 := cmpi .eq main_arg1 main_v48
  let main_v50 : IVec S256x128 32 := (extui 32 · natLt_1_32) main_v49
  let main_c_23 : IVec S_ 32 := constantI S_ 32 0#32
  let main_v51 : IVec S128 32 := (fun x v => Host.reduce IntOp.addi x v reducesTo_S256x128_S128_d0 h_S_) main_v50 main_c_23
  let main_c_24 : IVec S_ 32 := constantI S_ 32 256#32
  let main_v52 : IVec S128 32 := broadcastInDim S128 ![] bcast_S_S128 main_c_24
  let main_v53 : IVec S128 32 := subi main_v52 main_v51
  let main_c_25 : IVec S_ 32 := constantI S_ 32 1#32
  let main_v54 : IVec S128 32 := broadcastInDim S128 ![] bcast_S_S128 main_c_25
  let main_v55 : IVec S128 32 := subi main_v53 main_v54
  let main_c_26 : IVec S_ 32 := constantI S_ 32 2#32
  let main_v56 : IVec S128 32 := broadcastInDim S128 ![] bcast_S_S128 main_c_26
  let main_v57 : IVec S128 32 := muli main_v56 main_v55
  let main_c_27 : IVec S_ 32 := constantI S_ 32 1#32
  let main_v58 : IVec S128 32 := broadcastInDim S128 ![] bcast_S_S128 main_c_27
  let main_v59 : IVec S128 32 := subi main_v57 main_v58
  let main_c_28 : IVec S_ 32 := constantI S_ 32 1#32
  let main_v60 : IVec S128 32 := broadcastInDim S128 ![] bcast_S_S128 main_c_28
  let main_v61 : IVec S128 32 := subi main_v59 main_v60
  let main_c_29 : IVec S_ 32 := constantI S_ 32 0#32
  let main_v62 : IVec S128 32 := broadcastInDim S128 ![] bcast_S_S128 main_c_29
  let main_v63 : IVec S128 1 := cmpi .sge main_v61 main_v62
  let main_c_30 : IVec S_ 32 := constantI S_ 32 0#32
  fn_part4 (F := F) main_arg1 main_arg2 main_arg3 main_arg4 main_arg5 main_arg6 main_arg7 main_arg8 main_arg9 main_arg10 main_v47 main_v63 main_c_30

def fn_part2 {F : FTy → Type} [FloatOps F] (main_arg1 : IVec S256x128 32) (main_arg2 : FVec F S32000x1024 .f32) (main_arg3 : FVec F S1024x1024 .f32) (main_arg4 : FVec F S1024 .f32) (main_arg5 : FVec F S1024x2 .f32) (main_arg6 : FVec F S2 .f32) (main_arg7 : FVec F S4096x1024 .f32) (main_arg8 : FVec F S1024 .f32) (main_arg9 : FVec F S1024x3 .f32) (main_arg10 : FVec F S3 .f32) (main_v12 : IVec S_ 1) (main_v28 : IVec S128 1) (main_v31 : IVec S256x128 32) (main_c_14 : IVec S_ 32) : IVec S_ 1 :=
  let main_v32 : IVec S128 32 := (fun x v => Host.reduce IntOp.addi x v reducesTo_S256x128_S128_d0 h_S_) main_v31 main_c_14
  let main_c_15 : IVec S_ 32 := constantI S_ 32 256#32
  let main_v33 : IVec S128 32 := broadcastInDim S128 ![] bcast_S_S128 main_c_15
  let main_v34 : IVec S128 32 := subi main_v33 main_v32
  let main_c_16 : IVec S_ 32 := constantI S_ 32 1#32
  let main_v35 : IVec S128 32 := broadcastInDim S128 ![] bcast_S_S128 main_c_16
  let main_v36 : IVec S128 32 := subi main_v34 main_v35
  let main_c_17 : IVec S_ 32 := constantI S_ 32 2#32
  let main_v37 : IVec S128 32 := broadcastInDim S128 ![] bcast_S_S128 main_c_17
  let main_v38 : IVec S128 32 := muli main_v37 main_v36
  let main_c_18 : IVec S_ 32 := constantI S_ 32 1#32
  let main_v39 : IVec S128 32 := broadcastInDim S128 ![] bcast_S_S128 main_c_18
  let main_v40 : IVec S128 32 := subi main_v38 main_v39
  let main_c_19 : IVec S_ 32 := constantI S_ 32 1#32
  let main_v41 : IVec S128 32 := broadcastInDim S128 ![] bcast_S_S128 main_c_19
  let main_v42 : IVec S128 32 := subi main_v40 main_v41
  let main_c_20 : IVec S_ 32 := constantI S_ 32 511#32
  let main_v43 : IVec S128 32 := broadcastInDim S128 ![] bcast_S_S128 main_c_20
  let main_v44 : IVec S128 1 := cmpi .slt main_v42 main_v43
  let main_v45 : IVec S128 1 := andi main_v28 main_v44
  let main_c_21 : IVec S_ 1 := constantI S_ 1 1#1
  let main_v46 : IVec S_ 1 := (fun x v => Host.reduce IntOp.andi x v reducesTo_S128_S_d0 h_S_) main_v45 main_c_21
  let main_v47 : IVec S_ 1 := andi main_v12 main_v46
  let main_c_22 : IVec S_ 32 := constantI S_ 32 0#32
  fn_part3 (F := F) main_arg1 main_arg2 main_arg3 main_arg4 main_arg5 main_arg6 main_arg7 main_arg8 main_arg9 main_arg10 main_v47 main_c_22

def fn_part1 {F : FTy → Type} [FloatOps F] (main_arg0 : IVec S256x128 32) (main_arg1 : IVec S256x128 32) (main_arg2 : FVec F S32000x1024 .f32) (main_arg3 : FVec F S1024x1024 .f32) (main_arg4 : FVec F S1024 .f32) (main_arg5 : FVec F S1024x2 .f32) (main_arg6 : FVec F S2 .f32) (main_arg7 : FVec F S4096x1024 .f32) (main_arg8 : FVec F S1024 .f32) (main_arg9 : FVec F S1024x3 .f32) (main_arg10 : FVec F S3 .f32) (main_v12 : IVec S_ 1) (main_v15 : IVec S256x128 32) (main_c_6 : IVec S_ 32) : IVec S_ 1 :=
  let main_v16 : IVec S128 32 := (fun x v => Host.reduce IntOp.addi x v reducesTo_S256x128_S128_d0 h_S_) main_v15 main_c_6
  let main_c_7 : IVec S_ 32 := constantI S_ 32 256#32
  let main_v17 : IVec S128 32 := broadcastInDim S128 ![] bcast_S_S128 main_c_7
  let main_v18 : IVec S128 32 := subi main_v17 main_v16
  let main_c_8 : IVec S_ 32 := constantI S_ 32 1#32
  let main_v19 : IVec S128 32 := broadcastInDim S128 ![] bcast_S_S128 main_c_8
  let main_v20 : IVec S128 32 := subi main_v18 main_v19
  let main_c_9 : IVec S_ 32 := constantI S_ 32 2#32
  let main_v21 : IVec S128 32 := broadcastInDim S128 ![] bcast_S_S128 main_c_9
  let main_v22 : IVec S128 32 := muli main_v21 main_v20
  let main_c_10 : IVec S_ 32 := constantI S_ 32 1#32
  let main_v23 : IVec S128 32 := broadcastInDim S128 ![] bcast_S_S128 main_c_10
  let main_v24 : IVec S128 32 := subi main_v22 main_v23
  let main_c_11 : IVec S_ 32 := constantI S_ 32 1#32
  let main_v25 : IVec S128 32 := broadcastInDim S128 ![] bcast_S_S128 main_c_11
  let main_v26 : IVec S128 32 := subi main_v24 main_v25
  let main_c_12 : IVec S_ 32 := constantI S_ 32 0#32
  let main_v27 : IVec S128 32 := broadcastInDim S128 ![] bcast_S_S128 main_c_12
  let main_v28 : IVec S128 1 := cmpi .sge main_v26 main_v27
  let main_c_13 : IVec S_ 32 := constantI S_ 32 0#32
  let main_v29 : IVec S256x128 32 := broadcastInDim S256x128 ![] bcast_S_S256x128 main_c_13
  let main_v30 : IVec S256x128 1 := cmpi .eq main_arg0 main_v29
  let main_v31 : IVec S256x128 32 := (extui 32 · natLt_1_32) main_v30
  let main_c_14 : IVec S_ 32 := constantI S_ 32 0#32
  fn_part2 (F := F) main_arg1 main_arg2 main_arg3 main_arg4 main_arg5 main_arg6 main_arg7 main_arg8 main_arg9 main_arg10 main_v12 main_v28 main_v31 main_c_14

def fn {F : FTy → Type} [FloatOps F] (main_arg0 : IVec S256x128 32) (main_arg1 : IVec S256x128 32) (main_arg2 : FVec F S32000x1024 .f32) (main_arg3 : FVec F S1024x1024 .f32) (main_arg4 : FVec F S1024 .f32) (main_arg5 : FVec F S1024x2 .f32) (main_arg6 : FVec F S2 .f32) (main_arg7 : FVec F S4096x1024 .f32) (main_arg8 : FVec F S1024 .f32) (main_arg9 : FVec F S1024x3 .f32) (main_arg10 : FVec F S3 .f32) : IVec S_ 1 :=
  let main_c : IVec S_ 32 := constantI S_ 32 0#32
  let main_v0 : IVec S256x128 32 := broadcastInDim S256x128 ![] bcast_S_S256x128 main_c
  let main_v1 : IVec S256x128 1 := cmpi .sge main_arg0 main_v0
  let main_c_0 : IVec S_ 32 := constantI S_ 32 32000#32
  let main_v2 : IVec S256x128 32 := broadcastInDim S256x128 ![] bcast_S_S256x128 main_c_0
  let main_v3 : IVec S256x128 1 := cmpi .slt main_arg0 main_v2
  let main_v4 : IVec S256x128 1 := andi main_v1 main_v3
  let main_c_1 : IVec S_ 1 := constantI S_ 1 1#1
  let main_v5 : IVec S_ 1 := (fun x v => Host.reduce IntOp.andi x v reducesTo_S256x128_S_d0_1 h_S_) main_v4 main_c_1
  let main_c_2 : IVec S_ 32 := constantI S_ 32 0#32
  let main_v6 : IVec S256x128 32 := broadcastInDim S256x128 ![] bcast_S_S256x128 main_c_2
  let main_v7 : IVec S256x128 1 := cmpi .sge main_arg1 main_v6
  let main_c_3 : IVec S_ 32 := constantI S_ 32 32000#32
  let main_v8 : IVec S256x128 32 := broadcastInDim S256x128 ![] bcast_S_S256x128 main_c_3
  let main_v9 : IVec S256x128 1 := cmpi .slt main_arg1 main_v8
  let main_v10 : IVec S256x128 1 := andi main_v7 main_v9
  let main_c_4 : IVec S_ 1 := constantI S_ 1 1#1
  let main_v11 : IVec S_ 1 := (fun x v => Host.reduce IntOp.andi x v reducesTo_S256x128_S_d0_1 h_S_) main_v10 main_c_4
  let main_v12 : IVec S_ 1 := andi main_v5 main_v11
  let main_c_5 : IVec S_ 32 := constantI S_ 32 0#32
  let main_v13 : IVec S256x128 32 := broadcastInDim S256x128 ![] bcast_S_S256x128 main_c_5
  let main_v14 : IVec S256x128 1 := cmpi .eq main_arg0 main_v13
  let main_v15 : IVec S256x128 32 := (extui 32 · natLt_1_32) main_v14
  let main_c_6 : IVec S_ 32 := constantI S_ 32 0#32
  fn_part1 (F := F) main_arg0 main_arg1 main_arg2 main_arg3 main_arg4 main_arg5 main_arg6 main_arg7 main_arg8 main_arg9 main_arg10 main_v12 main_v15 main_c_6
-- ==== Kernel.lean ====
abbrev S256x128 : Shape := ⟨2, ![256, 128]⟩
abbrev S32000x1024 : Shape := ⟨2, ![32000, 1024]⟩
abbrev S1024x1024 : Shape := ⟨2, ![1024, 1024]⟩
abbrev S1024 : Shape := ⟨1, ![1024]⟩
abbrev S1024x2 : Shape := ⟨2, ![1024, 2]⟩
abbrev S2 : Shape := ⟨1, ![2]⟩
abbrev S4096x1024 : Shape := ⟨2, ![4096, 1024]⟩
abbrev S1024x3 : Shape := ⟨2, ![1024, 3]⟩
abbrev S3 : Shape := ⟨1, ![3]⟩
abbrev S_ : Shape := ⟨0, ![]⟩
abbrev S32768x1024 : Shape := ⟨2, ![32768, 1024]⟩
abbrev S1x1024 : Shape := ⟨2, ![1, 1024]⟩
abbrev S1x2 : Shape := ⟨2, ![1, 2]⟩
abbrev S32768x2 : Shape := ⟨2, ![32768, 2]⟩
abbrev S1024x1 : Shape := ⟨2, ![1024, 1]⟩
abbrev S255x128 : Shape := ⟨2, ![255, 128]⟩
abbrev S511x128 : Shape := ⟨2, ![511, 128]⟩
abbrev S1x128 : Shape := ⟨2, ![1, 128]⟩
abbrev S512x128 : Shape := ⟨2, ![512, 128]⟩
abbrev S1024x128 : Shape := ⟨2, ![1024, 128]⟩
abbrev S131072 : Shape := ⟨1, ![131072]⟩
abbrev S131072x1 : Shape := ⟨2, ![131072, 1]⟩
abbrev S131072x1024 : Shape := ⟨2, ![131072, 1024]⟩
abbrev S131072x2 : Shape := ⟨2, ![131072, 2]⟩
abbrev S1024x128x1024 : Shape := ⟨3, ![1024, 128, 1024]⟩
abbrev S1024x128x2 : Shape := ⟨3, ![1024, 128, 2]⟩
abbrev S512x128x1024 : Shape := ⟨3, ![512, 128, 1024]⟩
abbrev S512x128x2 : Shape := ⟨3, ![512, 128, 2]⟩
abbrev S128 : Shape := ⟨1, ![128]⟩
abbrev S128x1 : Shape := ⟨2, ![128, 1]⟩
abbrev S128x2 : Shape := ⟨2, ![128, 2]⟩
abbrev S128x1024 : Shape := ⟨2, ![128, 1024]⟩
abbrev S128x4096 : Shape := ⟨2, ![128, 4096]⟩
abbrev S1x3 : Shape := ⟨2, ![1, 3]⟩
abbrev S128x3 : Shape := ⟨2, ![128, 3]⟩
abbrev S512 : Shape := ⟨1, ![512]⟩
abbrev S512x1 : Shape := ⟨2, ![512, 1]⟩
abbrev S512x128x1 : Shape := ⟨3, ![512, 128, 1]⟩

abbrev nBuf : Space → Nat
  | .hbm => 229
  | .vmem => 16
  | .smem => 0
  | _ => 0

abbrev hbmTy0_0 (i : Nat) : BufTy := match i % 128 with
  | 0 => ⟨S256x128, .i32⟩
  | 1 => ⟨S256x128, .i32⟩
  | 2 => ⟨S32000x1024, .f32⟩
  | 3 => ⟨S1024x1024, .f32⟩
  | 4 => ⟨S1024, .f32⟩
  | 5 => ⟨S1024x2, .f32⟩
  | 6 => ⟨S2, .f32⟩
  | 7 => ⟨S4096x1024, .f32⟩
  | 8 => ⟨S1024, .f32⟩
  | 9 => ⟨S1024x3, .f32⟩
  | 10 => ⟨S3, .f32⟩
  | 11 => ⟨S_, .i32⟩
  | 12 => ⟨S_, .f32⟩
  | 13 => ⟨S32768x1024, .f32⟩
  | 14 => ⟨S1024x1024, .bf16⟩
  | 15 => ⟨S1024x2, .bf16⟩
  | 16 => ⟨S1x1024, .f32⟩
  | 17 => ⟨S1x2, .f32⟩
  | 18 => ⟨S32768x1024, .bf16⟩
  | 19 => ⟨S32768x2, .f32⟩
  | 20 => ⟨S255x128, .i32⟩
  | 21 => ⟨S511x128, .i32⟩
  | 22 => ⟨S_, .i32⟩
  | 23 => ⟨S1x128, .i32⟩
  | 24 => ⟨S512x128, .i32⟩
  | 25 => ⟨S255x128, .i32⟩
  | 26 => ⟨S511x128, .i32⟩
  | 27 => ⟨S_, .i32⟩
  | 28 => ⟨S1x128, .i32⟩
  | 29 => ⟨S512x128, .i32⟩
  | 30 => ⟨S1024x128, .i32⟩
  | 31 => ⟨S131072, .i32⟩
  | 32 => ⟨S_, .i32⟩
  | 33 => ⟨S131072, .i32⟩
  | 34 => ⟨S131072, .i1⟩
  | 35 => ⟨S_, .i32⟩
  | 36 => ⟨S131072, .i32⟩
  | 37 => ⟨S131072, .i32⟩
  | 38 => ⟨S131072, .i32⟩
  | 39 => ⟨S131072x1, .i32⟩
  | 40 => ⟨S131072x1024, .bf16⟩
  | 41 => ⟨S_, .i32⟩
  | 42 => ⟨S131072, .i32⟩
  | 43 => ⟨S131072, .i1⟩
  | 44 => ⟨S_, .i32⟩
  | 45 => ⟨S131072, .i32⟩
  | 46 => ⟨S131072, .i32⟩
  | 47 => ⟨S131072, .i32⟩
  | 48 => ⟨S131072x1, .i32⟩
  | 49 => ⟨S131072x2, .f32⟩
  | 50 => ⟨S1024x128x1024, .bf16⟩
  | 51 => ⟨S1024x128x2, .f32⟩
  | 52 => ⟨S512x128x1024, .bf16⟩
  | 53 => ⟨S512x128x1024, .bf16⟩
  | 54 => ⟨S512x128x2, .f32⟩
  | 55 => ⟨S512x128x2, .f32⟩
  | 56 => ⟨S_, .i32⟩
  | 57 => ⟨S256x128, .i32⟩
  | 58 => ⟨S256x128, .i1⟩
  | 59 => ⟨S256x128, .i32⟩
  | 60 => ⟨S_, .i32⟩
  | 61 => ⟨S128, .i32⟩
  | 62 => ⟨S_, .i32⟩
  | 63 => ⟨S128, .i32⟩
  | 64 => ⟨S128, .i32⟩
  | 65 => ⟨S_, .i32⟩
  | 66 => ⟨S128, .i32⟩
  | 67 => ⟨S128, .i32⟩
  | 68 => ⟨S_, .i32⟩
  | 69 => ⟨S256x128, .i32⟩
  | 70 => ⟨S256x128, .i1⟩
  | 71 => ⟨S256x128, .i32⟩
  | 72 => ⟨S_, .i32⟩
  | 73 => ⟨S128, .i32⟩
  | 74 => ⟨S_, .i32⟩
  | 75 => ⟨S128, .i32⟩
  | 76 => ⟨S128, .i32⟩
  | 77 => ⟨S_, .i32⟩
  | 78 => ⟨S128, .i32⟩
  | 79 => ⟨S128, .i32⟩
  | 80 => ⟨S_, .i32⟩
  | 81 => ⟨S128, .i32⟩
  | 82 => ⟨S128, .i32⟩
  | 83 => ⟨S_, .i32⟩
  | 84 => ⟨S128, .i32⟩
  | 85 => ⟨S128, .i32⟩
  | 86 => ⟨S_, .i32⟩
  | 87 => ⟨S128, .i32⟩
  | 88 => ⟨S128, .i32⟩
  | 89 => ⟨S_, .i32⟩
  | 90 => ⟨S128, .i32⟩
  | 91 => ⟨S128, .i32⟩
  | 92 => ⟨S128, .i32⟩
  | 93 => ⟨S_, .i32⟩
  | 94 => ⟨S128, .i32⟩
  | 95 => ⟨S128, .i32⟩
  | 96 => ⟨S_, .i32⟩
  | 97 => ⟨S128, .i32⟩
  | 98 => ⟨S128, .i1⟩
  | 99 => ⟨S_, .i32⟩
  | 100 => ⟨S128, .i32⟩
  | 101 => ⟨S128, .i32⟩
  | 102 => ⟨S128, .i32⟩
  | 103 => ⟨S_, .i32⟩
  | 104 => ⟨S128, .i32⟩
  | 105 => ⟨S128, .i1⟩
  | 106 => ⟨S_, .i32⟩
  | 107 => ⟨S128, .i32⟩
  | 108 => ⟨S128, .i32⟩
  | 109 => ⟨S128, .i32⟩
  | 110 => ⟨S128x1, .i32⟩
  | 111 => ⟨S128x1, .i32⟩
  | 112 => ⟨S128x2, .i32⟩
  | 113 => ⟨S128x1024, .bf16⟩
  | 114 => ⟨S_, .i32⟩
  | 115 => ⟨S128, .i32⟩
  | 116 => ⟨S128, .i32⟩
  | 117 => ⟨S_, .i32⟩
  | 118 => ⟨S128, .i32⟩
  | 119 => ⟨S128, .i1⟩
  | 120 => ⟨S_, .i32⟩
  | 121 => ⟨S128, .i32⟩
  | 122 => ⟨S128, .i32⟩
  | 123 => ⟨S128, .i32⟩
  | 124 => ⟨S_, .i32⟩
  | 125 => ⟨S128, .i32⟩
  | 126 => ⟨S128, .i1⟩
  | 127 => ⟨S_, .i32⟩
  | _ => ⟨S256x128, .i32⟩

abbrev hbmTy0_1 (i : Nat) : BufTy := match i % 128 with
  | 0 => ⟨S128, .i32⟩
  | 1 => ⟨S128, .i32⟩
  | 2 => ⟨S128, .i32⟩
  | 3 => ⟨S128x1, .i32⟩
  | 4 => ⟨S128x1, .i32⟩
  | 5 => ⟨S128x2, .i32⟩
  | 6 => ⟨S128x1024, .bf16⟩
  | 7 => ⟨S128x1024, .f32⟩
  | 8 => ⟨S128x1024, .f32⟩
  | 9 => ⟨S128x1024, .f32⟩
  | 10 => ⟨S128x1024, .f32⟩
  | 11 => ⟨S128x1024, .f32⟩
  | 12 => ⟨S128x4096, .f32⟩
  | 13 => ⟨S128x4096, .bf16⟩
  | 14 => ⟨S4096x1024, .bf16⟩
  | 15 => ⟨S1024x3, .bf16⟩
  | 16 => ⟨S1x1024, .f32⟩
  | 17 => ⟨S1x3, .f32⟩
  | 18 => ⟨S128x3, .f32⟩
  | 19 => ⟨S512, .i32⟩
  | 20 => ⟨S512x1, .i32⟩
  | 21 => ⟨S1x128, .i32⟩
  | 22 => ⟨S512x128, .i32⟩
  | 23 => ⟨S512x128, .i32⟩
  | 24 => ⟨S512x128, .i1⟩
  | 25 => ⟨S512x128, .f32⟩
  | 26 => ⟨S128, .f32⟩
  | 27 => ⟨S512x128x1, .f32⟩
  | 28 => ⟨S512x128, .f32⟩
  | 29 => ⟨S512x128x1, .f32⟩
  | 30 => ⟨S512x128, .f32⟩
  | 31 => ⟨S512x128, .f32⟩
  | 32 => ⟨S_, .f32⟩
  | 33 => ⟨S128, .f32⟩
  | 34 => ⟨S128, .f32⟩
  | 35 => ⟨S512x128, .f32⟩
  | 36 => ⟨S_, .f32⟩
  | 37 => ⟨S128, .f32⟩
  | 38 => ⟨S_, .f32⟩
  | 39 => ⟨S128, .f32⟩
  | 40 => ⟨S128, .f32⟩
  | 41 => ⟨S128, .f32⟩
  | 42 => ⟨S512x128, .f32⟩
  | 43 => ⟨S512x128, .f32⟩
  | 44 => ⟨S512x128, .f32⟩
  | 45 => ⟨S_, .f32⟩
  | 46 => ⟨S128, .f32⟩
  | 47 => ⟨S128, .f32⟩
  | 48 => ⟨S128, .f32⟩
  | 49 => ⟨S128, .f32⟩
  | 50 => ⟨S128, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S512, .i32⟩
  | 61 => ⟨S512x1, .i32⟩
  | 62 => ⟨S1x128, .i32⟩
  | 63 => ⟨S512x128, .i32⟩
  | 64 => ⟨S512x128, .i32⟩
  | 65 => ⟨S512x128, .i1⟩
  | 66 => ⟨S512x128, .f32⟩
  | 67 => ⟨S128, .f32⟩
  | 68 => ⟨S512x128x1, .f32⟩
  | 69 => ⟨S512x128, .f32⟩
  | 70 => ⟨S512x128x1, .f32⟩
  | 71 => ⟨S512x128, .f32⟩
  | 72 => ⟨S512x128, .f32⟩
  | 73 => ⟨S_, .f32⟩
  | 74 => ⟨S128, .f32⟩
  | 75 => ⟨S128, .f32⟩
  | 76 => ⟨S512x128, .f32⟩
  | 77 => ⟨S_, .f32⟩
  | 78 => ⟨S128, .f32⟩
  | 79 => ⟨S_, .f32⟩
  | 80 => ⟨S128, .f32⟩
  | 81 => ⟨S128, .f32⟩
  | 82 => ⟨S128, .f32⟩
  | 83 => ⟨S512x128, .f32⟩
  | 84 => ⟨S512x128, .f32⟩
  | 85 => ⟨S512x128, .f32⟩
  | 86 => ⟨S_, .f32⟩
  | 87 => ⟨S128, .f32⟩
  | 88 => ⟨S128, .f32⟩
  | 89 => ⟨S128, .f32⟩
  | 90 => ⟨S128, .f32⟩
  | 91 => ⟨S128, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | _ => ⟨S256x128, .i32⟩

abbrev hbmTy (i : Nat) : BufTy := match i / 128 with
  | 0 => hbmTy0_0 i
  | 1 => hbmTy0_1 i
  | _ => ⟨S256x128, .i32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x2, .bf16⟩
  | .local _ .vmem, ⟨5, _⟩ => ⟨S1x2, .f32⟩
  | .local _ .vmem, ⟨6, _⟩ => ⟨S1024x1024, .bf16⟩
  | .local _ .vmem, ⟨7, _⟩ => ⟨S1024x1024, .bf16⟩
  | .local _ .vmem, ⟨8, _⟩ => ⟨S1024x2, .f32⟩
  | .local _ .vmem, ⟨9, _⟩ => ⟨S1024x2, .f32⟩
  | .local _ .vmem, ⟨10, _⟩ => ⟨S128x4096, .bf16⟩
  | .local _ .vmem, ⟨11, _⟩ => ⟨S4096x1024, .bf16⟩
  | .local _ .vmem, ⟨12, _⟩ => ⟨S1x1024, .f32⟩
  | .local _ .vmem, ⟨13, _⟩ => ⟨S1024x3, .bf16⟩
  | .local _ .vmem, ⟨14, _⟩ => ⟨S1x3, .f32⟩
  | .local _ .vmem, ⟨15, _⟩ => ⟨S128x3, .f32⟩
  | _, _ => ⟨S256x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_c_13 : Ref sig .tc := ⟨.hbm, 77, rfl⟩
abbrev main_v50 : Ref sig .tc := ⟨.hbm, 78, rfl⟩
abbrev main_v51 : Ref sig .tc := ⟨.hbm, 79, rfl⟩
abbrev main_c_14 : Ref sig .tc := ⟨.hbm, 80, rfl⟩
abbrev main_v52 : Ref sig .tc := ⟨.hbm, 81, rfl⟩
abbrev main_v53 : Ref sig .tc := ⟨.hbm, 82, rfl⟩
abbrev main_c_15 : Ref sig .tc := ⟨.hbm, 83, rfl⟩
abbrev main_v54 : Ref sig .tc := ⟨.hbm, 84, rfl⟩
abbrev main_v55 : Ref sig .tc := ⟨.hbm, 85, rfl⟩
abbrev main_c_16 : Ref sig .tc := ⟨.hbm, 86, rfl⟩
abbrev main_v56 : Ref sig .tc := ⟨.hbm, 87, rfl⟩
abbrev main_v57 : Ref sig .tc := ⟨.hbm, 88, rfl⟩
abbrev main_c_17 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_18 : Ref sig .tc := ⟨.hbm, 93, rfl⟩
abbrev main_v61 : Ref sig .tc := ⟨.hbm, 94, rfl⟩
abbrev main_v62 : Ref sig .tc := ⟨.hbm, 95, rfl⟩
abbrev main_c_19 : Ref sig .tc := ⟨.hbm, 96, rfl⟩
abbrev main_v63 : Ref sig .tc := ⟨.hbm, 97, rfl⟩
abbrev main_v64 : Ref sig .tc := ⟨.hbm, 98, rfl⟩
abbrev main_c_20 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_21 : Ref sig .tc := ⟨.hbm, 103, rfl⟩
abbrev main_v68 : Ref sig .tc := ⟨.hbm, 104, rfl⟩
abbrev main_v69 : Ref sig .tc := ⟨.hbm, 105, rfl⟩
abbrev main_c_22 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_c_23 : Ref sig .tc := ⟨.hbm, 114, rfl⟩
abbrev main_v77 : Ref sig .tc := ⟨.hbm, 115, rfl⟩
abbrev main_v78 : Ref sig .tc := ⟨.hbm, 116, rfl⟩
abbrev main_c_24 : Ref sig .tc := ⟨.hbm, 117, rfl⟩
abbrev main_v79 : Ref sig .tc := ⟨.hbm, 118, rfl⟩
abbrev main_v80 : Ref sig .tc := ⟨.hbm, 119, rfl⟩
abbrev main_c_25 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_c_26 : Ref sig .tc := ⟨.hbm, 124, rfl⟩
abbrev main_v84 : Ref sig .tc := ⟨.hbm, 125, rfl⟩
abbrev main_v85 : Ref sig .tc := ⟨.hbm, 126, rfl⟩
abbrev main_c_27 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_28 : Ref sig .tc := ⟨.hbm, 164, rfl⟩
abbrev main_v121 : Ref sig .tc := ⟨.hbm, 165, rfl⟩
abbrev main_cst_29 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_30 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_call1_v0 : Ref sig .tc := ⟨.hbm, 178, rfl⟩
abbrev main_call1_cst : Ref sig .tc := ⟨.hbm, 179, rfl⟩
abbrev main_call1_v1 : Ref sig .tc := ⟨.hbm, 180, rfl⟩
abbrev main_v132 : Ref sig .tc := ⟨.hbm, 181, rfl⟩
abbrev main_cst_31 : Ref sig .tc := ⟨.hbm, 182, rfl⟩
abbrev main_v133 : Ref sig .tc := ⟨.hbm, 183, rfl⟩
abbrev main_cst_32 : Ref sig .tc := ⟨.hbm, 184, rfl⟩
abbrev main_v134 : Ref sig .tc := ⟨.hbm, 185, rfl⟩
abbrev main_cst_33 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_cst_34 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_cst_35 : Ref sig .tc := ⟨.hbm, 205, rfl⟩
abbrev main_v152 : Ref sig .tc := ⟨.hbm, 206, rfl⟩
abbrev main_cst_36 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_cst_37 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_call2_v0 : Ref sig .tc := ⟨.hbm, 219, rfl⟩
abbrev main_call2_cst : Ref sig .tc := ⟨.hbm, 220, rfl⟩
abbrev main_call2_v1 : Ref sig .tc := ⟨.hbm, 221, rfl⟩
abbrev main_v163 : Ref sig .tc := ⟨.hbm, 222, rfl⟩
abbrev main_cst_38 : Ref sig .tc := ⟨.hbm, 223, rfl⟩
abbrev main_v164 : Ref sig .tc := ⟨.hbm, 224, rfl⟩
abbrev main_cst_39 : Ref sig .tc := ⟨.hbm, 225, rfl⟩
abbrev main_v165 : Ref sig .tc := ⟨.hbm, 226, rfl⟩
abbrev main_cst_40 : Ref sig .tc := ⟨.hbm, 227, rfl⟩
abbrev main_v166 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x3 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  pads_S32000x1024_S32768x1024_07680_000 : S32000x1024.Pads (![0, 0] : Fin 2 → Nat) ![768, 0] ![0, 0] S32768x1024
  h_S_ : 0 < S_.numel
  bitsLt_bf16_f32 : FTy.bits .bf16 < FTy.bits .f32
  shapeCasts_S1024_S1x1024 : S1024.ShapeCasts S1x1024
  shapeCasts_S2_S1x2 : S2.ShapeCasts S1x2
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  reduces_S1024x2_S1024 : S1024x2.Reduces [1] S1024
  shapeCasts_S1024_S1024x1 : S1024.ShapeCasts S1024x1
  broadcasts_S1024x1_S1024x2 : S1024x1.Broadcasts S1024x2
  slices_S256x128_S255x128_0_0 : S256x128.Slices ![0, 0] S255x128
  concatenates_S256x128_S255x128_S511x128_d0 : Shape.Concatenates [S256x128, S255x128] S511x128 0
  bcast_S_S1x128 : S_.BroadcastsInDim S1x128 (![] : Fin 0 → Fin S1x128.rank)
  concatenates_S511x128_S1x128_S512x128_d0 : Shape.Concatenates [S511x128, S1x128] S512x128 0
  concatenates_S512x128_S512x128_S1024x128_d0 : Shape.Concatenates [S512x128, S512x128] S1024x128 0
  shapeCasts_S1024x128_S131072 : S1024x128.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  shapeCasts_S131072x1024_S1024x128x1024 : S131072x1024.ShapeCasts S1024x128x1024
  shapeCasts_S131072x2_S1024x128x2 : S131072x2.ShapeCasts S1024x128x2
  slices_S1024x128x1024_S512x128x1024_0_0_0 : S1024x128x1024.Slices ![0, 0, 0] S512x128x1024
  slices_S1024x128x1024_S512x128x1024_512_0_0 : S1024x128x1024.Slices ![512, 0, 0] S512x128x1024
  slices_S1024x128x2_S512x128x2_0_0_0 : S1024x128x2.Slices ![0, 0, 0] S512x128x2
  slices_S1024x128x2_S512x128x2_512_0_0 : S1024x128x2.Slices ![512, 0, 0] S512x128x2
  bcast_S_S256x128 : S_.BroadcastsInDim S256x128 (![] : Fin 0 → Fin S256x128.rank)
  natLt_1_32 : 1 < 32
  reducesTo_S256x128_S128_d0 : S256x128.ReducesTo [0] S128
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  concatenates_S128x1024_S128x1024_S128x1024_S128x1024_S128x4096_d1 : Shape.Concatenates [S128x1024, S128x1024, S128x1024, S128x1024] S128x4096 1
  shapeCasts_S3_S1x3 : S3.ShapeCasts S1x3
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  broadcasts_S1x1024_S128x1024 : S1x1024.Broadcasts S128x1024
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S128x3 : S1x3.Broadcasts S128x3
  inb_S128x3_S128x3_0_0 : ∀ a, (![0, 0] : Fin 2 → Nat) a + S128x3.size a ≤ S128x3.size a
  h_S128x3 : 0 < S128x3.numel
  bcast_S512_S512x1_0 : S512.BroadcastsInDim S512x1 (![0] : Fin 1 → Fin S512x1.rank)
  bcast_S128_S1x128_1 : S128.BroadcastsInDim S1x128 (![1] : Fin 1 → Fin S1x128.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  slices_S512x128x2_S512x128x1_0_0_0 : S512x128x2.Slices ![0, 0, 0] S512x128x1
  shapeCasts_S512x128x1_S512x128 : S512x128x1.ShapeCasts S512x128
  slices_S512x128x2_S512x128x1_0_0_1 : S512x128x2.Slices ![0, 0, 1] S512x128x1
  reducesTo_S512x128_S128_d0 : S512x128.ReducesTo [0] S128
  reducesTo_S128_S_d0 : S128.ReducesTo [0] S_
  dot_S1024x1024_S1024x1024_S1024x1024_1_0_0_1_n_n_wf : DotDims.WF S1024x1024 S1024x1024 S1024x1024 [1] [0] [0] [1] [] []
  dot_S1024x1024_S1024x2_S1024x2_1_0_0_1_n_n_wf : DotDims.WF S1024x1024 S1024x2 S1024x2 [1] [0] [0] [1] [] []
  gather_S32768x1024_S131072x1_S131072x1024_1_0_n_n_0_1_11024_wf : GatherDims.WF S32768x1024 S131072x1 S131072x1024 [1] [0] [] [0] [] 1 ![1, 1024]
  gather_S32768x2_S131072x1_S131072x2_1_0_n_n_0_1_12_wf : GatherDims.WF S32768x2 S131072x1 S131072x2 [1] [0] [] [0] [] 1 ![1, 2]
  gather_S512x128x1024_S128x2_S128x1024_1_01_n_n_01_1_111024_wf : GatherDims.WF S512x128x1024 S128x2 S128x1024 [1] [0, 1] [] [0, 1] [] 1 ![1, 1, 1024]
  dot_S128x4096_S4096x1024_S128x1024_1_0_0_1_n_n_wf : DotDims.WF S128x4096 S4096x1024 S128x1024 [1] [0] [0] [1] [] []
  dot_S128x1024_S1024x3_S128x3_1_0_0_1_n_n_wf : DotDims.WF S128x1024 S1024x3 S128x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2.size a ≤ S1024x2.size a
  hwx0_3 : ∀ i : grid0.Coords, EltTy.bits .bf16 = 32 ∨ (Rect.block (s := S1024x2) S1024x2.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S32768x1024.size a
  hwx0_5 : ∀ i : grid0.Coords, EltTy.bits .bf16 = 32 ∨ (Rect.block (s := S32768x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x2.size a ≤ S32768x2.size a
  hwx0_6 : ∀ i : grid0.Coords, EltTy.bits .f32 = 32 ∨ (Rect.block (s := S32768x2) S1024x2.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S128x4096.size a
  hwx1_0 : ∀ i : grid1.Coords, EltTy.bits .bf16 = 32 ∨ (Rect.block (s := S128x4096) S128x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x3.size a ≤ S1024x3.size a
  hwx1_3 : ∀ i : grid1.Coords, EltTy.bits .bf16 = 32 ∨ (Rect.block (s := S1024x3) S1024x3.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x3.size a ≤ S1x3.size a
  hwx1_4 : ∀ i : grid1.Coords, EltTy.bits .f32 = 32 ∨ (Rect.block (s := S1x3) S1x3.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x3.size a ≤ S128x3.size a
  hwx1_5 : ∀ i : grid1.Coords, EltTy.bits .f32 = 32 ∨ (Rect.block (s := S128x3) S128x3.size (cc1_transform_5 i) (hinb1_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x2_S1024x2_1_0_0_1_n_n : DotDims S1024x1024 S1024x2 S1024x2 where
  lhsContracting := [1]
  rhsContracting := [0]
  lhsNonContracting := [0]
  rhsNonContracting := [1]
  lhsBatch := []
  rhsBatch := []
  wf := dot_S1024x1024_S1024x2_S1024x2_1_0_0_1_n_n_wf
def gather_S32768x1024_S131072x1_S131072x1024_1_0_n_n_0_1_11024 : GatherDims S32768x1024 S131072x1 S131072x1024 where
  offsetDims := [1]
  collapsedSliceDims := [0]
  operandBatchingDims := []
  startIndicesBatchingDims := []
  startIndexMap := [0]
  indexVectorDim := 1
  sliceSizes := ![1, 1024]
  wf := gather_S32768x1024_S131072x1_S131072x1024_1_0_n_n_0_1_11024_wf
def gather_S32768x2_S131072x1_S131072x2_1_0_n_n_0_1_12 : GatherDims S32768x2 S131072x1 S131072x2 where
  offsetDims := [1]
  collapsedSliceDims := [0]
  operandBatchingDims := []
  startIndicesBatchingDims := []
  startIndexMap := [0]
  indexVectorDim := 1
  sliceSizes := ![1, 2]
  wf := gather_S32768x2_S131072x1_S131072x2_1_0_n_n_0_1_12_wf
def gather_S512x128x1024_S128x2_S128x1024_1_01_n_n_01_1_111024 : GatherDims S512x128x1024 S128x2 S128x1024 where
  offsetDims := [1]
  collapsedSliceDims := [0, 1]
  operandBatchingDims := []
  startIndicesBatchingDims := []
  startIndexMap := [0, 1]
  indexVectorDim := 1
  sliceSizes := ![1, 1, 1024]
  wf := gather_S512x128x1024_S128x2_S128x1024_1_01_n_n_01_1_111024_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf
def dot_S128x1024_S1024x3_S128x3_1_0_0_1_n_n : DotDims S128x1024 S1024x3 S128x3 where
  lhsContracting := [1]
  rhsContracting := [0]
  lhsNonContracting := [0]
  rhsNonContracting := [1]
  lhsBatch := []
  rhsBatch := []
  wf := dot_S128x1024_S1024x3_S128x3_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1024x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v99) S128x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v100) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v102) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v101) S1024x3.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v103) S1x3.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v104) S128x3.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S256x128 : Shape := ⟨2, ![256, 128]⟩
abbrev S32000x1024 : Shape := ⟨2, ![32000, 1024]⟩
abbrev S1024x1024 : Shape := ⟨2, ![1024, 1024]⟩
abbrev S1024 : Shape := ⟨1, ![1024]⟩
abbrev S1024x2 : Shape := ⟨2, ![1024, 2]⟩
abbrev S2 : Shape := ⟨1, ![2]⟩
abbrev S4096x1024 : Shape := ⟨2, ![4096, 1024]⟩
abbrev S1024x3 : Shape := ⟨2, ![1024, 3]⟩
abbrev S3 : Shape := ⟨1, ![3]⟩
abbrev S255x128 : Shape := ⟨2, ![255, 128]⟩
abbrev S511x128 : Shape := ⟨2, ![511, 128]⟩
abbrev S_ : Shape := ⟨0, ![]⟩
abbrev S511x128x1 : Shape := ⟨3, ![511, 128, 1]⟩
abbrev S511x128x1024 : Shape := ⟨3, ![511, 128, 1024]⟩
abbrev S1x1x1024 : Shape := ⟨3, ![1, 1, 1024]⟩
abbrev S511x128x2 : Shape := ⟨3, ![511, 128, 2]⟩
abbrev S1x1x2 : Shape := ⟨3, ![1, 1, 2]⟩
abbrev S128 : Shape := ⟨1, ![128]⟩
abbrev S128x1 : Shape := ⟨2, ![128, 1]⟩
abbrev S128x2 : Shape := ⟨2, ![128, 2]⟩
abbrev S128x1024 : Shape := ⟨2, ![128, 1024]⟩
abbrev S128x4096 : Shape := ⟨2, ![128, 4096]⟩
abbrev S1x1024 : Shape := ⟨2, ![1, 1024]⟩
abbrev S128x3 : Shape := ⟨2, ![128, 3]⟩
abbrev S1x3 : Shape := ⟨2, ![1, 3]⟩
abbrev S511 : Shape := ⟨1, ![511]⟩
abbrev S511x1 : Shape := ⟨2, ![511, 1]⟩
abbrev S1x128 : Shape := ⟨2, ![1, 128]⟩

abbrev nBuf : Space → Nat
  | .hbm => 255
  | .vmem => 0
  | .smem => 0
  | _ => 0

abbrev hbmTy0_0 (i : Nat) : BufTy := match i % 128 with
  | 0 => ⟨S256x128, .i32⟩
  | 1 => ⟨S256x128, .i32⟩
  | 2 => ⟨S32000x1024, .f32⟩
  | 3 => ⟨S1024x1024, .f32⟩
  | 4 => ⟨S1024, .f32⟩
  | 5 => ⟨S1024x2, .f32⟩
  | 6 => ⟨S2, .f32⟩
  | 7 => ⟨S4096x1024, .f32⟩
  | 8 => ⟨S1024, .f32⟩
  | 9 => ⟨S1024x3, .f32⟩
  | 10 => ⟨S3, .f32⟩
  | 11 => ⟨S255x128, .i32⟩
  | 12 => ⟨S511x128, .i32⟩
  | 13 => ⟨S_, .i32⟩
  | 14 => ⟨S511x128, .i32⟩
  | 15 => ⟨S511x128, .i1⟩
  | 16 => ⟨S_, .i32⟩
  | 17 => ⟨S511x128, .i32⟩
  | 18 => ⟨S511x128, .i32⟩
  | 19 => ⟨S511x128, .i32⟩
  | 20 => ⟨S511x128x1, .i32⟩
  | 21 => ⟨S511x128x1024, .f32⟩
  | 22 => ⟨S511x128x1024, .f32⟩
  | 23 => ⟨S1x1x1024, .f32⟩
  | 24 => ⟨S511x128x1024, .f32⟩
  | 25 => ⟨S511x128x1024, .f32⟩
  | 26 => ⟨S511x128x1024, .f32⟩
  | 27 => ⟨S511x128x2, .f32⟩
  | 28 => ⟨S1x1x2, .f32⟩
  | 29 => ⟨S511x128x2, .f32⟩
  | 30 => ⟨S511x128x2, .f32⟩
  | 31 => ⟨S_, .f32⟩
  | 32 => ⟨S511x128, .f32⟩
  | 33 => ⟨S_, .f32⟩
  | 34 => ⟨S511x128, .f32⟩
  | 35 => ⟨S511x128, .f32⟩
  | 36 => ⟨S511x128x1, .f32⟩
  | 37 => ⟨S511x128x2, .f32⟩
  | 38 => ⟨S511x128x2, .f32⟩
  | 39 => ⟨S511x128x2, .f32⟩
  | 40 => ⟨S_, .f32⟩
  | 41 => ⟨S511x128, .f32⟩
  | 42 => ⟨S511x128x1, .f32⟩
  | 43 => ⟨S511x128x2, .f32⟩
  | 44 => ⟨S511x128x2, .f32⟩
  | 45 => ⟨S255x128, .i32⟩
  | 46 => ⟨S511x128, .i32⟩
  | 47 => ⟨S_, .i32⟩
  | 48 => ⟨S511x128, .i32⟩
  | 49 => ⟨S511x128, .i1⟩
  | 50 => ⟨S_, .i32⟩
  | 51 => ⟨S511x128, .i32⟩
  | 52 => ⟨S511x128, .i32⟩
  | 53 => ⟨S511x128, .i32⟩
  | 54 => ⟨S511x128x1, .i32⟩
  | 55 => ⟨S511x128x1024, .f32⟩
  | 56 => ⟨S511x128x1024, .f32⟩
  | 57 => ⟨S1x1x1024, .f32⟩
  | 58 => ⟨S511x128x1024, .f32⟩
  | 59 => ⟨S511x128x1024, .f32⟩
  | 60 => ⟨S511x128x1024, .f32⟩
  | 61 => ⟨S511x128x2, .f32⟩
  | 62 => ⟨S1x1x2, .f32⟩
  | 63 => ⟨S511x128x2, .f32⟩
  | 64 => ⟨S511x128x2, .f32⟩
  | 65 => ⟨S_, .f32⟩
  | 66 => ⟨S511x128, .f32⟩
  | 67 => ⟨S_, .f32⟩
  | 68 => ⟨S511x128, .f32⟩
  | 69 => ⟨S511x128, .f32⟩
  | 70 => ⟨S511x128x1, .f32⟩
  | 71 => ⟨S511x128x2, .f32⟩
  | 72 => ⟨S511x128x2, .f32⟩
  | 73 => ⟨S511x128x2, .f32⟩
  | 74 => ⟨S_, .f32⟩
  | 75 => ⟨S511x128, .f32⟩
  | 76 => ⟨S511x128x1, .f32⟩
  | 77 => ⟨S511x128x2, .f32⟩
  | 78 => ⟨S511x128x2, .f32⟩
  | 79 => ⟨S_, .i32⟩
  | 80 => ⟨S256x128, .i32⟩
  | 81 => ⟨S256x128, .i1⟩
  | 82 => ⟨S256x128, .i32⟩
  | 83 => ⟨S_, .i32⟩
  | 84 => ⟨S128, .i32⟩
  | 85 => ⟨S_, .i32⟩
  | 86 => ⟨S128, .i32⟩
  | 87 => ⟨S128, .i32⟩
  | 88 => ⟨S_, .i32⟩
  | 89 => ⟨S128, .i32⟩
  | 90 => ⟨S128, .i32⟩
  | 91 => ⟨S_, .i32⟩
  | 92 => ⟨S256x128, .i32⟩
  | 93 => ⟨S256x128, .i1⟩
  | 94 => ⟨S256x128, .i32⟩
  | 95 => ⟨S_, .i32⟩
  | 96 => ⟨S128, .i32⟩
  | 97 => ⟨S_, .i32⟩
  | 98 => ⟨S128, .i32⟩
  | 99 => ⟨S128, .i32⟩
  | 100 => ⟨S_, .i32⟩
  | 101 => ⟨S128, .i32⟩
  | 102 => ⟨S128, .i32⟩
  | 103 => ⟨S_, .i32⟩
  | 104 => ⟨S128, .i32⟩
  | 105 => ⟨S128, .i32⟩
  | 106 => ⟨S_, .i32⟩
  | 107 => ⟨S128, .i32⟩
  | 108 => ⟨S128, .i32⟩
  | 109 => ⟨S_, .i32⟩
  | 110 => ⟨S128, .i32⟩
  | 111 => ⟨S128, .i32⟩
  | 112 => ⟨S_, .i32⟩
  | 113 => ⟨S128, .i32⟩
  | 114 => ⟨S128, .i32⟩
  | 115 => ⟨S128, .i32⟩
  | 116 => ⟨S_, .i32⟩
  | 117 => ⟨S128, .i32⟩
  | 118 => ⟨S128, .i32⟩
  | 119 => ⟨S_, .i32⟩
  | 120 => ⟨S128, .i32⟩
  | 121 => ⟨S128, .i1⟩
  | 122 => ⟨S_, .i32⟩
  | 123 => ⟨S128, .i32⟩
  | 124 => ⟨S128, .i32⟩
  | 125 => ⟨S128, .i32⟩
  | 126 => ⟨S_, .i32⟩
  | 127 => ⟨S128, .i32⟩
  | _ => ⟨S256x128, .i32⟩

abbrev hbmTy0_1 (i : Nat) : BufTy := match i % 128 with
  | 0 => ⟨S128, .i1⟩
  | 1 => ⟨S_, .i32⟩
  | 2 => ⟨S128, .i32⟩
  | 3 => ⟨S128, .i32⟩
  | 4 => ⟨S128, .i32⟩
  | 5 => ⟨S128x1, .i32⟩
  | 6 => ⟨S128x1, .i32⟩
  | 7 => ⟨S128x2, .i32⟩
  | 8 => ⟨S128x1024, .f32⟩
  | 9 => ⟨S_, .i32⟩
  | 10 => ⟨S128, .i32⟩
  | 11 => ⟨S128, .i32⟩
  | 12 => ⟨S_, .i32⟩
  | 13 => ⟨S128, .i32⟩
  | 14 => ⟨S128, .i1⟩
  | 15 => ⟨S_, .i32⟩
  | 16 => ⟨S128, .i32⟩
  | 17 => ⟨S128, .i32⟩
  | 18 => ⟨S128, .i32⟩
  | 19 => ⟨S_, .i32⟩
  | 20 => ⟨S128, .i32⟩
  | 21 => ⟨S128, .i1⟩
  | 22 => ⟨S_, .i32⟩
  | 23 => ⟨S128, .i32⟩
  | 24 => ⟨S128, .i32⟩
  | 25 => ⟨S128, .i32⟩
  | 26 => ⟨S128x1, .i32⟩
  | 27 => ⟨S128x1, .i32⟩
  | 28 => ⟨S128x2, .i32⟩
  | 29 => ⟨S128x1024, .f32⟩
  | 30 => ⟨S128x1024, .f32⟩
  | 31 => ⟨S128x1024, .f32⟩
  | 32 => ⟨S128x1024, .f32⟩
  | 33 => ⟨S128x4096, .f32⟩
  | 34 => ⟨S128x1024, .f32⟩
  | 35 => ⟨S1x1024, .f32⟩
  | 36 => ⟨S128x1024, .f32⟩
  | 37 => ⟨S128x1024, .f32⟩
  | 38 => ⟨S_, .f32⟩
  | 39 => ⟨S128x1024, .f32⟩
  | 40 => ⟨S128x1024, .f32⟩
  | 41 => ⟨S128x3, .f32⟩
  | 42 => ⟨S1x3, .f32⟩
  | 43 => ⟨S128x3, .f32⟩
  | 44 => ⟨S128x3, .f32⟩
  | 45 => ⟨S511, .i32⟩
  | 46 => ⟨S511x1, .i32⟩
  | 47 => ⟨S1x128, .i32⟩
  | 48 => ⟨S511x128, .i32⟩
  | 49 => ⟨S511x128, .i32⟩
  | 50 => ⟨S511x128, .i1⟩
  | 51 => ⟨S511x128, .f32⟩
  | 52 => ⟨S128, .f32⟩
  | 53 => ⟨S511x128x1, .f32⟩
  | 54 => ⟨S511x128, .f32⟩
  | 55 => ⟨S511x128x1, .f32⟩
  | 56 => ⟨S511x128, .f32⟩
  | 57 => ⟨S511x128, .f32⟩
  | 58 => ⟨S_, .f32⟩
  | 59 => ⟨S128, .f32⟩
  | 60 => ⟨S128, .f32⟩
  | 61 => ⟨S511x128, .f32⟩
  | 62 => ⟨S_, .f32⟩
  | 63 => ⟨S128, .f32⟩
  | 64 => ⟨S_, .f32⟩
  | 65 => ⟨S128, .f32⟩
  | 66 => ⟨S128, .f32⟩
  | 67 => ⟨S128, .f32⟩
  | 68 => ⟨S511x128, .f32⟩
  | 69 => ⟨S511x128, .f32⟩
  | 70 => ⟨S511x128, .f32⟩
  | 71 => ⟨S_, .f32⟩
  | 72 => ⟨S128, .f32⟩
  | 73 => ⟨S128, .f32⟩
  | 74 => ⟨S128, .f32⟩
  | 75 => ⟨S128, .f32⟩
  | 76 => ⟨S128, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S511, .i32⟩
  | 87 => ⟨S511x1, .i32⟩
  | 88 => ⟨S1x128, .i32⟩
  | 89 => ⟨S511x128, .i32⟩
  | 90 => ⟨S511x128, .i32⟩
  | 91 => ⟨S511x128, .i1⟩
  | 92 => ⟨S511x128, .f32⟩
  | 93 => ⟨S128, .f32⟩
  | 94 => ⟨S511x128x1, .f32⟩
  | 95 => ⟨S511x128, .f32⟩
  | 96 => ⟨S511x128x1, .f32⟩
  | 97 => ⟨S511x128, .f32⟩
  | 98 => ⟨S511x128, .f32⟩
  | 99 => ⟨S_, .f32⟩
  | 100 => ⟨S128, .f32⟩
  | 101 => ⟨S128, .f32⟩
  | 102 => ⟨S511x128, .f32⟩
  | 103 => ⟨S_, .f32⟩
  | 104 => ⟨S128, .f32⟩
  | 105 => ⟨S_, .f32⟩
  | 106 => ⟨S128, .f32⟩
  | 107 => ⟨S128, .f32⟩
  | 108 => ⟨S128, .f32⟩
  | 109 => ⟨S511x128, .f32⟩
  | 110 => ⟨S511x128, .f32⟩
  | 111 => ⟨S511x128, .f32⟩
  | 112 => ⟨S_, .f32⟩
  | 113 => ⟨S128, .f32⟩
  | 114 => ⟨S128, .f32⟩
  | 115 => ⟨S128, .f32⟩
  | 116 => ⟨S128, .f32⟩
  | 117 => ⟨S128, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | _ => ⟨S256x128, .i32⟩

abbrev hbmTy (i : Nat) : BufTy := match i / 128 with
  | 0 => hbmTy0_0 i
  | 1 => hbmTy0_1 i
  | _ => ⟨S256x128, .i32⟩

abbrev bufTy : (tb : Table) → Fin (tcTables nBuf tb) → BufTy
  | .hbm, ⟨i, _⟩ => hbmTy i
  | _, _ => ⟨S256x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_3 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_5 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_8 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_9 : Ref sig .tc := ⟨.hbm, 83, rfl⟩
abbrev main_v61 : Ref sig .tc := ⟨.hbm, 84, rfl⟩
abbrev main_c_10 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_13 : Ref sig .tc := ⟨.hbm, 95, rfl⟩
abbrev main_v69 : Ref sig .tc := ⟨.hbm, 96, rfl⟩
abbrev main_c_14 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_c_17 : Ref sig .tc := ⟨.hbm, 106, rfl⟩
abbrev main_v76 : Ref sig .tc := ⟨.hbm, 107, rfl⟩
abbrev main_v77 : Ref sig .tc := ⟨.hbm, 108, rfl⟩
abbrev main_c_18 : Ref sig .tc := ⟨.hbm, 109, rfl⟩
abbrev main_v78 : Ref sig .tc := ⟨.hbm, 110, rfl⟩
abbrev main_v79 : Ref sig .tc := ⟨.hbm, 111, rfl⟩
abbrev main_c_19 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_20 : Ref sig .tc := ⟨.hbm, 116, rfl⟩
abbrev main_v83 : Ref sig .tc := ⟨.hbm, 117, rfl⟩
abbrev main_v84 : Ref sig .tc := ⟨.hbm, 118, rfl⟩
abbrev main_c_21 : Ref sig .tc := ⟨.hbm, 119, rfl⟩
abbrev main_v85 : Ref sig .tc := ⟨.hbm, 120, rfl⟩
abbrev main_v86 : Ref sig .tc := ⟨.hbm, 121, rfl⟩
abbrev main_c_22 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_23 : Ref sig .tc := ⟨.hbm, 126, rfl⟩
abbrev main_v90 : Ref sig .tc := ⟨.hbm, 127, rfl⟩
abbrev main_v91 : Ref sig .tc := ⟨.hbm, 128, rfl⟩
abbrev main_c_24 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_25 : Ref sig .tc := ⟨.hbm, 137, rfl⟩
abbrev main_v99 : Ref sig .tc := ⟨.hbm, 138, rfl⟩
abbrev main_v100 : Ref sig .tc := ⟨.hbm, 139, rfl⟩
abbrev main_c_26 : Ref sig .tc := ⟨.hbm, 140, rfl⟩
abbrev main_v101 : Ref sig .tc := ⟨.hbm, 141, rfl⟩
abbrev main_v102 : Ref sig .tc := ⟨.hbm, 142, rfl⟩
abbrev main_c_27 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c_28 : Ref sig .tc := ⟨.hbm, 147, rfl⟩
abbrev main_v106 : Ref sig .tc := ⟨.hbm, 148, rfl⟩
abbrev main_v107 : Ref sig .tc := ⟨.hbm, 149, rfl⟩
abbrev main_c_29 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_call0_cst : Ref sig .tc := ⟨.hbm, 166, rfl⟩
abbrev main_call0_v0 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_30 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_31 : Ref sig .tc := ⟨.hbm, 190, rfl⟩
abbrev main_v144 : Ref sig .tc := ⟨.hbm, 191, rfl⟩
abbrev main_cst_32 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_33 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_call1_v0 : Ref sig .tc := ⟨.hbm, 204, rfl⟩
abbrev main_call1_cst : Ref sig .tc := ⟨.hbm, 205, rfl⟩
abbrev main_call1_v1 : Ref sig .tc := ⟨.hbm, 206, rfl⟩
abbrev main_v155 : Ref sig .tc := ⟨.hbm, 207, rfl⟩
abbrev main_cst_34 : Ref sig .tc := ⟨.hbm, 208, rfl⟩
abbrev main_v156 : Ref sig .tc := ⟨.hbm, 209, rfl⟩
abbrev main_cst_35 : Ref sig .tc := ⟨.hbm, 210, rfl⟩
abbrev main_v157 : Ref sig .tc := ⟨.hbm, 211, rfl⟩
abbrev main_cst_36 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_cst_37 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_cst_38 : Ref sig .tc := ⟨.hbm, 231, rfl⟩
abbrev main_v175 : Ref sig .tc := ⟨.hbm, 232, rfl⟩
abbrev main_cst_39 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_cst_40 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_call2_v0 : Ref sig .tc := ⟨.hbm, 245, rfl⟩
abbrev main_call2_cst : Ref sig .tc := ⟨.hbm, 246, rfl⟩
abbrev main_call2_v1 : Ref sig .tc := ⟨.hbm, 247, rfl⟩
abbrev main_v186 : Ref sig .tc := ⟨.hbm, 248, rfl⟩
abbrev main_cst_41 : Ref sig .tc := ⟨.hbm, 249, rfl⟩
abbrev main_v187 : Ref sig .tc := ⟨.hbm, 250, rfl⟩
abbrev main_cst_42 : Ref sig .tc := ⟨.hbm, 251, rfl⟩
abbrev main_v188 : Ref sig .tc := ⟨.hbm, 252, rfl⟩
abbrev main_cst_43 : Ref sig .tc := ⟨.hbm, 253, rfl⟩
abbrev main_v189 : Ref sig .tc := ⟨.hbm, 254, rfl⟩

abbrev nD : Nat := 1
abbrev τ : Topo := Topo.v7x

variable {F : FTy → Type} [FloatOps F]

class Facts₀ : Prop where
  slices_S256x128_S255x128_0_0 : S256x128.Slices ![0, 0] S255x128
  concatenates_S256x128_S255x128_S511x128_d0 : Shape.Concatenates [S256x128, S255x128] S511x128 0
  bcast_S_S511x128 : S_.BroadcastsInDim S511x128 (![] : Fin 0 → Fin S511x128.rank)
  bcast_S511x128_S511x128x1_0_1 : S511x128.BroadcastsInDim S511x128x1 (![0, 1] : Fin 2 → Fin S511x128x1.rank)
  bcast_S1024_S1x1x1024_2 : S1024.BroadcastsInDim S1x1x1024 (![2] : Fin 1 → Fin S1x1x1024.rank)
  bcast_S1x1x1024_S511x128x1024_0_1_2 : S1x1x1024.BroadcastsInDim S511x128x1024 (![0, 1, 2] : Fin 3 → Fin S511x128x1024.rank)
  bcast_S2_S1x1x2_2 : S2.BroadcastsInDim S1x1x2 (![2] : Fin 1 → Fin S1x1x2.rank)
  bcast_S1x1x2_S511x128x2_0_1_2 : S1x1x2.BroadcastsInDim S511x128x2 (![0, 1, 2] : Fin 3 → Fin S511x128x2.rank)
  reducesTo_S511x128x2_S511x128_d2 : S511x128x2.ReducesTo [2] S511x128
  h_S_ : 0 < S_.numel
  bcast_S511x128x1_S511x128x2_0_1_2 : S511x128x1.BroadcastsInDim S511x128x2 (![0, 1, 2] : Fin 3 → Fin S511x128x2.rank)
  bcast_S_S256x128 : S_.BroadcastsInDim S256x128 (![] : Fin 0 → Fin S256x128.rank)
  natLt_1_32 : 1 < 32
  reducesTo_S256x128_S128_d0 : S256x128.ReducesTo [0] S128
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  concatenates_S128x1024_S128x1024_S128x1024_S128x1024_S128x4096_d1 : Shape.Concatenates [S128x1024, S128x1024, S128x1024, S128x1024] S128x4096 1
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S_S128x1024 : S_.BroadcastsInDim S128x1024 (![] : Fin 0 → Fin S128x1024.rank)
  bcast_S3_S1x3_1 : S3.BroadcastsInDim S1x3 (![1] : Fin 1 → Fin S1x3.rank)
  bcast_S1x3_S128x3_0_1 : S1x3.BroadcastsInDim S128x3 (![0, 1] : Fin 2 → Fin S128x3.rank)
  bcast_S511_S511x1_0 : S511.BroadcastsInDim S511x1 (![0] : Fin 1 → Fin S511x1.rank)
  bcast_S128_S1x128_1 : S128.BroadcastsInDim S1x128 (![1] : Fin 1 → Fin S1x128.rank)
  bcast_S511x1_S511x128_0_1 : S511x1.BroadcastsInDim S511x128 (![0, 1] : Fin 2 → Fin S511x128.rank)
  bcast_S1x128_S511x128_0_1 : S1x128.BroadcastsInDim S511x128 (![0, 1] : Fin 2 → Fin S511x128.rank)
  slices_S511x128x2_S511x128x1_0_0_0 : S511x128x2.Slices ![0, 0, 0] S511x128x1
  shapeCasts_S511x128x1_S511x128 : S511x128x1.ShapeCasts S511x128
  slices_S511x128x2_S511x128x1_0_0_1 : S511x128x2.Slices ![0, 0, 1] S511x128x1
  reducesTo_S511x128_S128_d0 : S511x128.ReducesTo [0] S128
  reducesTo_S128_S_d0 : S128.ReducesTo [0] S_
  gather_S32000x1024_S511x128x1_S511x128x1024_2_0_n_n_0_2_11024_wf : GatherDims.WF S32000x1024 S511x128x1 S511x128x1024 [2] [0] [] [0] [] 2 ![1, 1024]
  dot_S511x128x1024_S1024x1024_S511x128x1024_2_0_01_1_n_n_wf : DotDims.WF S511x128x1024 S1024x1024 S511x128x1024 [2] [0] [0, 1] [1] [] []
  dot_S511x128x1024_S1024x2_S511x128x2_2_0_01_1_n_n_wf : DotDims.WF S511x128x1024 S1024x2 S511x128x2 [2] [0] [0, 1] [1] [] []
  gather_S511x128x1024_S128x2_S128x1024_1_01_n_n_01_1_111024_wf : GatherDims.WF S511x128x1024 S128x2 S128x1024 [1] [0, 1] [] [0, 1] [] 1 ![1, 1, 1024]
  dot_S128x4096_S4096x1024_S128x1024_1_0_0_1_n_n_wf : DotDims.WF S128x4096 S4096x1024 S128x1024 [1] [0] [0] [1] [] []
  dot_S128x1024_S1024x3_S128x3_1_0_0_1_n_n_wf : DotDims.WF S128x1024 S1024x3 S128x3 [1] [0] [0] [1] [] []

variable [Facts₀]

def gather_S32000x1024_S511x128x1_S511x128x1024_2_0_n_n_0_2_11024 : GatherDims S32000x1024 S511x128x1 S511x128x1024 where
  offsetDims := [2]
  collapsedSliceDims := [0]
  operandBatchingDims := []
  startIndicesBatchingDims := []
  startIndexMap := [0]
  indexVectorDim := 2
  sliceSizes := ![1, 1024]
  wf := gather_S32000x1024_S511x128x1_S511x128x1024_2_0_n_n_0_2_11024_wf
def dot_S511x128x1024_S1024x1024_S511x128x1024_2_0_01_1_n_n : DotDims S511x128x1024 S1024x1024 S511x128x1024 where
  lhsContracting := [2]
  rhsContracting := [0]
  lhsNonContracting := [0, 1]
  rhsNonContracting := [1]
  lhsBatch := []
  rhsBatch := []
  wf := dot_S511x128x1024_S1024x1024_S511x128x1024_2_0_01_1_n_n_wf
def dot_S511x128x1024_S1024x2_S511x128x2_2_0_01_1_n_n : DotDims S511x128x1024 S1024x2 S511x128x2 where
  lhsContracting := [2]
  rhsContracting := [0]
  lhsNonContracting := [0, 1]
  rhsNonContracting := [1]
  lhsBatch := []
  rhsBatch := []
  wf := dot_S511x128x1024_S1024x2_S511x128x2_2_0_01_1_n_n_wf
def gather_S511x128x1024_S128x2_S128x1024_1_01_n_n_01_1_111024 : GatherDims S511x128x1024 S128x2 S128x1024 where
  offsetDims := [1]
  collapsedSliceDims := [0, 1]
  operandBatchingDims := []
  startIndicesBatchingDims := []
  startIndexMap := [0, 1]
  indexVectorDim := 1
  sliceSizes := ![1, 1, 1024]
  wf := gather_S511x128x1024_S128x2_S128x1024_1_01_n_n_01_1_111024_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf
def dot_S128x1024_S1024x3_S128x3_1_0_0_1_n_n : DotDims S128x1024 S1024x3 S128x3 where
  lhsContracting := [1]
  rhsContracting := [0]
  lhsNonContracting := [0]
  rhsNonContracting := [1]
  lhsBatch := []
  rhsBatch := []
  wf := dot_S128x1024_S1024x3_S128x3_1_0_0_1_n_n_wf

class Facts : Prop extends Facts₀ where

variable [Facts]
-- ==== Proof.KBody.lean ====
/- The two TensorCore regions of the program, each at a parameter `V` — the core's buffer contents when the region is
   entered: every window's block at a grid point read off its array (`iblkK`), what the region's body leaves in each
   output window's buffer as a function of the input windows' blocks (`outK_W`, equal to the body's stored value
   since the one store covers the whole block from offset zero), the body's triple on whole staging memrefs
   (`sound_kernelK`), the region's proof data over the class invariant `ΦA` (`datK`) with its projections
   (`A_eqK`, `afterK_W`, `beforeK_W`), and the body obligation at every grid point (`body_obligationK`).
   Region 0 computes, per block of 1024 rows, tanh(x·W_top + b_top) and softmax(x·W_act + b_act); region 1 computes
   relu(u·W1 + b1)·W2 + b2 on its single block. -/
import proofs.«100950_j13675175871137_2_alg».proof.Proof.Gen.Kernel.Launch
import proofs.«100950_j13675175871137_2_alg».proof.Proof.Gen.Kernel.Skeleton
import proofs.«100950_j13675175871137_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

namespace Body

theorem zeros2 : (![0, 0] : Fin 2 → Nat) = fun _ => 0 := funext fun a => by fin_cases a <;> rfl

/-- The whole-block rectangles the bodies load and store through. -/
abbrev r0_a : Rect S1024x1024 := Rect.unit (s := S1024x1024) ![0, 0] S1024x1024.size inb_S1024x1024_S1024x1024_0_0
abbrev r0_b : Rect S1x1024 := Rect.unit (s := S1x1024) ![0, 0] S1x1024.size inb_S1x1024_S1x1024_0_0
abbrev r0_c : Rect S1024x2 := Rect.unit (s := S1024x2) ![0, 0] S1024x2.size inb_S1024x2_S1024x2_0_0
abbrev r0_d : Rect S1x2 := Rect.unit (s := S1x2) ![0, 0] S1x2.size inb_S1x2_S1x2_0_0
abbrev r1_a : Rect S128x4096 := Rect.unit (s := S128x4096) ![0, 0] S128x4096.size inb_S128x4096_S128x4096_0_0
abbrev r1_b : Rect S4096x1024 := Rect.unit (s := S4096x1024) ![0, 0] S4096x1024.size inb_S4096x1024_S4096x1024_0_0
abbrev r1_d : Rect S1024x3 := Rect.unit (s := S1024x3) ![0, 0] S1024x3.size inb_S1024x3_S1024x3_0_0
abbrev r1_e : Rect S1x3 := Rect.unit (s := S1x3) ![0, 0] S1x3.size inb_S1x3_S1x3_0_0
abbrev r1_f : Rect S128x3 := Rect.unit (s := S128x3) ![0, 0] S128x3.size inb_S128x3_S128x3_0_0

/-- Each store covers its buffer. -/
theorem cover0_5 (p0 : Vec F S1024x1024 .bf16) (y : S1024x1024.Idx) :
    ∃ pc ∈ ([⟨r0_a, p0⟩] : List (View.Piece (Elt F) S1024x1024 .bf16)), y ∈ pc.1.set :=
  ⟨_, List.mem_singleton_self _, View.mem_set_unit_zero (S := S1024x1024) zeros2 inb_S1024x1024_S1024x1024_0_0 y⟩

theorem cover0_6 (p0 : Vec F S1024x2 .f32) (y : S1024x2.Idx) :
    ∃ pc ∈ ([⟨r0_c, p0⟩] : List (View.Piece (Elt F) S1024x2 .f32)), y ∈ pc.1.set :=
  ⟨_, List.mem_singleton_self _, View.mem_set_unit_zero (S := S1024x2) zeros2 inb_S1024x2_S1024x2_0_0 y⟩

theorem cover1_5 (p0 : Vec F S128x3 .f32) (y : S128x3.Idx) :
    ∃ pc ∈ ([⟨r1_f, p0⟩] : List (View.Piece (Elt F) S128x3 .f32)), y ∈ pc.1.set :=
  ⟨_, List.mem_singleton_self _, View.mem_set_unit_zero (S := S128x3) zeros2 inb_S128x3_S128x3_0_0 y⟩

end Body

open Body

section Regions
variable (V : (c : Dev nD) → (b : Ref sig .tc) → Buf (Elt F) ((c : Thread nD τ).loc b))

/-! # Region 0: the table kernel, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tanh table's block after the body: its one store, over the whole block. -/
def out0_5 (x0 : Vec F S1024x1024 .f32) (x1 : Vec F S1024x1024 .bf16) (x2 : Vec F S1x1024 .f32) : Vec F S1024x1024 .bf16 :=
  View.canon [⟨r0_a, k0_pay2 (View.ld x0 r0_a) (View.ld x1 r0_a) (View.ld x2 r0_b)⟩]

/-- The softmax table's block after the body: its one store, over the whole block. -/
def out0_6 (x0 : Vec F S1024x1024 .f32) (x3 : Vec F S1024x2 .bf16) (x4 : Vec F S1x2 .f32) : Vec F S1024x2 .f32 :=
  View.canon [⟨r0_c, k0_pay3 (View.ld x0 r0_a) (View.ld x3 r0_c) (View.ld x4 r0_d)⟩]

/-- One store from offset zero over the whole block leaves its payload, of the blocks as loaded whole. -/
theorem out0_5_eq (x0 : Vec F S1024x1024 .f32) (x1 : Vec F S1024x1024 .bf16) (x2 : Vec F S1x1024 .f32) :
    out0_5 x0 x1 x2 = k0_pay2 x0 x1 x2 := by
  unfold out0_5
  rw [View.canon_unit_zero (S := S1024x1024) zeros2, View.ld_unit_zero (S := S1024x1024) zeros2,
    View.ld_unit_zero (S := S1024x1024) zeros2, View.ld_unit_zero (S := S1x1024) zeros2]

theorem out0_6_eq (x0 : Vec F S1024x1024 .f32) (x3 : Vec F S1024x2 .bf16) (x4 : Vec F S1x2 .f32) :
    out0_6 x0 x3 x4 = k0_pay3 x0 x3 x4 := by
  unfold out0_6
  rw [View.canon_unit_zero (S := S1024x2) zeros2, View.ld_unit_zero (S := S1024x1024) zeros2,
    View.ld_unit_zero (S := S1024x2) zeros2, View.ld_unit_zero (S := S1x2) zeros2]

set_option maxHeartbeats 4000000 in
/-- The body on whole staging memrefs, the inputs' at read contents and the outputs' at anything, runs to the
    continuation holding the inputs' as they were and each output's at its store's payload. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x2 .bf16) (harg4 : arg4.IsWhole)
    (arg5 : Memref sig .tc .vmem S1x2 .f32) (harg5 : arg5.IsWhole) (arg6 : Memref sig .tc .vmem S1024x1024 .bf16) (harg6 : arg6.IsWhole)
    (arg7 : Memref sig .tc .vmem S1024x2 .f32) (harg7 : arg7.IsWhole)
    (x0 : Vec F S1024x1024 .f32) (x1 : Vec F S1024x1024 .bf16) (x2 : Vec F S1x1024 .f32) (x3 : Vec F S1024x2 .bf16) (x4 : Vec F S1x2 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x3 x4)) -∗ K ⟨⟩))
      ⊢ wp frame (wpE (defs₀ (F := F)) Variants.none c none) E (cc0__vocab_encode_kernel i arg1 harg1 arg2 harg2 arg3 harg3 arg4 harg4 arg5 harg5 arg6 harg6 arg7 harg7) K := by
  simp only [cc0__vocab_encode_kernel_eq_skeleton]; unfold cc0__vocab_encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-- The proof data of region 0 on core `c`: the arrays as the region finds them; after the body at point `t` each
    input's buffer at its block and each output's at its store's payload of the input blocks; the class's invariant;
    nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5_canon (c : Dev nD) (t : Fin cfg0.N) : (dat0 V c).after 5 t = out0_5 (iblk0 V c 0 t) (iblk0 V c 1 t) (iblk0 V c 2 t) := by dsimp only [dat0]
theorem after0_6_canon (c : Dev nD) (t : Fin cfg0.N) : (dat0 V c).after 6 t = out0_6 (iblk0 V c 0 t) (iblk0 V c 3 t) (iblk0 V c 4 t) := by dsimp only [dat0]
theorem after0_5 (c : Dev nD) (t : Fin cfg0.N) : (dat0 V c).after 5 t = k0_pay2 (iblk0 V c 0 t) (iblk0 V c 1 t) (iblk0 V c 2 t) := by
  rw [after0_5_canon, out0_5_eq]
theorem after0_6 (c : Dev nD) (t : Fin cfg0.N) : (dat0 V c).after 6 t = k0_pay3 (iblk0 V c 0 t) (iblk0 V c 3 t) (iblk0 V c 4 t) := by
  rw [after0_6_canon, out0_6_eq]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5_canon, after0_6_canon]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the classifier kernel, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block after the body: its one store, over the whole block. -/
def out1_5 (x0 : Vec F S128x4096 .bf16) (x1 : Vec F S4096x1024 .bf16) (x2 : Vec F S1x1024 .f32) (x3 : Vec F S1024x3 .bf16) (x4 : Vec F S1x3 .f32) : Vec F S128x3 .f32 :=
  View.canon [⟨r1_f, k1_pay1 (View.ld x0 r1_a) (View.ld x1 r1_b) (View.ld x2 r0_b) (View.ld x3 r1_d) (View.ld x4 r1_e)⟩]

/-- One store from offset zero over the whole block leaves its payload, of the blocks as loaded whole. -/
theorem out1_5_eq (x0 : Vec F S128x4096 .bf16) (x1 : Vec F S4096x1024 .bf16) (x2 : Vec F S1x1024 .f32) (x3 : Vec F S1024x3 .bf16) (x4 : Vec F S1x3 .f32) :
    out1_5 x0 x1 x2 x3 x4 = k1_pay1 x0 x1 x2 x3 x4 := by
  unfold out1_5
  rw [View.canon_unit_zero (S := S128x3) zeros2, View.ld_unit_zero (S := S128x4096) zeros2,
    View.ld_unit_zero (S := S4096x1024) zeros2, View.ld_unit_zero (S := S1x1024) zeros2,
    View.ld_unit_zero (S := S1024x3) zeros2, View.ld_unit_zero (S := S1x3) zeros2]

set_option maxHeartbeats 4000000 in
/-- The body on whole staging memrefs, the inputs' at read contents and the output's at anything, runs to the
    continuation holding the inputs' as they were and the output's at its store's payload. -/
theorem sound_kernel1 (c : Dev nD) (E : Set ℕ) (i : grid1.Coords)
    (arg1 : Memref sig .tc .vmem S128x4096 .bf16) (harg1 : arg1.IsWhole) (arg2 : Memref sig .tc .vmem S4096x1024 .bf16) (harg2 : arg2.IsWhole)
    (arg3 : Memref sig .tc .vmem S1x1024 .f32) (harg3 : arg3.IsWhole) (arg4 : Memref sig .tc .vmem S1024x3 .bf16) (harg4 : arg4.IsWhole)
    (arg5 : Memref sig .tc .vmem S1x3 .f32) (harg5 : arg5.IsWhole) (arg6 : Memref sig .tc .vmem S128x3 .f32) (harg6 : arg6.IsWhole)
    (x0 : Vec F S128x4096 .bf16) (x1 : Vec F S4096x1024 .bf16) (x2 : Vec F S1x1024 .f32) (x3 : Vec F S1024x3 .bf16) (x4 : Vec F S1x3 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of region 1 on core `c`: the arrays as the region finds them; after the body at point `t` each
    input's buffer at its block and the output's at its store's payload of the input blocks; the class's invariant;
    nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5_canon (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_5 (c : Dev nD) (t : Fin cfg1.N) : (dat1 V c).after 5 t = k1_pay1 (iblk1 V c 0 t) (iblk1 V c 1 t) (iblk1 V c 2 t) (iblk1 V c 3 t) (iblk1 V c 4 t) := by
  rw [after1_5_canon, out1_5_eq]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5_canon]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KRun.lean ====
/-
  The run of the program over its eleven segments: the buffer contents at every segment boundary as a fold from the
  launch memory (a host stretch rewrites the buffers its operations write; a region leaves its arrays at what its
  write-backs fold to and every other buffer as entered), the two kernel calls as regions over the thread state "every
  unscoped buffer at the boundary's contents, the generator register at some state, nothing owed", the run itself —
  every weakly fair execution terminates with every unscoped buffer at the last boundary's contents —, and the frame:
  no host operation writes an argument array and no region has one among its arrays, so each ends as launched.
-/
import proofs.«100950_j13675175871137_2_alg».proof.Proof.Gen.Kernel.Launch
import proofs.«100950_j13675175871137_2_alg».proof.Proof.Gen.Kernel.Skeleton
import proofs.«100950_j13675175871137_2_alg».proof.Proof.Gen.Kernel.Points
import proofs.«100950_j13675175871137_2_alg».proof.Proof.KBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The host stretches: what each writes, and that none allocates -/

namespace Run

/-- A one-element set of a listed reference lies in the list's set of device buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references `hostOps0` writes, in order. -/
abbrev wr0 : List (Ref sig .tc) := [main_c]
/-- Every operation of `hostOps0` writes one of them. -/
theorem hostOps0_wr : (hostOps0 : List (HloOp τ sig (Elt F))).Forall fun op => op.writes ⊆ (wr0.map (Proc.devRef (τ := τ) .tc)).toFinset :=
  sub_of_mem (y := main_c) (by decide)
/-- No operation of `hostOps0` allocates a buffer. -/
theorem hostOps0_fresh : (hostOps0 : List (HloOp τ sig (Elt F))).Forall fun op => op.fresh = ∅ :=
  rfl

/-- The references `hostOps0_1` writes, in order. -/
abbrev wr0_1 : List (Ref sig .tc) := [main_call0_v0, main_v0]
/-- Every operation of `hostOps0_1` writes one of them. -/
theorem hostOps0_1_wr : (hostOps0_1 : List (HloOp τ sig (Elt F))).Forall fun op => op.writes ⊆ (wr0_1.map (Proc.devRef (τ := τ) .tc)).toFinset :=
  ⟨sub_of_mem (y := main_call0_v0) (by decide),
   sub_of_mem (y := main_v0) (by decide)⟩
/-- No operation of `hostOps0_1` allocates a buffer. -/
theorem hostOps0_1_fresh : (hostOps0_1 : List (HloOp τ sig (Elt F))).Forall fun op => op.fresh = ∅ :=
  ⟨rfl, rfl⟩

/-- The references `hostOps0_2` writes, in order. -/
abbrev wr0_2 : List (Ref sig .tc) := [main_v1, main_v2, main_v3, main_v4]
/-- Every operation of `hostOps0_2` writes one of them. -/
theorem hostOps0_2_wr : (hostOps0_2 : List (HloOp τ sig (Elt F))).Forall fun op => op.writes ⊆ (wr0_2.map (Proc.devRef (τ := τ) .tc)).toFinset :=
  ⟨sub_of_mem (y := main_v1) (by decide),
   sub_of_mem (y := main_v2) (by decide),
   sub_of_mem (y := main_v3) (by decide),
   sub_of_mem (y := main_v4) (by decide)⟩
/-- No operation of `hostOps0_2` allocates a buffer. -/
theorem hostOps0_2_fresh : (hostOps0_2 : List (HloOp τ sig (Elt F))).Forall fun op => op.fresh = ∅ :=
  ⟨rfl, rfl, rfl, rfl⟩

/-- The references `hostOps1` writes, in order. -/
abbrev wr1 : List (Ref sig .tc) := [main_v6, main_v7, main_c_0, main_v8, main_v9, main_v10, main_v11, main_c_1, main_v12, main_v13, main_v14, main_v15, main_c_2, main_v16, main_v17, main_c_3, main_v18, main_v19, main_v20, main_v21, main_v22, main_c_4, main_v23, main_v24, main_c_5, main_v25, main_v26, main_v27, main_v28, main_v29, main_v30, main_v31, main_v32, main_v33, main_v34, main_v35, main_c_6, main_v36, main_v37, main_v38, main_c_7, main_v39, main_c_8, main_v40, main_v41, main_c_9, main_v42, main_v43, main_c_10, main_v44, main_v45, main_v46, main_c_11, main_v47, main_c_12, main_v48, main_v49, main_c_13, main_v50, main_v51, main_c_14, main_v52, main_v53, main_c_15, main_v54, main_v55, main_c_16, main_v56, main_v57, main_c_17, main_v58, main_v59, main_v60, main_c_18, main_v61, main_v62, main_c_19, main_v63, main_v64, main_c_20, main_v65, main_v66, main_v67, main_c_21, main_v68, main_v69, main_c_22, main_v70, main_v71, main_v72, main_v73, main_v74, main_v75, main_v76, main_c_23, main_v77, main_v78, main_c_24, main_v79, main_v80, main_c_25, main_v81, main_v82, main_v83, main_c_26, main_v84, main_v85, main_c_27, main_v86, main_v87, main_v88, main_v89, main_v90, main_v91, main_v92, main_v93, main_v94, main_v95, main_v96, main_v97, main_v98, main_v99, main_v100, main_v101, main_v102, main_v103]
/-- Every operation of `hostOps1` writes one of them. -/
theorem hostOps1_wr : (hostOps1 : List (HloOp τ sig (Elt F))).Forall fun op => op.writes ⊆ (wr1.map (Proc.devRef (τ := τ) .tc)).toFinset :=
  ⟨sub_of_mem (y := main_v6) (by decide),
   sub_of_mem (y := main_v7) (by decide),
   sub_of_mem (y := main_c_0) (by decide),
   sub_of_mem (y := main_v8) (by decide),
   sub_of_mem (y := main_v9) (by decide),
   sub_of_mem (y := main_v10) (by decide),
   sub_of_mem (y := main_v11) (by decide),
   sub_of_mem (y := main_c_1) (by decide),
   sub_of_mem (y := main_v12) (by decide),
   sub_of_mem (y := main_v13) (by decide),
   sub_of_mem (y := main_v14) (by decide),
   sub_of_mem (y := main_v15) (by decide),
   sub_of_mem (y := main_c_2) (by decide),
   sub_of_mem (y := main_v16) (by decide),
   sub_of_mem (y := main_v17) (by decide),
   sub_of_mem (y := main_c_3) (by decide),
   sub_of_mem (y := main_v18) (by decide),
   sub_of_mem (y := main_v19) (by decide),
   sub_of_mem (y := main_v20) (by decide),
   sub_of_mem (y := main_v21) (by decide),
   sub_of_mem (y := main_v22) (by decide),
   sub_of_mem (y := main_c_4) (by decide),
   sub_of_mem (y := main_v23) (by decide),
   sub_of_mem (y := main_v24) (by decide),
   sub_of_mem (y := main_c_5) (by decide),
   sub_of_mem (y := main_v25) (by decide),
   sub_of_mem (y := main_v26) (by decide),
   sub_of_mem (y := main_v27) (by decide),
   sub_of_mem (y := main_v28) (by decide),
   sub_of_mem (y := main_v29) (by decide),
   sub_of_mem (y := main_v30) (by decide),
   sub_of_mem (y := main_v31) (by decide),
   sub_of_mem (y := main_v32) (by decide),
   sub_of_mem (y := main_v33) (by decide),
   sub_of_mem (y := main_v34) (by decide),
   sub_of_mem (y := main_v35) (by decide),
   sub_of_mem (y := main_c_6) (by decide),
   sub_of_mem (y := main_v36) (by decide),
   sub_of_mem (y := main_v37) (by decide),
   sub_of_mem (y := main_v38) (by decide),
   sub_of_mem (y := main_c_7) (by decide),
   sub_of_mem (y := main_v39) (by decide),
   sub_of_mem (y := main_c_8) (by decide),
   sub_of_mem (y := main_v40) (by decide),
   sub_of_mem (y := main_v41) (by decide),
   sub_of_mem (y := main_c_9) (by decide),
   sub_of_mem (y := main_v42) (by decide),
   sub_of_mem (y := main_v43) (by decide),
   sub_of_mem (y := main_c_10) (by decide),
   sub_of_mem (y := main_v44) (by decide),
   sub_of_mem (y := main_v45) (by decide),
   sub_of_mem (y := main_v46) (by decide),
   sub_of_mem (y := main_c_11) (by decide),
   sub_of_mem (y := main_v47) (by decide),
   sub_of_mem (y := main_c_12) (by decide),
   sub_of_mem (y := main_v48) (by decide),
   sub_of_mem (y := main_v49) (by decide),
   sub_of_mem (y := main_c_13) (by decide),
   sub_of_mem (y := main_v50) (by decide),
   sub_of_mem (y := main_v51) (by decide),
   sub_of_mem (y := main_c_14) (by decide),
   sub_of_mem (y := main_v52) (by decide),
   sub_of_mem (y := main_v53) (by decide),
   sub_of_mem (y := main_c_15) (by decide),
   sub_of_mem (y := main_v54) (by decide),
   sub_of_mem (y := main_v55) (by decide),
   sub_of_mem (y := main_c_16) (by decide),
   sub_of_mem (y := main_v56) (by decide),
   sub_of_mem (y := main_v57) (by decide),
   sub_of_mem (y := main_c_17) (by decide),
   sub_of_mem (y := main_v58) (by decide),
   sub_of_mem (y := main_v59) (by decide),
   sub_of_mem (y := main_v60) (by decide),
   sub_of_mem (y := main_c_18) (by decide),
   sub_of_mem (y := main_v61) (by decide),
   sub_of_mem (y := main_v62) (by decide),
   sub_of_mem (y := main_c_19) (by decide),
   sub_of_mem (y := main_v63) (by decide),
   sub_of_mem (y := main_v64) (by decide),
   sub_of_mem (y := main_c_20) (by decide),
   sub_of_mem (y := main_v65) (by decide),
   sub_of_mem (y := main_v66) (by decide),
   sub_of_mem (y := main_v67) (by decide),
   sub_of_mem (y := main_c_21) (by decide),
   sub_of_mem (y := main_v68) (by decide),
   sub_of_mem (y := main_v69) (by decide),
   sub_of_mem (y := main_c_22) (by decide),
   sub_of_mem (y := main_v70) (by decide),
   sub_of_mem (y := main_v71) (by decide),
   sub_of_mem (y := main_v72) (by decide),
   sub_of_mem (y := main_v73) (by decide),
   sub_of_mem (y := main_v74) (by decide),
   sub_of_mem (y := main_v75) (by decide),
   sub_of_mem (y := main_v76) (by decide),
   sub_of_mem (y := main_c_23) (by decide),
   sub_of_mem (y := main_v77) (by decide),
   sub_of_mem (y := main_v78) (by decide),
   sub_of_mem (y := main_c_24) (by decide),
   sub_of_mem (y := main_v79) (by decide),
   sub_of_mem (y := main_v80) (by decide),
   sub_of_mem (y := main_c_25) (by decide),
   sub_of_mem (y := main_v81) (by decide),
   sub_of_mem (y := main_v82) (by decide),
   sub_of_mem (y := main_v83) (by decide),
   sub_of_mem (y := main_c_26) (by decide),
   sub_of_mem (y := main_v84) (by decide),
   sub_of_mem (y := main_v85) (by decide),
   sub_of_mem (y := main_c_27) (by decide),
   sub_of_mem (y := main_v86) (by decide),
   sub_of_mem (y := main_v87) (by decide),
   sub_of_mem (y := main_v88) (by decide),
   sub_of_mem (y := main_v89) (by decide),
   sub_of_mem (y := main_v90) (by decide),
   sub_of_mem (y := main_v91) (by decide),
   sub_of_mem (y := main_v92) (by decide),
   sub_of_mem (y := main_v93) (by decide),
   sub_of_mem (y := main_v94) (by decide),
   sub_of_mem (y := main_v95) (by decide),
   sub_of_mem (y := main_v96) (by decide),
   sub_of_mem (y := main_v97) (by decide),
   sub_of_mem (y := main_v98) (by decide),
   sub_of_mem (y := main_v99) (by decide),
   sub_of_mem (y := main_v100) (by decide),
   sub_of_mem (y := main_v101) (by decide),
   sub_of_mem (y := main_v102) (by decide),
   sub_of_mem (y := main_v103) (by decide)⟩
/-- No operation of `hostOps1` allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references `hostOps2` writes, in order. -/
abbrev wr2 : List (Ref sig .tc) := [main_v105, main_v106, main_v107, main_v108, main_v109, main_v110, main_v111, main_v112, main_v113, main_v114, main_v115, main_v116, main_v117, main_cst, main_v118, main_v119, main_v120, main_cst_28, main_v121, main_cst_29, main_v122, main_v123, main_v124, main_v125, main_v126, main_v127, main_cst_30, main_v128, main_v129, main_v130, main_v131]
/-- Every operation of `hostOps2` writes one of them. -/
theorem hostOps2_wr : (hostOps2 : List (HloOp τ sig (Elt F))).Forall fun op => op.writes ⊆ (wr2.map (Proc.devRef (τ := τ) .tc)).toFinset :=
  ⟨sub_of_mem (y := main_v105) (by decide),
   sub_of_mem (y := main_v106) (by decide),
   sub_of_mem (y := main_v107) (by decide),
   sub_of_mem (y := main_v108) (by decide),
   sub_of_mem (y := main_v109) (by decide),
   sub_of_mem (y := main_v110) (by decide),
   sub_of_mem (y := main_v111) (by decide),
   sub_of_mem (y := main_v112) (by decide),
   sub_of_mem (y := main_v113) (by decide),
   sub_of_mem (y := main_v114) (by decide),
   sub_of_mem (y := main_v115) (by decide),
   sub_of_mem (y := main_v116) (by decide),
   sub_of_mem (y := main_v117) (by decide),
   sub_of_mem (y := main_cst) (by decide),
   sub_of_mem (y := main_v118) (by decide),
   sub_of_mem (y := main_v119) (by decide),
   sub_of_mem (y := main_v120) (by decide),
   sub_of_mem (y := main_cst_28) (by decide),
   sub_of_mem (y := main_v121) (by decide),
   sub_of_mem (y := main_cst_29) (by decide),
   sub_of_mem (y := main_v122) (by decide),
   sub_of_mem (y := main_v123) (by decide),
   sub_of_mem (y := main_v124) (by decide),
   sub_of_mem (y := main_v125) (by decide),
   sub_of_mem (y := main_v126) (by decide),
   sub_of_mem (y := main_v127) (by decide),
   sub_of_mem (y := main_cst_30) (by decide),
   sub_of_mem (y := main_v128) (by decide),
   sub_of_mem (y := main_v129) (by decide),
   sub_of_mem (y := main_v130) (by decide),
   sub_of_mem (y := main_v131) (by decide)⟩
/-- No operation of `hostOps2` allocates a buffer. -/
theorem hostOps2_fresh : (hostOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references `hostOps2_1` writes, in order. -/
abbrev wr2_1 : List (Ref sig .tc) := [main_call1_v0, main_call1_cst, main_call1_v1, main_v132]
/-- Every operation of `hostOps2_1` writes one of them. -/
theorem hostOps2_1_wr : (hostOps2_1 : List (HloOp τ sig (Elt F))).Forall fun op => op.writes ⊆ (wr2_1.map (Proc.devRef (τ := τ) .tc)).toFinset :=
  ⟨sub_of_mem (y := main_call1_v0) (by decide),
   sub_of_mem (y := main_call1_cst) (by decide),
   sub_of_mem (y := main_call1_v1) (by decide),
   sub_of_mem (y := main_v132) (by decide)⟩
/-- No operation of `hostOps2_1` allocates a buffer. -/
theorem hostOps2_1_fresh : (hostOps2_1 : List (HloOp τ sig (Elt F))).Forall fun op => op.fresh = ∅ :=
  ⟨rfl, rfl, rfl, rfl⟩

/-- The references `hostOps2_2` writes, in order. -/
abbrev wr2_2 : List (Ref sig .tc) := [main_cst_31, main_v133, main_cst_32, main_v134, main_cst_33, main_v135, main_v136, main_v137, main_v138, main_v139, main_v140, main_v141, main_v142, main_v143, main_v144, main_v145, main_v146, main_v147, main_v148, main_cst_34, main_v149, main_v150, main_v151, main_cst_35, main_v152, main_cst_36, main_v153, main_v154, main_v155, main_v156, main_v157, main_v158, main_cst_37, main_v159, main_v160, main_v161, main_v162]
/-- Every operation of `hostOps2_2` writes one of them. -/
theorem hostOps2_2_wr : (hostOps2_2 : List (HloOp τ sig (Elt F))).Forall fun op => op.writes ⊆ (wr2_2.map (Proc.devRef (τ := τ) .tc)).toFinset :=
  ⟨sub_of_mem (y := main_cst_31) (by decide),
   sub_of_mem (y := main_v133) (by decide),
   sub_of_mem (y := main_cst_32) (by decide),
   sub_of_mem (y := main_v134) (by decide),
   sub_of_mem (y := main_cst_33) (by decide),
   sub_of_mem (y := main_v135) (by decide),
   sub_of_mem (y := main_v136) (by decide),
   sub_of_mem (y := main_v137) (by decide),
   sub_of_mem (y := main_v138) (by decide),
   sub_of_mem (y := main_v139) (by decide),
   sub_of_mem (y := main_v140) (by decide),
   sub_of_mem (y := main_v141) (by decide),
   sub_of_mem (y := main_v142) (by decide),
   sub_of_mem (y := main_v143) (by decide),
   sub_of_mem (y := main_v144) (by decide),
   sub_of_mem (y := main_v145) (by decide),
   sub_of_mem (y := main_v146) (by decide),
   sub_of_mem (y := main_v147) (by decide),
   sub_of_mem (y := main_v148) (by decide),
   sub_of_mem (y := main_cst_34) (by decide),
   sub_of_mem (y := main_v149) (by decide),
   sub_of_mem (y := main_v150) (by decide),
   sub_of_mem (y := main_v151) (by decide),
   sub_of_mem (y := main_cst_35) (by decide),
   sub_of_mem (y := main_v152) (by decide),
   sub_of_mem (y := main_cst_36) (by decide),
   sub_of_mem (y := main_v153) (by decide),
   sub_of_mem (y := main_v154) (by decide),
   sub_of_mem (y := main_v155) (by decide),
   sub_of_mem (y := main_v156) (by decide),
   sub_of_mem (y := main_v157) (by decide),
   sub_of_mem (y := main_v158) (by decide),
   sub_of_mem (y := main_cst_37) (by decide),
   sub_of_mem (y := main_v159) (by decide),
   sub_of_mem (y := main_v160) (by decide),
   sub_of_mem (y := main_v161) (by decide),
   sub_of_mem (y := main_v162) (by decide)⟩
/-- No operation of `hostOps2_2` allocates a buffer. -/
theorem hostOps2_2_fresh : (hostOps2_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references `hostOps2_3` writes, in order. -/
abbrev wr2_3 : List (Ref sig .tc) := [main_call2_v0, main_call2_cst, main_call2_v1, main_v163]
/-- Every operation of `hostOps2_3` writes one of them. -/
theorem hostOps2_3_wr : (hostOps2_3 : List (HloOp τ sig (Elt F))).Forall fun op => op.writes ⊆ (wr2_3.map (Proc.devRef (τ := τ) .tc)).toFinset :=
  ⟨sub_of_mem (y := main_call2_v0) (by decide),
   sub_of_mem (y := main_call2_cst) (by decide),
   sub_of_mem (y := main_call2_v1) (by decide),
   sub_of_mem (y := main_v163) (by decide)⟩
/-- No operation of `hostOps2_3` allocates a buffer. -/
theorem hostOps2_3_fresh : (hostOps2_3 : List (HloOp τ sig (Elt F))).Forall fun op => op.fresh = ∅ :=
  ⟨rfl, rfl, rfl, rfl⟩

/-- The references `hostOps2_4` writes, in order. -/
abbrev wr2_4 : List (Ref sig .tc) := [main_cst_38, main_v164, main_cst_39, main_v165, main_cst_40, main_v166]
/-- Every operation of `hostOps2_4` writes one of them. -/
theorem hostOps2_4_wr : (hostOps2_4 : List (HloOp τ sig (Elt F))).Forall fun op => op.writes ⊆ (wr2_4.map (Proc.devRef (τ := τ) .tc)).toFinset :=
  ⟨sub_of_mem (y := main_cst_38) (by decide),
   sub_of_mem (y := main_v164) (by decide),
   sub_of_mem (y := main_cst_39) (by decide),
   sub_of_mem (y := main_v165) (by decide),
   sub_of_mem (y := main_cst_40) (by decide),
   sub_of_mem (y := main_v166) (by decide)⟩
/-- No operation of `hostOps2_4` allocates a buffer. -/
theorem hostOps2_4_fresh : (hostOps2_4 : List (HloOp τ sig (Elt F))).Forall fun op => op.fresh = ∅ :=
  ⟨rfl, rfl, rfl, rfl, rfl, rfl⟩

end Run

/-! # THE RUN: the segments from the launch to the return

## The buffer contents at each segment boundary: a fold through the program -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first host stretch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the padding of the embedding table. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the casts and reshapes of the first region's weights (region 0's entry). -/
abbrev W3 : Dev nD → Valuation τ sig (Elt F) := fun c => StableHlo.after hostOps0_2 (W2 m ρ c)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
/-- At region 0's exit each of its arrays holds what the pipeline leaves and every other buffer what it held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the long host stretch between the regions (region 1's entry). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After each of the five closing host stretches (the masked statistics). -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
abbrev W8 : Dev nD → Valuation τ sig (Elt F) := fun c => StableHlo.after hostOps2_1 (W7 m ρ c)
abbrev V8 : (c : Dev nD) → (b : Ref sig .tc) → Buf (Elt F) ((c : Thread nD τ).loc b) := fun c b => W8 m ρ c b
abbrev W9 : Dev nD → Valuation τ sig (Elt F) := fun c => StableHlo.after hostOps2_2 (W8 m ρ c)
abbrev V9 : (c : Dev nD) → (b : Ref sig .tc) → Buf (Elt F) ((c : Thread nD τ).loc b) := fun c b => W9 m ρ c b
abbrev W10 : Dev nD → Valuation τ sig (Elt F) := fun c => StableHlo.after hostOps2_3 (W9 m ρ c)
abbrev V10 : (c : Dev nD) → (b : Ref sig .tc) → Buf (Elt F) ((c : Thread nD τ).loc b) := fun c b => W10 m ρ c b
abbrev W11 : Dev nD → Valuation τ sig (Elt F) := fun c => StableHlo.after hostOps2_4 (W10 m ρ c)
abbrev V11 : (c : Dev nD) → (b : Ref sig .tc) → Buf (Elt F) ((c : Thread nD τ).loc b) := fun c b => W11 m ρ c b

/-! ### A buffer that no host operation writes and no region has among its arrays ends as launched -/

namespace Run

theorem W11_of_untouched (c : Dev nD) (r : Ref sig .tc)
    (h0 : r ∉ wr0) (h0_1 : r ∉ wr0_1) (h0_2 : r ∉ wr0_2) (hs0 : ∀ w, Pipeline.arrRef spec0 w ≠ r)
    (h1 : r ∉ wr1) (hs1 : ∀ w, Pipeline.arrRef spec1 w ≠ r)
    (h2 : r ∉ wr2) (h2_1 : r ∉ wr2_1) (h2_2 : r ∉ wr2_2) (h2_3 : r ∉ wr2_3) (h2_4 : r ∉ wr2_4) :
    W11 m ρ c (Proc.devRef .tc r) = m ((c : Thread nD τ).loc r) :=
  calc W11 m ρ c (Proc.devRef .tc r)
    _ = W10 m ρ c (Proc.devRef .tc r) := StableHlo.after_of_writes_sub hostOps2_4 _ hostOps2_4_wr h2_4
    _ = W9 m ρ c (Proc.devRef .tc r) := StableHlo.after_of_writes_sub hostOps2_3 _ hostOps2_3_wr h2_3
    _ = W8 m ρ c (Proc.devRef .tc r) := StableHlo.after_of_writes_sub hostOps2_2 _ hostOps2_2_wr h2_2
    _ = W7 m ρ c (Proc.devRef .tc r) := StableHlo.after_of_writes_sub hostOps2_1 _ hostOps2_1_wr h2_1
    _ = W6 m ρ c (Proc.devRef .tc r) := StableHlo.after_of_writes_sub hostOps2 _ hostOps2_wr h2
    _ = W5 m ρ c (Proc.devRef .tc r) := W6_of_ne m ρ c r hs1
    _ = W4 m ρ c (Proc.devRef .tc r) := StableHlo.after_of_writes_sub hostOps1 _ hostOps1_wr h1
    _ = W3 m ρ c (Proc.devRef .tc r) := W4_of_ne m ρ c r hs0
    _ = W2 m ρ c (Proc.devRef .tc r) := StableHlo.after_of_writes_sub hostOps0_2 _ hostOps0_2_wr h0_2
    _ = W1 m ρ c (Proc.devRef .tc r) := StableHlo.after_of_writes_sub hostOps0_1 _ hostOps0_1_wr h0_1
    _ = W0 m ρ c (Proc.devRef .tc r) := StableHlo.after_of_writes_sub hostOps0 _ hostOps0_wr h0
    _ = m ((c : Thread nD τ).loc r) := rfl

end Run

/-! ### The arguments end as launched -/
theorem W11_main_arg0 (c : Dev nD) : W11 m ρ c (Proc.devRef .tc main_arg0) = m ((c : Thread nD τ).loc main_arg0) :=
  Run.W11_of_untouched m ρ c main_arg0 (by decide) (by decide) (by decide) (by decide) (by decide) (by decide) (by decide) (by decide) (by decide) (by decide) (by decide)
theorem W11_main_arg1 (c : Dev nD) : W11 m ρ c (Proc.devRef .tc main_arg1) = m ((c : Thread nD τ).loc main_arg1) :=
  Run.W11_of_untouched m ρ c main_arg1 (by decide) (by decide) (by decide) (by decide) (by decide) (by decide) (by decide) (by decide) (by decide) (by decide) (by decide)
theorem W11_main_arg2 (c : Dev nD) : W11 m ρ c (Proc.devRef .tc main_arg2) = m ((c : Thread nD τ).loc main_arg2) :=
  Run.W11_of_untouched m ρ c main_arg2 (by decide) (by decide) (by decide) (by decide) (by decide) (by decide) (by decide) (by decide) (by decide) (by decide) (by decide)
theorem W11_main_arg3 (c : Dev nD) : W11 m ρ c (Proc.devRef .tc main_arg3) = m ((c : Thread nD τ).loc main_arg3) :=
  Run.W11_of_untouched m ρ c main_arg3 (by decide) (by decide) (by decide) (by decide) (by decide) (by decide) (by decide) (by decide) (by decide) (by decide) (by decide)
theorem W11_main_arg4 (c : Dev nD) : W11 m ρ c (Proc.devRef .tc main_arg4) = m ((c : Thread nD τ).loc main_arg4) :=
  Run.W11_of_untouched m ρ c main_arg4 (by decide) (by decide) (by decide) (by decide) (by decide) (by decide) (by decide) (by decide) (by decide) (by decide) (by decide)
theorem W11_main_arg5 (c : Dev nD) : W11 m ρ c (Proc.devRef .tc main_arg5) = m ((c : Thread nD τ).loc main_arg5) :=
  Run.W11_of_untouched m ρ c main_arg5 (by decide) (by decide) (by decide) (by decide) (by decide) (by decide) (by decide) (by decide) (by decide) (by decide) (by decide)
theorem W11_main_arg6 (c : Dev nD) : W11 m ρ c (Proc.devRef .tc main_arg6) = m ((c : Thread nD τ).loc main_arg6) :=
  Run.W11_of_untouched m ρ c main_arg6 (by decide) (by decide) (by decide) (by decide) (by decide) (by decide) (by decide) (by decide) (by decide) (by decide) (by decide)
theorem W11_main_arg7 (c : Dev nD) : W11 m ρ c (Proc.devRef .tc main_arg7) = m ((c : Thread nD τ).loc main_arg7) :=
  Run.W11_of_untouched m ρ c main_arg7 (by decide) (by decide) (by decide) (by decide) (by decide) (by decide) (by decide) (by decide) (by decide) (by decide) (by decide)
theorem W11_main_arg8 (c : Dev nD) : W11 m ρ c (Proc.devRef .tc main_arg8) = m ((c : Thread nD τ).loc main_arg8) :=
  Run.W11_of_untouched m ρ c main_arg8 (by decide) (by decide) (by decide) (by decide) (by decide) (by decide) (by decide) (by decide) (by decide) (by decide) (by decide)
theorem W11_main_arg9 (c : Dev nD) : W11 m ρ c (Proc.devRef .tc main_arg9) = m ((c : Thread nD τ).loc main_arg9) :=
  Run.W11_of_untouched m ρ c main_arg9 (by decide) (by decide) (by decide) (by decide) (by decide) (by decide) (by decide) (by decide) (by decide) (by decide) (by decide)
theorem W11_main_arg10 (c : Dev nD) : W11 m ρ c (Proc.devRef .tc main_arg10) = m ((c : Thread nD τ).loc main_arg10) :=
  Run.W11_of_untouched m ρ c main_arg10 (by decide) (by decide) (by decide) (by decide) (by decide) (by decide) (by decide) (by decide) (by decide) (by decide) (by decide)

/-! ### Read-offs from the fold: the regions' output arrays where later segments find them, the arguments where the
    host stretches read them, and the gathered tables' consumers past region 1 -/

namespace Run

/-- A buffer that none of the three opening host stretches writes holds, at region 0's entry, what was launched. -/
theorem W3_of_untouched (c : Dev nD) (r : Ref sig .tc) (h0 : r ∉ wr0) (h0_1 : r ∉ wr0_1) (h0_2 : r ∉ wr0_2) :
    W3 m ρ c (Proc.devRef .tc r) = m ((c : Thread nD τ).loc r) :=
  calc W3 m ρ c (Proc.devRef .tc r)
    _ = W2 m ρ c (Proc.devRef .tc r) := StableHlo.after_of_writes_sub hostOps0_2 _ hostOps0_2_wr h0_2
    _ = W1 m ρ c (Proc.devRef .tc r) := StableHlo.after_of_writes_sub hostOps0_1 _ hostOps0_1_wr h0_1
    _ = W0 m ρ c (Proc.devRef .tc r) := StableHlo.after_of_writes_sub hostOps0 _ hostOps0_wr h0
    _ = m ((c : Thread nD τ).loc r) := rfl

/-- The same at region 0's exit, for a buffer that is not one of its arrays either. -/
theorem W4_of_untouched (c : Dev nD) (r : Ref sig .tc) (h0 : r ∉ wr0) (h0_1 : r ∉ wr0_1) (h0_2 : r ∉ wr0_2)
    (hs0 : ∀ w, Pipeline.arrRef spec0 w ≠ r) :
    W4 m ρ c (Proc.devRef .tc r) = m ((c : Thread nD τ).loc r) :=
  (W4_of_ne m ρ c r hs0).trans (W3_of_untouched m ρ c r h0 h0_1 h0_2)

/-- A buffer that none of the five closing host stretches writes ends at what region 1's exit left in it. -/
theorem W11_of_W6 (c : Dev nD) (r : Ref sig .tc)
    (h2 : r ∉ wr2) (h2_1 : r ∉ wr2_1) (h2_2 : r ∉ wr2_2) (h2_3 : r ∉ wr2_3) (h2_4 : r ∉ wr2_4) :
    W11 m ρ c (Proc.devRef .tc r) = W6 m ρ c (Proc.devRef .tc r) :=
  calc W11 m ρ c (Proc.devRef .tc r)
    _ = W10 m ρ c (Proc.devRef .tc r) := StableHlo.after_of_writes_sub hostOps2_4 _ hostOps2_4_wr h2_4
    _ = W9 m ρ c (Proc.devRef .tc r) := StableHlo.after_of_writes_sub hostOps2_3 _ hostOps2_3_wr h2_3
    _ = W8 m ρ c (Proc.devRef .tc r) := StableHlo.after_of_writes_sub hostOps2_2 _ hostOps2_2_wr h2_2
    _ = W7 m ρ c (Proc.devRef .tc r) := StableHlo.after_of_writes_sub hostOps2_1 _ hostOps2_1_wr h2_1
    _ = W6 m ρ c (Proc.devRef .tc r) := StableHlo.after_of_writes_sub hostOps2 _ hostOps2_wr h2

/-- The second region's output array ends at what its write-backs fold to. -/
theorem W11_v104 (c : Dev nD) : W11 m ρ c (Proc.devRef .tc main_v104) = (dat1 (V5 m ρ) c).arrAt 5 cfg1.N :=
  (W11_of_W6 m ρ c main_v104 (by decide) (by decide) (by decide) (by decide) (by decide)).trans (W6_arr m ρ c 5)

/-- The first region's two output arrays, at its exit, hold what their write-backs fold to. -/
theorem W4_v5_0 (c : Dev nD) : W4 m ρ c (Proc.devRef .tc main_v5_0) = (dat0 (V3 m ρ) c).arrAt 5 cfg0.N := W4_arr m ρ c 5
theorem W4_v5_1 (c : Dev nD) : W4 m ρ c (Proc.devRef .tc main_v5_1) = (dat0 (V3 m ρ) c).arrAt 6 cfg0.N := W4_arr m ρ c 6

/-- The arguments at region 0's entry and exit are as launched. -/
theorem W3_main_arg0 (c : Dev nD) : W3 m ρ c (Proc.devRef .tc main_arg0) = m ((c : Thread nD τ).loc main_arg0) :=
  W3_of_untouched m ρ c main_arg0 (by decide) (by decide) (by decide)
theorem W4_main_arg0 (c : Dev nD) : W4 m ρ c (Proc.devRef .tc main_arg0) = m ((c : Thread nD τ).loc main_arg0) :=
  W4_of_untouched m ρ c main_arg0 (by decide) (by decide) (by decide) (by decide)
theorem W3_main_arg1 (c : Dev nD) : W3 m ρ c (Proc.devRef .tc main_arg1) = m ((c : Thread nD τ).loc main_arg1) :=
  W3_of_untouched m ρ c main_arg1 (by decide) (by decide) (by decide)
theorem W4_main_arg1 (c : Dev nD) : W4 m ρ c (Proc.devRef .tc main_arg1) = m ((c : Thread nD τ).loc main_arg1) :=
  W4_of_untouched m ρ c main_arg1 (by decide) (by decide) (by decide) (by decide)
theorem W3_main_arg2 (c : Dev nD) : W3 m ρ c (Proc.devRef .tc main_arg2) = m ((c : Thread nD τ).loc main_arg2) :=
  W3_of_untouched m ρ c main_arg2 (by decide) (by decide) (by decide)
theorem W4_main_arg2 (c : Dev nD) : W4 m ρ c (Proc.devRef .tc main_arg2) = m ((c : Thread nD τ).loc main_arg2) :=
  W4_of_untouched m ρ c main_arg2 (by decide) (by decide) (by decide) (by decide)
theorem W3_main_arg3 (c : Dev nD) : W3 m ρ c (Proc.devRef .tc main_arg3) = m ((c : Thread nD τ).loc main_arg3) :=
  W3_of_untouched m ρ c main_arg3 (by decide) (by decide) (by decide)
theorem W4_main_arg3 (c : Dev nD) : W4 m ρ c (Proc.devRef .tc main_arg3) = m ((c : Thread nD τ).loc main_arg3) :=
  W4_of_untouched m ρ c main_arg3 (by decide) (by decide) (by decide) (by decide)
theorem W3_main_arg4 (c : Dev nD) : W3 m ρ c (Proc.devRef .tc main_arg4) = m ((c : Thread nD τ).loc main_arg4) :=
  W3_of_untouched m ρ c main_arg4 (by decide) (by decide) (by decide)
theorem W4_main_arg4 (c : Dev nD) : W4 m ρ c (Proc.devRef .tc main_arg4) = m ((c : Thread nD τ).loc main_arg4) :=
  W4_of_untouched m ρ c main_arg4 (by decide) (by decide) (by decide) (by decide)
theorem W3_main_arg5 (c : Dev nD) : W3 m ρ c (Proc.devRef .tc main_arg5) = m ((c : Thread nD τ).loc main_arg5) :=
  W3_of_untouched m ρ c main_arg5 (by decide) (by decide) (by decide)
theorem W4_main_arg5 (c : Dev nD) : W4 m ρ c (Proc.devRef .tc main_arg5) = m ((c : Thread nD τ).loc main_arg5) :=
  W4_of_untouched m ρ c main_arg5 (by decide) (by decide) (by decide) (by decide)
theorem W3_main_arg6 (c : Dev nD) : W3 m ρ c (Proc.devRef .tc main_arg6) = m ((c : Thread nD τ).loc main_arg6) :=
  W3_of_untouched m ρ c main_arg6 (by decide) (by decide) (by decide)
theorem W4_main_arg6 (c : Dev nD) : W4 m ρ c (Proc.devRef .tc main_arg6) = m ((c : Thread nD τ).loc main_arg6) :=
  W4_of_untouched m ρ c main_arg6 (by decide) (by decide) (by decide) (by decide)
theorem W3_main_arg7 (c : Dev nD) : W3 m ρ c (Proc.devRef .tc main_arg7) = m ((c : Thread nD τ).loc main_arg7) :=
  W3_of_untouched m ρ c main_arg7 (by decide) (by decide) (by decide)
theorem W4_main_arg7 (c : Dev nD) : W4 m ρ c (Proc.devRef .tc main_arg7) = m ((c : Thread nD τ).loc main_arg7) :=
  W4_of_untouched m ρ c main_arg7 (by decide) (by decide) (by decide) (by decide)
theorem W3_main_arg8 (c : Dev nD) : W3 m ρ c (Proc.devRef .tc main_arg8) = m ((c : Thread nD τ).loc main_arg8) :=
  W3_of_untouched m ρ c main_arg8 (by decide) (by decide) (by decide)
theorem W4_main_arg8 (c : Dev nD) : W4 m ρ c (Proc.devRef .tc main_arg8) = m ((c : Thread nD τ).loc main_arg8) :=
  W4_of_untouched m ρ c main_arg8 (by decide) (by decide) (by decide) (by decide)
theorem W3_main_arg9 (c : Dev nD) : W3 m ρ c (Proc.devRef .tc main_arg9) = m ((c : Thread nD τ).loc main_arg9) :=
  W3_of_untouched m ρ c main_arg9 (by decide) (by decide) (by decide)
theorem W4_main_arg9 (c : Dev nD) : W4 m ρ c (Proc.devRef .tc main_arg9) = m ((c : Thread nD τ).loc main_arg9) :=
  W4_of_untouched m ρ c main_arg9 (by decide) (by decide) (by decide) (by decide)
theorem W3_main_arg10 (c : Dev nD) : W3 m ρ c (Proc.devRef .tc main_arg10) = m ((c : Thread nD τ).loc main_arg10) :=
  W3_of_untouched m ρ c main_arg10 (by decide) (by decide) (by decide)
theorem W4_main_arg10 (c : Dev nD) : W4 m ρ c (Proc.devRef .tc main_arg10) = m ((c : Thread nD τ).loc main_arg10) :=
  W4_of_untouched m ρ c main_arg10 (by decide) (by decide) (by decide) (by decide)

/-- The action tables' gathers and the step counts are not arrays of region 1: it leaves them as it found them. -/
theorem W6_keep_v34 (c : Dev nD) : W6 m ρ c (Proc.devRef .tc main_v34) = W5 m ρ c (Proc.devRef .tc main_v34) :=
  W6_of_ne m ρ c main_v34 (by decide)
theorem W6_keep_v35 (c : Dev nD) : W6 m ρ c (Proc.devRef .tc main_v35) = W5 m ρ c (Proc.devRef .tc main_v35) :=
  W6_of_ne m ρ c main_v35 (by decide)
theorem W6_keep_v55 (c : Dev nD) : W6 m ρ c (Proc.devRef .tc main_v55) = W5 m ρ c (Proc.devRef .tc main_v55) :=
  W6_of_ne m ρ c main_v55 (by decide)
theorem W6_keep_v59 (c : Dev nD) : W6 m ρ c (Proc.devRef .tc main_v59) = W5 m ρ c (Proc.devRef .tc main_v59) :=
  W6_of_ne m ρ c main_v59 (by decide)

end Run

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal match on the pipeline. -/
def pdats : (p : Fin 2) → (c : Dev nD) → Dat τ (Elt F) Unit ℕ (Pipeline.UD sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the fold of its operations over `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W11 m ρ c) ∗ ∃ r, prngReg c r)

/-- The last host stretch's thread state, with the generator register moved beside the buffers. -/
theorem Run.reassoc {P Q S : sProp 𝕄} : iprop(P ∗ (Q ∗ S)) ⊢ iprop((P ∗ Q) ∗ S) := by
  iintro ⟨H1, H2, H3⟩
  isplitl [H1 H2]
  · isplitl [H1]; · iexact H1
    iexact H2
  iexact H3

/-! ## The regions as segments -/

set_option backward.isDefEq.respectTransparency.types false in
/-- REGION 0 over the thread state: entered from every unscoped buffer at `W3`, left at `W4`. Its arrays split
    out of the unscoped buffers and put back at the exit contents; the generator register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`. Its arrays split
    out of the unscoped buffers and put back at the exit contents; the generator register into the class invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The eleven segments in order: a host segment per stretch from its boundary's contents, a region per kernel call. -/
abbrev segs : List (Pipeline.Seg (pcfgs (F := F)) adm (pdats m ρ) () defs₀ 𝒱₀ L lv) :=
  [ .host (hseg hostOps0 hostOps0_sub Run.hostOps0_fresh (W0 m ρ)),
    .host (hseg hostOps0_1 hostOps0_1_sub Run.hostOps0_1_fresh (W1 m ρ)),
    .host (hseg hostOps0_2 hostOps0_2_sub Run.hostOps0_2_fresh (W2 m ρ)),
    .region (reg0 m ρ),
    .host (hseg hostOps1 hostOps1_sub Run.hostOps1_fresh (W4 m ρ)),
    .region (reg1 m ρ),
    .host (hseg hostOps2 hostOps2_sub Run.hostOps2_fresh (W6 m ρ)),
    .host (hseg hostOps2_1 hostOps2_1_sub Run.hostOps2_1_fresh (W7 m ρ)),
    .host (hseg hostOps2_2 hostOps2_2_sub Run.hostOps2_2_fresh (W8 m ρ)),
    .host (hseg hostOps2_3 hostOps2_3_sub Run.hostOps2_3_fresh (W9 m ρ)),
    .host (hseg hostOps2_4 hostOps2_4_sub Run.hostOps2_4_fresh (W10 m ρ)) ]
/-- The program IS the run of the segments: its chain of items, and the segments' run is that chain by definition. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution on the TensorCores
    terminates, nothing faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => Run.reassoc⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME at any float instance: the run, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c)⟩)
    (run_main m ρ)

/-- info: 'Cert.Kernel.Hand.frame' depends on axioms: [propext, Classical.choice, Quot.sound] -/
#guard_msgs in #print axioms frame

end Cert.Kernel.Hand

end
-- ==== Proof.KIBody.lean ====
/- The two TensorCore regions of the program, each at a parameter `V` — the core's buffer contents when the region is
   entered: every window's block at a grid point read off its array (`iblkK`), what the region's body leaves in each
   output window's buffer as a function of the input windows' blocks (`outK_W`, equal to the body's stored value
   since the one store covers the whole block from offset zero), the body's triple on whole staging memrefs
   (`sound_kernelK`), the region's proof data over the class invariant `ΦA` (`datK`) with its projections
   (`A_eqK`, `afterK_W`, `beforeK_W`), and the body obligation at every grid point (`body_obligationK`).
   Region 0 computes, per block of 1024 rows, tanh(x·W_top + b_top) and softmax(x·W_act + b_act); region 1 computes
   relu(u·W1 + b1)·W2 + b2 on its single block. -/
import proofs.«100950_j13675175871137_2_alg».proof.Proof.Gen.KernelIdeal.Launch
import proofs.«100950_j13675175871137_2_alg».proof.Proof.Gen.KernelIdeal.Skeleton
import proofs.«100950_j13675175871137_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

namespace Body

theorem zeros2 : (![0, 0] : Fin 2 → Nat) = fun _ => 0 := funext fun a => by fin_cases a <;> rfl

/-- The whole-block rectangles the bodies load and store through. -/
abbrev r0_a : Rect S1024x1024 := Rect.unit (s := S1024x1024) ![0, 0] S1024x1024.size inb_S1024x1024_S1024x1024_0_0
abbrev r0_b : Rect S1x1024 := Rect.unit (s := S1x1024) ![0, 0] S1x1024.size inb_S1x1024_S1x1024_0_0
abbrev r0_c : Rect S1024x2 := Rect.unit (s := S1024x2) ![0, 0] S1024x2.size inb_S1024x2_S1024x2_0_0
abbrev r0_d : Rect S1x2 := Rect.unit (s := S1x2) ![0, 0] S1x2.size inb_S1x2_S1x2_0_0
abbrev r1_a : Rect S128x4096 := Rect.unit (s := S128x4096) ![0, 0] S128x4096.size inb_S128x4096_S128x4096_0_0
abbrev r1_b : Rect S4096x1024 := Rect.unit (s := S4096x1024) ![0, 0] S4096x1024.size inb_S4096x1024_S4096x1024_0_0
abbrev r1_d : Rect S1024x3 := Rect.unit (s := S1024x3) ![0, 0] S1024x3.size inb_S1024x3_S1024x3_0_0
abbrev r1_e : Rect S1x3 := Rect.unit (s := S1x3) ![0, 0] S1x3.size inb_S1x3_S1x3_0_0
abbrev r1_f : Rect S128x3 := Rect.unit (s := S128x3) ![0, 0] S128x3.size inb_S128x3_S128x3_0_0

/-- Each store covers its buffer. -/
theorem cover0_5 (p0 : Vec F S1024x1024 .bf16) (y : S1024x1024.Idx) :
    ∃ pc ∈ ([⟨r0_a, p0⟩] : List (View.Piece (Elt F) S1024x1024 .bf16)), y ∈ pc.1.set :=
  ⟨_, List.mem_singleton_self _, View.mem_set_unit_zero (S := S1024x1024) zeros2 inb_S1024x1024_S1024x1024_0_0 y⟩

theorem cover0_6 (p0 : Vec F S1024x2 .f32) (y : S1024x2.Idx) :
    ∃ pc ∈ ([⟨r0_c, p0⟩] : List (View.Piece (Elt F) S1024x2 .f32)), y ∈ pc.1.set :=
  ⟨_, List.mem_singleton_self _, View.mem_set_unit_zero (S := S1024x2) zeros2 inb_S1024x2_S1024x2_0_0 y⟩

theorem cover1_5 (p0 : Vec F S128x3 .f32) (y : S128x3.Idx) :
    ∃ pc ∈ ([⟨r1_f, p0⟩] : List (View.Piece (Elt F) S128x3 .f32)), y ∈ pc.1.set :=
  ⟨_, List.mem_singleton_self _, View.mem_set_unit_zero (S := S128x3) zeros2 inb_S128x3_S128x3_0_0 y⟩

end Body

open Body

section Regions
variable (V : (c : Dev nD) → (b : Ref sig .tc) → Buf (Elt F) ((c : Thread nD τ).loc b))

/-! # Region 0: the table kernel, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tanh table's block after the body: its one store, over the whole block. -/
def out0_5 (x0 : Vec F S1024x1024 .f32) (x1 : Vec F S1024x1024 .bf16) (x2 : Vec F S1x1024 .f32) : Vec F S1024x1024 .bf16 :=
  View.canon [⟨r0_a, k0_pay2 (View.ld x0 r0_a) (View.ld x1 r0_a) (View.ld x2 r0_b)⟩]

/-- The softmax table's block after the body: its one store, over the whole block. -/
def out0_6 (x0 : Vec F S1024x1024 .f32) (x3 : Vec F S1024x2 .bf16) (x4 : Vec F S1x2 .f32) : Vec F S1024x2 .f32 :=
  View.canon [⟨r0_c, k0_pay3 (View.ld x0 r0_a) (View.ld x3 r0_c) (View.ld x4 r0_d)⟩]

/-- One store from offset zero over the whole block leaves its payload, of the blocks as loaded whole. -/
theorem out0_5_eq (x0 : Vec F S1024x1024 .f32) (x1 : Vec F S1024x1024 .bf16) (x2 : Vec F S1x1024 .f32) :
    out0_5 x0 x1 x2 = k0_pay2 x0 x1 x2 := by
  unfold out0_5
  rw [View.canon_unit_zero (S := S1024x1024) zeros2, View.ld_unit_zero (S := S1024x1024) zeros2,
    View.ld_unit_zero (S := S1024x1024) zeros2, View.ld_unit_zero (S := S1x1024) zeros2]

theorem out0_6_eq (x0 : Vec F S1024x1024 .f32) (x3 : Vec F S1024x2 .bf16) (x4 : Vec F S1x2 .f32) :
    out0_6 x0 x3 x4 = k0_pay3 x0 x3 x4 := by
  unfold out0_6
  rw [View.canon_unit_zero (S := S1024x2) zeros2, View.ld_unit_zero (S := S1024x1024) zeros2,
    View.ld_unit_zero (S := S1024x2) zeros2, View.ld_unit_zero (S := S1x2) zeros2]

set_option maxHeartbeats 4000000 in
/-- The body on whole staging memrefs, the inputs' at read contents and the outputs' at anything, runs to the
    continuation holding the inputs' as they were and each output's at its store's payload. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x2 .bf16) (harg4 : arg4.IsWhole)
    (arg5 : Memref sig .tc .vmem S1x2 .f32) (harg5 : arg5.IsWhole) (arg6 : Memref sig .tc .vmem S1024x1024 .bf16) (harg6 : arg6.IsWhole)
    (arg7 : Memref sig .tc .vmem S1024x2 .f32) (harg7 : arg7.IsWhole)
    (x0 : Vec F S1024x1024 .f32) (x1 : Vec F S1024x1024 .bf16) (x2 : Vec F S1x1024 .f32) (x3 : Vec F S1024x2 .bf16) (x4 : Vec F S1x2 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x3 x4)) -∗ K ⟨⟩))
      ⊢ wp frame (wpE (defs₀ (F := F)) Variants.none c none) E (cc0__vocab_encode_kernel i arg1 harg1 arg2 harg2 arg3 harg3 arg4 harg4 arg5 harg5 arg6 harg6 arg7 harg7) K := by
  simp only [cc0__vocab_encode_kernel_eq_skeleton]; unfold cc0__vocab_encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-- The proof data of region 0 on core `c`: the arrays as the region finds them; after the body at point `t` each
    input's buffer at its block and each output's at its store's payload of the input blocks; the class's invariant;
    nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5_canon (c : Dev nD) (t : Fin cfg0.N) : (dat0 V c).after 5 t = out0_5 (iblk0 V c 0 t) (iblk0 V c 1 t) (iblk0 V c 2 t) := by dsimp only [dat0]
theorem after0_6_canon (c : Dev nD) (t : Fin cfg0.N) : (dat0 V c).after 6 t = out0_6 (iblk0 V c 0 t) (iblk0 V c 3 t) (iblk0 V c 4 t) := by dsimp only [dat0]
theorem after0_5 (c : Dev nD) (t : Fin cfg0.N) : (dat0 V c).after 5 t = k0_pay2 (iblk0 V c 0 t) (iblk0 V c 1 t) (iblk0 V c 2 t) := by
  rw [after0_5_canon, out0_5_eq]
theorem after0_6 (c : Dev nD) (t : Fin cfg0.N) : (dat0 V c).after 6 t = k0_pay3 (iblk0 V c 0 t) (iblk0 V c 3 t) (iblk0 V c 4 t) := by
  rw [after0_6_canon, out0_6_eq]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5_canon, after0_6_canon]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the classifier kernel, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block after the body: its one store, over the whole block. -/
def out1_5 (x0 : Vec F S128x4096 .bf16) (x1 : Vec F S4096x1024 .bf16) (x2 : Vec F S1x1024 .f32) (x3 : Vec F S1024x3 .bf16) (x4 : Vec F S1x3 .f32) : Vec F S128x3 .f32 :=
  View.canon [⟨r1_f, k1_pay1 (View.ld x0 r1_a) (View.ld x1 r1_b) (View.ld x2 r0_b) (View.ld x3 r1_d) (View.ld x4 r1_e)⟩]

/-- One store from offset zero over the whole block leaves its payload, of the blocks as loaded whole. -/
theorem out1_5_eq (x0 : Vec F S128x4096 .bf16) (x1 : Vec F S4096x1024 .bf16) (x2 : Vec F S1x1024 .f32) (x3 : Vec F S1024x3 .bf16) (x4 : Vec F S1x3 .f32) :
    out1_5 x0 x1 x2 x3 x4 = k1_pay1 x0 x1 x2 x3 x4 := by
  unfold out1_5
  rw [View.canon_unit_zero (S := S128x3) zeros2, View.ld_unit_zero (S := S128x4096) zeros2,
    View.ld_unit_zero (S := S4096x1024) zeros2, View.ld_unit_zero (S := S1x1024) zeros2,
    View.ld_unit_zero (S := S1024x3) zeros2, View.ld_unit_zero (S := S1x3) zeros2]

set_option maxHeartbeats 4000000 in
/-- The body on whole staging memrefs, the inputs' at read contents and the output's at anything, runs to the
    continuation holding the inputs' as they were and the output's at its store's payload. -/
theorem sound_kernel1 (c : Dev nD) (E : Set ℕ) (i : grid1.Coords)
    (arg1 : Memref sig .tc .vmem S128x4096 .bf16) (harg1 : arg1.IsWhole) (arg2 : Memref sig .tc .vmem S4096x1024 .bf16) (harg2 : arg2.IsWhole)
    (arg3 : Memref sig .tc .vmem S1x1024 .f32) (harg3 : arg3.IsWhole) (arg4 : Memref sig .tc .vmem S1024x3 .bf16) (harg4 : arg4.IsWhole)
    (arg5 : Memref sig .tc .vmem S1x3 .f32) (harg5 : arg5.IsWhole) (arg6 : Memref sig .tc .vmem S128x3 .f32) (harg6 : arg6.IsWhole)
    (x0 : Vec F S128x4096 .bf16) (x1 : Vec F S4096x1024 .bf16) (x2 : Vec F S1x1024 .f32) (x3 : Vec F S1024x3 .bf16) (x4 : Vec F S1x3 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of region 1 on core `c`: the arrays as the region finds them; after the body at point `t` each
    input's buffer at its block and the output's at its store's payload of the input blocks; the class's invariant;
    nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5_canon (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_5 (c : Dev nD) (t : Fin cfg1.N) : (dat1 V c).after 5 t = k1_pay1 (iblk1 V c 0 t) (iblk1 V c 1 t) (iblk1 V c 2 t) (iblk1 V c 3 t) (iblk1 V c 4 t) := by
  rw [after1_5_canon, out1_5_eq]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5_canon]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIRun.lean ====
/-
  The run of the program over its eleven segments: the buffer contents at every segment boundary as a fold from the
  launch memory (a host stretch rewrites the buffers its operations write; a region leaves its arrays at what its
  write-backs fold to and every other buffer as entered), the two kernel calls as regions over the thread state "every
  unscoped buffer at the boundary's contents, the generator register at some state, nothing owed", the run itself —
  every weakly fair execution terminates with every unscoped buffer at the last boundary's contents —, and the frame:
  no host operation writes an argument array and no region has one among its arrays, so each ends as launched.
-/
import proofs.«100950_j13675175871137_2_alg».proof.Proof.Gen.KernelIdeal.Launch
import proofs.«100950_j13675175871137_2_alg».proof.Proof.Gen.KernelIdeal.Skeleton
import proofs.«100950_j13675175871137_2_alg».proof.Proof.Gen.KernelIdeal.Points
import proofs.«100950_j13675175871137_2_alg».proof.Proof.KIBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The host stretches: what each writes, and that none allocates -/

namespace Run

/-- A one-element set of a listed reference lies in the list's set of device buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references `hostOps0` writes, in order. -/
abbrev wr0 : List (Ref sig .tc) := [main_c]
/-- Every operation of `hostOps0` writes one of them. -/
theorem hostOps0_wr : (hostOps0 : List (HloOp τ sig (Elt F))).Forall fun op => op.writes ⊆ (wr0.map (Proc.devRef (τ := τ) .tc)).toFinset :=
  sub_of_mem (y := main_c) (by decide)
/-- No operation of `hostOps0` allocates a buffer. -/
theorem hostOps0_fresh : (hostOps0 : List (HloOp τ sig (Elt F))).Forall fun op => op.fresh = ∅ :=
  rfl

/-- The references `hostOps0_1` writes, in order. -/
abbrev wr0_1 : List (Ref sig .tc) := [main_call0_v0, main_v0]
/-- Every operation of `hostOps0_1` writes one of them. -/
theorem hostOps0_1_wr : (hostOps0_1 : List (HloOp τ sig (Elt F))).Forall fun op => op.writes ⊆ (wr0_1.map (Proc.devRef (τ := τ) .tc)).toFinset :=
  ⟨sub_of_mem (y := main_call0_v0) (by decide),
   sub_of_mem (y := main_v0) (by decide)⟩
/-- No operation of `hostOps0_1` allocates a buffer. -/
theorem hostOps0_1_fresh : (hostOps0_1 : List (HloOp τ sig (Elt F))).Forall fun op => op.fresh = ∅ :=
  ⟨rfl, rfl⟩

/-- The references `hostOps0_2` writes, in order. -/
abbrev wr0_2 : List (Ref sig .tc) := [main_v1, main_v2, main_v3, main_v4]
/-- Every operation of `hostOps0_2` writes one of them. -/
theorem hostOps0_2_wr : (hostOps0_2 : List (HloOp τ sig (Elt F))).Forall fun op => op.writes ⊆ (wr0_2.map (Proc.devRef (τ := τ) .tc)).toFinset :=
  ⟨sub_of_mem (y := main_v1) (by decide),
   sub_of_mem (y := main_v2) (by decide),
   sub_of_mem (y := main_v3) (by decide),
   sub_of_mem (y := main_v4) (by decide)⟩
/-- No operation of `hostOps0_2` allocates a buffer. -/
theorem hostOps0_2_fresh : (hostOps0_2 : List (HloOp τ sig (Elt F))).Forall fun op => op.fresh = ∅ :=
  ⟨rfl, rfl, rfl, rfl⟩

/-- The references `hostOps1` writes, in order. -/
abbrev wr1 : List (Ref sig .tc) := [main_v6, main_v7, main_c_0, main_v8, main_v9, main_v10, main_v11, main_c_1, main_v12, main_v13, main_v14, main_v15, main_c_2, main_v16, main_v17, main_c_3, main_v18, main_v19, main_v20, main_v21, main_v22, main_c_4, main_v23, main_v24, main_c_5, main_v25, main_v26, main_v27, main_v28, main_v29, main_v30, main_v31, main_v32, main_v33, main_v34, main_v35, main_c_6, main_v36, main_v37, main_v38, main_c_7, main_v39, main_c_8, main_v40, main_v41, main_c_9, main_v42, main_v43, main_c_10, main_v44, main_v45, main_v46, main_c_11, main_v47, main_c_12, main_v48, main_v49, main_c_13, main_v50, main_v51, main_c_14, main_v52, main_v53, main_c_15, main_v54, main_v55, main_c_16, main_v56, main_v57, main_c_17, main_v58, main_v59, main_v60, main_c_18, main_v61, main_v62, main_c_19, main_v63, main_v64, main_c_20, main_v65, main_v66, main_v67, main_c_21, main_v68, main_v69, main_c_22, main_v70, main_v71, main_v72, main_v73, main_v74, main_v75, main_v76, main_c_23, main_v77, main_v78, main_c_24, main_v79, main_v80, main_c_25, main_v81, main_v82, main_v83, main_c_26, main_v84, main_v85, main_c_27, main_v86, main_v87, main_v88, main_v89, main_v90, main_v91, main_v92, main_v93, main_v94, main_v95, main_v96, main_v97, main_v98, main_v99, main_v100, main_v101, main_v102, main_v103]
/-- Every operation of `hostOps1` writes one of them. -/
theorem hostOps1_wr : (hostOps1 : List (HloOp τ sig (Elt F))).Forall fun op => op.writes ⊆ (wr1.map (Proc.devRef (τ := τ) .tc)).toFinset :=
  ⟨sub_of_mem (y := main_v6) (by decide),
   sub_of_mem (y := main_v7) (by decide),
   sub_of_mem (y := main_c_0) (by decide),
   sub_of_mem (y := main_v8) (by decide),
   sub_of_mem (y := main_v9) (by decide),
   sub_of_mem (y := main_v10) (by decide),
   sub_of_mem (y := main_v11) (by decide),
   sub_of_mem (y := main_c_1) (by decide),
   sub_of_mem (y := main_v12) (by decide),
   sub_of_mem (y := main_v13) (by decide),
   sub_of_mem (y := main_v14) (by decide),
   sub_of_mem (y := main_v15) (by decide),
   sub_of_mem (y := main_c_2) (by decide),
   sub_of_mem (y := main_v16) (by decide),
   sub_of_mem (y := main_v17) (by decide),
   sub_of_mem (y := main_c_3) (by decide),
   sub_of_mem (y := main_v18) (by decide),
   sub_of_mem (y := main_v19) (by decide),
   sub_of_mem (y := main_v20) (by decide),
   sub_of_mem (y := main_v21) (by decide),
   sub_of_mem (y := main_v22) (by decide),
   sub_of_mem (y := main_c_4) (by decide),
   sub_of_mem (y := main_v23) (by decide),
   sub_of_mem (y := main_v24) (by decide),
   sub_of_mem (y := main_c_5) (by decide),
   sub_of_mem (y := main_v25) (by decide),
   sub_of_mem (y := main_v26) (by decide),
   sub_of_mem (y := main_v27) (by decide),
   sub_of_mem (y := main_v28) (by decide),
   sub_of_mem (y := main_v29) (by decide),
   sub_of_mem (y := main_v30) (by decide),
   sub_of_mem (y := main_v31) (by decide),
   sub_of_mem (y := main_v32) (by decide),
   sub_of_mem (y := main_v33) (by decide),
   sub_of_mem (y := main_v34) (by decide),
   sub_of_mem (y := main_v35) (by decide),
   sub_of_mem (y := main_c_6) (by decide),
   sub_of_mem (y := main_v36) (by decide),
   sub_of_mem (y := main_v37) (by decide),
   sub_of_mem (y := main_v38) (by decide),
   sub_of_mem (y := main_c_7) (by decide),
   sub_of_mem (y := main_v39) (by decide),
   sub_of_mem (y := main_c_8) (by decide),
   sub_of_mem (y := main_v40) (by decide),
   sub_of_mem (y := main_v41) (by decide),
   sub_of_mem (y := main_c_9) (by decide),
   sub_of_mem (y := main_v42) (by decide),
   sub_of_mem (y := main_v43) (by decide),
   sub_of_mem (y := main_c_10) (by decide),
   sub_of_mem (y := main_v44) (by decide),
   sub_of_mem (y := main_v45) (by decide),
   sub_of_mem (y := main_v46) (by decide),
   sub_of_mem (y := main_c_11) (by decide),
   sub_of_mem (y := main_v47) (by decide),
   sub_of_mem (y := main_c_12) (by decide),
   sub_of_mem (y := main_v48) (by decide),
   sub_of_mem (y := main_v49) (by decide),
   sub_of_mem (y := main_c_13) (by decide),
   sub_of_mem (y := main_v50) (by decide),
   sub_of_mem (y := main_v51) (by decide),
   sub_of_mem (y := main_c_14) (by decide),
   sub_of_mem (y := main_v52) (by decide),
   sub_of_mem (y := main_v53) (by decide),
   sub_of_mem (y := main_c_15) (by decide),
   sub_of_mem (y := main_v54) (by decide),
   sub_of_mem (y := main_v55) (by decide),
   sub_of_mem (y := main_c_16) (by decide),
   sub_of_mem (y := main_v56) (by decide),
   sub_of_mem (y := main_v57) (by decide),
   sub_of_mem (y := main_c_17) (by decide),
   sub_of_mem (y := main_v58) (by decide),
   sub_of_mem (y := main_v59) (by decide),
   sub_of_mem (y := main_v60) (by decide),
   sub_of_mem (y := main_c_18) (by decide),
   sub_of_mem (y := main_v61) (by decide),
   sub_of_mem (y := main_v62) (by decide),
   sub_of_mem (y := main_c_19) (by decide),
   sub_of_mem (y := main_v63) (by decide),
   sub_of_mem (y := main_v64) (by decide),
   sub_of_mem (y := main_c_20) (by decide),
   sub_of_mem (y := main_v65) (by decide),
   sub_of_mem (y := main_v66) (by decide),
   sub_of_mem (y := main_v67) (by decide),
   sub_of_mem (y := main_c_21) (by decide),
   sub_of_mem (y := main_v68) (by decide),
   sub_of_mem (y := main_v69) (by decide),
   sub_of_mem (y := main_c_22) (by decide),
   sub_of_mem (y := main_v70) (by decide),
   sub_of_mem (y := main_v71) (by decide),
   sub_of_mem (y := main_v72) (by decide),
   sub_of_mem (y := main_v73) (by decide),
   sub_of_mem (y := main_v74) (by decide),
   sub_of_mem (y := main_v75) (by decide),
   sub_of_mem (y := main_v76) (by decide),
   sub_of_mem (y := main_c_23) (by decide),
   sub_of_mem (y := main_v77) (by decide),
   sub_of_mem (y := main_v78) (by decide),
   sub_of_mem (y := main_c_24) (by decide),
   sub_of_mem (y := main_v79) (by decide),
   sub_of_mem (y := main_v80) (by decide),
   sub_of_mem (y := main_c_25) (by decide),
   sub_of_mem (y := main_v81) (by decide),
   sub_of_mem (y := main_v82) (by decide),
   sub_of_mem (y := main_v83) (by decide),
   sub_of_mem (y := main_c_26) (by decide),
   sub_of_mem (y := main_v84) (by decide),
   sub_of_mem (y := main_v85) (by decide),
   sub_of_mem (y := main_c_27) (by decide),
   sub_of_mem (y := main_v86) (by decide),
   sub_of_mem (y := main_v87) (by decide),
   sub_of_mem (y := main_v88) (by decide),
   sub_of_mem (y := main_v89) (by decide),
   sub_of_mem (y := main_v90) (by decide),
   sub_of_mem (y := main_v91) (by decide),
   sub_of_mem (y := main_v92) (by decide),
   sub_of_mem (y := main_v93) (by decide),
   sub_of_mem (y := main_v94) (by decide),
   sub_of_mem (y := main_v95) (by decide),
   sub_of_mem (y := main_v96) (by decide),
   sub_of_mem (y := main_v97) (by decide),
   sub_of_mem (y := main_v98) (by decide),
   sub_of_mem (y := main_v99) (by decide),
   sub_of_mem (y := main_v100) (by decide),
   sub_of_mem (y := main_v101) (by decide),
   sub_of_mem (y := main_v102) (by decide),
   sub_of_mem (y := main_v103) (by decide)⟩
/-- No operation of `hostOps1` allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references `hostOps2` writes, in order. -/
abbrev wr2 : List (Ref sig .tc) := [main_v105, main_v106, main_v107, main_v108, main_v109, main_v110, main_v111, main_v112, main_v113, main_v114, main_v115, main_v116, main_v117, main_cst, main_v118, main_v119, main_v120, main_cst_28, main_v121, main_cst_29, main_v122, main_v123, main_v124, main_v125, main_v126, main_v127, main_cst_30, main_v128, main_v129, main_v130, main_v131]
/-- Every operation of `hostOps2` writes one of them. -/
theorem hostOps2_wr : (hostOps2 : List (HloOp τ sig (Elt F))).Forall fun op => op.writes ⊆ (wr2.map (Proc.devRef (τ := τ) .tc)).toFinset :=
  ⟨sub_of_mem (y := main_v105) (by decide),
   sub_of_mem (y := main_v106) (by decide),
   sub_of_mem (y := main_v107) (by decide),
   sub_of_mem (y := main_v108) (by decide),
   sub_of_mem (y := main_v109) (by decide),
   sub_of_mem (y := main_v110) (by decide),
   sub_of_mem (y := main_v111) (by decide),
   sub_of_mem (y := main_v112) (by decide),
   sub_of_mem (y := main_v113) (by decide),
   sub_of_mem (y := main_v114) (by decide),
   sub_of_mem (y := main_v115) (by decide),
   sub_of_mem (y := main_v116) (by decide),
   sub_of_mem (y := main_v117) (by decide),
   sub_of_mem (y := main_cst) (by decide),
   sub_of_mem (y := main_v118) (by decide),
   sub_of_mem (y := main_v119) (by decide),
   sub_of_mem (y := main_v120) (by decide),
   sub_of_mem (y := main_cst_28) (by decide),
   sub_of_mem (y := main_v121) (by decide),
   sub_of_mem (y := main_cst_29) (by decide),
   sub_of_mem (y := main_v122) (by decide),
   sub_of_mem (y := main_v123) (by decide),
   sub_of_mem (y := main_v124) (by decide),
   sub_of_mem (y := main_v125) (by decide),
   sub_of_mem (y := main_v126) (by decide),
   sub_of_mem (y := main_v127) (by decide),
   sub_of_mem (y := main_cst_30) (by decide),
   sub_of_mem (y := main_v128) (by decide),
   sub_of_mem (y := main_v129) (by decide),
   sub_of_mem (y := main_v130) (by decide),
   sub_of_mem (y := main_v131) (by decide)⟩
/-- No operation of `hostOps2` allocates a buffer. -/
theorem hostOps2_fresh : (hostOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references `hostOps2_1` writes, in order. -/
abbrev wr2_1 : List (Ref sig .tc) := [main_call1_v0, main_call1_cst, main_call1_v1, main_v132]
/-- Every operation of `hostOps2_1` writes one of them. -/
theorem hostOps2_1_wr : (hostOps2_1 : List (HloOp τ sig (Elt F))).Forall fun op => op.writes ⊆ (wr2_1.map (Proc.devRef (τ := τ) .tc)).toFinset :=
  ⟨sub_of_mem (y := main_call1_v0) (by decide),
   sub_of_mem (y := main_call1_cst) (by decide),
   sub_of_mem (y := main_call1_v1) (by decide),
   sub_of_mem (y := main_v132) (by decide)⟩
/-- No operation of `hostOps2_1` allocates a buffer. -/
theorem hostOps2_1_fresh : (hostOps2_1 : List (HloOp τ sig (Elt F))).Forall fun op => op.fresh = ∅ :=
  ⟨rfl, rfl, rfl, rfl⟩

/-- The references `hostOps2_2` writes, in order. -/
abbrev wr2_2 : List (Ref sig .tc) := [main_cst_31, main_v133, main_cst_32, main_v134, main_cst_33, main_v135, main_v136, main_v137, main_v138, main_v139, main_v140, main_v141, main_v142, main_v143, main_v144, main_v145, main_v146, main_v147, main_v148, main_cst_34, main_v149, main_v150, main_v151, main_cst_35, main_v152, main_cst_36, main_v153, main_v154, main_v155, main_v156, main_v157, main_v158, main_cst_37, main_v159, main_v160, main_v161, main_v162]
/-- Every operation of `hostOps2_2` writes one of them. -/
theorem hostOps2_2_wr : (hostOps2_2 : List (HloOp τ sig (Elt F))).Forall fun op => op.writes ⊆ (wr2_2.map (Proc.devRef (τ := τ) .tc)).toFinset :=
  ⟨sub_of_mem (y := main_cst_31) (by decide),
   sub_of_mem (y := main_v133) (by decide),
   sub_of_mem (y := main_cst_32) (by decide),
   sub_of_mem (y := main_v134) (by decide),
   sub_of_mem (y := main_cst_33) (by decide),
   sub_of_mem (y := main_v135) (by decide),
   sub_of_mem (y := main_v136) (by decide),
   sub_of_mem (y := main_v137) (by decide),
   sub_of_mem (y := main_v138) (by decide),
   sub_of_mem (y := main_v139) (by decide),
   sub_of_mem (y := main_v140) (by decide),
   sub_of_mem (y := main_v141) (by decide),
   sub_of_mem (y := main_v142) (by decide),
   sub_of_mem (y := main_v143) (by decide),
   sub_of_mem (y := main_v144) (by decide),
   sub_of_mem (y := main_v145) (by decide),
   sub_of_mem (y := main_v146) (by decide),
   sub_of_mem (y := main_v147) (by decide),
   sub_of_mem (y := main_v148) (by decide),
   sub_of_mem (y := main_cst_34) (by decide),
   sub_of_mem (y := main_v149) (by decide),
   sub_of_mem (y := main_v150) (by decide),
   sub_of_mem (y := main_v151) (by decide),
   sub_of_mem (y := main_cst_35) (by decide),
   sub_of_mem (y := main_v152) (by decide),
   sub_of_mem (y := main_cst_36) (by decide),
   sub_of_mem (y := main_v153) (by decide),
   sub_of_mem (y := main_v154) (by decide),
   sub_of_mem (y := main_v155) (by decide),
   sub_of_mem (y := main_v156) (by decide),
   sub_of_mem (y := main_v157) (by decide),
   sub_of_mem (y := main_v158) (by decide),
   sub_of_mem (y := main_cst_37) (by decide),
   sub_of_mem (y := main_v159) (by decide),
   sub_of_mem (y := main_v160) (by decide),
   sub_of_mem (y := main_v161) (by decide),
   sub_of_mem (y := main_v162) (by decide)⟩
/-- No operation of `hostOps2_2` allocates a buffer. -/
theorem hostOps2_2_fresh : (hostOps2_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references `hostOps2_3` writes, in order. -/
abbrev wr2_3 : List (Ref sig .tc) := [main_call2_v0, main_call2_cst, main_call2_v1, main_v163]
/-- Every operation of `hostOps2_3` writes one of them. -/
theorem hostOps2_3_wr : (hostOps2_3 : List (HloOp τ sig (Elt F))).Forall fun op => op.writes ⊆ (wr2_3.map (Proc.devRef (τ := τ) .tc)).toFinset :=
  ⟨sub_of_mem (y := main_call2_v0) (by decide),
   sub_of_mem (y := main_call2_cst) (by decide),
   sub_of_mem (y := main_call2_v1) (by decide),
   sub_of_mem (y := main_v163) (by decide)⟩
/-- No operation of `hostOps2_3` allocates a buffer. -/
theorem hostOps2_3_fresh : (hostOps2_3 : List (HloOp τ sig (Elt F))).Forall fun op => op.fresh = ∅ :=
  ⟨rfl, rfl, rfl, rfl⟩

/-- The references `hostOps2_4` writes, in order. -/
abbrev wr2_4 : List (Ref sig .tc) := [main_cst_38, main_v164, main_cst_39, main_v165, main_cst_40, main_v166]
/-- Every operation of `hostOps2_4` writes one of them. -/
theorem hostOps2_4_wr : (hostOps2_4 : List (HloOp τ sig (Elt F))).Forall fun op => op.writes ⊆ (wr2_4.map (Proc.devRef (τ := τ) .tc)).toFinset :=
  ⟨sub_of_mem (y := main_cst_38) (by decide),
   sub_of_mem (y := main_v164) (by decide),
   sub_of_mem (y := main_cst_39) (by decide),
   sub_of_mem (y := main_v165) (by decide),
   sub_of_mem (y := main_cst_40) (by decide),
   sub_of_mem (y := main_v166) (by decide)⟩
/-- No operation of `hostOps2_4` allocates a buffer. -/
theorem hostOps2_4_fresh : (hostOps2_4 : List (HloOp τ sig (Elt F))).Forall fun op => op.fresh = ∅ :=
  ⟨rfl, rfl, rfl, rfl, rfl, rfl⟩

end Run

/-! # THE RUN: the segments from the launch to the return

## The buffer contents at each segment boundary: a fold through the program -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first host stretch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the padding of the embedding table. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the casts and reshapes of the first region's weights (region 0's entry). -/
abbrev W3 : Dev nD → Valuation τ sig (Elt F) := fun c => StableHlo.after hostOps0_2 (W2 m ρ c)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
/-- At region 0's exit each of its arrays holds what the pipeline leaves and every other buffer what it held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the long host stretch between the regions (region 1's entry). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After each of the five closing host stretches (the masked statistics). -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
abbrev W8 : Dev nD → Valuation τ sig (Elt F) := fun c => StableHlo.after hostOps2_1 (W7 m ρ c)
abbrev V8 : (c : Dev nD) → (b : Ref sig .tc) → Buf (Elt F) ((c : Thread nD τ).loc b) := fun c b => W8 m ρ c b
abbrev W9 : Dev nD → Valuation τ sig (Elt F) := fun c => StableHlo.after hostOps2_2 (W8 m ρ c)
abbrev V9 : (c : Dev nD) → (b : Ref sig .tc) → Buf (Elt F) ((c : Thread nD τ).loc b) := fun c b => W9 m ρ c b
abbrev W10 : Dev nD → Valuation τ sig (Elt F) := fun c => StableHlo.after hostOps2_3 (W9 m ρ c)
abbrev V10 : (c : Dev nD) → (b : Ref sig .tc) → Buf (Elt F) ((c : Thread nD τ).loc b) := fun c b => W10 m ρ c b
abbrev W11 : Dev nD → Valuation τ sig (Elt F) := fun c => StableHlo.after hostOps2_4 (W10 m ρ c)
abbrev V11 : (c : Dev nD) → (b : Ref sig .tc) → Buf (Elt F) ((c : Thread nD τ).loc b) := fun c b => W11 m ρ c b

/-! ### A buffer that no host operation writes and no region has among its arrays ends as launched -/

namespace Run

theorem W11_of_untouched (c : Dev nD) (r : Ref sig .tc)
    (h0 : r ∉ wr0) (h0_1 : r ∉ wr0_1) (h0_2 : r ∉ wr0_2) (hs0 : ∀ w, Pipeline.arrRef spec0 w ≠ r)
    (h1 : r ∉ wr1) (hs1 : ∀ w, Pipeline.arrRef spec1 w ≠ r)
    (h2 : r ∉ wr2) (h2_1 : r ∉ wr2_1) (h2_2 : r ∉ wr2_2) (h2_3 : r ∉ wr2_3) (h2_4 : r ∉ wr2_4) :
    W11 m ρ c (Proc.devRef .tc r) = m ((c : Thread nD τ).loc r) :=
  calc W11 m ρ c (Proc.devRef .tc r)
    _ = W10 m ρ c (Proc.devRef .tc r) := StableHlo.after_of_writes_sub hostOps2_4 _ hostOps2_4_wr h2_4
    _ = W9 m ρ c (Proc.devRef .tc r) := StableHlo.after_of_writes_sub hostOps2_3 _ hostOps2_3_wr h2_3
    _ = W8 m ρ c (Proc.devRef .tc r) := StableHlo.after_of_writes_sub hostOps2_2 _ hostOps2_2_wr h2_2
    _ = W7 m ρ c (Proc.devRef .tc r) := StableHlo.after_of_writes_sub hostOps2_1 _ hostOps2_1_wr h2_1
    _ = W6 m ρ c (Proc.devRef .tc r) := StableHlo.after_of_writes_sub hostOps2 _ hostOps2_wr h2
    _ = W5 m ρ c (Proc.devRef .tc r) := W6_of_ne m ρ c r hs1
    _ = W4 m ρ c (Proc.devRef .tc r) := StableHlo.after_of_writes_sub hostOps1 _ hostOps1_wr h1
    _ = W3 m ρ c (Proc.devRef .tc r) := W4_of_ne m ρ c r hs0
    _ = W2 m ρ c (Proc.devRef .tc r) := StableHlo.after_of_writes_sub hostOps0_2 _ hostOps0_2_wr h0_2
    _ = W1 m ρ c (Proc.devRef .tc r) := StableHlo.after_of_writes_sub hostOps0_1 _ hostOps0_1_wr h0_1
    _ = W0 m ρ c (Proc.devRef .tc r) := StableHlo.after_of_writes_sub hostOps0 _ hostOps0_wr h0
    _ = m ((c : Thread nD τ).loc r) := rfl

end Run

/-! ### The arguments end as launched -/
theorem W11_main_arg0 (c : Dev nD) : W11 m ρ c (Proc.devRef .tc main_arg0) = m ((c : Thread nD τ).loc main_arg0) :=
  Run.W11_of_untouched m ρ c main_arg0 (by decide) (by decide) (by decide) (by decide) (by decide) (by decide) (by decide) (by decide) (by decide) (by decide) (by decide)
theorem W11_main_arg1 (c : Dev nD) : W11 m ρ c (Proc.devRef .tc main_arg1) = m ((c : Thread nD τ).loc main_arg1) :=
  Run.W11_of_untouched m ρ c main_arg1 (by decide) (by decide) (by decide) (by decide) (by decide) (by decide) (by decide) (by decide) (by decide) (by decide) (by decide)
theorem W11_main_arg2 (c : Dev nD) : W11 m ρ c (Proc.devRef .tc main_arg2) = m ((c : Thread nD τ).loc main_arg2) :=
  Run.W11_of_untouched m ρ c main_arg2 (by decide) (by decide) (by decide) (by decide) (by decide) (by decide) (by decide) (by decide) (by decide) (by decide) (by decide)
theorem W11_main_arg3 (c : Dev nD) : W11 m ρ c (Proc.devRef .tc main_arg3) = m ((c : Thread nD τ).loc main_arg3) :=
  Run.W11_of_untouched m ρ c main_arg3 (by decide) (by decide) (by decide) (by decide) (by decide) (by decide) (by decide) (by decide) (by decide) (by decide) (by decide)
theorem W11_main_arg4 (c : Dev nD) : W11 m ρ c (Proc.devRef .tc main_arg4) = m ((c : Thread nD τ).loc main_arg4) :=
  Run.W11_of_untouched m ρ c main_arg4 (by decide) (by decide) (by decide) (by decide) (by decide) (by decide) (by decide) (by decide) (by decide) (by decide) (by decide)
theorem W11_main_arg5 (c : Dev nD) : W11 m ρ c (Proc.devRef .tc main_arg5) = m ((c : Thread nD τ).loc main_arg5) :=
  Run.W11_of_untouched m ρ c main_arg5 (by decide) (by decide) (by decide) (by decide) (by decide) (by decide) (by decide) (by decide) (by decide) (by decide) (by decide)
theorem W11_main_arg6 (c : Dev nD) : W11 m ρ c (Proc.devRef .tc main_arg6) = m ((c : Thread nD τ).loc main_arg6) :=
  Run.W11_of_untouched m ρ c main_arg6 (by decide) (by decide) (by decide) (by decide) (by decide) (by decide) (by decide) (by decide) (by decide) (by decide) (by decide)
theorem W11_main_arg7 (c : Dev nD) : W11 m ρ c (Proc.devRef .tc main_arg7) = m ((c : Thread nD τ).loc main_arg7) :=
  Run.W11_of_untouched m ρ c main_arg7 (by decide) (by decide) (by decide) (by decide) (by decide) (by decide) (by decide) (by decide) (by decide) (by decide) (by decide)
theorem W11_main_arg8 (c : Dev nD) : W11 m ρ c (Proc.devRef .tc main_arg8) = m ((c : Thread nD τ).loc main_arg8) :=
  Run.W11_of_untouched m ρ c main_arg8 (by decide) (by decide) (by decide) (by decide) (by decide) (by decide) (by decide) (by decide) (by decide) (by decide) (by decide)
theorem W11_main_arg9 (c : Dev nD) : W11 m ρ c (Proc.devRef .tc main_arg9) = m ((c : Thread nD τ).loc main_arg9) :=
  Run.W11_of_untouched m ρ c main_arg9 (by decide) (by decide) (by decide) (by decide) (by decide) (by decide) (by decide) (by decide) (by decide) (by decide) (by decide)
theorem W11_main_arg10 (c : Dev nD) : W11 m ρ c (Proc.devRef .tc main_arg10) = m ((c : Thread nD τ).loc main_arg10) :=
  Run.W11_of_untouched m ρ c main_arg10 (by decide) (by decide) (by decide) (by decide) (by decide) (by decide) (by decide) (by decide) (by decide) (by decide) (by decide)

/-! ### Read-offs from the fold: the regions' output arrays where later segments find them, the arguments where the
    host stretches read them, and the gathered tables' consumers past region 1 -/

namespace Run

/-- A buffer that none of the three opening host stretches writes holds, at region 0's entry, what was launched. -/
theorem W3_of_untouched (c : Dev nD) (r : Ref sig .tc) (h0 : r ∉ wr0) (h0_1 : r ∉ wr0_1) (h0_2 : r ∉ wr0_2) :
    W3 m ρ c (Proc.devRef .tc r) = m ((c : Thread nD τ).loc r) :=
  calc W3 m ρ c (Proc.devRef .tc r)
    _ = W2 m ρ c (Proc.devRef .tc r) := StableHlo.after_of_writes_sub hostOps0_2 _ hostOps0_2_wr h0_2
    _ = W1 m ρ c (Proc.devRef .tc r) := StableHlo.after_of_writes_sub hostOps0_1 _ hostOps0_1_wr h0_1
    _ = W0 m ρ c (Proc.devRef .tc r) := StableHlo.after_of_writes_sub hostOps0 _ hostOps0_wr h0
    _ = m ((c : Thread nD τ).loc r) := rfl

/-- The same at region 0's exit, for a buffer that is not one of its arrays either. -/
theorem W4_of_untouched (c : Dev nD) (r : Ref sig .tc) (h0 : r ∉ wr0) (h0_1 : r ∉ wr0_1) (h0_2 : r ∉ wr0_2)
    (hs0 : ∀ w, Pipeline.arrRef spec0 w ≠ r) :
    W4 m ρ c (Proc.devRef .tc r) = m ((c : Thread nD τ).loc r) :=
  (W4_of_ne m ρ c r hs0).trans (W3_of_untouched m ρ c r h0 h0_1 h0_2)

/-- A buffer that none of the five closing host stretches writes ends at what region 1's exit left in it. -/
theorem W11_of_W6 (c : Dev nD) (r : Ref sig .tc)
    (h2 : r ∉ wr2) (h2_1 : r ∉ wr2_1) (h2_2 : r ∉ wr2_2) (h2_3 : r ∉ wr2_3) (h2_4 : r ∉ wr2_4) :
    W11 m ρ c (Proc.devRef .tc r) = W6 m ρ c (Proc.devRef .tc r) :=
  calc W11 m ρ c (Proc.devRef .tc r)
    _ = W10 m ρ c (Proc.devRef .tc r) := StableHlo.after_of_writes_sub hostOps2_4 _ hostOps2_4_wr h2_4
    _ = W9 m ρ c (Proc.devRef .tc r) := StableHlo.after_of_writes_sub hostOps2_3 _ hostOps2_3_wr h2_3
    _ = W8 m ρ c (Proc.devRef .tc r) := StableHlo.after_of_writes_sub hostOps2_2 _ hostOps2_2_wr h2_2
    _ = W7 m ρ c (Proc.devRef .tc r) := StableHlo.after_of_writes_sub hostOps2_1 _ hostOps2_1_wr h2_1
    _ = W6 m ρ c (Proc.devRef .tc r) := StableHlo.after_of_writes_sub hostOps2 _ hostOps2_wr h2

/-- The second region's output array ends at what its write-backs fold to. -/
theorem W11_v104 (c : Dev nD) : W11 m ρ c (Proc.devRef .tc main_v104) = (dat1 (V5 m ρ) c).arrAt 5 cfg1.N :=
  (W11_of_W6 m ρ c main_v104 (by decide) (by decide) (by decide) (by decide) (by decide)).trans (W6_arr m ρ c 5)

/-- The first region's two output arrays, at its exit, hold what their write-backs fold to. -/
theorem W4_v5_0 (c : Dev nD) : W4 m ρ c (Proc.devRef .tc main_v5_0) = (dat0 (V3 m ρ) c).arrAt 5 cfg0.N := W4_arr m ρ c 5
theorem W4_v5_1 (c : Dev nD) : W4 m ρ c (Proc.devRef .tc main_v5_1) = (dat0 (V3 m ρ) c).arrAt 6 cfg0.N := W4_arr m ρ c 6

/-- The arguments at region 0's entry and exit are as launched. -/
theorem W3_main_arg0 (c : Dev nD) : W3 m ρ c (Proc.devRef .tc main_arg0) = m ((c : Thread nD τ).loc main_arg0) :=
  W3_of_untouched m ρ c main_arg0 (by decide) (by decide) (by decide)
theorem W4_main_arg0 (c : Dev nD) : W4 m ρ c (Proc.devRef .tc main_arg0) = m ((c : Thread nD τ).loc main_arg0) :=
  W4_of_untouched m ρ c main_arg0 (by decide) (by decide) (by decide) (by decide)
theorem W3_main_arg1 (c : Dev nD) : W3 m ρ c (Proc.devRef .tc main_arg1) = m ((c : Thread nD τ).loc main_arg1) :=
  W3_of_untouched m ρ c main_arg1 (by decide) (by decide) (by decide)
theorem W4_main_arg1 (c : Dev nD) : W4 m ρ c (Proc.devRef .tc main_arg1) = m ((c : Thread nD τ).loc main_arg1) :=
  W4_of_untouched m ρ c main_arg1 (by decide) (by decide) (by decide) (by decide)
theorem W3_main_arg2 (c : Dev nD) : W3 m ρ c (Proc.devRef .tc main_arg2) = m ((c : Thread nD τ).loc main_arg2) :=
  W3_of_untouched m ρ c main_arg2 (by decide) (by decide) (by decide)
theorem W4_main_arg2 (c : Dev nD) : W4 m ρ c (Proc.devRef .tc main_arg2) = m ((c : Thread nD τ).loc main_arg2) :=
  W4_of_untouched m ρ c main_arg2 (by decide) (by decide) (by decide) (by decide)
theorem W3_main_arg3 (c : Dev nD) : W3 m ρ c (Proc.devRef .tc main_arg3) = m ((c : Thread nD τ).loc main_arg3) :=
  W3_of_untouched m ρ c main_arg3 (by decide) (by decide) (by decide)
theorem W4_main_arg3 (c : Dev nD) : W4 m ρ c (Proc.devRef .tc main_arg3) = m ((c : Thread nD τ).loc main_arg3) :=
  W4_of_untouched m ρ c main_arg3 (by decide) (by decide) (by decide) (by decide)
theorem W3_main_arg4 (c : Dev nD) : W3 m ρ c (Proc.devRef .tc main_arg4) = m ((c : Thread nD τ).loc main_arg4) :=
  W3_of_untouched m ρ c main_arg4 (by decide) (by decide) (by decide)
theorem W4_main_arg4 (c : Dev nD) : W4 m ρ c (Proc.devRef .tc main_arg4) = m ((c : Thread nD τ).loc main_arg4) :=
  W4_of_untouched m ρ c main_arg4 (by decide) (by decide) (by decide) (by decide)
theorem W3_main_arg5 (c : Dev nD) : W3 m ρ c (Proc.devRef .tc main_arg5) = m ((c : Thread nD τ).loc main_arg5) :=
  W3_of_untouched m ρ c main_arg5 (by decide) (by decide) (by decide)
theorem W4_main_arg5 (c : Dev nD) : W4 m ρ c (Proc.devRef .tc main_arg5) = m ((c : Thread nD τ).loc main_arg5) :=
  W4_of_untouched m ρ c main_arg5 (by decide) (by decide) (by decide) (by decide)
theorem W3_main_arg6 (c : Dev nD) : W3 m ρ c (Proc.devRef .tc main_arg6) = m ((c : Thread nD τ).loc main_arg6) :=
  W3_of_untouched m ρ c main_arg6 (by decide) (by decide) (by decide)
theorem W4_main_arg6 (c : Dev nD) : W4 m ρ c (Proc.devRef .tc main_arg6) = m ((c : Thread nD τ).loc main_arg6) :=
  W4_of_untouched m ρ c main_arg6 (by decide) (by decide) (by decide) (by decide)
theorem W3_main_arg7 (c : Dev nD) : W3 m ρ c (Proc.devRef .tc main_arg7) = m ((c : Thread nD τ).loc main_arg7) :=
  W3_of_untouched m ρ c main_arg7 (by decide) (by decide) (by decide)
theorem W4_main_arg7 (c : Dev nD) : W4 m ρ c (Proc.devRef .tc main_arg7) = m ((c : Thread nD τ).loc main_arg7) :=
  W4_of_untouched m ρ c main_arg7 (by decide) (by decide) (by decide) (by decide)
theorem W3_main_arg8 (c : Dev nD) : W3 m ρ c (Proc.devRef .tc main_arg8) = m ((c : Thread nD τ).loc main_arg8) :=
  W3_of_untouched m ρ c main_arg8 (by decide) (by decide) (by decide)
theorem W4_main_arg8 (c : Dev nD) : W4 m ρ c (Proc.devRef .tc main_arg8) = m ((c : Thread nD τ).loc main_arg8) :=
  W4_of_untouched m ρ c main_arg8 (by decide) (by decide) (by decide) (by decide)
theorem W3_main_arg9 (c : Dev nD) : W3 m ρ c (Proc.devRef .tc main_arg9) = m ((c : Thread nD τ).loc main_arg9) :=
  W3_of_untouched m ρ c main_arg9 (by decide) (by decide) (by decide)
theorem W4_main_arg9 (c : Dev nD) : W4 m ρ c (Proc.devRef .tc main_arg9) = m ((c : Thread nD τ).loc main_arg9) :=
  W4_of_untouched m ρ c main_arg9 (by decide) (by decide) (by decide) (by decide)
theorem W3_main_arg10 (c : Dev nD) : W3 m ρ c (Proc.devRef .tc main_arg10) = m ((c : Thread nD τ).loc main_arg10) :=
  W3_of_untouched m ρ c main_arg10 (by decide) (by decide) (by decide)
theorem W4_main_arg10 (c : Dev nD) : W4 m ρ c (Proc.devRef .tc main_arg10) = m ((c : Thread nD τ).loc main_arg10) :=
  W4_of_untouched m ρ c main_arg10 (by decide) (by decide) (by decide) (by decide)

/-- The action tables' gathers and the step counts are not arrays of region 1: it leaves them as it found them. -/
theorem W6_keep_v34 (c : Dev nD) : W6 m ρ c (Proc.devRef .tc main_v34) = W5 m ρ c (Proc.devRef .tc main_v34) :=
  W6_of_ne m ρ c main_v34 (by decide)
theorem W6_keep_v35 (c : Dev nD) : W6 m ρ c (Proc.devRef .tc main_v35) = W5 m ρ c (Proc.devRef .tc main_v35) :=
  W6_of_ne m ρ c main_v35 (by decide)
theorem W6_keep_v55 (c : Dev nD) : W6 m ρ c (Proc.devRef .tc main_v55) = W5 m ρ c (Proc.devRef .tc main_v55) :=
  W6_of_ne m ρ c main_v55 (by decide)
theorem W6_keep_v59 (c : Dev nD) : W6 m ρ c (Proc.devRef .tc main_v59) = W5 m ρ c (Proc.devRef .tc main_v59) :=
  W6_of_ne m ρ c main_v59 (by decide)

end Run

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal match on the pipeline. -/
def pdats : (p : Fin 2) → (c : Dev nD) → Dat τ (Elt F) Unit ℕ (Pipeline.UD sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the fold of its operations over `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W11 m ρ c) ∗ ∃ r, prngReg c r)

/-- The last host stretch's thread state, with the generator register moved beside the buffers. -/
theorem Run.reassoc {P Q S : sProp 𝕄} : iprop(P ∗ (Q ∗ S)) ⊢ iprop((P ∗ Q) ∗ S) := by
  iintro ⟨H1, H2, H3⟩
  isplitl [H1 H2]
  · isplitl [H1]; · iexact H1
    iexact H2
  iexact H3

/-! ## The regions as segments -/

set_option backward.isDefEq.respectTransparency.types false in
/-- REGION 0 over the thread state: entered from every unscoped buffer at `W3`, left at `W4`. Its arrays split
    out of the unscoped buffers and put back at the exit contents; the generator register into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`. Its arrays split
    out of the unscoped buffers and put back at the exit contents; the generator register into the class invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The eleven segments in order: a host segment per stretch from its boundary's contents, a region per kernel call. -/
abbrev segs : List (Pipeline.Seg (pcfgs (F := F)) adm (pdats m ρ) () defs₀ 𝒱₀ L lv) :=
  [ .host (hseg hostOps0 hostOps0_sub Run.hostOps0_fresh (W0 m ρ)),
    .host (hseg hostOps0_1 hostOps0_1_sub Run.hostOps0_1_fresh (W1 m ρ)),
    .host (hseg hostOps0_2 hostOps0_2_sub Run.hostOps0_2_fresh (W2 m ρ)),
    .region (reg0 m ρ),
    .host (hseg hostOps1 hostOps1_sub Run.hostOps1_fresh (W4 m ρ)),
    .region (reg1 m ρ),
    .host (hseg hostOps2 hostOps2_sub Run.hostOps2_fresh (W6 m ρ)),
    .host (hseg hostOps2_1 hostOps2_1_sub Run.hostOps2_1_fresh (W7 m ρ)),
    .host (hseg hostOps2_2 hostOps2_2_sub Run.hostOps2_2_fresh (W8 m ρ)),
    .host (hseg hostOps2_3 hostOps2_3_sub Run.hostOps2_3_fresh (W9 m ρ)),
    .host (hseg hostOps2_4 hostOps2_4_sub Run.hostOps2_4_fresh (W10 m ρ)) ]
/-- The program IS the run of the segments: its chain of items, and the segments' run is that chain by definition. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution on the TensorCores
    terminates, nothing faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => Run.reassoc⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME at any float instance: the run, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c)⟩)
    (run_main m ρ)

/-- info: 'Cert.KernelIdeal.Hand.frame' depends on axioms: [propext, Classical.choice, Quot.sound] -/
#guard_msgs in #print axioms frame

end Cert.KernelIdeal.Hand

end
-- ==== Proof.RefEqStats.lean ====
/-
  The reference's four statistics, and its arguments, read through its whole list of host operations: folded over any
  contents W of the buffers at the start, the list leaves in each statistic's buffer its stage of the arguments' contents,
  and in each argument's buffer what it held (no operation writes an argument).
-/
import proofs.«100950_j13675175871137_2_alg».proof.Proof.RefReadP

noncomputable section

namespace Cert.ReferenceIdeal.RefEqStats

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F] (W : Valuation τ sig (Elt F))

set_option maxRecDepth 262144 in
set_option maxHeartbeats 40000000 in
theorem v156_eq : StableHlo.after (ops (F := F)) W (Proc.devRef .tc main_v156)
    = val_main_v156 (F := F) (W (Proc.devRef .tc main_arg0)) (W (Proc.devRef .tc main_arg2)) (W (Proc.devRef .tc main_arg5)) (W (Proc.devRef .tc main_arg6)) := by
  after_results_simp <;> rfl

set_option maxRecDepth 262144 in
set_option maxHeartbeats 40000000 in
theorem v158_eq : StableHlo.after (ops (F := F)) W (Proc.devRef .tc main_v158)
    = val_main_v158 (F := F) (W (Proc.devRef .tc main_arg0)) (W (Proc.devRef .tc main_arg2)) (W (Proc.devRef .tc main_arg5)) (W (Proc.devRef .tc main_arg6)) := by
  after_results_simp <;> rfl

set_option maxRecDepth 262144 in
set_option maxHeartbeats 40000000 in
theorem v187_eq : StableHlo.after (ops (F := F)) W (Proc.devRef .tc main_v187)
    = val_main_v187 (F := F) (W (Proc.devRef .tc main_arg1)) (W (Proc.devRef .tc main_arg2)) (W (Proc.devRef .tc main_arg5)) (W (Proc.devRef .tc main_arg6)) := by
  after_results_simp <;> rfl

set_option maxRecDepth 262144 in
set_option maxHeartbeats 40000000 in
theorem v189_eq : StableHlo.after (ops (F := F)) W (Proc.devRef .tc main_v189)
    = val_main_v189 (F := F) (W (Proc.devRef .tc main_arg1)) (W (Proc.devRef .tc main_arg2)) (W (Proc.devRef .tc main_arg5)) (W (Proc.devRef .tc main_arg6)) := by
  after_results_simp <;> rfl

set_option maxRecDepth 262144 in
set_option maxHeartbeats 40000000 in
theorem arg0_eq : StableHlo.after (ops (F := F)) W (Proc.devRef .tc main_arg0) = W (Proc.devRef .tc main_arg0) := by
  after_results_simp <;> rfl

set_option maxRecDepth 262144 in
set_option maxHeartbeats 40000000 in
theorem arg1_eq : StableHlo.after (ops (F := F)) W (Proc.devRef .tc main_arg1) = W (Proc.devRef .tc main_arg1) := by
  after_results_simp <;> rfl

set_option maxRecDepth 262144 in
set_option maxHeartbeats 40000000 in
theorem arg2_eq : StableHlo.after (ops (F := F)) W (Proc.devRef .tc main_arg2) = W (Proc.devRef .tc main_arg2) := by
  after_results_simp <;> rfl

set_option maxRecDepth 262144 in
set_option maxHeartbeats 40000000 in
theorem arg3_eq : StableHlo.after (ops (F := F)) W (Proc.devRef .tc main_arg3) = W (Proc.devRef .tc main_arg3) := by
  after_results_simp <;> rfl

set_option maxRecDepth 262144 in
set_option maxHeartbeats 40000000 in
theorem arg4_eq : StableHlo.after (ops (F := F)) W (Proc.devRef .tc main_arg4) = W (Proc.devRef .tc main_arg4) := by
  after_results_simp <;> rfl

set_option maxRecDepth 262144 in
set_option maxHeartbeats 40000000 in
theorem arg5_eq : StableHlo.after (ops (F := F)) W (Proc.devRef .tc main_arg5) = W (Proc.devRef .tc main_arg5) := by
  after_results_simp <;> rfl

set_option maxRecDepth 262144 in
set_option maxHeartbeats 40000000 in
theorem arg6_eq : StableHlo.after (ops (F := F)) W (Proc.devRef .tc main_arg6) = W (Proc.devRef .tc main_arg6) := by
  after_results_simp <;> rfl

set_option maxRecDepth 262144 in
set_option maxHeartbeats 40000000 in
theorem arg7_eq : StableHlo.after (ops (F := F)) W (Proc.devRef .tc main_arg7) = W (Proc.devRef .tc main_arg7) := by
  after_results_simp <;> rfl

set_option maxRecDepth 262144 in
set_option maxHeartbeats 40000000 in
theorem arg8_eq : StableHlo.after (ops (F := F)) W (Proc.devRef .tc main_arg8) = W (Proc.devRef .tc main_arg8) := by
  after_results_simp <;> rfl

set_option maxRecDepth 262144 in
set_option maxHeartbeats 40000000 in
theorem arg9_eq : StableHlo.after (ops (F := F)) W (Proc.devRef .tc main_arg9) = W (Proc.devRef .tc main_arg9) := by
  after_results_simp <;> rfl

set_option maxRecDepth 262144 in
set_option maxHeartbeats 40000000 in
theorem arg10_eq : StableHlo.after (ops (F := F)) W (Proc.devRef .tc main_arg10) = W (Proc.devRef .tc main_arg10) := by
  after_results_simp <;> rfl

end Cert.ReferenceIdeal.RefEqStats

end
-- ==== Proof.RefEq127.lean ====
/-
  The reference program's first result, the classifier head's output, after its whole list of operations, as the
  stage function of the arguments.

  The list is cut into eight consecutive stretches. The contents after a concatenation of stretches are the contents
  after the last one, taken from the contents after those before. For each buffer still read later, one equation says
  what it holds after the stretches so far, as its stage function of the arguments: it is read through the last
  stretch alone (each operation's result at its own buffer is its function of the buffers it reads; any other buffer
  is untouched), the buffers the stretch reads are replaced by the earlier equations, and what remains is the
  stage's own definition. The one operation with four operands is a stretch of its own.
-/
import proofs.«100950_j13675175871137_2_alg».proof.Proof.RefReadP
import Idealize.ShloMosaic.Lib.StableHlo.Run

noncomputable section

namespace Cert.ReferenceIdeal.RefEq127

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Two arrays side by side along an axis, the operands as plain arguments. -/
def cat2 {α : Type} (t : Shape) (a : Fin t.rank) (s1 s2 : Shape) (h : Shape.Concatenates [s1, s2] t a)
    (u : s1.Idx → α) (v : s2.Idx → α) : t.Idx → α := concatenate t a [⟨s1, u⟩, ⟨s2, v⟩] h
theorem cat2_eq {α : Type} (t : Shape) (a : Fin t.rank) (s1 s2 : Shape) (h : Shape.Concatenates [s1, s2] t a)
    (u : s1.Idx → α) (v : s2.Idx → α) : concatenate t a [⟨s1, u⟩, ⟨s2, v⟩] h = cat2 t a s1 s2 h u v := rfl
/-- Four arrays side by side along an axis, the operands as plain arguments. -/
def cat4 {α : Type} (t : Shape) (a : Fin t.rank) (s1 s2 s3 s4 : Shape) (h : Shape.Concatenates [s1, s2, s3, s4] t a)
    (u : s1.Idx → α) (v : s2.Idx → α) (w : s3.Idx → α) (z : s4.Idx → α) : t.Idx → α :=
  concatenate t a [⟨s1, u⟩, ⟨s2, v⟩, ⟨s3, w⟩, ⟨s4, z⟩] h
theorem cat4_eq {α : Type} (t : Shape) (a : Fin t.rank) (s1 s2 s3 s4 : Shape) (h : Shape.Concatenates [s1, s2, s3, s4] t a)
    (u : s1.Idx → α) (v : s2.Idx → α) (w : s3.Idx → α) (z : s4.Idx → α) :
    concatenate t a [⟨s1, u⟩, ⟨s2, v⟩, ⟨s3, w⟩, ⟨s4, z⟩] h = cat4 t a s1 s2 s3 s4 h u v w z := rfl

/-- The one-pass read of a list of operations, entering the operands of a concatenate. -/
macro "after_results_cat" : tactic =>
  `(tactic| (simp (disch := decide) only [after_cons, after_nil, cat2_eq, cat4_eq,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

/-- The program's operations 0 to 15: the first token array extended, its rows of the table, the encoder. -/
abbrev opsA : List (HloOp τ sig (Elt F)) :=
  [ unary main_arg0 main_v0 ((extractStridedSlice S255x128 ![0, 0] · slices_S256x128_S255x128_0_0) : (⟨S256x128, .i32⟩ : BufTy).Contents (Elt F) → (⟨S255x128, .i32⟩ : BufTy).Contents (Elt F)),
    binary main_arg0 main_v0 main_v1 ((fun a b => concatenate S511x128 0 [⟨S256x128, a⟩, ⟨S255x128, b⟩] concatenates_S256x128_S255x128_S511x128_d0) : (⟨S256x128, .i32⟩ : BufTy).Contents (Elt F) → (⟨S255x128, .i32⟩ : BufTy).Contents (Elt F) → (⟨S511x128, .i32⟩ : BufTy).Contents (Elt F)),
    nullary main_c (constantI S_ 32 0#32),
    unary main_c main_v2 (broadcastInDim S511x128 ![] bcast_S_S511x128 : (⟨S_, .i32⟩ : BufTy).Contents (Elt F) → (⟨S511x128, .i32⟩ : BufTy).Contents (Elt F)),
    binary main_v1 main_v2 main_v3 (cmpi .slt : (⟨S511x128, .i32⟩ : BufTy).Contents (Elt F) → (⟨S511x128, .i32⟩ : BufTy).Contents (Elt F) → (⟨S511x128, .i1⟩ : BufTy).Contents (Elt F)),
    nullary main_c_0 (constantI S_ 32 32000#32),
    unary main_c_0 main_v4 (broadcastInDim S511x128 ![] bcast_S_S511x128 : (⟨S_, .i32⟩ : BufTy).Contents (Elt F) → (⟨S511x128, .i32⟩ : BufTy).Contents (Elt F)),
    binary main_v1 main_v4 main_v5 (addi : (⟨S511x128, .i32⟩ : BufTy).Contents (Elt F) → (⟨S511x128, .i32⟩ : BufTy).Contents (Elt F) → (⟨S511x128, .i32⟩ : BufTy).Contents (Elt F)),
    ternary main_v3 main_v5 main_v1 main_v6 (select : (⟨S511x128, .i1⟩ : BufTy).Contents (Elt F) → (⟨S511x128, .i32⟩ : BufTy).Contents (Elt F) → (⟨S511x128, .i32⟩ : BufTy).Contents (Elt F) → (⟨S511x128, .i32⟩ : BufTy).Contents (Elt F)),
    unary main_v6 main_v7 (broadcastInDim S511x128x1 ![0, 1] bcast_S511x128_S511x128x1_0_1 : (⟨S511x128, .i32⟩ : BufTy).Contents (Elt F) → (⟨S511x128x1, .i32⟩ : BufTy).Contents (Elt F)),
    binary main_arg2 main_v7 main_v8 ((fun x i => Host.gather gather_S32000x1024_S511x128x1_S511x128x1024_2_0_n_n_0_2_11024 x i) : (⟨S32000x1024, .f32⟩ : BufTy).Contents (Elt F) → (⟨S511x128x1, .i32⟩ : BufTy).Contents (Elt F) → (⟨S511x128x1024, .f32⟩ : BufTy).Contents (Elt F)),
    binary main_v8 main_arg3 main_v9 ((fun l r => Host.dotGeneral dot_S511x128x1024_S1024x1024_S511x128x1024_2_0_01_1_n_n none l r) : (⟨S511x128x1024, .f32⟩ : BufTy).Contents (Elt F) → (⟨S1024x1024, .f32⟩ : BufTy).Contents (Elt F) → (⟨S511x128x1024, .f32⟩ : BufTy).Contents (Elt F)),
    unary main_arg4 main_v10 (broadcastInDim S1x1x1024 ![2] bcast_S1024_S1x1x1024_2 : (⟨S1024, .f32⟩ : BufTy).Contents (Elt F) → (⟨S1x1x1024, .f32⟩ : BufTy).Contents (Elt F)),
    unary main_v10 main_v11 (broadcastInDim S511x128x1024 ![0, 1, 2] bcast_S1x1x1024_S511x128x1024_0_1_2 : (⟨S1x1x1024, .f32⟩ : BufTy).Contents (Elt F) → (⟨S511x128x1024, .f32⟩ : BufTy).Contents (Elt F)),
    binary main_v9 main_v11 main_v12 (addf : (⟨S511x128x1024, .f32⟩ : BufTy).Contents (Elt F) → (⟨S511x128x1024, .f32⟩ : BufTy).Contents (Elt F) → (⟨S511x128x1024, .f32⟩ : BufTy).Contents (Elt F)),
    unary main_v12 main_v13 (Host.tanh : (⟨S511x128x1024, .f32⟩ : BufTy).Contents (Elt F) → (⟨S511x128x1024, .f32⟩ : BufTy).Contents (Elt F)) ]

/-- The program's operations 16 to 49: the first array's action rows; the second array extended, its rows, the encoder. -/
abbrev opsB : List (HloOp τ sig (Elt F)) :=
  [ binary main_v8 main_arg5 main_v14 ((fun l r => Host.dotGeneral dot_S511x128x1024_S1024x2_S511x128x2_2_0_01_1_n_n none l r) : (⟨S511x128x1024, .f32⟩ : BufTy).Contents (Elt F) → (⟨S1024x2, .f32⟩ : BufTy).Contents (Elt F) → (⟨S511x128x2, .f32⟩ : BufTy).Contents (Elt F)),
    unary main_arg6 main_v15 (broadcastInDim S1x1x2 ![2] bcast_S2_S1x1x2_2 : (⟨S2, .f32⟩ : BufTy).Contents (Elt F) → (⟨S1x1x2, .f32⟩ : BufTy).Contents (Elt F)),
    unary main_v15 main_v16 (broadcastInDim S511x128x2 ![0, 1, 2] bcast_S1x1x2_S511x128x2_0_1_2 : (⟨S1x1x2, .f32⟩ : BufTy).Contents (Elt F) → (⟨S511x128x2, .f32⟩ : BufTy).Contents (Elt F)),
    binary main_v14 main_v16 main_v17 (addf : (⟨S511x128x2, .f32⟩ : BufTy).Contents (Elt F) → (⟨S511x128x2, .f32⟩ : BufTy).Contents (Elt F) → (⟨S511x128x2, .f32⟩ : BufTy).Contents (Elt F)),
    nullary main_cst (constant S_ .f32 0xFF800000#32),
    binary main_v17 main_cst main_v18 ((fun x v => Host.reduce FloatOps.maximumf x v reducesTo_S511x128x2_S511x128_d2 h_S_) : (⟨S511x128x2, .f32⟩ : BufTy).Contents (Elt F) → (⟨S_, .f32⟩ : BufTy).Contents (Elt F) → (⟨S511x128, .f32⟩ : BufTy).Contents (Elt F)),
    nullary main_cst_1 (constant S_ .f32 0xFF800000#32),
    unary main_cst_1 main_v19 (broadcastInDim S511x128 ![] bcast_S_S511x128 : (⟨S_, .f32⟩ : BufTy).Contents (Elt F) → (⟨S511x128, .f32⟩ : BufTy).Contents (Elt F)),
    binary main_v19 main_v18 main_v20 (maximumf : (⟨S511x128, .f32⟩ : BufTy).Contents (Elt F) → (⟨S511x128, .f32⟩ : BufTy).Contents (Elt F) → (⟨S511x128, .f32⟩ : BufTy).Contents (Elt F)),
    unary main_v20 main_v21 (broadcastInDim S511x128x1 ![0, 1] bcast_S511x128_S511x128x1_0_1 : (⟨S511x128, .f32⟩ : BufTy).Contents (Elt F) → (⟨S511x128x1, .f32⟩ : BufTy).Contents (Elt F)),
    unary main_v21 main_v22 (broadcastInDim S511x128x2 ![0, 1, 2] bcast_S511x128x1_S511x128x2_0_1_2 : (⟨S511x128x1, .f32⟩ : BufTy).Contents (Elt F) → (⟨S511x128x2, .f32⟩ : BufTy).Contents (Elt F)),
    binary main_v17 main_v22 main_v23 (subf : (⟨S511x128x2, .f32⟩ : BufTy).Contents (Elt F) → (⟨S511x128x2, .f32⟩ : BufTy).Contents (Elt F) → (⟨S511x128x2, .f32⟩ : BufTy).Contents (Elt F)),
    unary main_v23 main_v24 (Host.exp : (⟨S511x128x2, .f32⟩ : BufTy).Contents (Elt F) → (⟨S511x128x2, .f32⟩ : BufTy).Contents (Elt F)),
    nullary main_cst_2 (constant S_ .f32 0x00000000#32),
    binary main_v24 main_cst_2 main_v25 ((fun x v => Host.reduceAdd x v reducesTo_S511x128x2_S511x128_d2 h_S_) : (⟨S511x128x2, .f32⟩ : BufTy).Contents (Elt F) → (⟨S_, .f32⟩ : BufTy).Contents (Elt F) → (⟨S511x128, .f32⟩ : BufTy).Contents (Elt F)),
    unary main_v25 main_v26 (broadcastInDim S511x128x1 ![0, 1] bcast_S511x128_S511x128x1_0_1 : (⟨S511x128, .f32⟩ : BufTy).Contents (Elt F) → (⟨S511x128x1, .f32⟩ : BufTy).Contents (Elt F)),
    unary main_v26 main_v27 (broadcastInDim S511x128x2 ![0, 1, 2] bcast_S511x128x1_S511x128x2_0_1_2 : (⟨S511x128x1, .f32⟩ : BufTy).Contents (Elt F) → (⟨S511x128x2, .f32⟩ : BufTy).Contents (Elt F)),
    binary main_v24 main_v27 main_v28 (Host.divf : (⟨S511x128x2, .f32⟩ : BufTy).Contents (Elt F) → (⟨S511x128x2, .f32⟩ : BufTy).Contents (Elt F) → (⟨S511x128x2, .f32⟩ : BufTy).Contents (Elt F)),
    unary main_arg1 main_v29 ((extractStridedSlice S255x128 ![0, 0] · slices_S256x128_S255x128_0_0) : (⟨S256x128, .i32⟩ : BufTy).Contents (Elt F) → (⟨S255x128, .i32⟩ : BufTy).Contents (Elt F)),
    binary main_arg1 main_v29 main_v30 ((fun a b => concatenate S511x128 0 [⟨S256x128, a⟩, ⟨S255x128, b⟩] concatenates_S256x128_S255x128_S511x128_d0) : (⟨S256x128, .i32⟩ : BufTy).Contents (Elt F) → (⟨S255x128, .i32⟩ : BufTy).Contents (Elt F) → (⟨S511x128, .i32⟩ : BufTy).Contents (Elt F)),
    nullary main_c_3 (constantI S_ 32 0#32),
    unary main_c_3 main_v31 (broadcastInDim S511x128 ![] bcast_S_S511x128 : (⟨S_, .i32⟩ : BufTy).Contents (Elt F) → (⟨S511x128, .i32⟩ : BufTy).Contents (Elt F)),
    binary main_v30 main_v31 main_v32 (cmpi .slt : (⟨S511x128, .i32⟩ : BufTy).Contents (Elt F) → (⟨S511x128, .i32⟩ : BufTy).Contents (Elt F) → (⟨S511x128, .i1⟩ : BufTy).Contents (Elt F)),
    nullary main_c_4 (constantI S_ 32 32000#32),
    unary main_c_4 main_v33 (broadcastInDim S511x128 ![] bcast_S_S511x128 : (⟨S_, .i32⟩ : BufTy).Contents (Elt F) → (⟨S511x128, .i32⟩ : BufTy).Contents (Elt F)),
    binary main_v30 main_v33 main_v34 (addi : (⟨S511x128, .i32⟩ : BufTy).Contents (Elt F) → (⟨S511x128, .i32⟩ : BufTy).Contents (Elt F) → (⟨S511x128, .i32⟩ : BufTy).Contents (Elt F)),
    ternary main_v32 main_v34 main_v30 main_v35 (select : (⟨S511x128, .i1⟩ : BufTy).Contents (Elt F) → (⟨S511x128, .i32⟩ : BufTy).Contents (Elt F) → (⟨S511x128, .i32⟩ : BufTy).Contents (Elt F) → (⟨S511x128, .i32⟩ : BufTy).Contents (Elt F)),
    unary main_v35 main_v36 (broadcastInDim S511x128x1 ![0, 1] bcast_S511x128_S511x128x1_0_1 : (⟨S511x128, .i32⟩ : BufTy).Contents (Elt F) → (⟨S511x128x1, .i32⟩ : BufTy).Contents (Elt F)),
    binary main_arg2 main_v36 main_v37 ((fun x i => Host.gather gather_S32000x1024_S511x128x1_S511x128x1024_2_0_n_n_0_2_11024 x i) : (⟨S32000x1024, .f32⟩ : BufTy).Contents (Elt F) → (⟨S511x128x1, .i32⟩ : BufTy).Contents (Elt F) → (⟨S511x128x1024, .f32⟩ : BufTy).Contents (Elt F)),
    binary main_v37 main_arg3 main_v38 ((fun l r => Host.dotGeneral dot_S511x128x1024_S1024x1024_S511x128x1024_2_0_01_1_n_n none l r) : (⟨S511x128x1024, .f32⟩ : BufTy).Contents (Elt F) → (⟨S1024x1024, .f32⟩ : BufTy).Contents (Elt F) → (⟨S511x128x1024, .f32⟩ : BufTy).Contents (Elt F)),
    unary main_arg4 main_v39 (broadcastInDim S1x1x1024 ![2] bcast_S1024_S1x1x1024_2 : (⟨S1024, .f32⟩ : BufTy).Contents (Elt F) → (⟨S1x1x1024, .f32⟩ : BufTy).Contents (Elt F)),
    unary main_v39 main_v40 (broadcastInDim S511x128x1024 ![0, 1, 2] bcast_S1x1x1024_S511x128x1024_0_1_2 : (⟨S1x1x1024, .f32⟩ : BufTy).Contents (Elt F) → (⟨S511x128x1024, .f32⟩ : BufTy).Contents (Elt F)),
    binary main_v38 main_v40 main_v41 (addf : (⟨S511x128x1024, .f32⟩ : BufTy).Contents (Elt F) → (⟨S511x128x1024, .f32⟩ : BufTy).Contents (Elt F) → (⟨S511x128x1024, .f32⟩ : BufTy).Contents (Elt F)),
    unary main_v41 main_v42 (Host.tanh : (⟨S511x128x1024, .f32⟩ : BufTy).Contents (Elt F) → (⟨S511x128x1024, .f32⟩ : BufTy).Contents (Elt F)) ]

/-- The program's operations 50 to 125: the second array's action rows; step counts and last-step rows; the first array's start pairs and gathered rows. -/
abbrev opsC : List (HloOp τ sig (Elt F)) :=
  [ binary main_v37 main_arg5 main_v43 ((fun l r => Host.dotGeneral dot_S511x128x1024_S1024x2_S511x128x2_2_0_01_1_n_n none l r) : (⟨S511x128x1024, .f32⟩ : BufTy).Contents (Elt F) → (⟨S1024x2, .f32⟩ : BufTy).Contents (Elt F) → (⟨S511x128x2, .f32⟩ : BufTy).Contents (Elt F)),
    unary main_arg6 main_v44 (broadcastInDim S1x1x2 ![2] bcast_S2_S1x1x2_2 : (⟨S2, .f32⟩ : BufTy).Contents (Elt F) → (⟨S1x1x2, .f32⟩ : BufTy).Contents (Elt F)),
    unary main_v44 main_v45 (broadcastInDim S511x128x2 ![0, 1, 2] bcast_S1x1x2_S511x128x2_0_1_2 : (⟨S1x1x2, .f32⟩ : BufTy).Contents (Elt F) → (⟨S511x128x2, .f32⟩ : BufTy).Contents (Elt F)),
    binary main_v43 main_v45 main_v46 (addf : (⟨S511x128x2, .f32⟩ : BufTy).Contents (Elt F) → (⟨S511x128x2, .f32⟩ : BufTy).Contents (Elt F) → (⟨S511x128x2, .f32⟩ : BufTy).Contents (Elt F)),
    nullary main_cst_5 (constant S_ .f32 0xFF800000#32),
    binary main_v46 main_cst_5 main_v47 ((fun x v => Host.reduce FloatOps.maximumf x v reducesTo_S511x128x2_S511x128_d2 h_S_) : (⟨S511x128x2, .f32⟩ : BufTy).Contents (Elt F) → (⟨S_, .f32⟩ : BufTy).Contents (Elt F) → (⟨S511x128, .f32⟩ : BufTy).Contents (Elt F)),
    nullary main_cst_6 (constant S_ .f32 0xFF800000#32),
    unary main_cst_6 main_v48 (broadcastInDim S511x128 ![] bcast_S_S511x128 : (⟨S_, .f32⟩ : BufTy).Contents (Elt F) → (⟨S511x128, .f32⟩ : BufTy).Contents (Elt F)),
    binary main_v48 main_v47 main_v49 (maximumf : (⟨S511x128, .f32⟩ : BufTy).Contents (Elt F) → (⟨S511x128, .f32⟩ : BufTy).Contents (Elt F) → (⟨S511x128, .f32⟩ : BufTy).Contents (Elt F)),
    unary main_v49 main_v50 (broadcastInDim S511x128x1 ![0, 1] bcast_S511x128_S511x128x1_0_1 : (⟨S511x128, .f32⟩ : BufTy).Contents (Elt F) → (⟨S511x128x1, .f32⟩ : BufTy).Contents (Elt F)),
    unary main_v50 main_v51 (broadcastInDim S511x128x2 ![0, 1, 2] bcast_S511x128x1_S511x128x2_0_1_2 : (⟨S511x128x1, .f32⟩ : BufTy).Contents (Elt F) → (⟨S511x128x2, .f32⟩ : BufTy).Contents (Elt F)),
    binary main_v46 main_v51 main_v52 (subf : (⟨S511x128x2, .f32⟩ : BufTy).Contents (Elt F) → (⟨S511x128x2, .f32⟩ : BufTy).Contents (Elt F) → (⟨S511x128x2, .f32⟩ : BufTy).Contents (Elt F)),
    unary main_v52 main_v53 (Host.exp : (⟨S511x128x2, .f32⟩ : BufTy).Contents (Elt F) → (⟨S511x128x2, .f32⟩ : BufTy).Contents (Elt F)),
    nullary main_cst_7 (constant S_ .f32 0x00000000#32),
    binary main_v53 main_cst_7 main_v54 ((fun x v => Host.reduceAdd x v reducesTo_S511x128x2_S511x128_d2 h_S_) : (⟨S511x128x2, .f32⟩ : BufTy).Contents (Elt F) → (⟨S_, .f32⟩ : BufTy).Contents (Elt F) → (⟨S511x128, .f32⟩ : BufTy).Contents (Elt F)),
    unary main_v54 main_v55 (broadcastInDim S511x128x1 ![0, 1] bcast_S511x128_S511x128x1_0_1 : (⟨S511x128, .f32⟩ : BufTy).Contents (Elt F) → (⟨S511x128x1, .f32⟩ : BufTy).Contents (Elt F)),
    unary main_v55 main_v56 (broadcastInDim S511x128x2 ![0, 1, 2] bcast_S511x128x1_S511x128x2_0_1_2 : (⟨S511x128x1, .f32⟩ : BufTy).Contents (Elt F) → (⟨S511x128x2, .f32⟩ : BufTy).Contents (Elt F)),
    binary main_v53 main_v56 main_v57 (Host.divf : (⟨S511x128x2, .f32⟩ : BufTy).Contents (Elt F) → (⟨S511x128x2, .f32⟩ : BufTy).Contents (Elt F) → (⟨S511x128x2, .f32⟩ : BufTy).Contents (Elt F)),
    nullary main_c_8 (constantI S_ 32 0#32),
    unary main_c_8 main_v58 (broadcastInDim S256x128 ![] bcast_S_S256x128 : (⟨S_, .i32⟩ : BufTy).Contents (Elt F) → (⟨S256x128, .i32⟩ : BufTy).Contents (Elt F)),
    binary main_arg0 main_v58 main_v59 (cmpi .eq : (⟨S256x128, .i32⟩ : BufTy).Contents (Elt F) → (⟨S256x128, .i32⟩ : BufTy).Contents (Elt F) → (⟨S256x128, .i1⟩ : BufTy).Contents (Elt F)),
    unary main_v59 main_v60 ((extui 32 · natLt_1_32) : (⟨S256x128, .i1⟩ : BufTy).Contents (Elt F) → (⟨S256x128, .i32⟩ : BufTy).Contents (Elt F)),
    nullary main_c_9 (constantI S_ 32 0#32),
    binary main_v60 main_c_9 main_v61 ((fun x v => Host.reduce IntOp.addi x v reducesTo_S256x128_S128_d0 h_S_) : (⟨S256x128, .i32⟩ : BufTy).Contents (Elt F) → (⟨S_, .i32⟩ : BufTy).Contents (Elt F) → (⟨S128, .i32⟩ : BufTy).Contents (Elt F)),
    nullary main_c_10 (constantI S_ 32 256#32),
    unary main_c_10 main_v62 (broadcastInDim S128 ![] bcast_S_S128 : (⟨S_, .i32⟩ : BufTy).Contents (Elt F) → (⟨S128, .i32⟩ : BufTy).Contents (Elt F)),
    binary main_v62 main_v61 main_v63 (subi : (⟨S128, .i32⟩ : BufTy).Contents (Elt F) → (⟨S128, .i32⟩ : BufTy).Contents (Elt F) → (⟨S128, .i32⟩ : BufTy).Contents (Elt F)),
    nullary main_c_11 (constantI S_ 32 1#32),
    unary main_c_11 main_v64 (broadcastInDim S128 ![] bcast_S_S128 : (⟨S_, .i32⟩ : BufTy).Contents (Elt F) → (⟨S128, .i32⟩ : BufTy).Contents (Elt F)),
    binary main_v63 main_v64 main_v65 (subi : (⟨S128, .i32⟩ : BufTy).Contents (Elt F) → (⟨S128, .i32⟩ : BufTy).Contents (Elt F) → (⟨S128, .i32⟩ : BufTy).Contents (Elt F)),
    nullary main_c_12 (constantI S_ 32 0#32),
    unary main_c_12 main_v66 (broadcastInDim S256x128 ![] bcast_S_S256x128 : (⟨S_, .i32⟩ : BufTy).Contents (Elt F) → (⟨S256x128, .i32⟩ : BufTy).Contents (Elt F)),
    binary main_arg1 main_v66 main_v67 (cmpi .eq : (⟨S256x128, .i32⟩ : BufTy).Contents (Elt F) → (⟨S256x128, .i32⟩ : BufTy).Contents (Elt F) → (⟨S256x128, .i1⟩ : BufTy).Contents (Elt F)),
    unary main_v67 main_v68 ((extui 32 · natLt_1_32) : (⟨S256x128, .i1⟩ : BufTy).Contents (Elt F) → (⟨S256x128, .i32⟩ : BufTy).Contents (Elt F)),
    nullary main_c_13 (constantI S_ 32 0#32),
    binary main_v68 main_c_13 main_v69 ((fun x v => Host.reduce IntOp.addi x v reducesTo_S256x128_S128_d0 h_S_) : (⟨S256x128, .i32⟩ : BufTy).Contents (Elt F) → (⟨S_, .i32⟩ : BufTy).Contents (Elt F) → (⟨S128, .i32⟩ : BufTy).Contents (Elt F)),
    nullary main_c_14 (constantI S_ 32 256#32),
    unary main_c_14 main_v70 (broadcastInDim S128 ![] bcast_S_S128 : (⟨S_, .i32⟩ : BufTy).Contents (Elt F) → (⟨S128, .i32⟩ : BufTy).Contents (Elt F)),
    binary main_v70 main_v69 main_v71 (subi : (⟨S128, .i32⟩ : BufTy).Contents (Elt F) → (⟨S128, .i32⟩ : BufTy).Contents (Elt F) → (⟨S128, .i32⟩ : BufTy).Contents (Elt F)),
    nullary main_c_15 (constantI S_ 32 1#32),
    unary main_c_15 main_v72 (broadcastInDim S128 ![] bcast_S_S128 : (⟨S_, .i32⟩ : BufTy).Contents (Elt F) → (⟨S128, .i32⟩ : BufTy).Contents (Elt F)),
    binary main_v71 main_v72 main_v73 (subi : (⟨S128, .i32⟩ : BufTy).Contents (Elt F) → (⟨S128, .i32⟩ : BufTy).Contents (Elt F) → (⟨S128, .i32⟩ : BufTy).Contents (Elt F)),
    nullary main_c_16 (constantI S_ 32 2#32),
    unary main_c_16 main_v74 (broadcastInDim S128 ![] bcast_S_S128 : (⟨S_, .i32⟩ : BufTy).Contents (Elt F) → (⟨S128, .i32⟩ : BufTy).Contents (Elt F)),
    binary main_v74 main_v65 main_v75 (muli : (⟨S128, .i32⟩ : BufTy).Contents (Elt F) → (⟨S128, .i32⟩ : BufTy).Contents (Elt F) → (⟨S128, .i32⟩ : BufTy).Contents (Elt F)),
    nullary main_c_17 (constantI S_ 32 1#32),
    unary main_c_17 main_v76 (broadcastInDim S128 ![] bcast_S_S128 : (⟨S_, .i32⟩ : BufTy).Contents (Elt F) → (⟨S128, .i32⟩ : BufTy).Contents (Elt F)),
    binary main_v75 main_v76 main_v77 (subi : (⟨S128, .i32⟩ : BufTy).Contents (Elt F) → (⟨S128, .i32⟩ : BufTy).Contents (Elt F) → (⟨S128, .i32⟩ : BufTy).Contents (Elt F)),
    nullary main_c_18 (constantI S_ 32 2#32),
    unary main_c_18 main_v78 (broadcastInDim S128 ![] bcast_S_S128 : (⟨S_, .i32⟩ : BufTy).Contents (Elt F) → (⟨S128, .i32⟩ : BufTy).Contents (Elt F)),
    binary main_v78 main_v73 main_v79 (muli : (⟨S128, .i32⟩ : BufTy).Contents (Elt F) → (⟨S128, .i32⟩ : BufTy).Contents (Elt F) → (⟨S128, .i32⟩ : BufTy).Contents (Elt F)),
    nullary main_c_19 (constantI S_ 32 1#32),
    unary main_c_19 main_v80 (broadcastInDim S128 ![] bcast_S_S128 : (⟨S_, .i32⟩ : BufTy).Contents (Elt F) → (⟨S128, .i32⟩ : BufTy).Contents (Elt F)),
    binary main_v79 main_v80 main_v81 (subi : (⟨S128, .i32⟩ : BufTy).Contents (Elt F) → (⟨S128, .i32⟩ : BufTy).Contents (Elt F) → (⟨S128, .i32⟩ : BufTy).Contents (Elt F)),
    nullary main_v82 (iotaInDim S128 32 0),
    nullary main_c_20 (constantI S_ 32 1#32),
    unary main_c_20 main_v83 (broadcastInDim S128 ![] bcast_S_S128 : (⟨S_, .i32⟩ : BufTy).Contents (Elt F) → (⟨S128, .i32⟩ : BufTy).Contents (Elt F)),
    binary main_v77 main_v83 main_v84 (subi : (⟨S128, .i32⟩ : BufTy).Contents (Elt F) → (⟨S128, .i32⟩ : BufTy).Contents (Elt F) → (⟨S128, .i32⟩ : BufTy).Contents (Elt F)),
    nullary main_c_21 (constantI S_ 32 0#32),
    unary main_c_21 main_v85 (broadcastInDim S128 ![] bcast_S_S128 : (⟨S_, .i32⟩ : BufTy).Contents (Elt F) → (⟨S128, .i32⟩ : BufTy).Contents (Elt F)),
    binary main_v84 main_v85 main_v86 (cmpi .slt : (⟨S128, .i32⟩ : BufTy).Contents (Elt F) → (⟨S128, .i32⟩ : BufTy).Contents (Elt F) → (⟨S128, .i1⟩ : BufTy).Contents (Elt F)),
    nullary main_c_22 (constantI S_ 32 511#32),
    unary main_c_22 main_v87 (broadcastInDim S128 ![] bcast_S_S128 : (⟨S_, .i32⟩ : BufTy).Contents (Elt F) → (⟨S128, .i32⟩ : BufTy).Contents (Elt F)),
    binary main_v84 main_v87 main_v88 (addi : (⟨S128, .i32⟩ : BufTy).Contents (Elt F) → (⟨S128, .i32⟩ : BufTy).Contents (Elt F) → (⟨S128, .i32⟩ : BufTy).Contents (Elt F)),
    ternary main_v86 main_v88 main_v84 main_v89 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    nullary main_c_23 (constantI S_ 32 0#32),
    unary main_c_23 main_v90 (broadcastInDim S128 ![] bcast_S_S128 : (⟨S_, .i32⟩ : BufTy).Contents (Elt F) → (⟨S128, .i32⟩ : BufTy).Contents (Elt F)),
    binary main_v82 main_v90 main_v91 (cmpi .slt : (⟨S128, .i32⟩ : BufTy).Contents (Elt F) → (⟨S128, .i32⟩ : BufTy).Contents (Elt F) → (⟨S128, .i1⟩ : BufTy).Contents (Elt F)),
    nullary main_c_24 (constantI S_ 32 128#32),
    unary main_c_24 main_v92 (broadcastInDim S128 ![] bcast_S_S128 : (⟨S_, .i32⟩ : BufTy).Contents (Elt F) → (⟨S128, .i32⟩ : BufTy).Contents (Elt F)),
    binary main_v82 main_v92 main_v93 (addi : (⟨S128, .i32⟩ : BufTy).Contents (Elt F) → (⟨S128, .i32⟩ : BufTy).Contents (Elt F) → (⟨S128, .i32⟩ : BufTy).Contents (Elt F)),
    ternary main_v91 main_v93 main_v82 main_v94 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v89 main_v95 (broadcastInDim S128x1 ![0] bcast_S128_S128x1_0 : (⟨S128, .i32⟩ : BufTy).Contents (Elt F) → (⟨S128x1, .i32⟩ : BufTy).Contents (Elt F)),
    unary main_v94 main_v96 (broadcastInDim S128x1 ![0] bcast_S128_S128x1_0 : (⟨S128, .i32⟩ : BufTy).Contents (Elt F) → (⟨S128x1, .i32⟩ : BufTy).Contents (Elt F)),
    binary main_v95 main_v96 main_v97 ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F)),
    binary main_v13 main_v97 main_v98 ((fun x i => Host.gather gather_S511x128x1024_S128x2_S128x1024_1_01_n_n_01_1_111024 x i) : (⟨S511x128x1024, .f32⟩ : BufTy).Contents (Elt F) → (⟨S128x2, .i32⟩ : BufTy).Contents (Elt F) → (⟨S128x1024, .f32⟩ : BufTy).Contents (Elt F)) ]

/-- The program's operations 126 to 146: the second array's start pairs and gathered rows. -/
abbrev opsD : List (HloOp τ sig (Elt F)) :=
  [ nullary main_c_25 (constantI S_ 32 1#32),
    unary main_c_25 main_v99 (broadcastInDim S128 ![] bcast_S_S128 : (⟨S_, .i32⟩ : BufTy).Contents (Elt F) → (⟨S128, .i32⟩ : BufTy).Contents (Elt F)),
    binary main_v81 main_v99 main_v100 (subi : (⟨S128, .i32⟩ : BufTy).Contents (Elt F) → (⟨S128, .i32⟩ : BufTy).Contents (Elt F) → (⟨S128, .i32⟩ : BufTy).Contents (Elt F)),
    nullary main_c_26 (constantI S_ 32 0#32),
    unary main_c_26 main_v101 (broadcastInDim S128 ![] bcast_S_S128 : (⟨S_, .i32⟩ : BufTy).Contents (Elt F) → (⟨S128, .i32⟩ : BufTy).Contents (Elt F)),
    binary main_v100 main_v101 main_v102 (cmpi .slt : (⟨S128, .i32⟩ : BufTy).Contents (Elt F) → (⟨S128, .i32⟩ : BufTy).Contents (Elt F) → (⟨S128, .i1⟩ : BufTy).Contents (Elt F)),
    nullary main_c_27 (constantI S_ 32 511#32),
    unary main_c_27 main_v103 (broadcastInDim S128 ![] bcast_S_S128 : (⟨S_, .i32⟩ : BufTy).Contents (Elt F) → (⟨S128, .i32⟩ : BufTy).Contents (Elt F)),
    binary main_v100 main_v103 main_v104 (addi : (⟨S128, .i32⟩ : BufTy).Contents (Elt F) → (⟨S128, .i32⟩ : BufTy).Contents (Elt F) → (⟨S128, .i32⟩ : BufTy).Contents (Elt F)),
    ternary main_v102 main_v104 main_v100 main_v105 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    nullary main_c_28 (constantI S_ 32 0#32),
    unary main_c_28 main_v106 (broadcastInDim S128 ![] bcast_S_S128 : (⟨S_, .i32⟩ : BufTy).Contents (Elt F) → (⟨S128, .i32⟩ : BufTy).Contents (Elt F)),
    binary main_v82 main_v106 main_v107 (cmpi .slt : (⟨S128, .i32⟩ : BufTy).Contents (Elt F) → (⟨S128, .i32⟩ : BufTy).Contents (Elt F) → (⟨S128, .i1⟩ : BufTy).Contents (Elt F)),
    nullary main_c_29 (constantI S_ 32 128#32),
    unary main_c_29 main_v108 (broadcastInDim S128 ![] bcast_S_S128 : (⟨S_, .i32⟩ : BufTy).Contents (Elt F) → (⟨S128, .i32⟩ : BufTy).Contents (Elt F)),
    binary main_v82 main_v108 main_v109 (addi : (⟨S128, .i32⟩ : BufTy).Contents (Elt F) → (⟨S128, .i32⟩ : BufTy).Contents (Elt F) → (⟨S128, .i32⟩ : BufTy).Contents (Elt F)),
    ternary main_v107 main_v109 main_v82 main_v110 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v105 main_v111 (broadcastInDim S128x1 ![0] bcast_S128_S128x1_0 : (⟨S128, .i32⟩ : BufTy).Contents (Elt F) → (⟨S128x1, .i32⟩ : BufTy).Contents (Elt F)),
    unary main_v110 main_v112 (broadcastInDim S128x1 ![0] bcast_S128_S128x1_0 : (⟨S128, .i32⟩ : BufTy).Contents (Elt F) → (⟨S128x1, .i32⟩ : BufTy).Contents (Elt F)),
    binary main_v111 main_v112 main_v113 ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F)),
    binary main_v42 main_v113 main_v114 ((fun x i => Host.gather gather_S511x128x1024_S128x2_S128x1024_1_01_n_n_01_1_111024 x i) : (⟨S511x128x1024, .f32⟩ : BufTy).Contents (Elt F) → (⟨S128x2, .i32⟩ : BufTy).Contents (Elt F) → (⟨S128x1024, .f32⟩ : BufTy).Contents (Elt F)) ]

/-- The program's operations 147 to 149: difference, its absolute value, product. -/
abbrev opsE : List (HloOp τ sig (Elt F)) :=
  [ binary main_v98 main_v114 main_v115 (subf : (⟨S128x1024, .f32⟩ : BufTy).Contents (Elt F) → (⟨S128x1024, .f32⟩ : BufTy).Contents (Elt F) → (⟨S128x1024, .f32⟩ : BufTy).Contents (Elt F)),
    unary main_v115 main_v116 (Host.absf : (⟨S128x1024, .f32⟩ : BufTy).Contents (Elt F) → (⟨S128x1024, .f32⟩ : BufTy).Contents (Elt F)),
    binary main_v98 main_v114 main_v117 (mulf : (⟨S128x1024, .f32⟩ : BufTy).Contents (Elt F) → (⟨S128x1024, .f32⟩ : BufTy).Contents (Elt F) → (⟨S128x1024, .f32⟩ : BufTy).Contents (Elt F)) ]

/-- The program's operation 150: the four blocks side by side. -/
abbrev opsN : List (HloOp τ sig (Elt F)) :=
  [ nary ![main_v98, main_v114, main_v116, main_v117] main_v118 (fun u => concatenate S128x4096 1 [⟨S128x1024, u 0⟩, ⟨S128x1024, u 1⟩, ⟨S128x1024, u 2⟩, ⟨S128x1024, u 3⟩] concatenates_S128x1024_S128x1024_S128x1024_S128x1024_S128x4096_d1) ]

/-- The program's operations 151 to 161: the classifier head. -/
abbrev opsG : List (HloOp τ sig (Elt F)) :=
  [ binary main_v118 main_arg7 main_v119 ((fun l r => Host.dotGeneral dot_S128x4096_S4096x1024_S128x1024_1_0_0_1_n_n none l r) : (⟨S128x4096, .f32⟩ : BufTy).Contents (Elt F) → (⟨S4096x1024, .f32⟩ : BufTy).Contents (Elt F) → (⟨S128x1024, .f32⟩ : BufTy).Contents (Elt F)),
    unary main_arg8 main_v120 (broadcastInDim S1x1024 ![1] bcast_S1024_S1x1024_1 : (⟨S1024, .f32⟩ : BufTy).Contents (Elt F) → (⟨S1x1024, .f32⟩ : BufTy).Contents (Elt F)),
    unary main_v120 main_v121 (broadcastInDim S128x1024 ![0, 1] bcast_S1x1024_S128x1024_0_1 : (⟨S1x1024, .f32⟩ : BufTy).Contents (Elt F) → (⟨S128x1024, .f32⟩ : BufTy).Contents (Elt F)),
    binary main_v119 main_v121 main_v122 (addf : (⟨S128x1024, .f32⟩ : BufTy).Contents (Elt F) → (⟨S128x1024, .f32⟩ : BufTy).Contents (Elt F) → (⟨S128x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S128x1024, .f32⟩) main_call0_v0) (broadcastInDim S128x1024 ![] bcast_S_S128x1024),
    TRef.binary (TRef.of (T := ⟨S128x1024, .f32⟩) main_v122) (TRef.of (T := ⟨S128x1024, .f32⟩) main_call0_v0) (TRef.of (T := ⟨S128x1024, .f32⟩) main_v123) maximumf,
    binary main_v123 main_arg9 main_v124 ((fun l r => Host.dotGeneral dot_S128x1024_S1024x3_S128x3_1_0_0_1_n_n none l r) : (⟨S128x1024, .f32⟩ : BufTy).Contents (Elt F) → (⟨S1024x3, .f32⟩ : BufTy).Contents (Elt F) → (⟨S128x3, .f32⟩ : BufTy).Contents (Elt F)),
    unary main_arg10 main_v125 (broadcastInDim S1x3 ![1] bcast_S3_S1x3_1 : (⟨S3, .f32⟩ : BufTy).Contents (Elt F) → (⟨S1x3, .f32⟩ : BufTy).Contents (Elt F)),
    unary main_v125 main_v126 (broadcastInDim S128x3 ![0, 1] bcast_S1x3_S128x3_0_1 : (⟨S1x3, .f32⟩ : BufTy).Contents (Elt F) → (⟨S128x3, .f32⟩ : BufTy).Contents (Elt F)),
    binary main_v124 main_v126 main_v127 (addf : (⟨S128x3, .f32⟩ : BufTy).Contents (Elt F) → (⟨S128x3, .f32⟩ : BufTy).Contents (Elt F) → (⟨S128x3, .f32⟩ : BufTy).Contents (Elt F)) ]

/-- The program's operations 162 to 243: the statistics. -/
abbrev opsZ : List (HloOp τ sig (Elt F)) :=
  [ nullary main_v128 (iotaInDim S511 32 0),
    unary main_v128 main_v129 (broadcastInDim S511x1 ![0] bcast_S511_S511x1_0 : (⟨S511, .i32⟩ : BufTy).Contents (Elt F) → (⟨S511x1, .i32⟩ : BufTy).Contents (Elt F)),
    unary main_v77 main_v130 (broadcastInDim S1x128 ![1] bcast_S128_S1x128_1 : (⟨S128, .i32⟩ : BufTy).Contents (Elt F) → (⟨S1x128, .i32⟩ : BufTy).Contents (Elt F)),
    unary main_v129 main_v131 (broadcastInDim S511x128 ![0, 1] bcast_S511x1_S511x128_0_1 : (⟨S511x1, .i32⟩ : BufTy).Contents (Elt F) → (⟨S511x128, .i32⟩ : BufTy).Contents (Elt F)),
    unary main_v130 main_v132 (broadcastInDim S511x128 ![0, 1] bcast_S1x128_S511x128_0_1 : (⟨S1x128, .i32⟩ : BufTy).Contents (Elt F) → (⟨S511x128, .i32⟩ : BufTy).Contents (Elt F)),
    binary main_v131 main_v132 main_v133 (cmpi .slt : (⟨S511x128, .i32⟩ : BufTy).Contents (Elt F) → (⟨S511x128, .i32⟩ : BufTy).Contents (Elt F) → (⟨S511x128, .i1⟩ : BufTy).Contents (Elt F)),
    unary main_v133 main_v134 (uitofp .f32 : (⟨S511x128, .i1⟩ : BufTy).Contents (Elt F) → (⟨S511x128, .f32⟩ : BufTy).Contents (Elt F)),
    unary main_v77 main_v135 (sitofp .f32 : (⟨S128, .i32⟩ : BufTy).Contents (Elt F) → (⟨S128, .f32⟩ : BufTy).Contents (Elt F)),
    unary main_v28 main_v136 ((extractStridedSlice S511x128x1 ![0, 0, 0] · slices_S511x128x2_S511x128x1_0_0_0) : (⟨S511x128x2, .f32⟩ : BufTy).Contents (Elt F) → (⟨S511x128x1, .f32⟩ : BufTy).Contents (Elt F)),
    reshape main_v136 main_v137 rfl shapeCasts_S511x128x1_S511x128,
    unary main_v28 main_v138 ((extractStridedSlice S511x128x1 ![0, 0, 1] · slices_S511x128x2_S511x128x1_0_0_1) : (⟨S511x128x2, .f32⟩ : BufTy).Contents (Elt F) → (⟨S511x128x1, .f32⟩ : BufTy).Contents (Elt F)),
    reshape main_v138 main_v139 rfl shapeCasts_S511x128x1_S511x128,
    binary main_v137 main_v134 main_v140 (mulf : (⟨S511x128, .f32⟩ : BufTy).Contents (Elt F) → (⟨S511x128, .f32⟩ : BufTy).Contents (Elt F) → (⟨S511x128, .f32⟩ : BufTy).Contents (Elt F)),
    nullary main_cst_30 (constant S_ .f32 0x00000000#32),
    binary main_v140 main_cst_30 main_v141 ((fun x v => Host.reduceAdd x v reducesTo_S511x128_S128_d0 h_S_) : (⟨S511x128, .f32⟩ : BufTy).Contents (Elt F) → (⟨S_, .f32⟩ : BufTy).Contents (Elt F) → (⟨S128, .f32⟩ : BufTy).Contents (Elt F)),
    binary main_v141 main_v135 main_v142 (Host.divf : (⟨S128, .f32⟩ : BufTy).Contents (Elt F) → (⟨S128, .f32⟩ : BufTy).Contents (Elt F) → (⟨S128, .f32⟩ : BufTy).Contents (Elt F)),
    binary main_v139 main_v134 main_v143 (mulf : (⟨S511x128, .f32⟩ : BufTy).Contents (Elt F) → (⟨S511x128, .f32⟩ : BufTy).Contents (Elt F) → (⟨S511x128, .f32⟩ : BufTy).Contents (Elt F)),
    nullary main_cst_31 (constant S_ .f32 0x00000000#32),
    binary main_v143 main_cst_31 main_v144 ((fun x v => Host.reduceAdd x v reducesTo_S511x128_S128_d0 h_S_) : (⟨S511x128, .f32⟩ : BufTy).Contents (Elt F) → (⟨S_, .f32⟩ : BufTy).Contents (Elt F) → (⟨S128, .f32⟩ : BufTy).Contents (Elt F)),
    nullary main_cst_32 (constant S_ .f32 0x3F800000#32),
    unary main_cst_32 main_v145 (broadcastInDim S128 ![] bcast_S_S128 : (⟨S_, .f32⟩ : BufTy).Contents (Elt F) → (⟨S128, .f32⟩ : BufTy).Contents (Elt F)),
    binary main_v144 main_v145 main_v146 (addf : (⟨S128, .f32⟩ : BufTy).Contents (Elt F) → (⟨S128, .f32⟩ : BufTy).Contents (Elt F) → (⟨S128, .f32⟩ : BufTy).Contents (Elt F)),
    binary main_v146 main_v135 main_v147 (Host.divf : (⟨S128, .f32⟩ : BufTy).Contents (Elt F) → (⟨S128, .f32⟩ : BufTy).Contents (Elt F) → (⟨S128, .f32⟩ : BufTy).Contents (Elt F)),
    binary main_v137 main_v139 main_v148 (subf : (⟨S511x128, .f32⟩ : BufTy).Contents (Elt F) → (⟨S511x128, .f32⟩ : BufTy).Contents (Elt F) → (⟨S511x128, .f32⟩ : BufTy).Contents (Elt F)),
    binary main_v148 main_v148 main_v149 (mulf : (⟨S511x128, .f32⟩ : BufTy).Contents (Elt F) → (⟨S511x128, .f32⟩ : BufTy).Contents (Elt F) → (⟨S511x128, .f32⟩ : BufTy).Contents (Elt F)),
    binary main_v149 main_v134 main_v150 (mulf : (⟨S511x128, .f32⟩ : BufTy).Contents (Elt F) → (⟨S511x128, .f32⟩ : BufTy).Contents (Elt F) → (⟨S511x128, .f32⟩ : BufTy).Contents (Elt F)),
    nullary main_cst_33 (constant S_ .f32 0x00000000#32),
    binary main_v150 main_cst_33 main_v151 ((fun x v => Host.reduceAdd x v reducesTo_S511x128_S128_d0 h_S_) : (⟨S511x128, .f32⟩ : BufTy).Contents (Elt F) → (⟨S_, .f32⟩ : BufTy).Contents (Elt F) → (⟨S128, .f32⟩ : BufTy).Contents (Elt F)),
    unary main_v151 main_v152 (Host.sqrt : (⟨S128, .f32⟩ : BufTy).Contents (Elt F) → (⟨S128, .f32⟩ : BufTy).Contents (Elt F)),
    binary main_v152 main_v135 main_v153 (Host.divf : (⟨S128, .f32⟩ : BufTy).Contents (Elt F) → (⟨S128, .f32⟩ : BufTy).Contents (Elt F) → (⟨S128, .f32⟩ : BufTy).Contents (Elt F)),
    binary main_v142 main_v147 main_v154 (subf : (⟨S128, .f32⟩ : BufTy).Contents (Elt F) → (⟨S128, .f32⟩ : BufTy).Contents (Elt F) → (⟨S128, .f32⟩ : BufTy).Contents (Elt F)),
    TRef.binary (TRef.of (T := ⟨S128, .f32⟩) main_v154) (TRef.of (T := ⟨S128, .f32⟩) main_v154) (TRef.of (T := ⟨S128, .f32⟩) main_call1_v0) mulf,
    TRef.nullary (TRef.of (T := ⟨S_, .f32⟩) main_call1_cst) (constant S_ .f32 0x00000000#32),
    TRef.binary (TRef.of (T := ⟨S128, .f32⟩) main_call1_v0) (TRef.of (T := ⟨S_, .f32⟩) main_call1_cst) (TRef.of (T := ⟨S_, .f32⟩) main_call1_v1) (fun x v => Host.reduceAdd x v reducesTo_S128_S_d0 h_S_),
    TRef.unary (TRef.of (T := ⟨S_, .f32⟩) main_call1_v1) (TRef.of (T := ⟨S_, .f32⟩) main_v155) Host.sqrt,
    nullary main_cst_34 (constant S_ .f32 0x43000000#32),
    binary main_v155 main_cst_34 main_v156 (Host.divf : (⟨S_, .f32⟩ : BufTy).Contents (Elt F) → (⟨S_, .f32⟩ : BufTy).Contents (Elt F) → (⟨S_, .f32⟩ : BufTy).Contents (Elt F)),
    nullary main_cst_35 (constant S_ .f32 0x00000000#32),
    binary main_v153 main_cst_35 main_v157 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    nullary main_cst_36 (constant S_ .f32 0x43000000#32),
    binary main_v157 main_cst_36 main_v158 (Host.divf : (⟨S_, .f32⟩ : BufTy).Contents (Elt F) → (⟨S_, .f32⟩ : BufTy).Contents (Elt F) → (⟨S_, .f32⟩ : BufTy).Contents (Elt F)),
    nullary main_v159 (iotaInDim S511 32 0),
    unary main_v159 main_v160 (broadcastInDim S511x1 ![0] bcast_S511_S511x1_0 : (⟨S511, .i32⟩ : BufTy).Contents (Elt F) → (⟨S511x1, .i32⟩ : BufTy).Contents (Elt F)),
    unary main_v81 main_v161 (broadcastInDim S1x128 ![1] bcast_S128_S1x128_1 : (⟨S128, .i32⟩ : BufTy).Contents (Elt F) → (⟨S1x128, .i32⟩ : BufTy).Contents (Elt F)),
    unary main_v160 main_v162 (broadcastInDim S511x128 ![0, 1] bcast_S511x1_S511x128_0_1 : (⟨S511x1, .i32⟩ : BufTy).Contents (Elt F) → (⟨S511x128, .i32⟩ : BufTy).Contents (Elt F)),
    unary main_v161 main_v163 (broadcastInDim S511x128 ![0, 1] bcast_S1x128_S511x128_0_1 : (⟨S1x128, .i32⟩ : BufTy).Contents (Elt F) → (⟨S511x128, .i32⟩ : BufTy).Contents (Elt F)),
    binary main_v162 main_v163 main_v164 (cmpi .slt : (⟨S511x128, .i32⟩ : BufTy).Contents (Elt F) → (⟨S511x128, .i32⟩ : BufTy).Contents (Elt F) → (⟨S511x128, .i1⟩ : BufTy).Contents (Elt F)),
    unary main_v164 main_v165 (uitofp .f32 : (⟨S511x128, .i1⟩ : BufTy).Contents (Elt F) → (⟨S511x128, .f32⟩ : BufTy).Contents (Elt F)),
    unary main_v81 main_v166 (sitofp .f32 : (⟨S128, .i32⟩ : BufTy).Contents (Elt F) → (⟨S128, .f32⟩ : BufTy).Contents (Elt F)),
    unary main_v57 main_v167 ((extractStridedSlice S511x128x1 ![0, 0, 0] · slices_S511x128x2_S511x128x1_0_0_0) : (⟨S511x128x2, .f32⟩ : BufTy).Contents (Elt F) → (⟨S511x128x1, .f32⟩ : BufTy).Contents (Elt F)),
    reshape main_v167 main_v168 rfl shapeCasts_S511x128x1_S511x128,
    unary main_v57 main_v169 ((extractStridedSlice S511x128x1 ![0, 0, 1] · slices_S511x128x2_S511x128x1_0_0_1) : (⟨S511x128x2, .f32⟩ : BufTy).Contents (Elt F) → (⟨S511x128x1, .f32⟩ : BufTy).Contents (Elt F)),
    reshape main_v169 main_v170 rfl shapeCasts_S511x128x1_S511x128,
    binary main_v168 main_v165 main_v171 (mulf : (⟨S511x128, .f32⟩ : BufTy).Contents (Elt F) → (⟨S511x128, .f32⟩ : BufTy).Contents (Elt F) → (⟨S511x128, .f32⟩ : BufTy).Contents (Elt F)),
    nullary main_cst_37 (constant S_ .f32 0x00000000#32),
    binary main_v171 main_cst_37 main_v172 ((fun x v => Host.reduceAdd x v reducesTo_S511x128_S128_d0 h_S_) : (⟨S511x128, .f32⟩ : BufTy).Contents (Elt F) → (⟨S_, .f32⟩ : BufTy).Contents (Elt F) → (⟨S128, .f32⟩ : BufTy).Contents (Elt F)),
    binary main_v172 main_v166 main_v173 (Host.divf : (⟨S128, .f32⟩ : BufTy).Contents (Elt F) → (⟨S128, .f32⟩ : BufTy).Contents (Elt F) → (⟨S128, .f32⟩ : BufTy).Contents (Elt F)),
    binary main_v170 main_v165 main_v174 (mulf : (⟨S511x128, .f32⟩ : BufTy).Contents (Elt F) → (⟨S511x128, .f32⟩ : BufTy).Contents (Elt F) → (⟨S511x128, .f32⟩ : BufTy).Contents (Elt F)),
    nullary main_cst_38 (constant S_ .f32 0x00000000#32),
    binary main_v174 main_cst_38 main_v175 ((fun x v => Host.reduceAdd x v reducesTo_S511x128_S128_d0 h_S_) : (⟨S511x128, .f32⟩ : BufTy).Contents (Elt F) → (⟨S_, .f32⟩ : BufTy).Contents (Elt F) → (⟨S128, .f32⟩ : BufTy).Contents (Elt F)),
    nullary main_cst_39 (constant S_ .f32 0x3F800000#32),
    unary main_cst_39 main_v176 (broadcastInDim S128 ![] bcast_S_S128 : (⟨S_, .f32⟩ : BufTy).Contents (Elt F) → (⟨S128, .f32⟩ : BufTy).Contents (Elt F)),
    binary main_v175 main_v176 main_v177 (addf : (⟨S128, .f32⟩ : BufTy).Contents (Elt F) → (⟨S128, .f32⟩ : BufTy).Contents (Elt F) → (⟨S128, .f32⟩ : BufTy).Contents (Elt F)),
    binary main_v177 main_v166 main_v178 (Host.divf : (⟨S128, .f32⟩ : BufTy).Contents (Elt F) → (⟨S128, .f32⟩ : BufTy).Contents (Elt F) → (⟨S128, .f32⟩ : BufTy).Contents (Elt F)),
    binary main_v168 main_v170 main_v179 (subf : (⟨S511x128, .f32⟩ : BufTy).Contents (Elt F) → (⟨S511x128, .f32⟩ : BufTy).Contents (Elt F) → (⟨S511x128, .f32⟩ : BufTy).Contents (Elt F)),
    binary main_v179 main_v179 main_v180 (mulf : (⟨S511x128, .f32⟩ : BufTy).Contents (Elt F) → (⟨S511x128, .f32⟩ : BufTy).Contents (Elt F) → (⟨S511x128, .f32⟩ : BufTy).Contents (Elt F)),
    binary main_v180 main_v165 main_v181 (mulf : (⟨S511x128, .f32⟩ : BufTy).Contents (Elt F) → (⟨S511x128, .f32⟩ : BufTy).Contents (Elt F) → (⟨S511x128, .f32⟩ : BufTy).Contents (Elt F)),
    nullary main_cst_40 (constant S_ .f32 0x00000000#32),
    binary main_v181 main_cst_40 main_v182 ((fun x v => Host.reduceAdd x v reducesTo_S511x128_S128_d0 h_S_) : (⟨S511x128, .f32⟩ : BufTy).Contents (Elt F) → (⟨S_, .f32⟩ : BufTy).Contents (Elt F) → (⟨S128, .f32⟩ : BufTy).Contents (Elt F)),
    unary main_v182 main_v183 (Host.sqrt : (⟨S128, .f32⟩ : BufTy).Contents (Elt F) → (⟨S128, .f32⟩ : BufTy).Contents (Elt F)),
    binary main_v183 main_v166 main_v184 (Host.divf : (⟨S128, .f32⟩ : BufTy).Contents (Elt F) → (⟨S128, .f32⟩ : BufTy).Contents (Elt F) → (⟨S128, .f32⟩ : BufTy).Contents (Elt F)),
    binary main_v173 main_v178 main_v185 (subf : (⟨S128, .f32⟩ : BufTy).Contents (Elt F) → (⟨S128, .f32⟩ : BufTy).Contents (Elt F) → (⟨S128, .f32⟩ : BufTy).Contents (Elt F)),
    TRef.binary (TRef.of (T := ⟨S128, .f32⟩) main_v185) (TRef.of (T := ⟨S128, .f32⟩) main_v185) (TRef.of (T := ⟨S128, .f32⟩) main_call2_v0) mulf,
    TRef.nullary (TRef.of (T := ⟨S_, .f32⟩) main_call2_cst) (constant S_ .f32 0x00000000#32),
    TRef.binary (TRef.of (T := ⟨S128, .f32⟩) main_call2_v0) (TRef.of (T := ⟨S_, .f32⟩) main_call2_cst) (TRef.of (T := ⟨S_, .f32⟩) main_call2_v1) (fun x v => Host.reduceAdd x v reducesTo_S128_S_d0 h_S_),
    TRef.unary (TRef.of (T := ⟨S_, .f32⟩) main_call2_v1) (TRef.of (T := ⟨S_, .f32⟩) main_v186) Host.sqrt,
    nullary main_cst_41 (constant S_ .f32 0x43000000#32),
    binary main_v186 main_cst_41 main_v187 (Host.divf : (⟨S_, .f32⟩ : BufTy).Contents (Elt F) → (⟨S_, .f32⟩ : BufTy).Contents (Elt F) → (⟨S_, .f32⟩ : BufTy).Contents (Elt F)),
    nullary main_cst_42 (constant S_ .f32 0x00000000#32),
    binary main_v184 main_cst_42 main_v188 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    nullary main_cst_43 (constant S_ .f32 0x43000000#32),
    binary main_v188 main_cst_43 main_v189 (Host.divf : (⟨S_, .f32⟩ : BufTy).Contents (Elt F) → (⟨S_, .f32⟩ : BufTy).Contents (Elt F) → (⟨S_, .f32⟩ : BufTy).Contents (Elt F)) ]

set_option maxRecDepth 65536 in
/-- The program's list is its eight stretches in order. -/
theorem ops_eq : (ops (F := F)) = opsA ++ opsB ++ opsC ++ opsD ++ opsE ++ opsN ++ opsG ++ opsZ := rfl

/-- The contents after two stretches are the contents after the second, from the contents after the first. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- Four blocks side by side depend on the blocks only. -/
theorem cat4_congr {α : Type} {t : Shape} {a : Fin t.rank} {s1 s2 s3 s4 : Shape}
    {h : Shape.Concatenates [s1, s2, s3, s4] t a}
    {u u' : s1.Idx → α} {v v' : s2.Idx → α} {w w' : s3.Idx → α} {z z' : s4.Idx → α}
    (hu : u = u') (hv : v = v') (hw : w = w') (hz : z = z') :
    concatenate t a [⟨s1, u⟩, ⟨s2, v⟩, ⟨s3, w⟩, ⟨s4, z⟩] h = concatenate t a [⟨s1, u'⟩, ⟨s2, v'⟩, ⟨s3, w'⟩, ⟨s4, z'⟩] h := by
  subst hu hv hw hz; rfl

set_option maxRecDepth 262144 in
set_option maxHeartbeats 40000000 in
/-- After the first stretch the first array's encoder rows are the stage's. -/
theorem LA13 (W : Valuation τ sig (Elt F)) :
    StableHlo.after (opsA : List (HloOp τ sig (Elt F))) W (Proc.devRef .tc main_v13) = val_main_v13 (F := F) (W (Proc.devRef .tc main_arg0)) (W (Proc.devRef .tc main_arg2)) (W (Proc.devRef .tc main_arg3)) (W (Proc.devRef .tc main_arg4)) := by
  after_results_cat
  rfl

set_option maxRecDepth 262144 in
set_option maxHeartbeats 40000000 in
/-- The same after two stretches: the second writes elsewhere. -/
theorem LB13 (W : Valuation τ sig (Elt F)) :
    StableHlo.after (opsA ++ opsB : List (HloOp τ sig (Elt F))) W (Proc.devRef .tc main_v13) = val_main_v13 (F := F) (W (Proc.devRef .tc main_arg0)) (W (Proc.devRef .tc main_arg2)) (W (Proc.devRef .tc main_arg3)) (W (Proc.devRef .tc main_arg4)) := by
  rw [after_append]
  generalize hP : StableHlo.after (opsA : List (HloOp τ sig (Elt F))) W = P
  after_results_cat
  subst hP
  rw [LA13]
  try rfl

set_option maxRecDepth 262144 in
set_option maxHeartbeats 40000000 in
/-- After two stretches the second array's encoder rows are the stage's. -/
theorem LB42 (W : Valuation τ sig (Elt F)) :
    StableHlo.after (opsA ++ opsB : List (HloOp τ sig (Elt F))) W (Proc.devRef .tc main_v42) = val_main_v42 (F := F) (W (Proc.devRef .tc main_arg1)) (W (Proc.devRef .tc main_arg2)) (W (Proc.devRef .tc main_arg3)) (W (Proc.devRef .tc main_arg4)) := by
  rw [after_append]
  generalize hP : StableHlo.after (opsA : List (HloOp τ sig (Elt F))) W = P
  after_results_cat
  subst hP
  try simp only [after_append]
  try after_results_simp
  try rfl

set_option maxRecDepth 262144 in
set_option maxHeartbeats 40000000 in
/-- The same after three stretches. -/
theorem LC42 (W : Valuation τ sig (Elt F)) :
    StableHlo.after (opsA ++ opsB ++ opsC : List (HloOp τ sig (Elt F))) W (Proc.devRef .tc main_v42) = val_main_v42 (F := F) (W (Proc.devRef .tc main_arg1)) (W (Proc.devRef .tc main_arg2)) (W (Proc.devRef .tc main_arg3)) (W (Proc.devRef .tc main_arg4)) := by
  rw [after_append]
  generalize hP : StableHlo.after (opsA ++ opsB : List (HloOp τ sig (Elt F))) W = P
  after_results_cat
  subst hP
  rw [LB42]
  try rfl

set_option maxRecDepth 262144 in
set_option maxHeartbeats 40000000 in
/-- After three stretches the first array's last-step rows are the stage's. -/
theorem LC98 (W : Valuation τ sig (Elt F)) :
    StableHlo.after (opsA ++ opsB ++ opsC : List (HloOp τ sig (Elt F))) W (Proc.devRef .tc main_v98) = val_main_v98 (F := F) (W (Proc.devRef .tc main_arg0)) (W (Proc.devRef .tc main_arg2)) (W (Proc.devRef .tc main_arg3)) (W (Proc.devRef .tc main_arg4)) := by
  rw [after_append]
  generalize hP : StableHlo.after (opsA ++ opsB : List (HloOp τ sig (Elt F))) W = P
  after_results_cat
  subst hP
  rw [LB13]
  try simp only [after_append]
  try after_results_simp
  try rfl

set_option maxRecDepth 262144 in
set_option maxHeartbeats 40000000 in
/-- The same after four stretches. -/
theorem LD98 (W : Valuation τ sig (Elt F)) :
    StableHlo.after (opsA ++ opsB ++ opsC ++ opsD : List (HloOp τ sig (Elt F))) W (Proc.devRef .tc main_v98) = val_main_v98 (F := F) (W (Proc.devRef .tc main_arg0)) (W (Proc.devRef .tc main_arg2)) (W (Proc.devRef .tc main_arg3)) (W (Proc.devRef .tc main_arg4)) := by
  rw [after_append]
  generalize hP : StableHlo.after (opsA ++ opsB ++ opsC : List (HloOp τ sig (Elt F))) W = P
  after_results_cat
  subst hP
  rw [LC98]
  try rfl

set_option maxRecDepth 262144 in
set_option maxHeartbeats 40000000 in
/-- After four stretches the second array's last-step rows are the stage's. -/
theorem LD114 (W : Valuation τ sig (Elt F)) :
    StableHlo.after (opsA ++ opsB ++ opsC ++ opsD : List (HloOp τ sig (Elt F))) W (Proc.devRef .tc main_v114) = val_main_v114 (F := F) (W (Proc.devRef .tc main_arg1)) (W (Proc.devRef .tc main_arg2)) (W (Proc.devRef .tc main_arg3)) (W (Proc.devRef .tc main_arg4)) := by
  rw [after_append]
  generalize hP : StableHlo.after (opsA ++ opsB ++ opsC : List (HloOp τ sig (Elt F))) W = P
  after_results_cat
  subst hP
  rw [LC42]
  try simp only [after_append]
  try after_results_simp
  try rfl

set_option maxRecDepth 262144 in
set_option maxHeartbeats 40000000 in
/-- The first array's last-step rows after five stretches. -/
theorem LE98 (W : Valuation τ sig (Elt F)) :
    StableHlo.after (opsA ++ opsB ++ opsC ++ opsD ++ opsE : List (HloOp τ sig (Elt F))) W (Proc.devRef .tc main_v98) = val_main_v98 (F := F) (W (Proc.devRef .tc main_arg0)) (W (Proc.devRef .tc main_arg2)) (W (Proc.devRef .tc main_arg3)) (W (Proc.devRef .tc main_arg4)) := by
  rw [after_append]
  generalize hP : StableHlo.after (opsA ++ opsB ++ opsC ++ opsD : List (HloOp τ sig (Elt F))) W = P
  after_results_cat
  subst hP
  rw [LD98]
  try rfl

set_option maxRecDepth 262144 in
set_option maxHeartbeats 40000000 in
/-- The second array's last-step rows after five stretches. -/
theorem LE114 (W : Valuation τ sig (Elt F)) :
    StableHlo.after (opsA ++ opsB ++ opsC ++ opsD ++ opsE : List (HloOp τ sig (Elt F))) W (Proc.devRef .tc main_v114) = val_main_v114 (F := F) (W (Proc.devRef .tc main_arg1)) (W (Proc.devRef .tc main_arg2)) (W (Proc.devRef .tc main_arg3)) (W (Proc.devRef .tc main_arg4)) := by
  rw [after_append]
  generalize hP : StableHlo.after (opsA ++ opsB ++ opsC ++ opsD : List (HloOp τ sig (Elt F))) W = P
  after_results_cat
  subst hP
  rw [LD114]
  try rfl

set_option maxRecDepth 262144 in
set_option maxHeartbeats 40000000 in
/-- The absolute difference of the two last-step rows after five stretches. -/
theorem LE116 (W : Valuation τ sig (Elt F)) :
    StableHlo.after (opsA ++ opsB ++ opsC ++ opsD ++ opsE : List (HloOp τ sig (Elt F))) W (Proc.devRef .tc main_v116) = val_main_v116 (F := F) (W (Proc.devRef .tc main_arg0)) (W (Proc.devRef .tc main_arg1)) (W (Proc.devRef .tc main_arg2)) (W (Proc.devRef .tc main_arg3)) (W (Proc.devRef .tc main_arg4)) := by
  rw [after_append]
  generalize hP : StableHlo.after (opsA ++ opsB ++ opsC ++ opsD : List (HloOp τ sig (Elt F))) W = P
  after_results_cat
  subst hP
  rw [LD98, LD114]
  try rfl

set_option maxRecDepth 262144 in
set_option maxHeartbeats 40000000 in
/-- The product of the two last-step rows after five stretches. -/
theorem LE117 (W : Valuation τ sig (Elt F)) :
    StableHlo.after (opsA ++ opsB ++ opsC ++ opsD ++ opsE : List (HloOp τ sig (Elt F))) W (Proc.devRef .tc main_v117) = val_main_v117 (F := F) (W (Proc.devRef .tc main_arg0)) (W (Proc.devRef .tc main_arg1)) (W (Proc.devRef .tc main_arg2)) (W (Proc.devRef .tc main_arg3)) (W (Proc.devRef .tc main_arg4)) := by
  rw [after_append]
  generalize hP : StableHlo.after (opsA ++ opsB ++ opsC ++ opsD : List (HloOp τ sig (Elt F))) W = P
  after_results_cat
  subst hP
  rw [LD98, LD114]
  try rfl

set_option maxRecDepth 262144 in
set_option maxHeartbeats 40000000 in
/-- After the first six stretches the head's input row block is the stage's: the four blocks are, by the equations before. -/
theorem LN118 (W : Valuation τ sig (Elt F)) :
    StableHlo.after (opsA ++ opsB ++ opsC ++ opsD ++ opsE ++ opsN : List (HloOp τ sig (Elt F))) W (Proc.devRef .tc main_v118) = val_main_v118 (F := F) (W (Proc.devRef .tc main_arg0)) (W (Proc.devRef .tc main_arg1)) (W (Proc.devRef .tc main_arg2)) (W (Proc.devRef .tc main_arg3)) (W (Proc.devRef .tc main_arg4)) := by
  rw [after_append]
  simp only [after_cons, after_nil]
  rw [nary_result]
  unfold val_main_v118
  exact cat4_congr (LE98 W) (LE114 W) (LE116 W) (LE117 W)

set_option maxRecDepth 262144 in
set_option maxHeartbeats 40000000 in
/-- After seven stretches the classifier head's output is the stage's. -/
theorem LG127 (W : Valuation τ sig (Elt F)) :
    StableHlo.after (opsA ++ opsB ++ opsC ++ opsD ++ opsE ++ opsN ++ opsG : List (HloOp τ sig (Elt F))) W (Proc.devRef .tc main_v127) = val_main_v127 (F := F) (W (Proc.devRef .tc main_arg0)) (W (Proc.devRef .tc main_arg1)) (W (Proc.devRef .tc main_arg2)) (W (Proc.devRef .tc main_arg3)) (W (Proc.devRef .tc main_arg4)) (W (Proc.devRef .tc main_arg7)) (W (Proc.devRef .tc main_arg8)) (W (Proc.devRef .tc main_arg9)) (W (Proc.devRef .tc main_arg10)) := by
  rw [after_append]
  generalize hP : StableHlo.after (opsA ++ opsB ++ opsC ++ opsD ++ opsE ++ opsN : List (HloOp τ sig (Elt F))) W = P
  after_results_cat
  subst hP
  rw [LN118]
  try simp only [after_append]
  try after_results_simp
  try rfl

set_option maxRecDepth 262144 in
set_option maxHeartbeats 40000000 in
/-- THE RESULT: after the whole program the head's output is the stage val_main_v127 of the launched arguments. -/
theorem v127_eq (W : Valuation τ sig (Elt F)) :
    StableHlo.after (ops (F := F)) W (Proc.devRef .tc main_v127) = val_main_v127 (F := F) (W (Proc.devRef .tc main_arg0)) (W (Proc.devRef .tc main_arg1)) (W (Proc.devRef .tc main_arg2)) (W (Proc.devRef .tc main_arg3)) (W (Proc.devRef .tc main_arg4)) (W (Proc.devRef .tc main_arg7)) (W (Proc.devRef .tc main_arg8)) (W (Proc.devRef .tc main_arg9)) (W (Proc.devRef .tc main_arg10)) := by
  rw [ops_eq, after_append]
  generalize hP : StableHlo.after (opsA ++ opsB ++ opsC ++ opsD ++ opsE ++ opsN ++ opsG : List (HloOp τ sig (Elt F))) W = P
  after_results_cat
  subst hP
  rw [LG127]
  try rfl

end Cert.ReferenceIdeal.RefEq127
end
-- ==== Proof.RefRun.lean ====
/-
  The reference's run. Its program is a list of 244 host operations; every weakly fair execution of it terminates
  without a fault, and each buffer then holds what the operations, folded over the launch memory, leave in it. Read
  one operation at a time, the five result buffers hold the stages of the classifier output and of the four
  statistics as functions of the launched arguments, and no operation writes an argument.
-/
import proofs.«100950_j13675175871137_2_alg».proof.Proof.RefReadP
import proofs.«100950_j13675175871137_2_alg».proof.Proof.RefEqStats
import proofs.«100950_j13675175871137_2_alg».proof.Proof.RefEq127

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- From any memory with zero counters every weakly fair execution of the reference terminates, each result at its
    stage of the launched arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v127) = val_main_v127 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v156) = val_main_v156 (F := Ideal) (m ((c.tc : Thread nD τ).loc main_arg0)) (m ((c.tc : Thread nD τ).loc main_arg2)) (m ((c.tc : Thread nD τ).loc main_arg5)) (m ((c.tc : Thread nD τ).loc main_arg6))
      ∧ r.2.mem ((c.tc : Thread nD τ).loc main_v187) = val_main_v187 (F := Ideal) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_v158) = val_main_v158 (F := Ideal) (m ((c.tc : Thread nD τ).loc main_arg0)) (m ((c.tc : Thread nD τ).loc main_arg2)) (m ((c.tc : Thread nD τ).loc main_arg5)) (m ((c.tc : Thread nD τ).loc main_arg6))
      ∧ r.2.mem ((c.tc : Thread nD τ).loc main_v189) = val_main_v189 (F := Ideal) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c main_v127).trans (Cert.ReferenceIdeal.RefEq127.v127_eq _),
     (h c main_v156).trans (Cert.ReferenceIdeal.RefEqStats.v156_eq _),
     (h c main_v187).trans (Cert.ReferenceIdeal.RefEqStats.v187_eq _),
     (h c main_v158).trans (Cert.ReferenceIdeal.RefEqStats.v158_eq _),
     (h c main_v189).trans (Cert.ReferenceIdeal.RefEqStats.v189_eq _),
     (h c main_arg0).trans (Cert.ReferenceIdeal.RefEqStats.arg0_eq _),
     (h c main_arg1).trans (Cert.ReferenceIdeal.RefEqStats.arg1_eq _),
     (h c main_arg2).trans (Cert.ReferenceIdeal.RefEqStats.arg2_eq _),
     (h c main_arg3).trans (Cert.ReferenceIdeal.RefEqStats.arg3_eq _),
     (h c main_arg4).trans (Cert.ReferenceIdeal.RefEqStats.arg4_eq _),
     (h c main_arg5).trans (Cert.ReferenceIdeal.RefEqStats.arg5_eq _),
     (h c main_arg6).trans (Cert.ReferenceIdeal.RefEqStats.arg6_eq _),
     (h c main_arg7).trans (Cert.ReferenceIdeal.RefEqStats.arg7_eq _),
     (h c main_arg8).trans (Cert.ReferenceIdeal.RefEqStats.arg8_eq _),
     (h c main_arg9).trans (Cert.ReferenceIdeal.RefEqStats.arg9_eq _),
     (h c main_arg10).trans (Cert.ReferenceIdeal.RefEqStats.arg10_eq _)⟩)
    (run_seq scopedRefs_eq scopedSems_eq defs main (fun _ => ops) main_eq (fun _ => ops_sub) m ρ)

end Cert.ReferenceIdeal.RefRun

end
-- ==== Proof.Spec.lean ====
/-
  The functions both programs compute, index by index, over the extended reals, and the integer vectors both
  derive from a token array.

  A token v selects row v of the embedding table. Its encoder row is tanh (emb v · W + b), its action row the
  softmax over two logits emb v · Wa + ba. The classifier head maps a row u of 4096 features to three logits,
  max (u · W1 + b1) 0 · W2 + b2.

  From a token array of 256 time rows and 128 columns: the number of zero tokens of a column, the step count
  2 * (256 - zeros - 1) - 1 and the last step's row steps - 1, in 32-bit integer arithmetic, and the token at an
  extended time t < 511 (the array followed by its first 255 rows).
-/
import proofs.«100950_j13675175871137_2_alg».proof.Pre_finite_inputs
import Idealize.ShloMosaic.PureOps.Ideal
import Idealize.ShloMosaic.Lib.ValueIdx

noncomputable section

namespace Cert.Spec

open Idealize.ShloMosaic Idealize.ShloMosaic.ValueIdx

/-- A matrix of extended reals over literal extents. -/
abbrev Mat (a b : Nat) : Type := (⟨2, ![a, b]⟩ : Shape).Idx → EReal

/-- The encoder row of a token row x (1024 features): tanh (x · W + b) at hidden unit h. -/
def top (x : Fin 1024 → EReal) (W : Mat 1024 1024) (b : Fin 1024 → EReal) (h : Fin 1024) : EReal :=
  Ideal.tanh ((∑ e : Fin 1024, x e * W (ix2 e h)) + b h)

/-- The two action logits of a token row x. -/
def logit (x : Fin 1024 → EReal) (Wa : Mat 1024 2) (ba : Fin 2 → EReal) (a : Fin 2) : EReal :=
  (∑ e : Fin 1024, x e * Wa (ix2 e a)) + ba a

/-- The softmax of two numbers, shifted by their maximum. -/
def softmax2 (z : Fin 2 → EReal) (a : Fin 2) : EReal :=
  Ideal.div (Ideal.exp (z a - max (z 0) (z 1)))
    (Ideal.exp (z 0 - max (z 0) (z 1)) + Ideal.exp (z 1 - max (z 0) (z 1)))

/-- The action row of a token row x. -/
def act (x : Fin 1024 → EReal) (Wa : Mat 1024 2) (ba : Fin 2 → EReal) (a : Fin 2) : EReal :=
  softmax2 (logit x Wa ba) a

/-- The hidden layer of the classifier head at unit h: max (u · W1 + b1) 0. -/
def hid (u : Fin 4096 → EReal) (W1 : Mat 4096 1024) (b1 : Fin 1024 → EReal) (h : Fin 1024) : EReal :=
  max ((∑ k : Fin 4096, u k * W1 (ix2 k h)) + b1 h) 0

/-- The classifier head: hid · W2 + b2 at class c. -/
def head (u : Fin 4096 → EReal) (W1 : Mat 4096 1024) (b1 : Fin 1024 → EReal) (W2 : Mat 1024 3)
    (b2 : Fin 3 → EReal) (c : Fin 3) : EReal :=
  (∑ h : Fin 1024, hid u W1 b1 h * W2 (ix2 h c)) + b2 c

/-- The head's input row from two encoder rows: f1, f2, |f1 - f2|, f1 * f2 side by side. -/
def feat (f1 f2 : Fin 1024 → EReal) (k : Fin 4096) : EReal :=
  if h0 : k.val < 1024 then f1 ⟨k.val, h0⟩
  else if h1 : k.val < 2048 then f2 ⟨k.val - 1024, by omega⟩
  else if h2 : k.val < 3072 then
    max (f1 ⟨k.val - 2048, by omega⟩ - f2 ⟨k.val - 2048, by omega⟩)
      (-(f1 ⟨k.val - 2048, by omega⟩ - f2 ⟨k.val - 2048, by omega⟩))
  else f1 ⟨k.val - 3072, by omega⟩ * f2 ⟨k.val - 3072, by omega⟩

section Ints

open Cert.Pre_finite_inputs Cert.Pre_finite_inputs.Facts

variable [Cert.Pre_finite_inputs.Facts]

/-- Per column, how many of the 256 tokens are zero. -/
def zeros (x : IVec S256x128 32) : IVec S128 32 :=
  Host.reduce IntOp.addi
    (extui 32 (cmpi .eq x (broadcastInDim S256x128 ![] bcast_S_S256x128 (constantI S_ 32 0#32))) natLt_1_32)
    (constantI S_ 32 0#32) reducesTo_S256x128_S128_d0 h_S_

/-- Per column, the step count 2 * (256 - zeros - 1) - 1. -/
def steps (x : IVec S256x128 32) : IVec S128 32 :=
  subi (muli (broadcastInDim S128 ![] bcast_S_S128 (constantI S_ 32 2#32))
      (subi (subi (broadcastInDim S128 ![] bcast_S_S128 (constantI S_ 32 256#32)) (zeros x))
        (broadcastInDim S128 ![] bcast_S_S128 (constantI S_ 32 1#32))))
    (broadcastInDim S128 ![] bcast_S_S128 (constantI S_ 32 1#32))

/-- Per column, the last step's row: steps - 1. -/
def lastRow (x : IVec S256x128 32) : IVec S128 32 :=
  subi (steps x) (broadcastInDim S128 ![] bcast_S_S128 (constantI S_ 32 1#32))

end Ints

/-- The token at extended time t < 511 of column b: the array's row t for t < 256, its row t - 256 after. -/
def tokAt (x : (⟨2, ![256, 128]⟩ : Shape).Idx → BitVec 32) (t : Fin 511) (b : Fin 128) : BitVec 32 :=
  if h : t.val < 256 then x (ix2 ⟨t.val, h⟩ b) else x (ix2 ⟨t.val - 256, by omega⟩ b)

/-- The embedding row a token word selects (total: the word's value modulo the table's 32000 rows; under HTok the value itself). -/
def embRow (emb : Mat 32000 1024) (v : BitVec 32) : Fin 1024 → EReal :=
  fun e => emb (ix2 (⟨v.toNat % 32000, Nat.mod_lt _ (by decide)⟩ : Fin 32000) e)

/-- The extended-time row a row word selects (total: modulo 511; under HRow the value itself). -/
def rowOf (r : BitVec 32) : Fin 511 := ⟨r.toNat % 511, Nat.mod_lt _ (by decide)⟩

/-- Every token is a row of the embedding table. -/
def HTok (x : (⟨2, ![256, 128]⟩ : Shape).Idx → BitVec 32) : Prop :=
  ∀ i, 0 ≤ (x i).toInt ∧ (x i).toInt < 32000

/-- Every column's last-step row is one of the 511 extended-time rows. -/
def HRow [Cert.Pre_finite_inputs.Facts] (x : IVec Cert.Pre_finite_inputs.S256x128 32) : Prop :=
  ∀ b : Cert.Pre_finite_inputs.S128.Idx, 0 ≤ (lastRow x b).toInt ∧ (lastRow x b).toInt < 511

end Cert.Spec

end
-- ==== Proof.PreFacts.lean ====
/-
  The extended precondition, decoded, and small facts about a signed 32-bit word in a range.

  The predicate is a conjunction of thirteen bits, each the conjunction over all entries of an array of a test
  bit. A conjunction of bits is one iff every bit is one, and a signed comparison bit is one iff the inequality
  holds between the signed values. The first four bits say: every token of either array is in [0, 32000), and
  every column's last-step row 2 * (256 - zeros - 1) - 2 is in [0, 511), where the row is computed in 32-bit
  arithmetic exactly as the specification's lastRow.

  A signed word in [0, n) is its unsigned value, is not below zero, and is below n; adding one to a word in
  [0, 511) does not wrap, so a column's step count (its last-step row plus one) is at most 511.
-/
import proofs.«100950_j13675175871137_2_alg».proof.Defs
import proofs.«100950_j13675175871137_2_alg».proof.Proof.Gen.Pre_finite_inputs
import proofs.«100950_j13675175871137_2_alg».proof.Proof.Spec
import Idealize.ShloMosaic.Lib.ReduceAll

set_option maxRecDepth 16384

noncomputable section

namespace Cert.PreFacts

open Idealize.ShloMosaic Idealize.ShloMosaic.TcCoe Idealize.SL.Sem
open Cert.Spec Cert.Pre_finite_inputs

instance : Subsingleton S_.Idx := ⟨fun a b => funext fun d => d.elim0⟩

theorem and_l {c d : BitVec 1} (h : IntOp.andi c d = 1#1) : c = 1#1 := (IntOp.andi_eq_one.1 h).1
theorem and_r {c d : BitVec 1} (h : IntOp.andi c d = 1#1) : d = 1#1 := (IntOp.andi_eq_one.1 h).2

theorem toInt_0 : (0#32 : BitVec 32).toInt = 0 := by decide
theorem toInt_32000 : (32000#32 : BitVec 32).toInt = 32000 := by decide
theorem toInt_511 : (511#32 : BitVec 32).toInt = 511 := by decide

section
variable [Cert.Pre_finite_inputs.Facts]

/-- A token array all of whose range tests came out 1 has every token in [0, 32000). -/
theorem htok_of_all (x : IVec S256x128 32) (j : S_.Idx)
    (h : Host.reduce IntOp.andi
      (andi (cmpi .sge x (broadcastInDim S256x128 ![] Facts.bcast_S_S256x128 (constantI S_ 32 0#32)))
        (cmpi .slt x (broadcastInDim S256x128 ![] Facts.bcast_S_S256x128 (constantI S_ 32 32000#32))))
      (constantI S_ 1 1#1) Facts.reducesTo_S256x128_S_d0_1 Facts.h_S_ j = 1#1) : HTok x := by
  intro i
  have hi := Host.reduce_andi_all _ _ _ _ j h i
  have h0 : (0#32 : BitVec 32).toInt ≤ (x i).toInt := IntOp.cmpi_sge.1 (and_l hi)
  have h1 : (x i).toInt < (32000#32 : BitVec 32).toInt := IntOp.cmpi_slt.1 (and_r hi)
  rw [toInt_0] at h0
  rw [toInt_32000] at h1
  exact ⟨h0, h1⟩

/-- A token array whose last-step rows all passed the two range tests has every last-step row in [0, 511). -/
theorem hrow_of_all (x : IVec S256x128 32) (j : S_.Idx)
    (h : Host.reduce IntOp.andi
      (andi (cmpi .sge (lastRow x) (broadcastInDim S128 ![] Facts.bcast_S_S128 (constantI S_ 32 0#32)))
        (cmpi .slt (lastRow x) (broadcastInDim S128 ![] Facts.bcast_S_S128 (constantI S_ 32 511#32))))
      (constantI S_ 1 1#1) Facts.reducesTo_S128_S_d0 Facts.h_S_ j = 1#1) : HRow x := by
  intro b
  have hb := Host.reduce_andi_all _ _ _ _ j h b
  have h0 : (0#32 : BitVec 32).toInt ≤ (lastRow x b).toInt := IntOp.cmpi_sge.1 (and_l hb)
  have h1 : (lastRow x b).toInt < (511#32 : BitVec 32).toInt := IntOp.cmpi_slt.1 (and_r hb)
  rw [toInt_0] at h0
  rw [toInt_511] at h1
  exact ⟨h0, h1⟩

theorem of_fn {F : FTy → Type} [FloatOps F] (x0 x1 : IVec S256x128 32) (a2 : FVec F S32000x1024 .f32) (a3 : FVec F S1024x1024 .f32)
    (a4 : FVec F S1024 .f32) (a5 : FVec F S1024x2 .f32) (a6 : FVec F S2 .f32)
    (a7 : FVec F S4096x1024 .f32) (a8 : FVec F S1024 .f32) (a9 : FVec F S1024x3 .f32)
    (a10 : FVec F S3 .f32)
    (h : fn (F := F) x0 x1 a2 a3 a4 a5 a6 a7 a8 a9 a10 = fun _ => 1#1) :
    HTok x0 ∧ HTok x1 ∧ HRow x0 ∧ HRow x1 := by
  have e := congrFun h ValueIdx.ix0
  have e1 := and_l e
  have e2 := and_l e1
  have e3 := and_l e2
  have e4 := and_l e3
  have e5 := and_l e4
  have e6 := and_l e5
  have e7 := and_l e6
  have e8 := and_l e7
  have e9 := and_l e8
  have h81 := and_r e9
  have e10 := and_l e9
  have h46 := and_r e10
  have e11 := and_l e10
  have h11 := and_r e11
  have h5 := and_l e11
  exact ⟨htok_of_all x0 _ h5, htok_of_all x1 _ h11, hrow_of_all x0 _ h46, hrow_of_all x1 _ h81⟩

end

/-- THE PRECONDITION DECODED: on every device the two token arrays hold table rows, and every column's
    last-step row is an extended-time row. -/
theorem of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    HTok (m ((c.tc : Thread Cert.KernelIdeal.nD Cert.KernelIdeal.τ).loc Cert.KernelIdeal.main_arg0))
    ∧ HTok (m ((c.tc : Thread Cert.KernelIdeal.nD Cert.KernelIdeal.τ).loc Cert.KernelIdeal.main_arg1))
    ∧ HRow (m ((c.tc : Thread Cert.KernelIdeal.nD Cert.KernelIdeal.τ).loc Cert.KernelIdeal.main_arg0))
    ∧ HRow (m ((c.tc : Thread Cert.KernelIdeal.nD Cert.KernelIdeal.τ).loc Cert.KernelIdeal.main_arg1)) :=
  of_fn _ _ _ _ _ _ _ _ _ _ _ (h c)

/-- The same of the reference's launch memory. -/
theorem of_pre_ref (m : (ℓ : Loc Cert.ReferenceIdeal.nD Cert.ReferenceIdeal.τ Cert.ReferenceIdeal.sig) → Buf (Elt Ideal) ℓ)
    (h : Cert.Pre_ReferenceIdeal (hPre_finite_inputs := Cert.Pre_finite_inputs.Gen.facts) m) (c : Dev Cert.ReferenceIdeal.nD) :
    HTok (m ((c.tc : Thread Cert.ReferenceIdeal.nD Cert.ReferenceIdeal.τ).loc Cert.ReferenceIdeal.main_arg0))
    ∧ HTok (m ((c.tc : Thread Cert.ReferenceIdeal.nD Cert.ReferenceIdeal.τ).loc Cert.ReferenceIdeal.main_arg1))
    ∧ HRow (m ((c.tc : Thread Cert.ReferenceIdeal.nD Cert.ReferenceIdeal.τ).loc Cert.ReferenceIdeal.main_arg0))
    ∧ HRow (m ((c.tc : Thread Cert.ReferenceIdeal.nD Cert.ReferenceIdeal.τ).loc Cert.ReferenceIdeal.main_arg1)) :=
  of_fn _ _ _ _ _ _ _ _ _ _ _ (h c)

/-! ## A signed word in a range -/

theorem bit_eq_zero : ∀ c : BitVec 1, ¬ c = 1#1 → c = 0#1 := by decide

section Word

variable (i : BitVec 32)

/-- A nonnegative signed word is its unsigned value. -/
theorem toNat_eq_toInt (h0 : 0 ≤ i.toInt) : (i.toNat : Int) = i.toInt := by
  have := i.isLt
  rw [BitVec.toInt_eq_toNat_cond] at h0 ⊢
  split at h0 <;> split <;> omega

/-- A signed word in [0, n) is below n unsigned. -/
theorem toNat_lt (n : Nat) (h0 : 0 ≤ i.toInt) (h : i.toInt < n) : i.toNat < n := by
  have := toNat_eq_toInt i h0
  omega

/-- A nonnegative word is not below zero. -/
theorem slt_zero (h0 : 0 ≤ i.toInt) : IntOp.cmpi .slt i 0#32 = 0#1 :=
  bit_eq_zero _ fun h => by
    have := IntOp.cmpi_slt.1 h
    rw [toInt_0] at this
    omega

/-- A nonnegative word is at least zero. -/
theorem sge_zero (h0 : 0 ≤ i.toInt) : IntOp.cmpi .sge i 0#32 = 1#1 :=
  IntOp.cmpi_sge.2 (by rw [toInt_0]; exact h0)

/-- A word below n, signed, with n a positive signed constant. -/
theorem slt_ofNat (n : Nat) (hn : n < 2 ^ 31) (h : i.toInt < n) : IntOp.cmpi .slt i (BitVec.ofNat 32 n) = 1#1 :=
  IntOp.cmpi_slt.2 (by
    have e : (BitVec.ofNat 32 n).toInt = n := by
      rw [BitVec.toInt_eq_toNat_cond, BitVec.toNat_ofNat]
      have : n % 2 ^ 32 = n := Nat.mod_eq_of_lt (by omega)
      rw [this]; split <;> omega
    rw [e]; exact h)

/-- Index normalisation leaves a nonnegative index alone. -/
theorem select_nonneg (n : BitVec 32) (h0 : 0 ≤ i.toInt) :
    Scalar.select (IntOp.cmpi .slt i 0#32) (IntOp.addi i n) i = i := by
  rw [slt_zero i h0]; rfl

/-- The successor of a word in [0, 511), signed. -/
theorem toInt_succ (h0 : 0 ≤ i.toInt) (h1 : i.toInt < 511) : (i + 1#32).toInt = i.toInt + 1 := by
  have hn := toNat_lt i 511 h0 h1
  have he := toNat_eq_toInt i h0
  have hs : (i + 1#32).toNat = i.toNat + 1 := by
    rw [BitVec.toNat_add]
    show (i.toNat + 1) % 2 ^ 32 = i.toNat + 1
    exact Nat.mod_eq_of_lt (by omega)
  rw [BitVec.toInt_eq_toNat_cond, hs]
  split <;> omega

/-- The successor of a row in [0, 511) is not above 511: the 512th time row is masked. -/
theorem not_slt_succ (h0 : 0 ≤ i.toInt) (h1 : i.toInt < 511) : IntOp.cmpi .slt 511#32 (i + 1#32) = 0#1 :=
  bit_eq_zero _ fun h => by
    have := IntOp.cmpi_slt.1 h
    rw [toInt_511, toInt_succ i h0 h1] at this
    omega

end Word

/-! ## The columns of a token array -/

section Column

variable [Cert.Pre_finite_inputs.Facts]

/-- The step count of a column is its last-step row plus one. -/
theorem steps_eq (x : IVec S256x128 32) (b : S128.Idx) : steps x b = lastRow x b + 1#32 := by
  show steps x b = (steps x b - 1#32) + 1#32
  rw [BitVec.sub_add_cancel]

/-- Under HRow the step count of a column is in [1, 511], signed. -/
theorem steps_toInt (x : IVec S256x128 32) (hr : HRow x) (b : S128.Idx) :
    (steps x b).toInt = (lastRow x b).toInt + 1 := by
  rw [steps_eq]; exact toInt_succ _ (hr b).1 (hr b).2

/-- Under HRow no column's step count is above 511: the 512th time row is masked. -/
theorem not_slt_steps (x : IVec S256x128 32) (hr : HRow x) (b : S128.Idx) :
    IntOp.cmpi .slt 511#32 (steps x b) = 0#1 := by
  rw [steps_eq]; exact not_slt_succ _ (hr b).1 (hr b).2

/-- Under HRow a column's last-step row is below 511, unsigned. -/
theorem lastRow_toNat_lt (x : IVec S256x128 32) (hr : HRow x) (b : S128.Idx) : (lastRow x b).toNat < 511 :=
  toNat_lt _ 511 (hr b).1 (hr b).2

/-- Under HRow the extended-time row a column's last-step word selects is the word's value. -/
theorem rowOf_lastRow_val (x : IVec S256x128 32) (hr : HRow x) (b : S128.Idx) :
    (rowOf (lastRow x b)).val = (lastRow x b).toNat :=
  Nat.mod_eq_of_lt (lastRow_toNat_lt x hr b)

end Column

/-- Under HTok a token is below 32000, unsigned. -/
theorem tok_toNat_lt (x : (⟨2, ![256, 128]⟩ : Shape).Idx → BitVec 32) (ht : HTok x) (i : (⟨2, ![256, 128]⟩ : Shape).Idx) :
    (x i).toNat < 32000 :=
  toNat_lt _ 32000 (ht i).1 (ht i).2

/-- Under HTok the token at an extended time is in [0, 32000), signed. -/
theorem tokAt_range (x : (⟨2, ![256, 128]⟩ : Shape).Idx → BitVec 32) (ht : HTok x) (t : Fin 511) (b : Fin 128) :
    0 ≤ (tokAt x t b).toInt ∧ (tokAt x t b).toInt < 32000 := by
  unfold tokAt
  split
  · exact ht _
  · exact ht _

/-- Under HTok the token at an extended time is below 32000, unsigned. -/
theorem tokAt_toNat_lt (x : (⟨2, ![256, 128]⟩ : Shape).Idx → BitVec 32) (ht : HTok x) (t : Fin 511) (b : Fin 128) :
    (tokAt x t b).toNat < 32000 :=
  toNat_lt _ 32000 (tokAt_range x ht t b).1 (tokAt_range x ht t b).2

/-- The embedding row of a word below 32000 is the table's row at the word's value. -/
theorem embRow_of_lt (emb : Mat 32000 1024) (v : BitVec 32) (hv : v.toNat < 32000) (e : Fin 1024) :
    embRow emb v e = emb (ValueIdx.ix2 (⟨v.toNat, hv⟩ : Fin 32000) e) := by
  unfold embRow
  congr 2
  exact Fin.ext (Nat.mod_eq_of_lt hv)

end Cert.PreFacts

end
-- ==== Proof.LibKeepdims.lean ====
/-
  Layout operations of a keep-dimensions reduction read at an index, over literal matrix shapes: a vector
  cast to a column, a column broadcast along a second axis, and the sum along either axis of a matrix as a
  sum over a finite index type.
-/
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tail
open Idealize.ShloMosaic Idealize.ShloMosaic.ValueIdx

section Layout
variable {α : Type}

/-- An [a] array cast to the column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Sums
variable {φ : FTy}

/-- The sum along the second axis of a matrix, read at row k: the sum of the row's entries. -/
theorem sumAxis1_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (k : Fin a) :
    multiReduction .add [1] ⟨1, ![a]⟩ src acc h hφ hacc (ix1 k) = ∑ c : Fin b, src (ix2 k c) :=
  (Ideal.multiReduction_add_single src acc h hφ hacc (ix1 k)).trans
    (Finset.sum_congr rfl fun c _ => congrArg src (funext fun ax => Fin.ext (by
      match ax with
      | ⟨0, _⟩ => rfl
      | ⟨1, _⟩ => rfl)))

/-- The sum along the first axis of a matrix, read at column c: the sum of the column's entries. -/
theorem sumAxis0_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (funext fun ax => Fin.ext (by
      match ax with
      | ⟨0, _⟩ => rfl
      | ⟨1, _⟩ => rfl)))

end Sums

end Cert.KernelIdeal.Tail
end
-- ==== Proof.Pay.lean ====
/-
  The three blocks the kernel's two regions store, read at an index, as the specification's closed forms.

  Region 0 stores, for a block of 1024 embedding rows, the encoder block tanh (x · W + b) and the action block, the
  softmax over two logits x · Wa + ba taken along the lanes (each row shifted by its maximum, exponentiated, divided by
  the row's sum). Region 1 stores the classifier head max (u · W1 + b1) 0 · W2 + b2 of 128 feature rows.

  Over the extended reals a change of float format is the identity, a product accumulated into the zero block is the
  plain sum over the contracted axis, a maximum folded from -∞ over two lanes is the larger of the two entries, and a
  sum folded from zero over two lanes is the sum of the two entries.
-/
import proofs.«100950_j13675175871137_2_alg».proof.Proof.Gen.KernelIdeal.Skeleton
import proofs.«100950_j13675175871137_2_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«100950_j13675175871137_2_alg».proof.Proof.LibKeepdims

set_option synthInstance.maxSize 4096

noncomputable section

namespace Cert.KernelIdeal.Pay

open Cert.KernelIdeal Cert.KernelIdeal.Gen Cert.Spec Idealize.ShloMosaic Idealize.ShloMosaic.ValueIdx

/-- The hyperbolic tangent of a block at an index is that of the element. -/
theorem tanh_apply {s : Shape} {φ : FTy} (a : FVec Ideal s φ) (i : s.Idx) : tanh a i = Ideal.tanh (a i) := rfl
/-- The exponential of a block at an index is that of the element. -/
theorem exp_apply {s : Shape} {φ : FTy} (a : FVec Ideal s φ) (i : s.Idx) : exp a i = Ideal.exp (a i) := rfl

/-! ## Products of blocks at an index -/

/-! ### The [1024, 1024] × [1024, 1024] product -/

theorem mm_top_l0 (i : S1024x1024.Idx) (c : dot_S1024x1024_S1024x1024_S1024x1024_1_0_0_1_n_n.contr.Idx) : (dot_S1024x1024_S1024x1024_S1024x1024_1_0_0_1_n_n.lhsIdx i c 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem mm_top_l1 (i : S1024x1024.Idx) (c : dot_S1024x1024_S1024x1024_S1024x1024_1_0_0_1_n_n.contr.Idx) : (dot_S1024x1024_S1024x1024_S1024x1024_1_0_0_1_n_n.lhsIdx i c 1).val = (c ⟨0, by decide⟩).val :=
  dot_S1024x1024_S1024x1024_S1024x1024_1_0_0_1_n_n.lhsIdx_val_of_single rfl i c
theorem mm_top_r0 (i : S1024x1024.Idx) (c : dot_S1024x1024_S1024x1024_S1024x1024_1_0_0_1_n_n.contr.Idx) : (dot_S1024x1024_S1024x1024_S1024x1024_1_0_0_1_n_n.rhsIdx i c 0).val = (c ⟨0, by decide⟩).val :=
  dot_S1024x1024_S1024x1024_S1024x1024_1_0_0_1_n_n.rhsIdx_val_of_single rfl i c
theorem mm_top_r1 (i : S1024x1024.Idx) (c : dot_S1024x1024_S1024x1024_S1024x1024_1_0_0_1_n_n.contr.Idx) : (dot_S1024x1024_S1024x1024_S1024x1024_1_0_0_1_n_n.rhsIdx i c 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product of a [1024, 1024] by a [1024, 1024] block into the zero block, at (p, q): the sum over k of the factors' products. -/
theorem mm_top (lhs : FVec Ideal S1024x1024 .bf16) (rhs : FVec Ideal S1024x1024 .bf16) (p : Fin 1024) (q : Fin 1024) :
    matmul dot_S1024x1024_S1024x1024_S1024x1024_1_0_0_1_n_n none lhs rhs (constant (F := Ideal) S1024x1024 .f32 0x00000000#32) (ix2 p q)
      = ∑ k : Fin 1024, lhs (ix2 p k) * rhs (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k :=
    funext fun a => Fin.ext (by
      match a with
      | ⟨0, _⟩ => exact mm_top_l0 _ _
      | ⟨1, _⟩ => exact (mm_top_l1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q :=
    funext fun a => Fin.ext (by
      match a with
      | ⟨0, _⟩ => exact (mm_top_r0 _ _).trans hk
      | ⟨1, _⟩ => exact mm_top_r1 _ _)
  rw [el, er]

/-! ### The [1024, 1024] × [1024, 2] product -/

theorem mm_act_l0 (i : S1024x2.Idx) (c : dot_S1024x1024_S1024x2_S1024x2_1_0_0_1_n_n.contr.Idx) : (dot_S1024x1024_S1024x2_S1024x2_1_0_0_1_n_n.lhsIdx i c 0).val = (i 0).val := by
  unfold DotDims.lhsIdx
  rw [dif_neg (show ¬(0 : Fin S1024x1024.rank) ∈ dot_S1024x1024_S1024x2_S1024x2_1_0_0_1_n_n.lhsBatch by decide),
    dif_pos (show (0 : Fin S1024x1024.rank) ∈ dot_S1024x1024_S1024x2_S1024x2_1_0_0_1_n_n.lhsNonContracting by decide)]
  rfl
theorem mm_act_l1 (i : S1024x2.Idx) (c : dot_S1024x1024_S1024x2_S1024x2_1_0_0_1_n_n.contr.Idx) : (dot_S1024x1024_S1024x2_S1024x2_1_0_0_1_n_n.lhsIdx i c 1).val = (c ⟨0, by decide⟩).val :=
  dot_S1024x1024_S1024x2_S1024x2_1_0_0_1_n_n.lhsIdx_val_of_single rfl i c
theorem mm_act_r0 (i : S1024x2.Idx) (c : dot_S1024x1024_S1024x2_S1024x2_1_0_0_1_n_n.contr.Idx) : (dot_S1024x1024_S1024x2_S1024x2_1_0_0_1_n_n.rhsIdx i c 0).val = (c ⟨0, by decide⟩).val :=
  dot_S1024x1024_S1024x2_S1024x2_1_0_0_1_n_n.rhsIdx_val_of_single rfl i c
theorem mm_act_r1 (i : S1024x2.Idx) (c : dot_S1024x1024_S1024x2_S1024x2_1_0_0_1_n_n.contr.Idx) : (dot_S1024x1024_S1024x2_S1024x2_1_0_0_1_n_n.rhsIdx i c 1).val = (i 1).val := by
  unfold DotDims.rhsIdx
  rw [dif_neg (show ¬(1 : Fin S1024x2.rank) ∈ dot_S1024x1024_S1024x2_S1024x2_1_0_0_1_n_n.rhsBatch by decide),
    dif_pos (show (1 : Fin S1024x2.rank) ∈ dot_S1024x1024_S1024x2_S1024x2_1_0_0_1_n_n.rhsNonContracting by decide)]
  rfl

/-- The product of a [1024, 1024] by a [1024, 2] block into the zero block, at (p, q): the sum over k of the factors' products. -/
theorem mm_act (lhs : FVec Ideal S1024x1024 .bf16) (rhs : FVec Ideal S1024x2 .bf16) (p : Fin 1024) (q : Fin 2) :
    matmul dot_S1024x1024_S1024x2_S1024x2_1_0_0_1_n_n none lhs rhs (constant (F := Ideal) S1024x2 .f32 0x00000000#32) (ix2 p q)
      = ∑ k : Fin 1024, lhs (ix2 p k) * rhs (ix2 k q) := by
  simp only [matmul]
  rw [Ideal.matmul_constant_zero_apply, ← Equiv.sum_comp (contrEquiv1 dot_S1024x1024_S1024x2_S1024x2_1_0_0_1_n_n 1024 rfl rfl).symm]
  refine Finset.sum_congr rfl fun k _ => ?_
  have hk := contrEquiv1_symm_val dot_S1024x1024_S1024x2_S1024x2_1_0_0_1_n_n 1024 rfl rfl k
  have el : dot_S1024x1024_S1024x2_S1024x2_1_0_0_1_n_n.lhsIdx (ix2 p q) ((contrEquiv1 dot_S1024x1024_S1024x2_S1024x2_1_0_0_1_n_n 1024 rfl rfl).symm k) = ix2 p k :=
    funext fun a => Fin.ext (by
      match a with
      | ⟨0, _⟩ => exact mm_act_l0 _ _
      | ⟨1, _⟩ => exact (mm_act_l1 _ _).trans hk)
  have er : dot_S1024x1024_S1024x2_S1024x2_1_0_0_1_n_n.rhsIdx (ix2 p q) ((contrEquiv1 dot_S1024x1024_S1024x2_S1024x2_1_0_0_1_n_n 1024 rfl rfl).symm k) = ix2 k q :=
    funext fun a => Fin.ext (by
      match a with
      | ⟨0, _⟩ => exact (mm_act_r0 _ _).trans hk
      | ⟨1, _⟩ => exact mm_act_r1 _ _)
  rw [el, er]

/-! ### The [128, 4096] × [4096, 1024] product -/

theorem mm_hid_l0 (i : S128x1024.Idx) (c : dot_S128x4096_S4096x1024_S128x1024_1_0_0_1_n_n.contr.Idx) : (dot_S128x4096_S4096x1024_S128x1024_1_0_0_1_n_n.lhsIdx i c 0).val = (i 0).val := by
  unfold DotDims.lhsIdx
  rw [dif_neg (show ¬(0 : Fin S128x4096.rank) ∈ dot_S128x4096_S4096x1024_S128x1024_1_0_0_1_n_n.lhsBatch by decide),
    dif_pos (show (0 : Fin S128x4096.rank) ∈ dot_S128x4096_S4096x1024_S128x1024_1_0_0_1_n_n.lhsNonContracting by decide)]
  rfl
theorem mm_hid_l1 (i : S128x1024.Idx) (c : dot_S128x4096_S4096x1024_S128x1024_1_0_0_1_n_n.contr.Idx) : (dot_S128x4096_S4096x1024_S128x1024_1_0_0_1_n_n.lhsIdx i c 1).val = (c ⟨0, by decide⟩).val :=
  dot_S128x4096_S4096x1024_S128x1024_1_0_0_1_n_n.lhsIdx_val_of_single rfl i c
theorem mm_hid_r0 (i : S128x1024.Idx) (c : dot_S128x4096_S4096x1024_S128x1024_1_0_0_1_n_n.contr.Idx) : (dot_S128x4096_S4096x1024_S128x1024_1_0_0_1_n_n.rhsIdx i c 0).val = (c ⟨0, by decide⟩).val :=
  dot_S128x4096_S4096x1024_S128x1024_1_0_0_1_n_n.rhsIdx_val_of_single rfl i c
theorem mm_hid_r1 (i : S128x1024.Idx) (c : dot_S128x4096_S4096x1024_S128x1024_1_0_0_1_n_n.contr.Idx) : (dot_S128x4096_S4096x1024_S128x1024_1_0_0_1_n_n.rhsIdx i c 1).val = (i 1).val := by
  unfold DotDims.rhsIdx
  rw [dif_neg (show ¬(1 : Fin S4096x1024.rank) ∈ dot_S128x4096_S4096x1024_S128x1024_1_0_0_1_n_n.rhsBatch by decide),
    dif_pos (show (1 : Fin S4096x1024.rank) ∈ dot_S128x4096_S4096x1024_S128x1024_1_0_0_1_n_n.rhsNonContracting by decide)]
  rfl

/-- The product of a [128, 4096] by a [4096, 1024] block into the zero block, at (p, q): the sum over k of the factors' products. -/
theorem mm_hid (lhs : FVec Ideal S128x4096 .bf16) (rhs : FVec Ideal S4096x1024 .bf16) (p : Fin 128) (q : Fin 1024) :
    matmul dot_S128x4096_S4096x1024_S128x1024_1_0_0_1_n_n none lhs rhs (constant (F := Ideal) S128x1024 .f32 0x00000000#32) (ix2 p q)
      = ∑ k : Fin 4096, lhs (ix2 p k) * rhs (ix2 k q) := by
  simp only [matmul]
  rw [Ideal.matmul_constant_zero_apply, ← Equiv.sum_comp (contrEquiv1 dot_S128x4096_S4096x1024_S128x1024_1_0_0_1_n_n 4096 rfl rfl).symm]
  refine Finset.sum_congr rfl fun k _ => ?_
  have hk := contrEquiv1_symm_val dot_S128x4096_S4096x1024_S128x1024_1_0_0_1_n_n 4096 rfl rfl k
  have el : dot_S128x4096_S4096x1024_S128x1024_1_0_0_1_n_n.lhsIdx (ix2 p q) ((contrEquiv1 dot_S128x4096_S4096x1024_S128x1024_1_0_0_1_n_n 4096 rfl rfl).symm k) = ix2 p k :=
    funext fun a => Fin.ext (by
      match a with
      | ⟨0, _⟩ => exact mm_hid_l0 _ _
      | ⟨1, _⟩ => exact (mm_hid_l1 _ _).trans hk)
  have er : dot_S128x4096_S4096x1024_S128x1024_1_0_0_1_n_n.rhsIdx (ix2 p q) ((contrEquiv1 dot_S128x4096_S4096x1024_S128x1024_1_0_0_1_n_n 4096 rfl rfl).symm k) = ix2 k q :=
    funext fun a => Fin.ext (by
      match a with
      | ⟨0, _⟩ => exact (mm_hid_r0 _ _).trans hk
      | ⟨1, _⟩ => exact mm_hid_r1 _ _)
  rw [el, er]

/-! ### The [128, 1024] × [1024, 3] product -/

theorem mm_out_l0 (i : S128x3.Idx) (c : dot_S128x1024_S1024x3_S128x3_1_0_0_1_n_n.contr.Idx) : (dot_S128x1024_S1024x3_S128x3_1_0_0_1_n_n.lhsIdx i c 0).val = (i 0).val := by
  unfold DotDims.lhsIdx
  rw [dif_neg (show ¬(0 : Fin S128x1024.rank) ∈ dot_S128x1024_S1024x3_S128x3_1_0_0_1_n_n.lhsBatch by decide),
    dif_pos (show (0 : Fin S128x1024.rank) ∈ dot_S128x1024_S1024x3_S128x3_1_0_0_1_n_n.lhsNonContracting by decide)]
  rfl
theorem mm_out_l1 (i : S128x3.Idx) (c : dot_S128x1024_S1024x3_S128x3_1_0_0_1_n_n.contr.Idx) : (dot_S128x1024_S1024x3_S128x3_1_0_0_1_n_n.lhsIdx i c 1).val = (c ⟨0, by decide⟩).val :=
  dot_S128x1024_S1024x3_S128x3_1_0_0_1_n_n.lhsIdx_val_of_single rfl i c
theorem mm_out_r0 (i : S128x3.Idx) (c : dot_S128x1024_S1024x3_S128x3_1_0_0_1_n_n.contr.Idx) : (dot_S128x1024_S1024x3_S128x3_1_0_0_1_n_n.rhsIdx i c 0).val = (c ⟨0, by decide⟩).val :=
  dot_S128x1024_S1024x3_S128x3_1_0_0_1_n_n.rhsIdx_val_of_single rfl i c
theorem mm_out_r1 (i : S128x3.Idx) (c : dot_S128x1024_S1024x3_S128x3_1_0_0_1_n_n.contr.Idx) : (dot_S128x1024_S1024x3_S128x3_1_0_0_1_n_n.rhsIdx i c 1).val = (i 1).val := by
  unfold DotDims.rhsIdx
  rw [dif_neg (show ¬(1 : Fin S1024x3.rank) ∈ dot_S128x1024_S1024x3_S128x3_1_0_0_1_n_n.rhsBatch by decide),
    dif_pos (show (1 : Fin S1024x3.rank) ∈ dot_S128x1024_S1024x3_S128x3_1_0_0_1_n_n.rhsNonContracting by decide)]
  rfl

/-- The product of a [128, 1024] by a [1024, 3] block into the zero block, at (p, q): the sum over k of the factors' products. -/
theorem mm_out (lhs : FVec Ideal S128x1024 .bf16) (rhs : FVec Ideal S1024x3 .bf16) (p : Fin 128) (q : Fin 3) :
    matmul dot_S128x1024_S1024x3_S128x3_1_0_0_1_n_n none lhs rhs (constant (F := Ideal) S128x3 .f32 0x00000000#32) (ix2 p q)
      = ∑ k : Fin 1024, lhs (ix2 p k) * rhs (ix2 k q) := by
  simp only [matmul]
  rw [Ideal.matmul_constant_zero_apply, ← Equiv.sum_comp (contrEquiv1 dot_S128x1024_S1024x3_S128x3_1_0_0_1_n_n 1024 rfl rfl).symm]
  refine Finset.sum_congr rfl fun k _ => ?_
  have hk := contrEquiv1_symm_val dot_S128x1024_S1024x3_S128x3_1_0_0_1_n_n 1024 rfl rfl k
  have el : dot_S128x1024_S1024x3_S128x3_1_0_0_1_n_n.lhsIdx (ix2 p q) ((contrEquiv1 dot_S128x1024_S1024x3_S128x3_1_0_0_1_n_n 1024 rfl rfl).symm k) = ix2 p k :=
    funext fun a => Fin.ext (by
      match a with
      | ⟨0, _⟩ => exact mm_out_l0 _ _
      | ⟨1, _⟩ => exact (mm_out_l1 _ _).trans hk)
  have er : dot_S128x1024_S1024x3_S128x3_1_0_0_1_n_n.rhsIdx (ix2 p q) ((contrEquiv1 dot_S128x1024_S1024x3_S128x3_1_0_0_1_n_n 1024 rfl rfl).symm k) = ix2 k q :=
    funext fun a => Fin.ext (by
      match a with
      | ⟨0, _⟩ => exact (mm_out_r0 _ _).trans hk
      | ⟨1, _⟩ => exact mm_out_r1 _ _)
  rw [el, er]

/-! ## The encoder block -/

/-- The encoder block at (p, q): tanh of row p times the weights' column q, plus the bias. -/
theorem pay2_apply (x : Vec Ideal S1024x1024 .f32) (w : Vec Ideal S1024x1024 .bf16) (b : Vec Ideal S1x1024 .f32) (p q : Fin 1024) :
    k0_pay2 (F := Ideal) x w b (ix2 p q) = top (fun e => x (ix2 p e)) w (fun h => b (ix2 0 h)) q := by
  unfold k0_pay2 k0_pay1 top
  rw [truncf_apply, tanh_apply, addf_apply, shapeCast_self, shapeCast_self, shapeCast_self, mm_top, broadcastTo_1b_ab_apply]
  rfl

/-! ### A row's maximum and sum over two lanes, and the column they are kept in -/

/-- The maximum of two extended reals, folded from -∞. -/
theorem fold_max_two (f : Fin 2 → EReal) : (Finset.univ : Finset (Fin 2)).fold max ⊥ f = max (f 0) (f 1) := by
  rw [show (Finset.univ : Finset (Fin 2)) = {0, 1} from rfl, Finset.fold_insert (by decide), Finset.fold_singleton,
    max_bot_right]

/-- The index a lane k inserts into row p. -/
theorem lift_row (h : S1024x2.Reduces [1] S1024) (p : Fin 1024) (k : Fin 2) : h.lift (ix1 p) k = ix2 p k :=
  funext fun a => Fin.ext (by
    match a with
    | ⟨0, _⟩ => rfl
    | ⟨1, _⟩ => rfl)

/-- The maximum along the two lanes, from -∞: the larger of the row's two entries. -/
theorem rowmax (src : FVec Ideal S1024x2 .f32) (h : S1024x2.Reduces [1] S1024) (hφ : FKind.Formats .f32)
    (hacc : (0xFF800000#32 : BitVec 32) = 0xFF800000#32) (p : Fin 1024) :
    multiReduction (F := Ideal) .maximumf [1] S1024 src 0xFF800000#32 h hφ hacc (ix1 p)
      = max (src (ix2 p 0)) (src (ix2 p 1)) := by
  refine (Ideal.multiReduction_maximumf_single src 0xFF800000#32 h hφ hacc (ix1 p)).trans ?_
  have hb : FloatOps.ofBits (F := Ideal) .f32 0xFF800000#32 = (⊥ : EReal) := by
    show Ideal.ofBits .f32 0xFF800000#32 = ⊥
    simp [Ideal.ofBits, Ideal.ieee]
  rw [hb]
  refine (fold_max_two fun k => src (h.lift (ix1 p) k)).trans ?_
  rw [lift_row, lift_row]

/-- The sum along the two lanes, from zero: the sum of the row's two entries. -/
theorem rowsum (src : FVec Ideal S1024x2 .f32) (h : S1024x2.Reduces [1] S1024) (hφ : FKind.Formats .f32)
    (hacc : (0x00000000#32 : BitVec 32) = 0x00000000#32) (p : Fin 1024) :
    multiReduction (F := Ideal) .add [1] S1024 src 0x00000000#32 h hφ hacc (ix1 p)
      = src (ix2 p 0) + src (ix2 p 1) := by
  refine (Ideal.multiReduction_add_single src 0x00000000#32 h hφ hacc (ix1 p)).trans ?_
  refine (Fin.sum_univ_two fun k : Fin 2 => (src (h.lift (ix1 p) k) : EReal)).trans ?_
  rw [lift_row, lift_row]

/-- A row statistic kept as a column and spread over the two lanes reads, at (p, a), the statistic of row p. -/
theorem keep_apply (v : FVec Ideal S1024 .f32) (h1 : S1024.ShapeCasts S1024x1) (h2 : S1024x1.Broadcasts S1024x2)
    (p : Fin 1024) (a : Fin 2) :
    broadcastTo S1024x2 (shapeCast S1024x1 v h1) h2 (ix2 p a) = v (ix1 p) := by
  rw [Cert.KernelIdeal.Tail.broadcastTo_a1_ab_apply, Cert.KernelIdeal.Tail.shapeCast_a_a1_apply]

/-! ### The action block -/

/-- The two logits of row p: the row times the action weights, plus the bias. -/
theorem logits_apply (x : FVec Ideal S1024x1024 .f32) (w : FVec Ideal S1024x2 .bf16) (b : FVec Ideal S1x2 .f32)
    (hc1 : S1024x2.ShapeCasts S1024x2) (hc2 : S1x2.ShapeCasts S1x2) (hb : S1x2.Broadcasts S1024x2)
    (p : Fin 1024) (a : Fin 2) :
    addf (matmul dot_S1024x1024_S1024x2_S1024x2_1_0_0_1_n_n none (k0_pay1 (F := Ideal) x) (shapeCast S1024x2 w hc1)
        (constant (F := Ideal) S1024x2 .f32 0x00000000#32)) (broadcastTo S1024x2 (shapeCast S1x2 b hc2) hb) (ix2 p a)
      = logit (fun e => x (ix2 p e)) w (fun a' => b (ix2 0 a')) a := by
  unfold k0_pay1 logit
  rw [addf_apply, shapeCast_self, shapeCast_self, shapeCast_self, mm_act, broadcastTo_1b_ab_apply]
  rfl

/-- The softmax of a block of logits along its two lanes — each row shifted by its maximum, exponentiated, divided by
    the row's sum — at (p, a): the softmax of row p's two logits. -/
theorem softmax_rows (L : FVec Ideal S1024x2 .f32) (h : S1024x2.Reduces [1] S1024) (hφ : FKind.Formats .f32)
    (hm : (0xFF800000#32 : BitVec 32) = 0xFF800000#32) (hs : (0x00000000#32 : BitVec 32) = 0x00000000#32)
    (h1 : S1024.ShapeCasts S1024x1) (h2 : S1024x1.Broadcasts S1024x2) (p : Fin 1024) (a : Fin 2) :
    divf
        (exp (subf L (broadcastTo S1024x2
          (shapeCast S1024x1 (multiReduction (F := Ideal) .maximumf [1] S1024 L 0xFF800000#32 h hφ hm) h1) h2)))
        (broadcastTo S1024x2
          (shapeCast S1024x1
            (multiReduction (F := Ideal) .add [1] S1024
              (exp (subf L (broadcastTo S1024x2
                (shapeCast S1024x1 (multiReduction (F := Ideal) .maximumf [1] S1024 L 0xFF800000#32 h hφ hm) h1) h2)))
              0x00000000#32 h hφ hs) h1) h2)
        (ix2 p a)
      = softmax2 (fun a' => L (ix2 p a')) a := by
  simp only [divf_apply, exp_apply, subf_apply, keep_apply]
  rw [rowsum]
  simp only [exp_apply, subf_apply, keep_apply]
  rw [rowmax]
  rfl

/-- The action block at (p, a): the softmax of row p's two logits at lane a. -/
theorem pay3_apply (x : Vec Ideal S1024x1024 .f32) (w : Vec Ideal S1024x2 .bf16) (b : Vec Ideal S1x2 .f32) (p : Fin 1024) (a : Fin 2) :
    k0_pay3 (F := Ideal) x w b (ix2 p a) = act (fun e => x (ix2 p e)) w (fun a' => b (ix2 0 a')) a := by
  unfold k0_pay3 act
  refine (softmax_rows _ _ _ _ _ _ _ p a).trans ?_
  exact congrArg (softmax2 · a) (funext fun a' => logits_apply x w b _ _ _ p a')

/-! ### The classifier head -/

/-- The hidden layer at (p, h): row p of the features times the first weights, plus the bias, cut below at zero. -/
theorem hid_apply (u : FVec Ideal S128x4096 .bf16) (w1 : FVec Ideal S4096x1024 .bf16) (b1 : FVec Ideal S1x1024 .f32)
    (hc0 : S128x4096.ShapeCasts S128x4096) (hc1 : S4096x1024.ShapeCasts S4096x1024) (hc2 : S1x1024.ShapeCasts S1x1024)
    (hb : S1x1024.Broadcasts S128x1024) (ht : FTy.bits .bf16 < FTy.bits .f32) (p : Fin 128) (h : Fin 1024) :
    (truncf .bf16
        (maximumf
          (addf (matmul dot_S128x4096_S4096x1024_S128x1024_1_0_0_1_n_n none (shapeCast S128x4096 u hc0)
              (shapeCast S4096x1024 w1 hc1) (constant (F := Ideal) S128x1024 .f32 0x00000000#32))
            (broadcastTo S128x1024 (shapeCast S1x1024 b1 hc2) hb))
          (broadcast S128x1024 (Scalar.ofBits (F := Ideal) .f32 0x00000000#32))) ht : FVec Ideal S128x1024 .bf16) (ix2 p h)
      = hid (fun k => u (ix2 p k)) w1 (fun h' => b1 (ix2 0 h')) h := by
  unfold hid
  rw [truncf_apply, maximumf_apply, broadcast_apply, addf_apply, shapeCast_self, shapeCast_self, shapeCast_self, mm_hid,
    broadcastTo_1b_ab_apply]
  show max _ (Ideal.ofBits .f32 0x00000000#32) = _
  rw [Ideal.ofBits_zero_f32]

/-- The head's block at (p, c): the hidden layer of feature row p times the second weights' column c, plus the bias. -/
theorem pay1_apply (u : Vec Ideal S128x4096 .bf16) (w1 : Vec Ideal S4096x1024 .bf16) (b1 : Vec Ideal S1x1024 .f32) (w2 : Vec Ideal S1024x3 .bf16) (b2 : Vec Ideal S1x3 .f32) (p : Fin 128) (c : Fin 3) :
    k1_pay1 (F := Ideal) u w1 b1 w2 b2 (ix2 p c) = head (fun k => u (ix2 p k)) w1 (fun h => b1 (ix2 0 h)) w2 (fun c' => b2 (ix2 0 c')) c := by
  unfold k1_pay1 head
  rw [addf_apply, mm_out, broadcastTo_1b_ab_apply]
  refine congrArg₂ (· + ·) (Finset.sum_congr rfl fun h _ => ?_) ?_
  · rw [hid_apply, shapeCast_self]
  · rw [shapeCast_self]

end Cert.KernelIdeal.Pay

end
-- ==== Proof.Arr.lean ====
/-
  The three arrays the two regions write, each as one function of the region's input arrays, index by index.

  The first region's grid has 32 points; point t stages rows 1024 t … 1024 t + 1023 of the padded embedding table and
  the weights and biases whole, and writes the same rows of the encoder table (tanh of the affine map of each row) and
  of the action table (the softmax of two logits of each row). The row blocks tile both tables: row r lies in the block
  of point r / 1024. The second region has one point whose blocks are the whole arrays; it writes the classifier head
  of each of the 128 feature rows.
-/
import proofs.«100950_j13675175871137_2_alg».proof.Proof.KIBody
import proofs.«100950_j13675175871137_2_alg».proof.Proof.Pay
import proofs.«100950_j13675175871137_2_alg».proof.Proof.Spec
import Idealize.ShloMosaic.Lib.Pipeline.Value

set_option maxRecDepth 16384

noncomputable section

namespace Cert.KernelIdeal.Arr

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The encoder table as one function of the region's input arrays: row r is the encoder row of row r of the padded embedding table. -/
def topG : S32768x1024.Idx → EReal := fun i =>
  top (fun e => (V c main_v0 : S32768x1024.Idx → EReal) (ix2 (i 0) e)) (V c main_v1) (fun h' => (V c main_v3 : S1x1024.Idx → EReal) (ix2 0 h')) (i 1)

/-- Equal arguments, equal encoder rows. -/
theorem top_congr {x x' : Fin 1024 → EReal} {W W' : Mat 1024 1024} {b b' : Fin 1024 → EReal} {h h' : Fin 1024}
    (hx : x = x') (hW : W = W') (hb : b = b') (hh : h = h') : top x W b h = top x' W' b' h' := by
  subst hx hW hb hh; rfl

/-- The block index of every window of the first region at every grid point: the row-blocked windows move with the point, the others stay. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The embedding block at point t is rows 1024 t … 1024 t + 1023 of the padded table. -/
theorem iblk0_0_apply (t : Fin cfg0.N) (x : S1024x1024.Idx) (k : S32768x1024.Idx)
    (hk0 : (k 0).val = 1024 * t.val + (x 0).val) (hk1 : (k 1).val = (x 1).val) :
    (iblk0 V c 0 t : Vec Ideal S1024x1024 .f32) x = (V c main_v0 : S32768x1024.Idx → EReal) k := by
  obtain ⟨e0, e1, -⟩ := blockIdx0 t
  unfold iblk0
  rw [View.read_apply]
  show V c main_v0 _ = V c main_v0 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 1024 + 1 * (x 1).val = (k 1).val; rw [e1, hk1]; omega

/-- The encoder weights' block is the whole array at every point. -/
theorem iblk0_1_eq (t : Fin cfg0.N) :
    (iblk0 V c 1 t : Vec Ideal S1024x1024 .bf16) = (V c main_v1 : S1024x1024.Idx → EReal) := by
  obtain ⟨-, -, e0, e1, -⟩ := blockIdx0 t
  funext x
  unfold iblk0
  rw [View.read_apply]
  show V c main_v1 _ = V c main_v1 _
  congr 1
  funext a
  apply Fin.ext
  match a with
  | ⟨0, _⟩ => show win0_1.index t (0 : Fin 2) * 1024 + 1 * (x 0).val = (x 0).val; rw [e0]; omega
  | ⟨1, _⟩ => show win0_1.index t (1 : Fin 2) * 1024 + 1 * (x 1).val = (x 1).val; rw [e1]; omega

/-- The encoder bias's block is the whole array at every point. -/
theorem iblk0_2_eq (t : Fin cfg0.N) :
    (iblk0 V c 2 t : Vec Ideal S1x1024 .f32) = (V c main_v3 : S1x1024.Idx → EReal) := by
  obtain ⟨-, -, -, -, e0, e1, -⟩ := blockIdx0 t
  funext x
  unfold iblk0
  rw [View.read_apply]
  show V c main_v3 _ = V c main_v3 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 1024 + 1 * (x 1).val = (x 1).val; rw [e1]; omega

/-- What point t writes back to the encoder table is block t of topG. -/
theorem flushed_top (t : Fin cfg0.N) :
    (dat0 (F := Ideal) V c).flushed 5 t = ((cfg0.win 5).blk t).view.read (Elt Ideal) (topG V c) := by
  show (cfg0.win 5).cut (grid0.coords t) ((dat0 V c).after 5 t) = _
  rw [after0_5]
  obtain ⟨-, -, -, -, -, -, -, -, -, -, e0, e1, -⟩ := blockIdx0 t
  funext j
  obtain ⟨p, q, rfl⟩ : ∃ (p : Fin 1024) (q : Fin 1024), j = ix2 p q := ⟨j 0, j 1, eq_ix2 j⟩
  have hemb : ((cfg0.win 5).blk t).view.emb (ix2 p q) = (ix2 (⟨1024 * t.val + p.val, by have ht : t.val < 32 := Nat.lt_of_lt_of_eq t.isLt N_0; omega⟩ : Fin 32768) q : S32768x1024.Idx) := by
    funext a
    apply Fin.ext
    match a with
    | ⟨0, _⟩ => show win0_5.index t (0 : Fin 2) * 1024 + 1 * p.val = 1024 * t.val + p.val; rw [e0]; omega
    | ⟨1, _⟩ => show win0_5.index t (1 : Fin 2) * 1024 + 1 * q.val = q.val; rw [e1]; omega
  show k0_pay2 (iblk0 V c 0 t) (iblk0 V c 1 t) (iblk0 V c 2 t) (ix2 p q) = topG V c (((cfg0.win 5).blk t).view.emb (ix2 p q))
  refine ((Pay.pay2_apply (iblk0 V c 0 t) (iblk0 V c 1 t) (iblk0 V c 2 t) p q).trans ?_).trans (congrArg (topG V c) hemb.symm)
  exact top_congr (funext fun e => iblk0_0_apply V c t (ix2 p e) _ rfl rfl) (iblk0_1_eq V c t)
    (funext fun h => congrFun (iblk0_2_eq V c t) (ix2 0 h)) rfl

/-- Every row of the encoder table lies in the block of the point its row index divided by 1024 names. -/
theorem cover_top (i : S32768x1024.Idx) :
    ∃ t : Fin cfg0.N, (cfg0.win 5).flush t = true ∧ i ∈ ((cfg0.win 5).blk t).view.set := by
  have h0 : (i 0).val < 32768 := (i 0).isLt
  have h1 : (i 1).val < 1024 := (i 1).isLt
  let t : Fin cfg0.N := ⟨(i 0).val / 1024, by rw [show cfg0.N = 32 from N_0]; omega⟩
  obtain ⟨-, -, -, -, -, -, -, -, -, -, e0, e1, -⟩ := blockIdx0 t
  refine ⟨t, flush0_5 t, ?_⟩
  show i ∈ ((View.whole main_v5_0).slice (win0_5.rect t)).set
  rw [View.set_slice_whole, Rect.mem_set_unit]
  intro a
  match a with
  | ⟨0, _⟩ => show win0_5.index t (0 : Fin 2) * 1024 ≤ (i 0).val ∧ (i 0).val < win0_5.index t (0 : Fin 2) * 1024 + 1024
              rw [e0]; show (i 0).val / 1024 * 1024 ≤ (i 0).val ∧ (i 0).val < (i 0).val / 1024 * 1024 + 1024; omega
  | ⟨1, _⟩ => show win0_5.index t (1 : Fin 2) * 1024 ≤ (i 1).val ∧ (i 1).val < win0_5.index t (1 : Fin 2) * 1024 + 1024
              rw [e1]; omega

/-- The encoder table after the region is topG. -/
theorem final_top : (dat0 (F := Ideal) V c).arrAt 5 cfg0.N = topG V c :=
  (dat0 V c).arrAt_eq_of_cover 5 (topG V c) (fun t _ => flushed_top V c t) cover_top

/-- The encoder table after the first region, at row r and hidden unit h. -/
theorem top_arr (r : Fin 32768) (h : Fin 1024) : (dat0 (F := Ideal) V c).arrAt 5 cfg0.N (ix2 r h) = top (fun e => V c main_v0 (ix2 r e)) (V c main_v1) (fun h' => V c main_v3 (ix2 0 h')) h :=
  congrFun (final_top V c) (ix2 r h)

/-- The action table as one function of the region's input arrays: row r is the action row of row r of the padded embedding table. -/
def actG : S32768x2.Idx → EReal := fun i =>
  act (fun e => (V c main_v0 : S32768x1024.Idx → EReal) (ix2 (i 0) e)) (V c main_v2) (fun a' => (V c main_v4 : S1x2.Idx → EReal) (ix2 0 a')) (i 1)

/-- Equal arguments, equal action rows. -/
theorem act_congr {x x' : Fin 1024 → EReal} {W W' : Mat 1024 2} {b b' : Fin 2 → EReal} {a a' : Fin 2}
    (hx : x = x') (hW : W = W') (hb : b = b') (ha : a = a') : act x W b a = act x' W' b' a' := by
  subst hx hW hb ha; rfl

theorem iblk0_3_eq (t : Fin cfg0.N) :
    (iblk0 V c 3 t : Vec Ideal S1024x2 .bf16) = (V c main_v2 : S1024x2.Idx → EReal) := by
  obtain ⟨-, -, -, -, -, -, e0, e1, -⟩ := blockIdx0 t
  funext x
  unfold iblk0
  rw [View.read_apply]
  show V c main_v2 _ = V c main_v2 _
  congr 1
  funext a
  apply Fin.ext
  match a with
  | ⟨0, _⟩ => show win0_3.index t (0 : Fin 2) * 1024 + 1 * (x 0).val = (x 0).val; rw [e0]; omega
  | ⟨1, _⟩ => show win0_3.index t (1 : Fin 2) * 2 + 1 * (x 1).val = (x 1).val; rw [e1]; omega

theorem iblk0_4_eq (t : Fin cfg0.N) :
    (iblk0 V c 4 t : Vec Ideal S1x2 .f32) = (V c main_v4 : S1x2.Idx → EReal) := by
  obtain ⟨-, -, -, -, -, -, -, -, e0, e1, -⟩ := blockIdx0 t
  funext x
  unfold iblk0
  rw [View.read_apply]
  show V c main_v4 _ = V c main_v4 _
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 2 + 1 * (x 1).val = (x 1).val; rw [e1]; omega

/-- What point t writes back to the action table is block t of actG. -/
theorem flushed_act (t : Fin cfg0.N) :
    (dat0 (F := Ideal) V c).flushed 6 t = ((cfg0.win 6).blk t).view.read (Elt Ideal) (actG V c) := by
  show (cfg0.win 6).cut (grid0.coords t) ((dat0 V c).after 6 t) = _
  rw [after0_6]
  obtain ⟨-, -, -, -, -, -, -, -, -, -, -, -, e0, e1⟩ := blockIdx0 t
  funext j
  obtain ⟨p, q, rfl⟩ : ∃ (p : Fin 1024) (q : Fin 2), j = ix2 p q := ⟨j 0, j 1, eq_ix2 j⟩
  have hemb : ((cfg0.win 6).blk t).view.emb (ix2 p q) = (ix2 (⟨1024 * t.val + p.val, by have ht : t.val < 32 := Nat.lt_of_lt_of_eq t.isLt N_0; omega⟩ : Fin 32768) q : S32768x2.Idx) := by
    funext a
    apply Fin.ext
    match a with
    | ⟨0, _⟩ => show win0_6.index t (0 : Fin 2) * 1024 + 1 * p.val = 1024 * t.val + p.val; rw [e0]; omega
    | ⟨1, _⟩ => show win0_6.index t (1 : Fin 2) * 2 + 1 * q.val = q.val; rw [e1]; omega
  show k0_pay3 (iblk0 V c 0 t) (iblk0 V c 3 t) (iblk0 V c 4 t) (ix2 p q) = actG V c (((cfg0.win 6).blk t).view.emb (ix2 p q))
  refine ((Pay.pay3_apply (iblk0 V c 0 t) (iblk0 V c 3 t) (iblk0 V c 4 t) p q).trans ?_).trans (congrArg (actG V c) hemb.symm)
  exact act_congr (funext fun e => iblk0_0_apply V c t (ix2 p e) _ rfl rfl) (iblk0_3_eq V c t)
    (funext fun a' => congrFun (iblk0_4_eq V c t) (ix2 0 a')) rfl

/-- Every row of the action table lies in the block of the point its row index divided by 1024 names. -/
theorem cover_act (i : S32768x2.Idx) :
    ∃ t : Fin cfg0.N, (cfg0.win 6).flush t = true ∧ i ∈ ((cfg0.win 6).blk t).view.set := by
  have h0 : (i 0).val < 32768 := (i 0).isLt
  have h1 : (i 1).val < 2 := (i 1).isLt
  let t : Fin cfg0.N := ⟨(i 0).val / 1024, by rw [show cfg0.N = 32 from N_0]; omega⟩
  obtain ⟨-, -, -, -, -, -, -, -, -, -, -, -, e0, e1⟩ := blockIdx0 t
  refine ⟨t, flush0_6 t, ?_⟩
  show i ∈ ((View.whole main_v5_1).slice (win0_6.rect t)).set
  rw [View.set_slice_whole, Rect.mem_set_unit]
  intro a
  match a with
  | ⟨0, _⟩ => show win0_6.index t (0 : Fin 2) * 1024 ≤ (i 0).val ∧ (i 0).val < win0_6.index t (0 : Fin 2) * 1024 + 1024
              rw [e0]; show (i 0).val / 1024 * 1024 ≤ (i 0).val ∧ (i 0).val < (i 0).val / 1024 * 1024 + 1024; omega
  | ⟨1, _⟩ => show win0_6.index t (1 : Fin 2) * 2 ≤ (i 1).val ∧ (i 1).val < win0_6.index t (1 : Fin 2) * 2 + 2
              rw [e1]; omega

/-- The action table after the region is actG. -/
theorem final_act : (dat0 (F := Ideal) V c).arrAt 6 cfg0.N = actG V c :=
  (dat0 V c).arrAt_eq_of_cover 6 (actG V c) (fun t _ => flushed_act V c t) cover_act

/-- The action table after the first region, at row r and action a. -/
theorem act_arr (r : Fin 32768) (a : Fin 2) : (dat0 (F := Ideal) V c).arrAt 6 cfg0.N (ix2 r a) = act (fun e => V c main_v0 (ix2 r e)) (V c main_v2) (fun a' => V c main_v4 (ix2 0 a')) a :=
  congrFun (final_act V c) (ix2 r a)

/-- The head's output as one function of the second region's input arrays. -/
def outG : S128x3.Idx → EReal := fun i =>
  head (fun j => (V c main_v99 : S128x4096.Idx → EReal) (ix2 (i 0) j)) (V c main_v100) (fun h => (V c main_v102 : S1x1024.Idx → EReal) (ix2 0 h))
    (V c main_v101) (fun k' => (V c main_v103 : S1x3.Idx → EReal) (ix2 0 k')) (i 1)

/-- Equal arguments, equal head outputs. -/
theorem head_congr {u u' : Fin 4096 → EReal} {W1 W1' : Mat 4096 1024} {b1 b1' : Fin 1024 → EReal} {W2 W2' : Mat 1024 3}
    {b2 b2' : Fin 3 → EReal} {k k' : Fin 3}
    (hu : u = u') (hW1 : W1 = W1') (hb1 : b1 = b1') (hW2 : W2 = W2') (hb2 : b2 = b2') (hk : k = k') :
    head u W1 b1 W2 b2 k = head u' W1' b1' W2' b2' k' := by
  subst hu hW1 hb1 hW2 hb2 hk; rfl

/-- The second region has one grid point and every window's block is its whole array: every block index is zero. -/
theorem blockIdx1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem iblk1_0_eq (t : Fin cfg1.N) :
    (iblk1 V c 0 t : Vec Ideal S128x4096 .bf16) = (V c main_v99 : S128x4096.Idx → EReal) := by
  obtain ⟨e0, e1, -⟩ := blockIdx1 t
  funext x
  unfold iblk1
  rw [View.read_apply]
  show V c main_v99 _ = V c main_v99 _
  congr 1
  funext a
  apply Fin.ext
  match a with
  | ⟨0, _⟩ => show win1_0.index t (0 : Fin 2) * 128 + 1 * (x 0).val = (x 0).val; rw [e0]; omega
  | ⟨1, _⟩ => show win1_0.index t (1 : Fin 2) * 4096 + 1 * (x 1).val = (x 1).val; rw [e1]; omega

theorem iblk1_1_eq (t : Fin cfg1.N) :
    (iblk1 V c 1 t : Vec Ideal S4096x1024 .bf16) = (V c main_v100 : S4096x1024.Idx → EReal) := by
  obtain ⟨-, -, e0, e1, -⟩ := blockIdx1 t
  funext x
  unfold iblk1
  rw [View.read_apply]
  show V c main_v100 _ = V c main_v100 _
  congr 1
  funext a
  apply Fin.ext
  match a with
  | ⟨0, _⟩ => show win1_1.index t (0 : Fin 2) * 4096 + 1 * (x 0).val = (x 0).val; rw [e0]; omega
  | ⟨1, _⟩ => show win1_1.index t (1 : Fin 2) * 1024 + 1 * (x 1).val = (x 1).val; rw [e1]; omega

theorem iblk1_2_eq (t : Fin cfg1.N) :
    (iblk1 V c 2 t : Vec Ideal S1x1024 .f32) = (V c main_v102 : S1x1024.Idx → EReal) := by
  obtain ⟨-, -, -, -, e0, e1, -⟩ := blockIdx1 t
  funext x
  unfold iblk1
  rw [View.read_apply]
  show V c main_v102 _ = V c main_v102 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 1024 + 1 * (x 1).val = (x 1).val; rw [e1]; omega

theorem iblk1_3_eq (t : Fin cfg1.N) :
    (iblk1 V c 3 t : Vec Ideal S1024x3 .bf16) = (V c main_v101 : S1024x3.Idx → EReal) := by
  obtain ⟨-, -, -, -, -, -, e0, e1, -⟩ := blockIdx1 t
  funext x
  unfold iblk1
  rw [View.read_apply]
  show V c main_v101 _ = V c main_v101 _
  congr 1
  funext a
  apply Fin.ext
  match a with
  | ⟨0, _⟩ => show win1_3.index t (0 : Fin 2) * 1024 + 1 * (x 0).val = (x 0).val; rw [e0]; omega
  | ⟨1, _⟩ => show win1_3.index t (1 : Fin 2) * 3 + 1 * (x 1).val = (x 1).val; rw [e1]; omega

theorem iblk1_4_eq (t : Fin cfg1.N) :
    (iblk1 V c 4 t : Vec Ideal S1x3 .f32) = (V c main_v103 : S1x3.Idx → EReal) := by
  obtain ⟨-, -, -, -, -, -, -, -, e0, e1, -⟩ := blockIdx1 t
  funext x
  unfold iblk1
  rw [View.read_apply]
  show V c main_v103 _ = V c main_v103 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 3 + 1 * (x 1).val = (x 1).val; rw [e1]; omega

/-- What the one point writes back to the head's output is outG, whole. -/
theorem flushed_out (t : Fin cfg1.N) :
    (dat1 (F := Ideal) V c).flushed 5 t = ((cfg1.win 5).blk t).view.read (Elt Ideal) (outG V c) := by
  show (cfg1.win 5).cut (grid1.coords t) ((dat1 V c).after 5 t) = _
  rw [after1_5]
  obtain ⟨-, -, -, -, -, -, -, -, -, -, e0, e1⟩ := blockIdx1 t
  funext j
  obtain ⟨p, q, rfl⟩ : ∃ (p : Fin 128) (q : Fin 3), j = ix2 p q := ⟨j 0, j 1, eq_ix2 j⟩
  have hemb : ((cfg1.win 5).blk t).view.emb (ix2 p q) = (ix2 p q : S128x3.Idx) := by
    funext a
    apply Fin.ext
    match a with
    | ⟨0, _⟩ => show win1_5.index t (0 : Fin 2) * 128 + 1 * p.val = p.val; rw [e0]; omega
    | ⟨1, _⟩ => show win1_5.index t (1 : Fin 2) * 3 + 1 * q.val = q.val; rw [e1]; omega
  show k1_pay1 (iblk1 V c 0 t) (iblk1 V c 1 t) (iblk1 V c 2 t) (iblk1 V c 3 t) (iblk1 V c 4 t) (ix2 p q) = outG V c (((cfg1.win 5).blk t).view.emb (ix2 p q))
  refine ((Pay.pay1_apply (iblk1 V c 0 t) (iblk1 V c 1 t) (iblk1 V c 2 t) (iblk1 V c 3 t) (iblk1 V c 4 t) p q).trans ?_).trans (congrArg (outG V c) hemb.symm)
  exact head_congr (funext fun j => congrFun (iblk1_0_eq V c t) (ix2 p j)) (iblk1_1_eq V c t)
    (funext fun h => congrFun (iblk1_2_eq V c t) (ix2 0 h)) (iblk1_3_eq V c t)
    (funext fun k' => congrFun (iblk1_4_eq V c t) (ix2 0 k')) rfl

/-- The one point's block is the whole output array. -/
theorem cover_out (i : S128x3.Idx) :
    ∃ t : Fin cfg1.N, (cfg1.win 5).flush t = true ∧ i ∈ ((cfg1.win 5).blk t).view.set := by
  have h0 : (i 0).val < 128 := (i 0).isLt
  have h1 : (i 1).val < 3 := (i 1).isLt
  let t : Fin cfg1.N := ⟨0, Nat.lt_of_lt_of_eq Nat.zero_lt_one N_1.symm⟩
  obtain ⟨-, -, -, -, -, -, -, -, -, -, e0, e1⟩ := blockIdx1 t
  refine ⟨t, flush1_5 t, ?_⟩
  show i ∈ ((View.whole main_v104).slice (win1_5.rect t)).set
  rw [View.set_slice_whole, Rect.mem_set_unit]
  intro a
  match a with
  | ⟨0, _⟩ => show win1_5.index t (0 : Fin 2) * 128 ≤ (i 0).val ∧ (i 0).val < win1_5.index t (0 : Fin 2) * 128 + 128
              rw [e0]; omega
  | ⟨1, _⟩ => show win1_5.index t (1 : Fin 2) * 3 ≤ (i 1).val ∧ (i 1).val < win1_5.index t (1 : Fin 2) * 3 + 3
              rw [e1]; omega

/-- The head's output after the second region is outG. -/
theorem final_out : (dat1 (F := Ideal) V c).arrAt 5 cfg1.N = outG V c :=
  (dat1 V c).arrAt_eq_of_cover 5 (outG V c) (fun t _ => flushed_out V c t) cover_out

/-- The head's output after the second region, at row p and class k. -/
theorem out_arr (p : Fin 128) (k : Fin 3) : (dat1 (F := Ideal) V c).arrAt 5 cfg1.N (ix2 p k) = head (fun j => V c main_v99 (ix2 p j)) (V c main_v100) (fun h => V c main_v102 (ix2 0 h)) (V c main_v101) (fun k' => V c main_v103 (ix2 0 k')) k :=
  congrFun (final_out V c) (ix2 p k)

end Cert.KernelIdeal.Arr

end
-- ==== Proof.KHostU.lean ====
/-
  The end of the host stretch between the two regions, read at an index, from any contents of the buffers before it.

  The stretch's last eleven operations widen the two gathered encoder rows f1, f2 (a change of format: the same values),
  form f1 - f2, its absolute value max x (-x) and f1 * f2, lay f1, f2, |f1 - f2|, f1 * f2 side by side as 4096 columns and
  narrow the result (again the same values); they narrow the head's two weight matrices and view its two biases as
  one-row matrices. No operation of the stretch writes an argument, so the weights and biases are the arguments'.
-/
import proofs.«100950_j13675175871137_2_alg».proof.Proof.Gen.KernelIdeal.Launch
import proofs.«100950_j13675175871137_2_alg».proof.Proof.Spec
import Idealize.ShloMosaic.Lib.Pipeline.Value
import Idealize.ShloMosaic.Lib.Pipeline.Frame
import Idealize.ShloMosaic.Lib.StableHlo.Run
import Idealize.ShloMosaic.Lib.ValueIdx
import Idealize.ShloMosaic.Lib.ValueLayout

set_option maxRecDepth 16384

noncomputable section

namespace Cert.KernelIdeal.KHostU

open Cert.KernelIdeal Cert.KernelIdeal.Gen Cert.Spec
open Idealize.ShloMosaic Idealize.ShloMosaic.TcCoe Idealize.ShloMosaic.ValueIdx

/-- Four blocks of 1024 columns side by side, read at column k: the first two blocks themselves, the absolute difference, the product. -/
theorem feat_concat (x y d p : Vec Ideal S128x1024 .f32)
    (hd : ∀ i, (d i : EReal) = max ((x i : EReal) - (y i : EReal)) (-((x i : EReal) - (y i : EReal))))
    (hp : ∀ i, (p i : EReal) = (x i : EReal) * (y i : EReal))
    (hc : Shape.Concatenates [S128x1024, S128x1024, S128x1024, S128x1024] S128x4096 1) (b : Fin 128) (k : Fin 4096) :
    concatenate S128x4096 1 [⟨S128x1024, x⟩, ⟨S128x1024, y⟩, ⟨S128x1024, d⟩, ⟨S128x1024, p⟩] hc (ix2 b k)
      = feat (fun h => x (ix2 b h)) (fun h => y (ix2 b h)) k := by
  have hoff : ∀ (q : Fin 1024) (b' : Fin S128x1024.rank), b'.cast (rfl : S128x1024.rank = S128x4096.rank) ≠ (1 : Fin 2) →
      ((ix2 b q : S128x1024.Idx) b').val = ((ix2 b k : S128x4096.Idx) (b'.cast rfl)).val := by
    intro q b' hb
    match b' with
    | ⟨0, _⟩ => rfl
    | ⟨1, _⟩ => exact absurd rfl hb
  unfold feat
  split_ifs with h0 h1 h2
  · exact concatenate_apply_piece (t := S128x4096) (α := Elt Ideal .f32) 1 [⟨S128x1024, x⟩, ⟨S128x1024, y⟩, ⟨S128x1024, d⟩, ⟨S128x1024, p⟩] hc (ix2 b k) 0 (by show 0 < 4; omega) S128x1024 x rfl rfl 0 rfl (ix2 b ⟨k.val, h0⟩)
      (hoff _) (show 0 + k.val = k.val by omega)
  · exact concatenate_apply_piece (t := S128x4096) (α := Elt Ideal .f32) 1 [⟨S128x1024, x⟩, ⟨S128x1024, y⟩, ⟨S128x1024, d⟩, ⟨S128x1024, p⟩] hc (ix2 b k) 1 (by show 1 < 4; omega) S128x1024 y rfl rfl 1024 rfl (ix2 b ⟨k.val - 1024, by omega⟩)
      (hoff _) (show 1024 + (k.val - 1024) = k.val by omega)
  · exact (concatenate_apply_piece (t := S128x4096) (α := Elt Ideal .f32) 1 [⟨S128x1024, x⟩, ⟨S128x1024, y⟩, ⟨S128x1024, d⟩, ⟨S128x1024, p⟩] hc (ix2 b k) 2 (by show 2 < 4; omega) S128x1024 d rfl rfl 2048 rfl (ix2 b ⟨k.val - 2048, by omega⟩)
      (hoff _) (show 2048 + (k.val - 2048) = k.val by omega)).trans (hd _)
  · exact (concatenate_apply_piece (t := S128x4096) (α := Elt Ideal .f32) 1 [⟨S128x1024, x⟩, ⟨S128x1024, y⟩, ⟨S128x1024, d⟩, ⟨S128x1024, p⟩] hc (ix2 b k) 3 (by show 3 < 4; omega) S128x1024 p rfl rfl 3072 rfl (ix2 b ⟨k.val - 3072, by have := k.isLt; omega⟩)
      (hoff _) (show 3072 + (k.val - 3072) = k.val by omega)).trans (hp _)

/-- The same read through the narrowing of the side-by-side array, which changes no value. -/
theorem feat_concat_trunc (x y d p : Vec Ideal S128x1024 .f32)
    (hd : ∀ i, (d i : EReal) = max ((x i : EReal) - (y i : EReal)) (-((x i : EReal) - (y i : EReal))))
    (hp : ∀ i, (p i : EReal) = (x i : EReal) * (y i : EReal))
    (hc : Shape.Concatenates [S128x1024, S128x1024, S128x1024, S128x1024] S128x4096 1) (hlt : FTy.bits .bf16 < FTy.bits .f32)
    (b : Fin 128) (k : Fin 4096) :
    (truncf .bf16 (concatenate S128x4096 1 [⟨S128x1024, x⟩, ⟨S128x1024, y⟩, ⟨S128x1024, d⟩, ⟨S128x1024, p⟩] hc : FVec Ideal S128x4096 .f32) hlt : FVec Ideal S128x4096 .bf16) (ix2 b k)
      = feat (fun h => x (ix2 b h)) (fun h => y (ix2 b h)) k :=
  feat_concat x y d p hd hp hc b k

section Split
variable {F : FTy → Type} [FloatOps F]

/-- The last eleven operations of the stretch between the two regions: the two gathered encoder rows widened, their difference, its absolute
    value, their product, the four side by side, narrowed; the head's weights narrowed and its biases as one-row matrices. -/
abbrev tailOps : List (HloOp τ sig (Elt F)) :=
  [ StableHlo.unary main_v76 main_v93 ((extf .f32 · bitsLt_bf16_f32) : (⟨S128x1024, .bf16⟩ : BufTy).Contents (Elt F) → (⟨S128x1024, .f32⟩ : BufTy).Contents (Elt F)),
    StableHlo.unary main_v92 main_v94 ((extf .f32 · bitsLt_bf16_f32) : (⟨S128x1024, .bf16⟩ : BufTy).Contents (Elt F) → (⟨S128x1024, .f32⟩ : BufTy).Contents (Elt F)),
    StableHlo.binary main_v93 main_v94 main_v95 (subf : (⟨S128x1024, .f32⟩ : BufTy).Contents (Elt F) → (⟨S128x1024, .f32⟩ : BufTy).Contents (Elt F) → (⟨S128x1024, .f32⟩ : BufTy).Contents (Elt F)),
    StableHlo.unary main_v95 main_v96 (Host.absf : (⟨S128x1024, .f32⟩ : BufTy).Contents (Elt F) → (⟨S128x1024, .f32⟩ : BufTy).Contents (Elt F)),
    StableHlo.binary main_v93 main_v94 main_v97 (mulf : (⟨S128x1024, .f32⟩ : BufTy).Contents (Elt F) → (⟨S128x1024, .f32⟩ : BufTy).Contents (Elt F) → (⟨S128x1024, .f32⟩ : BufTy).Contents (Elt F)),
    StableHlo.nary ![main_v93, main_v94, main_v96, main_v97] main_v98 (fun u => concatenate S128x4096 1 [⟨S128x1024, u 0⟩, ⟨S128x1024, u 1⟩, ⟨S128x1024, u 2⟩, ⟨S128x1024, u 3⟩] concatenates_S128x1024_S128x1024_S128x1024_S128x1024_S128x4096_d1),
    StableHlo.unary main_v98 main_v99 ((truncf .bf16 · bitsLt_bf16_f32) : (⟨S128x4096, .f32⟩ : BufTy).Contents (Elt F) → (⟨S128x4096, .bf16⟩ : BufTy).Contents (Elt F)),
    StableHlo.unary main_arg7 main_v100 ((truncf .bf16 · bitsLt_bf16_f32) : (⟨S4096x1024, .f32⟩ : BufTy).Contents (Elt F) → (⟨S4096x1024, .bf16⟩ : BufTy).Contents (Elt F)),
    StableHlo.unary main_arg9 main_v101 ((truncf .bf16 · bitsLt_bf16_f32) : (⟨S1024x3, .f32⟩ : BufTy).Contents (Elt F) → (⟨S1024x3, .bf16⟩ : BufTy).Contents (Elt F)),
    StableHlo.reshape main_arg8 main_v102 rfl shapeCasts_S1024_S1x1024,
    StableHlo.reshape main_arg10 main_v103 rfl shapeCasts_S3_S1x3 ]

/-- The stretch is its first 115 operations followed by the last eleven. -/
theorem hostOps1_split : (hostOps1 : List (HloOp τ sig (Elt F))) = List.take 115 hostOps1 ++ tailOps :=
  (List.take_append_drop 115 (hostOps1 : List (HloOp τ sig (Elt F)))).symm.trans
    (congrArg (fun l => List.take 115 (hostOps1 : List (HloOp τ sig (Elt F))) ++ l) rfl)

variable (W : Valuation τ sig (Elt F))

/-- The buffers after the first 115 operations. -/
def pre : Valuation τ sig (Elt F) := StableHlo.after (List.take 115 (hostOps1 : List (HloOp τ sig (Elt F)))) W

theorem after_split : StableHlo.after hostOps1 W = StableHlo.after tailOps (pre W) :=
  (congrArg (fun l => StableHlo.after l W) hostOps1_split).trans (StableHlo.after_append _ _ _)

end Split

variable (W : Valuation τ sig (Elt Ideal))

/-- The head's input after the stretch, at row b and column k: the two gathered encoder rows, their absolute difference and their product side by side. -/
theorem u_apply (b : Fin 128) (k : Fin 4096) :
    (StableHlo.after hostOps1 W (Proc.devRef .tc main_v99) : S128x4096.Idx → EReal) (ix2 b k)
      = feat (fun h => (StableHlo.after hostOps1 W (Proc.devRef .tc main_v93) : S128x1024.Idx → EReal) (ix2 b h))
          (fun h => (StableHlo.after hostOps1 W (Proc.devRef .tc main_v94) : S128x1024.Idx → EReal) (ix2 b h)) k := by
  rw [after_split]
  unfold tailOps
  simp only [StableHlo.after_cons, StableHlo.after_nil]
  repeat (first
    | rw [StableHlo.nary4_result]
    | rw [StableHlo.unary_result] | rw [StableHlo.binary_result] | rw [StableHlo.reshape_result]
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  exact feat_concat_trunc _ _ _ _ (fun i => rfl) (fun i => rfl) _ _ b k

/-- No operation among the stretch's first 115 writes a buffer none of the whole stretch writes. -/
theorem pre_of_not_written (r : Ref sig .tc)
    (h : ∀ op ∈ (hostOps1 : List (HloOp τ sig (Elt Ideal))), (Proc.devRef .tc r : DevRef τ sig) ∉ op.writes) :
    pre W (Proc.devRef .tc r) = W (Proc.devRef .tc r) :=
  StableHlo.after_of_forall_not_mem _ _ fun op hop => h op (List.mem_of_mem_take hop)

set_option maxHeartbeats 4000000 in
/-- The stretch does not write the head's first weight matrix. -/
theorem not_written_arg7 : ∀ op ∈ (hostOps1 : List (HloOp τ sig (Elt Ideal))), (Proc.devRef .tc main_arg7 : DevRef τ sig) ∉ op.writes :=
  List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide))

set_option maxHeartbeats 4000000 in
/-- The stretch does not write the head's first bias. -/
theorem not_written_arg8 : ∀ op ∈ (hostOps1 : List (HloOp τ sig (Elt Ideal))), (Proc.devRef .tc main_arg8 : DevRef τ sig) ∉ op.writes :=
  List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide))

set_option maxHeartbeats 4000000 in
/-- The stretch does not write the head's second weight matrix. -/
theorem not_written_arg9 : ∀ op ∈ (hostOps1 : List (HloOp τ sig (Elt Ideal))), (Proc.devRef .tc main_arg9 : DevRef τ sig) ∉ op.writes :=
  List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide))

set_option maxHeartbeats 4000000 in
/-- The stretch does not write the head's second bias. -/
theorem not_written_arg10 : ∀ op ∈ (hostOps1 : List (HloOp τ sig (Elt Ideal))), (Proc.devRef .tc main_arg10 : DevRef τ sig) ∉ op.writes :=
  List.forall_iff_forall_mem.mp (by
    simp only [hostOps1, List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide))

/-- The head's first weight matrix after the stretch is the argument's, narrowed: the same values. -/
theorem w1_eq : (StableHlo.after hostOps1 W (Proc.devRef .tc main_v100) : S4096x1024.Idx → EReal)
    = (W (Proc.devRef .tc main_arg7) : S4096x1024.Idx → EReal) := by
  rw [after_split]
  unfold tailOps
  simp only [StableHlo.after_cons, StableHlo.after_nil]
  repeat (first
    | rw [StableHlo.nary4_result]
    | rw [StableHlo.unary_result] | rw [StableHlo.binary_result] | rw [StableHlo.reshape_result]
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rw [pre_of_not_written W main_arg7 not_written_arg7]
  rfl

/-- The head's second weight matrix after the stretch is the argument's, narrowed: the same values. -/
theorem w2_eq : (StableHlo.after hostOps1 W (Proc.devRef .tc main_v101) : S1024x3.Idx → EReal)
    = (W (Proc.devRef .tc main_arg9) : S1024x3.Idx → EReal) := by
  rw [after_split]
  unfold tailOps
  simp only [StableHlo.after_cons, StableHlo.after_nil]
  repeat (first
    | rw [StableHlo.nary4_result]
    | rw [StableHlo.unary_result] | rw [StableHlo.binary_result] | rw [StableHlo.reshape_result]
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rw [pre_of_not_written W main_arg9 not_written_arg9]
  rfl

/-- The head's first bias after the stretch is the argument as a one-row matrix. -/
theorem b1_apply (h : Fin 1024) : (StableHlo.after hostOps1 W (Proc.devRef .tc main_v102) : S1x1024.Idx → EReal) (ix2 0 h)
    = (W (Proc.devRef .tc main_arg8) : S1024.Idx → EReal) (ix1 h) := by
  rw [after_split]
  unfold tailOps
  simp only [StableHlo.after_cons, StableHlo.after_nil]
  repeat (first
    | rw [StableHlo.nary4_result]
    | rw [StableHlo.unary_result] | rw [StableHlo.binary_result] | rw [StableHlo.reshape_result]
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rw [pre_of_not_written W main_arg8 not_written_arg8]
  exact shapeCast_a_1a_apply (W (Proc.devRef .tc main_arg8) : S1024.Idx → EReal) shapeCasts_S1024_S1x1024 0 h

/-- The head's second bias after the stretch is the argument as a one-row matrix. -/
theorem b2_apply (k : Fin 3) : (StableHlo.after hostOps1 W (Proc.devRef .tc main_v103) : S1x3.Idx → EReal) (ix2 0 k)
    = (W (Proc.devRef .tc main_arg10) : S3.Idx → EReal) (ix1 k) := by
  rw [after_split]
  unfold tailOps
  simp only [StableHlo.after_cons, StableHlo.after_nil]
  repeat (first
    | rw [StableHlo.nary4_result]
    | rw [StableHlo.unary_result] | rw [StableHlo.binary_result] | rw [StableHlo.reshape_result]
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rw [pre_of_not_written W main_arg10 not_written_arg10]
  exact shapeCast_a_1a_apply (W (Proc.devRef .tc main_arg10) : S3.Idx → EReal) shapeCasts_S3_S1x3 0 k

end Cert.KernelIdeal.KHostU

end
-- ==== Proof.KHostLib.lean ====
/-
  Index-level readings of the host operations the kernel's glue uses: a row gather and a two-coordinate gather at an
  index (the start index read signed and clamped into the operand), and the 32-bit word facts that make the
  index normalisation select (i < 0) (i + n) i and the clamp the identity on a word in range.
-/
import Idealize.ShloMosaic.PureOps.Ideal
import Idealize.ShloMosaic.Lib.ValueIdx
import Idealize.ShloMosaic.Lib.Pipeline.Value
import proofs.«100950_j13675175871137_2_alg».proof.Proof.Spec

noncomputable section

namespace Cert.KernelIdeal.KHost.Lib

open Idealize.ShloMosaic Idealize.ShloMosaic.ValueIdx

/-! ## Words -/

theorem toInt_toNat (i : BitVec 32) (h : 0 ≤ i.toInt) : i.toInt.toNat = i.toNat := by
  have hlt := i.isLt
  rw [BitVec.toInt_eq_toNat_cond] at h ⊢
  split at h <;> split <;> omega

theorem toNat_lt_of_toInt (i : BitVec 32) (h : 0 ≤ i.toInt) (n : Nat) (hn : i.toInt < n) : i.toNat < n := by
  rw [← toInt_toNat i h]; omega

theorem slt_zero (i : BitVec 32) (h : 0 ≤ i.toInt) : IntOp.cmpi .slt i 0#32 = 0#1 := by
  unfold IntOp.cmpi
  have : i.slt 0#32 = false := by
    rw [BitVec.slt]; simp only [BitVec.toInt_zero, decide_eq_false_iff_not]; omega
  simp [this]

/-- The normalisation of a non-negative index is the index. -/
theorem norm_nonneg (i m : BitVec 32) (h : 0 ≤ i.toInt) :
    Scalar.select (IntOp.cmpi .slt i 0#32) (IntOp.addi i m) i = i := by
  rw [slt_zero i h, select_zero]

/-- The clamp of an index in range is the index. -/
theorem clamp_in (i : BitVec 32) (h : 0 ≤ i.toInt) (n : Nat) (hn : i.toInt < n + 1) : min i.toInt.toNat n = i.toNat := by
  rw [toInt_toNat i h]
  have := toNat_lt_of_toInt i h (n + 1) hn
  omega

/-! ## A row gather: operand [N, C], one start index per result row -/

section Rows
variable {α : Type}

abbrev rowDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at (r, c): row clamp (idx r) of the operand, column c. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) := by
  unfold Host.gather
  congr 1
  funext a
  refine Fin.ext ?_
  show (rowDims N C R wf).start (ix2 r c) idx a + (rowDims N C R wf).batchCoord (ix2 r c) a
      + (rowDims N C R wf).offCoord (ix2 r c) a = _
  rw [GatherDims.batchCoord_eq_zero _ _ _ List.not_mem_nil]
  have h0 : (rowDims N C R wf).start (ix2 r c) idx (0 : Fin 2) + 0 + (rowDims N C R wf).offCoord (ix2 r c) (0 : Fin 2)
      = min (idx (ix2 r (0 : Fin 1))).toInt.toNat (N - 1) := by
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have h1 : (rowDims N C R wf).start (ix2 r c) idx (1 : Fin 2) + 0 + (rowDims N C R wf).offCoord (ix2 r c) (1 : Fin 2)
      = c.val := by
    have hs : (rowDims N C R wf).start (ix2 r c) idx (1 : Fin 2) = 0 := by
      unfold GatherDims.start
      rw [dif_neg (show (1 : Fin 2) ∉ [(0 : Fin 2)] from by decide)]
    rw [hs]
    have hk : (1 : Fin 2) ∈ (rowDims N C R wf).sKept :=
      (GatherDims.mem_sKept _ _).mpr ⟨show (1 : Fin 2) ∉ [(0 : Fin 2)] from by decide, List.not_mem_nil⟩
    unfold GatherDims.offCoord
    rw [dif_pos hk]
    simp only [Nat.zero_add]
    rfl
  match a with
  | ⟨0, _⟩ => exact h0
  | ⟨1, _⟩ => exact h1

end Rows

/-! ## A two-coordinate gather: operand [A, B, C], a start pair per result row -/

section Cell
variable {α : Type}

abbrev cellDims (A B C R : Nat)
    (wf : GatherDims.WF ⟨3, ![A, B, C]⟩ ⟨2, ![R, 2]⟩ ⟨2, ![R, C]⟩ [1] [0, 1] [] [0, 1] [] 1 ![1, 1, C]) :
    GatherDims ⟨3, ![A, B, C]⟩ ⟨2, ![R, 2]⟩ ⟨2, ![R, C]⟩ where
  offsetDims := [1]
  collapsedSliceDims := [0, 1]
  operandBatchingDims := []
  startIndicesBatchingDims := []
  startIndexMap := [0, 1]
  indexVectorDim := 1
  sliceSizes := ![1, 1, C]
  wf := wf

/-- The gather read at (r, c): the operand at (clamp (idx r 0), clamp (idx r 1), c). -/
theorem gather_cell_apply {A B C R w : Nat} (hA : 0 < A) (hB : 0 < B)
    (wf : GatherDims.WF ⟨3, ![A, B, C]⟩ ⟨2, ![R, 2]⟩ ⟨2, ![R, C]⟩ [1] [0, 1] [] [0, 1] [] 1 ![1, 1, C])
    (x : (⟨3, ![A, B, C]⟩ : Shape).Idx → α) (idx : IVec ⟨2, ![R, 2]⟩ w) (r : Fin R) (c : Fin C) :
    Host.gather (cellDims A B C R wf) x idx (ix2 r c)
      = x (ix3 ⟨min (idx (ix2 r (0 : Fin 2))).toInt.toNat (A - 1), by omega⟩
            ⟨min (idx (ix2 r (1 : Fin 2))).toInt.toNat (B - 1), by omega⟩ c) := by
  unfold Host.gather
  congr 1
  funext a
  refine Fin.ext ?_
  show (cellDims A B C R wf).start (ix2 r c) idx a + (cellDims A B C R wf).batchCoord (ix2 r c) a
      + (cellDims A B C R wf).offCoord (ix2 r c) a = _
  rw [GatherDims.batchCoord_eq_zero _ _ _ List.not_mem_nil]
  have m0 : (0 : Fin 3) ∈ [(0 : Fin 3), 1] := by decide
  have m1 : (1 : Fin 3) ∈ [(0 : Fin 3), 1] := by decide
  have m2 : (2 : Fin 3) ∉ [(0 : Fin 3), 1] := by decide
  have h0 : (cellDims A B C R wf).start (ix2 r c) idx (0 : Fin 3) + 0 + (cellDims A B C R wf).offCoord (ix2 r c) (0 : Fin 3)
      = min (idx (ix2 r (0 : Fin 2))).toInt.toNat (A - 1) := by
    rw [GatherDims.offCoord_eq_zero _ _ _ (fun h => ((GatherDims.mem_sKept _ _).mp h).1 m0)]
    simp only [Nat.add_zero]
    unfold GatherDims.start
    rw [dif_pos (show (0 : Fin 3) ∈ (cellDims A B C R wf).startIndexMap from m0)]
    have hsi : (cellDims A B C R wf).siIdx (ix2 r c) ⟨List.idxOf (0 : Fin 3) (cellDims A B C R wf).startIndexMap,
        List.idxOf_lt_length_iff.2 m0⟩ = ix2 r (0 : Fin 2) := by
      funext b; refine Fin.ext ?_
      match b with
      | ⟨0, _⟩ => rfl
      | ⟨1, _⟩ => rfl
    rw [hsi]
    rfl
  have h1 : (cellDims A B C R wf).start (ix2 r c) idx (1 : Fin 3) + 0 + (cellDims A B C R wf).offCoord (ix2 r c) (1 : Fin 3)
      = min (idx (ix2 r (1 : Fin 2))).toInt.toNat (B - 1) := by
    rw [GatherDims.offCoord_eq_zero _ _ _ (fun h => ((GatherDims.mem_sKept _ _).mp h).1 m1)]
    simp only [Nat.add_zero]
    unfold GatherDims.start
    rw [dif_pos (show (1 : Fin 3) ∈ (cellDims A B C R wf).startIndexMap from m1)]
    have hsi : (cellDims A B C R wf).siIdx (ix2 r c) ⟨List.idxOf (1 : Fin 3) (cellDims A B C R wf).startIndexMap,
        List.idxOf_lt_length_iff.2 m1⟩ = ix2 r (1 : Fin 2) := by
      funext b; refine Fin.ext ?_
      match b with
      | ⟨0, _⟩ => rfl
      | ⟨1, _⟩ => rfl
    rw [hsi]
    rfl
  have h2 : (cellDims A B C R wf).start (ix2 r c) idx (2 : Fin 3) + 0 + (cellDims A B C R wf).offCoord (ix2 r c) (2 : Fin 3)
      = c.val := by
    have hs : (cellDims A B C R wf).start (ix2 r c) idx (2 : Fin 3) = 0 := by
      unfold GatherDims.start
      rw [dif_neg m2]
    rw [hs]
    have hk : (2 : Fin 3) ∈ (cellDims A B C R wf).sKept :=
      (GatherDims.mem_sKept _ _).mpr ⟨m2, List.not_mem_nil⟩
    unfold GatherDims.offCoord
    rw [dif_pos hk]
    simp only [Nat.zero_add]
    rfl
  match a with
  | ⟨0, _⟩ => exact h0
  | ⟨1, _⟩ => exact h1
  | ⟨2, _⟩ => exact h2

end Cell

/-! ## Index normalisation, column broadcast, the start pairs -/

section Norm

/-- select (v < 0) (v + m) v at a non-negative entry is the entry. -/
theorem norm1_read {n : Nat} (v : IVec ⟨1, ![n]⟩ 32) (m : BitVec 32)
    (hz : (⟨0, ![]⟩ : Shape).BroadcastsInDim ⟨1, ![n]⟩ ![])
    (k : Fin n) (h : 0 ≤ (v (ix1 k)).toInt) :
    select (cmpi .slt v (broadcastInDim ⟨1, ![n]⟩ ![] hz (constantI ⟨0, ![]⟩ 32 0#32)))
        (addi v (broadcastInDim ⟨1, ![n]⟩ ![] hz (constantI ⟨0, ![]⟩ 32 m))) v (ix1 k)
      = v (ix1 k) :=
  norm_nonneg (v (ix1 k)) m h

/-- A vector broadcast to one column, read at a row. -/
theorem col_read {α : Type} {n : Nat} (v : (⟨1, ![n]⟩ : Shape).Idx → α)
    (hb : (⟨1, ![n]⟩ : Shape).BroadcastsInDim ⟨2, ![n, 1]⟩ ![0]) (k : Fin n) :
    broadcastInDim ⟨2, ![n, 1]⟩ ![0] hb v (ix2 k (0 : Fin 1)) = v (ix1 k) := by
  refine broadcastInDim_apply ![0] hb v (ix2 k (0 : Fin 1)) (ix1 k) (fun a => ?_)
  match a with
  | ⟨0, _⟩ =>
    show k.val = if n = 1 then 0 else k.val
    have := k.isLt
    split <;> omega

/-- Two columns side by side, read at a row. -/
theorem pair_read {α : Type} {R : Nat} (p q : (⟨2, ![R, 1]⟩ : Shape).Idx → α)
    (hc : Shape.Concatenates [(⟨2, ![R, 1]⟩ : Shape), ⟨2, ![R, 1]⟩] ⟨2, ![R, 2]⟩ 1) (r : Fin R) :
    concatenate ⟨2, ![R, 2]⟩ 1 [⟨⟨2, ![R, 1]⟩, p⟩, ⟨⟨2, ![R, 1]⟩, q⟩] hc (ix2 r (0 : Fin 2)) = p (ix2 r (0 : Fin 1))
    ∧ concatenate ⟨2, ![R, 2]⟩ 1 [⟨⟨2, ![R, 1]⟩, p⟩, ⟨⟨2, ![R, 1]⟩, q⟩] hc (ix2 r (1 : Fin 2)) = q (ix2 r (0 : Fin 1)) := by
  constructor
  · exact concatenate_pair_apply_left (t := ⟨2, ![R, 2]⟩) (s₁ := ⟨2, ![R, 1]⟩) (s₂ := ⟨2, ![R, 1]⟩) (1 : Fin 2) p q hc (ix2 r (0 : Fin 2)) rfl (ix2 r (0 : Fin 1))
      (fun a => match a with | ⟨0, _⟩ => rfl | ⟨1, _⟩ => rfl)
  · exact concatenate_pair_apply_right (t := ⟨2, ![R, 2]⟩) (s₁ := ⟨2, ![R, 1]⟩) (s₂ := ⟨2, ![R, 1]⟩) (1 : Fin 2) p q hc (ix2 r (1 : Fin 2)) rfl rfl (ix2 r (0 : Fin 1))
      (fun a hne => match a, hne with | ⟨0, _⟩, _ => rfl | ⟨1, _⟩, hne => absurd rfl hne) rfl

/-- The word of a column number below 128. -/
theorem iota_word (b : Fin 128) :
    0 ≤ (BitVec.ofNat 32 b.val).toInt ∧ (BitVec.ofNat 32 b.val).toInt < 128 ∧ (BitVec.ofNat 32 b.val).toNat = b.val := by
  have hb := b.isLt
  have hn : (BitVec.ofNat 32 b.val).toNat = b.val := by
    rw [BitVec.toNat_ofNat]; exact Nat.mod_eq_of_lt (by omega)
  have hi : (BitVec.ofNat 32 b.val).toInt = b.val := by
    rw [BitVec.toInt_eq_toNat_cond, hn]; split <;> omega
  exact ⟨by omega, by omega, hn⟩

end Norm

/-! ## Slice of a reshape of a row gather -/

section Half
variable {α : Type}

theorem half_read {C w : Nat} (o : Nat) (ho : o + 512 ≤ 1024)
    (wf : GatherDims.WF ⟨2, ![32768, C]⟩ ⟨2, ![131072, 1]⟩ ⟨2, ![131072, C]⟩ [1] [0] [] [0] [] 1 ![1, C])
    (x : (⟨2, ![32768, C]⟩ : Shape).Idx → α) (idx : IVec ⟨2, ![131072, 1]⟩ w)
    (hc : (⟨2, ![131072, C]⟩ : Shape).ShapeCasts ⟨3, ![1024, 128, C]⟩)
    (hs : (⟨3, ![1024, 128, C]⟩ : Shape).Slices ![o, 0, 0] ⟨3, ![512, 128, C]⟩)
    (t : Fin 512) (b : Fin 128) (c : Fin C) (n : Fin 131072) (hn : n.val = (o + t.val) * 128 + b.val) :
    extractStridedSlice ⟨3, ![512, 128, C]⟩ ![o, 0, 0]
        (shapeCast ⟨3, ![1024, 128, C]⟩ (Host.gather (rowDims 32768 C 131072 wf) x idx) hc) hs (ix3 t b c)
      = x (ix2 ⟨min (idx (ix2 n (0 : Fin 1))).toInt.toNat (32768 - 1), by omega⟩ c) := by
  have ht := t.isLt
  have hb := b.isLt
  refine (extractStridedSlice_apply ![o, 0, 0] _ hs (ix3 t b c) (ix3 (⟨o + t.val, by omega⟩ : Fin 1024) b c)
    (fun a => match a with | ⟨0, _⟩ => rfl | ⟨1, _⟩ => (Nat.zero_add _).symm | ⟨2, _⟩ => (Nat.zero_add _).symm)).trans ?_
  refine (shapeCast_apply _ hc (ix3 (⟨o + t.val, by omega⟩ : Fin 1024) b c) (ix2 n c)
    (by rw [Shape.rowMajor_val_two, Shape.rowMajor_val_three]
        show n.val * C + c.val = ((o + t.val) * 128 + b.val) * C + c.val
        rw [hn])).trans ?_
  exact gather_rows_apply (by decide) wf x idx n c

end Half

/-! ## The extended token array and its flattening -/

section Tokens

/-- A token array followed by its first 255 rows and one more row, read at an extended time below 511. -/
theorem ext_read (x : IVec ⟨2, ![256, 128]⟩ 32) (z : IVec ⟨2, ![1, 128]⟩ 32)
    (hs : (⟨2, ![256, 128]⟩ : Shape).Slices ![0, 0] ⟨2, ![255, 128]⟩)
    (h1 : Shape.Concatenates [(⟨2, ![256, 128]⟩ : Shape), ⟨2, ![255, 128]⟩] ⟨2, ![511, 128]⟩ 0)
    (h2 : Shape.Concatenates [(⟨2, ![511, 128]⟩ : Shape), ⟨2, ![1, 128]⟩] ⟨2, ![512, 128]⟩ 0)
    (t : Fin 511) (b : Fin 128) (t' : Fin 512) (ht' : t'.val = t.val) :
    concatenate ⟨2, ![512, 128]⟩ 0
        [⟨⟨2, ![511, 128]⟩, concatenate ⟨2, ![511, 128]⟩ 0
            [⟨⟨2, ![256, 128]⟩, x⟩, ⟨⟨2, ![255, 128]⟩, extractStridedSlice ⟨2, ![255, 128]⟩ ![0, 0] x hs⟩] h1⟩,
          ⟨⟨2, ![1, 128]⟩, z⟩] h2 (ix2 t' b)
      = Cert.Spec.tokAt x t b := by
  have ht := t.isLt
  refine (concatenate_pair_apply_left (t := ⟨2, ![512, 128]⟩) (s₁ := ⟨2, ![511, 128]⟩) (s₂ := ⟨2, ![1, 128]⟩) (0 : Fin 2) _ z h2 (ix2 t' b) rfl (ix2 t b)
    (fun a => match a with | ⟨0, _⟩ => ht'.symm | ⟨1, _⟩ => rfl)).trans ?_
  unfold Cert.Spec.tokAt
  by_cases h : t.val < 256
  · rw [dif_pos h]
    exact concatenate_pair_apply_left (t := ⟨2, ![511, 128]⟩) (s₁ := ⟨2, ![256, 128]⟩) (s₂ := ⟨2, ![255, 128]⟩) (0 : Fin 2) x _ h1 (ix2 t b) rfl (ix2 ⟨t.val, h⟩ b)
      (fun a => match a with | ⟨0, _⟩ => rfl | ⟨1, _⟩ => rfl)
  · rw [dif_neg h]
    refine (concatenate_pair_apply_right (t := ⟨2, ![511, 128]⟩) (s₁ := ⟨2, ![256, 128]⟩) (s₂ := ⟨2, ![255, 128]⟩) (0 : Fin 2) x _ h1 (ix2 t b) rfl rfl
      (ix2 (⟨t.val - 256, by omega⟩ : Fin 255) b)
      (fun a hne => match a, hne with | ⟨0, _⟩, hne => absurd rfl hne | ⟨1, _⟩, _ => rfl)
      (by show t.val - 256 + 256 = t.val; omega)).trans ?_
    exact extractStridedSlice_apply ![0, 0] x hs _ (ix2 ⟨t.val - 256, by omega⟩ b)
      (fun a => match a with | ⟨0, _⟩ => (Nat.zero_add _).symm | ⟨1, _⟩ => (Nat.zero_add _).symm)

/-- Two [512, 128] arrays stacked and flattened: entry T * 128 + b of the first half, (512 + T) * 128 + b of the second. -/
theorem flat_read {α : Type} (u v : (⟨2, ![512, 128]⟩ : Shape).Idx → α)
    (hc : Shape.Concatenates [(⟨2, ![512, 128]⟩ : Shape), ⟨2, ![512, 128]⟩] ⟨2, ![1024, 128]⟩ 0)
    (hsc : (⟨2, ![1024, 128]⟩ : Shape).ShapeCasts ⟨1, ![131072]⟩) (T : Fin 512) (b : Fin 128) (n : Fin 131072) :
    (n.val = T.val * 128 + b.val →
      shapeCast ⟨1, ![131072]⟩ (concatenate ⟨2, ![1024, 128]⟩ 0 [⟨⟨2, ![512, 128]⟩, u⟩, ⟨⟨2, ![512, 128]⟩, v⟩] hc) hsc (ix1 n)
        = u (ix2 T b))
    ∧ (n.val = (512 + T.val) * 128 + b.val →
      shapeCast ⟨1, ![131072]⟩ (concatenate ⟨2, ![1024, 128]⟩ 0 [⟨⟨2, ![512, 128]⟩, u⟩, ⟨⟨2, ![512, 128]⟩, v⟩] hc) hsc (ix1 n)
        = v (ix2 T b)) := by
  have hT := T.isLt
  have hb := b.isLt
  constructor
  · intro hn
    refine (shapeCast_apply _ hsc (ix1 n) (ix2 (⟨T.val, by omega⟩ : Fin 1024) b)
      (by rw [Shape.rowMajor_val_two, Shape.rowMajor_val_one]; exact hn.symm)).trans ?_
    exact concatenate_pair_apply_left (t := ⟨2, ![1024, 128]⟩) (s₁ := ⟨2, ![512, 128]⟩) (s₂ := ⟨2, ![512, 128]⟩) (0 : Fin 2) u v hc (ix2 (⟨T.val, by omega⟩ : Fin 1024) b) rfl (ix2 T b)
      (fun a => match a with | ⟨0, _⟩ => rfl | ⟨1, _⟩ => rfl)
  · intro hn
    refine (shapeCast_apply _ hsc (ix1 n) (ix2 (⟨512 + T.val, by omega⟩ : Fin 1024) b)
      (by rw [Shape.rowMajor_val_two, Shape.rowMajor_val_one]; exact hn.symm)).trans ?_
    exact concatenate_pair_apply_right (t := ⟨2, ![1024, 128]⟩) (s₁ := ⟨2, ![512, 128]⟩) (s₂ := ⟨2, ![512, 128]⟩) (0 : Fin 2) u v hc (ix2 (⟨512 + T.val, by omega⟩ : Fin 1024) b) rfl rfl (ix2 T b)
      (fun a hne => match a, hne with | ⟨0, _⟩, hne => absurd rfl hne | ⟨1, _⟩, _ => rfl)
      (by show T.val + 512 = 512 + T.val; omega)

end Tokens

end Cert.KernelIdeal.KHost.Lib
-- ==== Proof.KHostR.lean ====
/-
  The ragged last-step gather of the kernel's long host stretch, read at an index, for arbitrary contents of the
  buffers before the stretch.

  The stretch derives from each token array the per-column step count 2 * (256 - zeros - 1) - 1 and the last step's
  row, one less: the same 32-bit chains as the specification's steps and lastRow. It then reads, for every column b,
  row lastRow[b] of column b of a [512, 128, 1024] array: the row and the column number are each normalised
  (a negative index has the extent added), set side by side as a start pair, and the gather clamps the pair into the
  array. Under the hypothesis that every last-step row is in [0, 511) the normalisation and the clamp are the identity
  (the column number b < 128 needs no hypothesis), so the gathered row is the array's row lastRow[b] of column b; the
  widening of the result's float format changes nothing over the extended reals.

  Each buffer of the chain is first written as its operation applied to the buffers the operation reads; the reading
  at an index then composes these equations.
-/
import proofs.«100950_j13675175871137_2_alg».proof.Proof.Gen.KernelIdeal.Launch
import proofs.«100950_j13675175871137_2_alg».proof.Proof.Spec
import proofs.«100950_j13675175871137_2_alg».proof.Proof.PreFacts
import proofs.«100950_j13675175871137_2_alg».proof.Proof.KHostLib
import Idealize.ShloMosaic.Lib.StableHlo.Run

noncomputable section

namespace Cert.KernelIdeal.KHostR

open Cert.KernelIdeal Cert.KernelIdeal.Gen Cert.Spec
open Idealize.ShloMosaic Idealize.ShloMosaic.TcCoe Idealize.SL.Sem Idealize.ShloMosaic.StableHlo
open Idealize.ShloMosaic.ValueIdx

variable (W : Valuation τ sig (Elt Ideal))

open Cert.KernelIdeal.Facts

local notation "Q" => StableHlo.after (hostOps1 (F := Ideal)) W

/-! ## The integer vectors -/

set_option maxRecDepth 8192 in
set_option maxHeartbeats 4000000 in
theorem v55_eq : Q (Proc.devRef .tc main_v55) = steps (W (Proc.devRef .tc main_arg0)) := by
  after_results_simp
  rfl

set_option maxRecDepth 8192 in
set_option maxHeartbeats 4000000 in
theorem v59_eq : Q (Proc.devRef .tc main_v59) = steps (W (Proc.devRef .tc main_arg1)) := by
  after_results_simp
  rfl

set_option maxRecDepth 8192 in
set_option maxHeartbeats 4000000 in
theorem v62_eq : Q (Proc.devRef .tc main_v62) = lastRow (W (Proc.devRef .tc main_arg0)) := by
  after_results_simp
  rfl

set_option maxRecDepth 8192 in
set_option maxHeartbeats 4000000 in
theorem v78_eq : Q (Proc.devRef .tc main_v78) = lastRow (W (Proc.devRef .tc main_arg1)) := by
  after_results_simp
  rfl

/-! ## One operation at a time: each buffer of the last-step gather as its operation of the buffers it reads -/

set_option maxRecDepth 8192 in
set_option maxHeartbeats 4000000 in
theorem s93 : (Q (Proc.devRef .tc main_v93) : FVec Ideal S128x1024 .f32)
    = extf (F := Ideal) .f32 (Q (Proc.devRef .tc main_v76) : FVec Ideal S128x1024 .bf16) bitsLt_bf16_f32 := by
  after_results_simp

set_option maxRecDepth 8192 in
set_option maxHeartbeats 4000000 in
theorem s76 : (Q (Proc.devRef .tc main_v76) : FVec Ideal S128x1024 .bf16)
    = Host.gather gather_S512x128x1024_S128x2_S128x1024_1_01_n_n_01_1_111024
        (Q (Proc.devRef .tc main_v32) : FVec Ideal S512x128x1024 .bf16) (Q (Proc.devRef .tc main_v75) : IVec S128x2 32) := by
  after_results_simp

set_option maxRecDepth 8192 in
set_option maxHeartbeats 4000000 in
theorem s75 : (Q (Proc.devRef .tc main_v75) : IVec S128x2 32)
    = concatenate S128x2 1 [⟨S128x1, (Q (Proc.devRef .tc main_v73) : IVec S128x1 32)⟩,
        ⟨S128x1, (Q (Proc.devRef .tc main_v74) : IVec S128x1 32)⟩] concatenates_S128x1_S128x1_S128x2_d1 := by
  after_results_simp
  refine congrArg₂ (fun (a b : IVec S128x1 32) =>
    concatenate S128x2 1 [⟨S128x1, a⟩, ⟨S128x1, b⟩] concatenates_S128x1_S128x1_S128x2_d1) ?_ ?_ <;> after_results_simp

set_option maxRecDepth 8192 in
set_option maxHeartbeats 4000000 in
theorem s73 : (Q (Proc.devRef .tc main_v73) : IVec S128x1 32)
    = broadcastInDim S128x1 ![0] bcast_S128_S128x1_0 (Q (Proc.devRef .tc main_v67) : IVec S128 32) := by
  after_results_simp

set_option maxRecDepth 8192 in
set_option maxHeartbeats 4000000 in
theorem s74 : (Q (Proc.devRef .tc main_v74) : IVec S128x1 32)
    = broadcastInDim S128x1 ![0] bcast_S128_S128x1_0 (Q (Proc.devRef .tc main_v72) : IVec S128 32) := by
  after_results_simp

set_option maxRecDepth 8192 in
set_option maxHeartbeats 4000000 in
theorem s67 : (Q (Proc.devRef .tc main_v67) : IVec S128 32)
    = select (cmpi .slt (Q (Proc.devRef .tc main_v62) : IVec S128 32) (broadcastInDim S128 ![] bcast_S_S128 (constantI S_ 32 0#32)))
        (addi (Q (Proc.devRef .tc main_v62) : IVec S128 32) (broadcastInDim S128 ![] bcast_S_S128 (constantI S_ 32 512#32)))
        (Q (Proc.devRef .tc main_v62) : IVec S128 32) := by
  after_results_simp

set_option maxRecDepth 8192 in
set_option maxHeartbeats 4000000 in
theorem s72 : (Q (Proc.devRef .tc main_v72) : IVec S128 32)
    = select (cmpi .slt (iotaInDim S128 32 0) (broadcastInDim S128 ![] bcast_S_S128 (constantI S_ 32 0#32)))
        (addi (iotaInDim S128 32 0) (broadcastInDim S128 ![] bcast_S_S128 (constantI S_ 32 128#32)))
        (iotaInDim S128 32 0) := by
  after_results_simp
/-! ## The same for the second token array -/

set_option maxRecDepth 8192 in
set_option maxHeartbeats 4000000 in
theorem s94 : (Q (Proc.devRef .tc main_v94) : FVec Ideal S128x1024 .f32)
    = extf (F := Ideal) .f32 (Q (Proc.devRef .tc main_v92) : FVec Ideal S128x1024 .bf16) bitsLt_bf16_f32 := by
  after_results_simp

set_option maxRecDepth 8192 in
set_option maxHeartbeats 4000000 in
theorem s92 : (Q (Proc.devRef .tc main_v92) : FVec Ideal S128x1024 .bf16)
    = Host.gather gather_S512x128x1024_S128x2_S128x1024_1_01_n_n_01_1_111024
        (Q (Proc.devRef .tc main_v33) : FVec Ideal S512x128x1024 .bf16) (Q (Proc.devRef .tc main_v91) : IVec S128x2 32) := by
  after_results_simp

set_option maxRecDepth 8192 in
set_option maxHeartbeats 4000000 in
theorem s91 : (Q (Proc.devRef .tc main_v91) : IVec S128x2 32)
    = concatenate S128x2 1 [⟨S128x1, (Q (Proc.devRef .tc main_v89) : IVec S128x1 32)⟩,
        ⟨S128x1, (Q (Proc.devRef .tc main_v90) : IVec S128x1 32)⟩] concatenates_S128x1_S128x1_S128x2_d1 := by
  after_results_simp
  refine congrArg₂ (fun (a b : IVec S128x1 32) =>
    concatenate S128x2 1 [⟨S128x1, a⟩, ⟨S128x1, b⟩] concatenates_S128x1_S128x1_S128x2_d1) ?_ ?_ <;> after_results_simp

set_option maxRecDepth 8192 in
set_option maxHeartbeats 4000000 in
theorem s89 : (Q (Proc.devRef .tc main_v89) : IVec S128x1 32)
    = broadcastInDim S128x1 ![0] bcast_S128_S128x1_0 (Q (Proc.devRef .tc main_v83) : IVec S128 32) := by
  after_results_simp

set_option maxRecDepth 8192 in
set_option maxHeartbeats 4000000 in
theorem s90 : (Q (Proc.devRef .tc main_v90) : IVec S128x1 32)
    = broadcastInDim S128x1 ![0] bcast_S128_S128x1_0 (Q (Proc.devRef .tc main_v88) : IVec S128 32) := by
  after_results_simp

set_option maxRecDepth 8192 in
set_option maxHeartbeats 4000000 in
theorem s83 : (Q (Proc.devRef .tc main_v83) : IVec S128 32)
    = select (cmpi .slt (Q (Proc.devRef .tc main_v78) : IVec S128 32) (broadcastInDim S128 ![] bcast_S_S128 (constantI S_ 32 0#32)))
        (addi (Q (Proc.devRef .tc main_v78) : IVec S128 32) (broadcastInDim S128 ![] bcast_S_S128 (constantI S_ 32 512#32)))
        (Q (Proc.devRef .tc main_v78) : IVec S128 32) := by
  after_results_simp

set_option maxRecDepth 8192 in
set_option maxHeartbeats 4000000 in
theorem s88 : (Q (Proc.devRef .tc main_v88) : IVec S128 32)
    = select (cmpi .slt (iotaInDim S128 32 0) (broadcastInDim S128 ![] bcast_S_S128 (constantI S_ 32 0#32)))
        (addi (iotaInDim S128 32 0) (broadcastInDim S128 ![] bcast_S_S128 (constantI S_ 32 128#32)))
        (iotaInDim S128 32 0) := by
  after_results_simp

/-! ## The start pair of a column, and the gathered row -/

open Cert.KernelIdeal.KHost.Lib

/-- The first start coordinate of column b: its last-step row. -/
theorem start0_x0 (r0 : HRow (W (Proc.devRef .tc main_arg0))) (b : Fin 128) :
    (Q (Proc.devRef .tc main_v75) : IVec S128x2 32) (ix2 b (0 : Fin 2)) = lastRow (W (Proc.devRef .tc main_arg0)) (ix1 b) := by
  rw [s75]
  refine (pair_read _ _ _ b).1.trans ?_
  rw [s73]
  refine (col_read _ _ b).trans ?_
  rw [s67, v62_eq]
  exact norm1_read _ _ _ b (r0 (ix1 b)).1

/-- The second start coordinate of column b: the column. -/
theorem start1_x0 (b : Fin 128) :
    (Q (Proc.devRef .tc main_v75) : IVec S128x2 32) (ix2 b (1 : Fin 2)) = BitVec.ofNat 32 b.val := by
  rw [s75]
  refine (pair_read _ _ _ b).2.trans ?_
  rw [s74]
  refine (col_read _ _ b).trans ?_
  rw [s72]
  exact norm1_read (iotaInDim S128 32 0) _ _ b (iota_word b).1

/-- The last-step encoder row of column b, first token array: row lastRow of the [512, 128, 1024] gathered table. -/
theorem f1 (r0 : HRow (W (Proc.devRef .tc main_arg0))) (b : Fin 128) (h : Fin 1024) :
    (Q (Proc.devRef .tc main_v93) : FVec Ideal S128x1024 .f32) (ix2 b h)
      = (Q (Proc.devRef .tc main_v32) : FVec Ideal S512x128x1024 .bf16)
          (ix3 (⟨(rowOf (lastRow (W (Proc.devRef .tc main_arg0)) (ix1 b))).val,
            Nat.lt_succ_of_lt (rowOf (lastRow (W (Proc.devRef .tc main_arg0)) (ix1 b))).isLt⟩ : Fin 512) b h) := by
  rw [s93]
  show (Q (Proc.devRef .tc main_v76) : FVec Ideal S128x1024 .bf16) (ix2 b h) = _
  rw [s76]
  refine (gather_cell_apply (A := 512) (B := 128) (C := 1024) (R := 128) (by decide) (by decide)
    gather_S512x128x1024_S128x2_S128x1024_1_01_n_n_01_1_111024_wf _ _ b h).trans ?_
  refine congrArg₂ (fun (i : Fin 512) (j : Fin 128) =>
    (Q (Proc.devRef .tc main_v32) : FVec Ideal S512x128x1024 .bf16) (ix3 i j h)) (Fin.ext ?_) (Fin.ext ?_)
  · show min ((Q (Proc.devRef .tc main_v75) : IVec S128x2 32) (ix2 b (0 : Fin 2))).toInt.toNat 511 = _
    rw [start0_x0 W r0 b, Cert.PreFacts.rowOf_lastRow_val _ r0]
    exact clamp_in _ (r0 (ix1 b)).1 511 (by have := (r0 (ix1 b)).2; omega)
  · show min ((Q (Proc.devRef .tc main_v75) : IVec S128x2 32) (ix2 b (1 : Fin 2))).toInt.toNat 127 = _
    rw [start1_x0 W b]
    exact (clamp_in _ (iota_word b).1 127 (by have := (iota_word b).2.1; omega)).trans (iota_word b).2.2

/-- The first start coordinate of column b: its last-step row. -/
theorem start0_x1 (r1 : HRow (W (Proc.devRef .tc main_arg1))) (b : Fin 128) :
    (Q (Proc.devRef .tc main_v91) : IVec S128x2 32) (ix2 b (0 : Fin 2)) = lastRow (W (Proc.devRef .tc main_arg1)) (ix1 b) := by
  rw [s91]
  refine (pair_read _ _ _ b).1.trans ?_
  rw [s89]
  refine (col_read _ _ b).trans ?_
  rw [s83, v78_eq]
  exact norm1_read _ _ _ b (r1 (ix1 b)).1

/-- The second start coordinate of column b: the column. -/
theorem start1_x1 (b : Fin 128) :
    (Q (Proc.devRef .tc main_v91) : IVec S128x2 32) (ix2 b (1 : Fin 2)) = BitVec.ofNat 32 b.val := by
  rw [s91]
  refine (pair_read _ _ _ b).2.trans ?_
  rw [s90]
  refine (col_read _ _ b).trans ?_
  rw [s88]
  exact norm1_read (iotaInDim S128 32 0) _ _ b (iota_word b).1

/-- The last-step encoder row of column b, second token array: row lastRow of the [512, 128, 1024] gathered table. -/
theorem f2 (r1 : HRow (W (Proc.devRef .tc main_arg1))) (b : Fin 128) (h : Fin 1024) :
    (Q (Proc.devRef .tc main_v94) : FVec Ideal S128x1024 .f32) (ix2 b h)
      = (Q (Proc.devRef .tc main_v33) : FVec Ideal S512x128x1024 .bf16)
          (ix3 (⟨(rowOf (lastRow (W (Proc.devRef .tc main_arg1)) (ix1 b))).val,
            Nat.lt_succ_of_lt (rowOf (lastRow (W (Proc.devRef .tc main_arg1)) (ix1 b))).isLt⟩ : Fin 512) b h) := by
  rw [s94]
  show (Q (Proc.devRef .tc main_v92) : FVec Ideal S128x1024 .bf16) (ix2 b h) = _
  rw [s92]
  refine (gather_cell_apply (A := 512) (B := 128) (C := 1024) (R := 128) (by decide) (by decide)
    gather_S512x128x1024_S128x2_S128x1024_1_01_n_n_01_1_111024_wf _ _ b h).trans ?_
  refine congrArg₂ (fun (i : Fin 512) (j : Fin 128) =>
    (Q (Proc.devRef .tc main_v33) : FVec Ideal S512x128x1024 .bf16) (ix3 i j h)) (Fin.ext ?_) (Fin.ext ?_)
  · show min ((Q (Proc.devRef .tc main_v91) : IVec S128x2 32) (ix2 b (0 : Fin 2))).toInt.toNat 511 = _
    rw [start0_x1 W r1 b, Cert.PreFacts.rowOf_lastRow_val _ r1]
    exact clamp_in _ (r1 (ix1 b)).1 511 (by have := (r1 (ix1 b)).2; omega)
  · show min ((Q (Proc.devRef .tc main_v91) : IVec S128x2 32) (ix2 b (1 : Fin 2))).toInt.toNat 127 = _
    rw [start1_x1 W b]
    exact (clamp_in _ (iota_word b).1 127 (by have := (iota_word b).2.1; omega)).trans (iota_word b).2.2

end Cert.KernelIdeal.KHostR
end
-- ==== Proof.KHostSteps.lean ====
/-
  The kernel's 126-operation host stretch, buffer by buffer: what the flat index array, the two normalised index
  columns and the four gathered halves hold after the stretch, each as its operations applied to the buffers they read
  (the index array in terms of the two token arrays; the columns in terms of the index array; the halves in terms of
  a table and a column).
-/
import proofs.«100950_j13675175871137_2_alg».proof.Proof.Gen.KernelIdeal.Launch
import proofs.«100950_j13675175871137_2_alg».proof.Proof.Gen.Pre_finite_inputs
import proofs.«100950_j13675175871137_2_alg».proof.Proof.Spec
import proofs.«100950_j13675175871137_2_alg».proof.Proof.PreFacts
import proofs.«100950_j13675175871137_2_alg».proof.Proof.KHostLib
import Idealize.ShloMosaic.Lib.StableHlo.Run

noncomputable section

namespace Cert.KernelIdeal.KHost

open Cert.KernelIdeal Cert.KernelIdeal.Gen Cert.Spec
open Idealize.ShloMosaic Idealize.ShloMosaic.TcCoe Idealize.SL.Sem Idealize.ShloMosaic.StableHlo
open Idealize.ShloMosaic.ValueIdx

/-- An operation that does not write the buffer read leaves it as it was. -/
macro "peel_ne" : tactic =>
  `(tactic| repeat (first
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

variable (W : Valuation τ sig (Elt Ideal))

/-- The buffers after the stretch, from contents W. -/
abbrev Q : Valuation τ sig (Elt Ideal) := StableHlo.after (hostOps1 (F := Ideal)) W

/-! ## Each buffer as its operation of the buffers it reads -/

set_option maxRecDepth 8192 in
set_option maxHeartbeats 4000000 in
theorem g_main_v15 : Q W (Proc.devRef .tc main_v15) = shapeCast S131072 ((((fun a b => concatenate S1024x128 0 [⟨S512x128, a⟩, ⟨S512x128, b⟩] concatenates_S512x128_S512x128_S1024x128_d0) : (⟨S512x128, .i32⟩ : BufTy).Contents (Elt Ideal) → (⟨S512x128, .i32⟩ : BufTy).Contents (Elt Ideal) → (⟨S1024x128, .i32⟩ : BufTy).Contents (Elt Ideal))) ((((fun a b => concatenate S512x128 0 [⟨S511x128, a⟩, ⟨S1x128, b⟩] concatenates_S511x128_S1x128_S512x128_d0) : (⟨S511x128, .i32⟩ : BufTy).Contents (Elt Ideal) → (⟨S1x128, .i32⟩ : BufTy).Contents (Elt Ideal) → (⟨S512x128, .i32⟩ : BufTy).Contents (Elt Ideal))) ((((fun a b => concatenate S511x128 0 [⟨S256x128, a⟩, ⟨S255x128, b⟩] concatenates_S256x128_S255x128_S511x128_d0) : (⟨S256x128, .i32⟩ : BufTy).Contents (Elt Ideal) → (⟨S255x128, .i32⟩ : BufTy).Contents (Elt Ideal) → (⟨S511x128, .i32⟩ : BufTy).Contents (Elt Ideal))) (W (Proc.devRef .tc main_arg0)) ((((extractStridedSlice S255x128 ![0, 0] · slices_S256x128_S255x128_0_0) : (⟨S256x128, .i32⟩ : BufTy).Contents (Elt Ideal) → (⟨S255x128, .i32⟩ : BufTy).Contents (Elt Ideal))) (W (Proc.devRef .tc main_arg0)))) (((broadcastInDim S1x128 ![] bcast_S_S1x128 : (⟨S_, .i32⟩ : BufTy).Contents (Elt Ideal) → (⟨S1x128, .i32⟩ : BufTy).Contents (Elt Ideal))) ((constantI S_ 32 0#32)))) ((((fun a b => concatenate S512x128 0 [⟨S511x128, a⟩, ⟨S1x128, b⟩] concatenates_S511x128_S1x128_S512x128_d0) : (⟨S511x128, .i32⟩ : BufTy).Contents (Elt Ideal) → (⟨S1x128, .i32⟩ : BufTy).Contents (Elt Ideal) → (⟨S512x128, .i32⟩ : BufTy).Contents (Elt Ideal))) ((((fun a b => concatenate S511x128 0 [⟨S256x128, a⟩, ⟨S255x128, b⟩] concatenates_S256x128_S255x128_S511x128_d0) : (⟨S256x128, .i32⟩ : BufTy).Contents (Elt Ideal) → (⟨S255x128, .i32⟩ : BufTy).Contents (Elt Ideal) → (⟨S511x128, .i32⟩ : BufTy).Contents (Elt Ideal))) (W (Proc.devRef .tc main_arg1)) ((((extractStridedSlice S255x128 ![0, 0] · slices_S256x128_S255x128_0_0) : (⟨S256x128, .i32⟩ : BufTy).Contents (Elt Ideal) → (⟨S255x128, .i32⟩ : BufTy).Contents (Elt Ideal))) (W (Proc.devRef .tc main_arg1)))) (((broadcastInDim S1x128 ![] bcast_S_S1x128 : (⟨S_, .i32⟩ : BufTy).Contents (Elt Ideal) → (⟨S1x128, .i32⟩ : BufTy).Contents (Elt Ideal))) ((constantI S_ 32 0#32))))) shapeCasts_S1024x128_S131072 := by
  simp only [Q, after_cons, after_nil]
  peel_ne
  rw [reshape_result main_v14 main_v15]
  peel_ne
  rw [binary_result main_v9 main_v13 main_v14]
  peel_ne
  rw [binary_result main_v11 main_v12 main_v13]
  peel_ne
  rw [unary_result main_c_1 main_v12]
  peel_ne
  rw [nullary_result main_c_1]
  peel_ne
  rw [binary_result main_arg1 main_v10 main_v11]
  peel_ne
  rw [unary_result main_arg1 main_v10]
  peel_ne
  rw [binary_result main_v7 main_v8 main_v9]
  peel_ne
  rw [unary_result main_c_0 main_v8]
  peel_ne
  rw [nullary_result main_c_0]
  peel_ne
  rw [binary_result main_arg0 main_v6 main_v7]
  peel_ne
  rw [unary_result main_arg0 main_v6]
  peel_ne
  rfl

set_option maxRecDepth 8192 in
set_option maxHeartbeats 40000000 in
theorem g_main_v21 : Q W (Proc.devRef .tc main_v21) = ((broadcastInDim S131072x1 ![0] bcast_S131072_S131072x1_0 : (⟨S131072, .i32⟩ : BufTy).Contents (Elt Ideal) → (⟨S131072x1, .i32⟩ : BufTy).Contents (Elt Ideal))) (((select : (⟨S131072, .i1⟩ : BufTy).Contents (Elt Ideal) → (⟨S131072, .i32⟩ : BufTy).Contents (Elt Ideal) → (⟨S131072, .i32⟩ : BufTy).Contents (Elt Ideal) → (⟨S131072, .i32⟩ : BufTy).Contents (Elt Ideal))) (((cmpi .slt : (⟨S131072, .i32⟩ : BufTy).Contents (Elt Ideal) → (⟨S131072, .i32⟩ : BufTy).Contents (Elt Ideal) → (⟨S131072, .i1⟩ : BufTy).Contents (Elt Ideal))) (Q W (Proc.devRef .tc main_v15)) (((broadcastInDim S131072 ![] bcast_S_S131072 : (⟨S_, .i32⟩ : BufTy).Contents (Elt Ideal) → (⟨S131072, .i32⟩ : BufTy).Contents (Elt Ideal))) ((constantI S_ 32 0#32)))) (((addi : (⟨S131072, .i32⟩ : BufTy).Contents (Elt Ideal) → (⟨S131072, .i32⟩ : BufTy).Contents (Elt Ideal) → (⟨S131072, .i32⟩ : BufTy).Contents (Elt Ideal))) (Q W (Proc.devRef .tc main_v15)) (((broadcastInDim S131072 ![] bcast_S_S131072 : (⟨S_, .i32⟩ : BufTy).Contents (Elt Ideal) → (⟨S131072, .i32⟩ : BufTy).Contents (Elt Ideal))) ((constantI S_ 32 32768#32)))) (Q W (Proc.devRef .tc main_v15))) := by
  simp only [Q, after_cons, after_nil]
  peel_ne
  rw [unary_result main_v20 main_v21]
  peel_ne
  rw [ternary_result main_v17 main_v19 main_v15 main_v20]
  peel_ne
  rw [binary_result main_v15 main_v18 main_v19]
  peel_ne
  rw [unary_result main_c_3 main_v18]
  peel_ne
  rw [nullary_result main_c_3]
  peel_ne
  rw [binary_result main_v15 main_v16 main_v17]
  peel_ne
  rw [unary_result main_c_2 main_v16]
  peel_ne
  rw [nullary_result main_c_2]
  peel_ne
  rfl

set_option maxRecDepth 8192 in
set_option maxHeartbeats 40000000 in
theorem g_main_v28 : Q W (Proc.devRef .tc main_v28) = ((broadcastInDim S131072x1 ![0] bcast_S131072_S131072x1_0 : (⟨S131072, .i32⟩ : BufTy).Contents (Elt Ideal) → (⟨S131072x1, .i32⟩ : BufTy).Contents (Elt Ideal))) (((select : (⟨S131072, .i1⟩ : BufTy).Contents (Elt Ideal) → (⟨S131072, .i32⟩ : BufTy).Contents (Elt Ideal) → (⟨S131072, .i32⟩ : BufTy).Contents (Elt Ideal) → (⟨S131072, .i32⟩ : BufTy).Contents (Elt Ideal))) (((cmpi .slt : (⟨S131072, .i32⟩ : BufTy).Contents (Elt Ideal) → (⟨S131072, .i32⟩ : BufTy).Contents (Elt Ideal) → (⟨S131072, .i1⟩ : BufTy).Contents (Elt Ideal))) (Q W (Proc.devRef .tc main_v15)) (((broadcastInDim S131072 ![] bcast_S_S131072 : (⟨S_, .i32⟩ : BufTy).Contents (Elt Ideal) → (⟨S131072, .i32⟩ : BufTy).Contents (Elt Ideal))) ((constantI S_ 32 0#32)))) (((addi : (⟨S131072, .i32⟩ : BufTy).Contents (Elt Ideal) → (⟨S131072, .i32⟩ : BufTy).Contents (Elt Ideal) → (⟨S131072, .i32⟩ : BufTy).Contents (Elt Ideal))) (Q W (Proc.devRef .tc main_v15)) (((broadcastInDim S131072 ![] bcast_S_S131072 : (⟨S_, .i32⟩ : BufTy).Contents (Elt Ideal) → (⟨S131072, .i32⟩ : BufTy).Contents (Elt Ideal))) ((constantI S_ 32 32768#32)))) (Q W (Proc.devRef .tc main_v15))) := by
  simp only [Q, after_cons, after_nil]
  peel_ne
  rw [unary_result main_v27 main_v28]
  peel_ne
  rw [ternary_result main_v24 main_v26 main_v15 main_v27]
  peel_ne
  rw [binary_result main_v15 main_v25 main_v26]
  peel_ne
  rw [unary_result main_c_5 main_v25]
  peel_ne
  rw [nullary_result main_c_5]
  peel_ne
  rw [binary_result main_v15 main_v23 main_v24]
  peel_ne
  rw [unary_result main_c_4 main_v23]
  peel_ne
  rw [nullary_result main_c_4]
  peel_ne
  rfl

set_option maxRecDepth 8192 in
set_option maxHeartbeats 4000000 in
theorem g_main_v32 : Q W (Proc.devRef .tc main_v32) = (((extractStridedSlice S512x128x1024 ![0, 0, 0] · slices_S1024x128x1024_S512x128x1024_0_0_0) : (⟨S1024x128x1024, .bf16⟩ : BufTy).Contents (Elt Ideal) → (⟨S512x128x1024, .bf16⟩ : BufTy).Contents (Elt Ideal))) (shapeCast S1024x128x1024 ((((fun x i => Host.gather gather_S32768x1024_S131072x1_S131072x1024_1_0_n_n_0_1_11024 x i) : (⟨S32768x1024, .bf16⟩ : BufTy).Contents (Elt Ideal) → (⟨S131072x1, .i32⟩ : BufTy).Contents (Elt Ideal) → (⟨S131072x1024, .bf16⟩ : BufTy).Contents (Elt Ideal))) (W (Proc.devRef .tc main_v5_0)) (Q W (Proc.devRef .tc main_v21))) shapeCasts_S131072x1024_S1024x128x1024) := by
  simp only [Q, after_cons, after_nil]
  peel_ne
  rw [unary_result main_v30 main_v32]
  peel_ne
  rw [reshape_result main_v22 main_v30]
  peel_ne
  rw [binary_result main_v5_0 main_v21 main_v22]
  peel_ne
  rfl

set_option maxRecDepth 8192 in
set_option maxHeartbeats 4000000 in
theorem g_main_v33 : Q W (Proc.devRef .tc main_v33) = (((extractStridedSlice S512x128x1024 ![512, 0, 0] · slices_S1024x128x1024_S512x128x1024_512_0_0) : (⟨S1024x128x1024, .bf16⟩ : BufTy).Contents (Elt Ideal) → (⟨S512x128x1024, .bf16⟩ : BufTy).Contents (Elt Ideal))) (shapeCast S1024x128x1024 ((((fun x i => Host.gather gather_S32768x1024_S131072x1_S131072x1024_1_0_n_n_0_1_11024 x i) : (⟨S32768x1024, .bf16⟩ : BufTy).Contents (Elt Ideal) → (⟨S131072x1, .i32⟩ : BufTy).Contents (Elt Ideal) → (⟨S131072x1024, .bf16⟩ : BufTy).Contents (Elt Ideal))) (W (Proc.devRef .tc main_v5_0)) (Q W (Proc.devRef .tc main_v21))) shapeCasts_S131072x1024_S1024x128x1024) := by
  simp only [Q, after_cons, after_nil]
  peel_ne
  rw [unary_result main_v30 main_v33]
  peel_ne
  rw [reshape_result main_v22 main_v30]
  peel_ne
  rw [binary_result main_v5_0 main_v21 main_v22]
  peel_ne
  rfl

set_option maxRecDepth 8192 in
set_option maxHeartbeats 4000000 in
theorem g_main_v34 : Q W (Proc.devRef .tc main_v34) = (((extractStridedSlice S512x128x2 ![0, 0, 0] · slices_S1024x128x2_S512x128x2_0_0_0) : (⟨S1024x128x2, .f32⟩ : BufTy).Contents (Elt Ideal) → (⟨S512x128x2, .f32⟩ : BufTy).Contents (Elt Ideal))) (shapeCast S1024x128x2 ((((fun x i => Host.gather gather_S32768x2_S131072x1_S131072x2_1_0_n_n_0_1_12 x i) : (⟨S32768x2, .f32⟩ : BufTy).Contents (Elt Ideal) → (⟨S131072x1, .i32⟩ : BufTy).Contents (Elt Ideal) → (⟨S131072x2, .f32⟩ : BufTy).Contents (Elt Ideal))) (W (Proc.devRef .tc main_v5_1)) (Q W (Proc.devRef .tc main_v28))) shapeCasts_S131072x2_S1024x128x2) := by
  simp only [Q, after_cons, after_nil]
  peel_ne
  rw [unary_result main_v31 main_v34]
  peel_ne
  rw [reshape_result main_v29 main_v31]
  peel_ne
  rw [binary_result main_v5_1 main_v28 main_v29]
  peel_ne
  rfl

set_option maxRecDepth 8192 in
set_option maxHeartbeats 4000000 in
theorem g_main_v35 : Q W (Proc.devRef .tc main_v35) = (((extractStridedSlice S512x128x2 ![512, 0, 0] · slices_S1024x128x2_S512x128x2_512_0_0) : (⟨S1024x128x2, .f32⟩ : BufTy).Contents (Elt Ideal) → (⟨S512x128x2, .f32⟩ : BufTy).Contents (Elt Ideal))) (shapeCast S1024x128x2 ((((fun x i => Host.gather gather_S32768x2_S131072x1_S131072x2_1_0_n_n_0_1_12 x i) : (⟨S32768x2, .f32⟩ : BufTy).Contents (Elt Ideal) → (⟨S131072x1, .i32⟩ : BufTy).Contents (Elt Ideal) → (⟨S131072x2, .f32⟩ : BufTy).Contents (Elt Ideal))) (W (Proc.devRef .tc main_v5_1)) (Q W (Proc.devRef .tc main_v28))) shapeCasts_S131072x2_S1024x128x2) := by
  simp only [Q, after_cons, after_nil]
  peel_ne
  rw [unary_result main_v31 main_v35]
  peel_ne
  rw [reshape_result main_v29 main_v31]
  peel_ne
  rw [binary_result main_v5_1 main_v28 main_v29]
  peel_ne
  rfl

end Cert.KernelIdeal.KHost

end
-- ==== Proof.KHost.lean ====
/-
  The kernel's 126-operation host stretch read at an index: the two table gathers at the token rows.

  Both token arrays are extended to 512 rows (the array, its first 255 rows, a zero row), stacked and flattened to
  131072 words. Each word i, normalised (select (i < 0) (i + 32768) i) and clamped into [0, 32767], selects a row of
  the [32768, 1024] table and of the [32768, 2] table; the gathered rows are cut back into [1024, 128, ·] and split in
  the two [512, 128, ·] halves. When every token lies in [0, 32000), entry (t, b, ·) of a half, t < 511, is the
  table's row (tokAt x t b).toNat: the normalisation and the clamp are the identity on such a word.
-/
import proofs.«100950_j13675175871137_2_alg».proof.Proof.Gen.KernelIdeal.Launch
import proofs.«100950_j13675175871137_2_alg».proof.Proof.Gen.Pre_finite_inputs
import proofs.«100950_j13675175871137_2_alg».proof.Proof.Spec
import proofs.«100950_j13675175871137_2_alg».proof.Proof.PreFacts
import proofs.«100950_j13675175871137_2_alg».proof.Proof.KHostLib
import proofs.«100950_j13675175871137_2_alg».proof.Proof.KHostSteps
import Idealize.ShloMosaic.Lib.StableHlo.Run

noncomputable section

namespace Cert.KernelIdeal.KHost

open Cert.KernelIdeal Cert.KernelIdeal.Gen Cert.Spec
open Idealize.ShloMosaic Idealize.ShloMosaic.TcCoe Idealize.SL.Sem Idealize.ShloMosaic.StableHlo
open Idealize.ShloMosaic.ValueIdx

variable (W : Valuation τ sig (Elt Ideal))

/-! ## The flat index array and the normalised index columns at a token entry -/

/-- The flat array at entry t * 128 + b is token (t, b) of the first array. -/
theorem v15_left (t : Fin 511) (b : Fin 128) (n : Fin 131072) (hn : n.val = t.val * 128 + b.val) :
    Q W (Proc.devRef .tc main_v15) (ix1 n) = tokAt (W (Proc.devRef .tc main_arg0)) t b := by
  rw [g_main_v15]
  exact ((Lib.flat_read _ _ _ _ (⟨t.val, Nat.lt_succ_of_lt t.isLt⟩ : Fin 512) b n).1 hn).trans
    (Lib.ext_read _ _ _ _ _ t b _ rfl)

/-- The flat array at entry (512 + t) * 128 + b is token (t, b) of the second array. -/
theorem v15_right (t : Fin 511) (b : Fin 128) (n : Fin 131072) (hn : n.val = (512 + t.val) * 128 + b.val) :
    Q W (Proc.devRef .tc main_v15) (ix1 n) = tokAt (W (Proc.devRef .tc main_arg1)) t b := by
  rw [g_main_v15]
  exact ((Lib.flat_read _ _ _ _ (⟨t.val, Nat.lt_succ_of_lt t.isLt⟩ : Fin 512) b n).2 hn).trans
    (Lib.ext_read _ _ _ _ _ t b _ rfl)

/-- The first normalised index column at a non-negative entry is the entry. -/
theorem v21_read (n : Fin 131072) (h : 0 ≤ BitVec.toInt (Q W (Proc.devRef .tc main_v15) (ix1 n))) :
    Q W (Proc.devRef .tc main_v21) (ix2 n (0 : Fin 1)) = Q W (Proc.devRef .tc main_v15) (ix1 n) := by
  rw [g_main_v21]
  exact (Lib.col_read _ _ n).trans (Lib.norm1_read _ _ _ n h)

/-- The second normalised index column at a non-negative entry is the entry. -/
theorem v28_read (n : Fin 131072) (h : 0 ≤ BitVec.toInt (Q W (Proc.devRef .tc main_v15) (ix1 n))) :
    Q W (Proc.devRef .tc main_v28) (ix2 n (0 : Fin 1)) = Q W (Proc.devRef .tc main_v15) (ix1 n) := by
  rw [g_main_v28]
  exact (Lib.col_read _ _ n).trans (Lib.norm1_read _ _ _ n h)

/-- A half of the gathered rows at an entry whose index word is a token in range: the table's row at the token. -/
theorem core {α : Type} {C : Nat} (o : Nat) (ho : o + 512 ≤ 1024)
    (wf : GatherDims.WF ⟨2, ![32768, C]⟩ ⟨2, ![131072, 1]⟩ ⟨2, ![131072, C]⟩ [1] [0] [] [0] [] 1 ![1, C])
    (X : (⟨2, ![32768, C]⟩ : Shape).Idx → α) (I : IVec ⟨2, ![131072, 1]⟩ 32)
    (hc : (⟨2, ![131072, C]⟩ : Shape).ShapeCasts ⟨3, ![1024, 128, C]⟩)
    (hs : (⟨3, ![1024, 128, C]⟩ : Shape).Slices ![o, 0, 0] ⟨3, ![512, 128, C]⟩)
    (t : Fin 511) (b : Fin 128) (c : Fin C) (n : Fin 131072) (hn : n.val = (o + t.val) * 128 + b.val)
    (tok : BitVec 32) (hI : I (ix2 n (0 : Fin 1)) = tok) (h0 : 0 ≤ tok.toInt) (h1 : tok.toInt < 32000) :
    extractStridedSlice ⟨3, ![512, 128, C]⟩ ![o, 0, 0]
        (shapeCast ⟨3, ![1024, 128, C]⟩ (Host.gather (Lib.rowDims 32768 C 131072 wf) X I) hc) hs
        (ix3 (⟨t.val, Nat.lt_succ_of_lt t.isLt⟩ : Fin 512) b c)
      = X (ix2 (⟨tok.toNat, Nat.lt_trans (Cert.PreFacts.toNat_lt tok 32000 h0 h1) (by decide)⟩ : Fin 32768) c) := by
  refine (Lib.half_read o ho wf X I hc hs (⟨t.val, Nat.lt_succ_of_lt t.isLt⟩ : Fin 512) b c n hn).trans ?_
  have hm : min (BitVec.toInt (I (ix2 n (0 : Fin 1)))).toNat (32768 - 1) = tok.toNat := by
    rw [hI]; exact Lib.clamp_in tok h0 32767 (by omega)
  exact congrArg (fun r => X (ix2 r c)) (Fin.ext hm)

/-! ## The four gathered halves at the token rows -/

/-- The first half of the rows gathered from the [32768, 1024] table: entry (t, b, ·), t < 511, is the table's row at token (t, b) of the first array. -/
theorem top1 (h0 : HTok (W (Proc.devRef .tc main_arg0))) (t : Fin 511) (b : Fin 128) (c : Fin 1024) :
    StableHlo.after (hostOps1 (F := Ideal)) W (Proc.devRef .tc main_v32) (ix3 (⟨t.val, Nat.lt_succ_of_lt t.isLt⟩ : Fin 512) b c)
      = W (Proc.devRef .tc main_v5_0) (ix2 (⟨(tokAt (W (Proc.devRef .tc main_arg0)) t b).toNat,
          Nat.lt_trans (Cert.PreFacts.tokAt_toNat_lt _ h0 t b) (by decide)⟩ : Fin 32768) c) := by
  have hr := Cert.PreFacts.tokAt_range _ h0 t b
  have ht := t.isLt
  have hb := b.isLt
  have hlt : (0 + t.val) * 128 + b.val < 131072 := by omega
  have e15 := v15_left W t b ⟨(0 + t.val) * 128 + b.val, hlt⟩ (by show (0 + t.val) * 128 + b.val = t.val * 128 + b.val; omega)
  have eI := (v21_read W ⟨(0 + t.val) * 128 + b.val, hlt⟩ (by rw [e15]; exact hr.1)).trans e15
  show Q W (Proc.devRef .tc main_v32) _ = _
  rw [g_main_v32]
  exact core 0 (by decide) _ (W (Proc.devRef .tc main_v5_0)) (Q W (Proc.devRef .tc main_v21)) _ _ t b c
    ⟨(0 + t.val) * 128 + b.val, hlt⟩ rfl _ eI hr.1 hr.2

/-- The second half of the rows gathered from the [32768, 1024] table: entry (t, b, ·), t < 511, is the table's row at token (t, b) of the second array. -/
theorem top2 (h0 : HTok (W (Proc.devRef .tc main_arg1))) (t : Fin 511) (b : Fin 128) (c : Fin 1024) :
    StableHlo.after (hostOps1 (F := Ideal)) W (Proc.devRef .tc main_v33) (ix3 (⟨t.val, Nat.lt_succ_of_lt t.isLt⟩ : Fin 512) b c)
      = W (Proc.devRef .tc main_v5_0) (ix2 (⟨(tokAt (W (Proc.devRef .tc main_arg1)) t b).toNat,
          Nat.lt_trans (Cert.PreFacts.tokAt_toNat_lt _ h0 t b) (by decide)⟩ : Fin 32768) c) := by
  have hr := Cert.PreFacts.tokAt_range _ h0 t b
  have ht := t.isLt
  have hb := b.isLt
  have hlt : (512 + t.val) * 128 + b.val < 131072 := by omega
  have e15 := v15_right W t b ⟨(512 + t.val) * 128 + b.val, hlt⟩ rfl
  have eI := (v21_read W ⟨(512 + t.val) * 128 + b.val, hlt⟩ (by rw [e15]; exact hr.1)).trans e15
  show Q W (Proc.devRef .tc main_v33) _ = _
  rw [g_main_v33]
  exact core 512 (by decide) _ (W (Proc.devRef .tc main_v5_0)) (Q W (Proc.devRef .tc main_v21)) _ _ t b c
    ⟨(512 + t.val) * 128 + b.val, hlt⟩ rfl _ eI hr.1 hr.2

/-- The first half of the rows gathered from the [32768, 2] table: entry (t, b, ·), t < 511, is the table's row at token (t, b) of the first array. -/
theorem act1 (h0 : HTok (W (Proc.devRef .tc main_arg0))) (t : Fin 511) (b : Fin 128) (c : Fin 2) :
    StableHlo.after (hostOps1 (F := Ideal)) W (Proc.devRef .tc main_v34) (ix3 (⟨t.val, Nat.lt_succ_of_lt t.isLt⟩ : Fin 512) b c)
      = W (Proc.devRef .tc main_v5_1) (ix2 (⟨(tokAt (W (Proc.devRef .tc main_arg0)) t b).toNat,
          Nat.lt_trans (Cert.PreFacts.tokAt_toNat_lt _ h0 t b) (by decide)⟩ : Fin 32768) c) := by
  have hr := Cert.PreFacts.tokAt_range _ h0 t b
  have ht := t.isLt
  have hb := b.isLt
  have hlt : (0 + t.val) * 128 + b.val < 131072 := by omega
  have e15 := v15_left W t b ⟨(0 + t.val) * 128 + b.val, hlt⟩ (by show (0 + t.val) * 128 + b.val = t.val * 128 + b.val; omega)
  have eI := (v28_read W ⟨(0 + t.val) * 128 + b.val, hlt⟩ (by rw [e15]; exact hr.1)).trans e15
  show Q W (Proc.devRef .tc main_v34) _ = _
  rw [g_main_v34]
  exact core 0 (by decide) _ (W (Proc.devRef .tc main_v5_1)) (Q W (Proc.devRef .tc main_v28)) _ _ t b c
    ⟨(0 + t.val) * 128 + b.val, hlt⟩ rfl _ eI hr.1 hr.2

/-- The second half of the rows gathered from the [32768, 2] table: entry (t, b, ·), t < 511, is the table's row at token (t, b) of the second array. -/
theorem act2 (h0 : HTok (W (Proc.devRef .tc main_arg1))) (t : Fin 511) (b : Fin 128) (c : Fin 2) :
    StableHlo.after (hostOps1 (F := Ideal)) W (Proc.devRef .tc main_v35) (ix3 (⟨t.val, Nat.lt_succ_of_lt t.isLt⟩ : Fin 512) b c)
      = W (Proc.devRef .tc main_v5_1) (ix2 (⟨(tokAt (W (Proc.devRef .tc main_arg1)) t b).toNat,
          Nat.lt_trans (Cert.PreFacts.tokAt_toNat_lt _ h0 t b) (by decide)⟩ : Fin 32768) c) := by
  have hr := Cert.PreFacts.tokAt_range _ h0 t b
  have ht := t.isLt
  have hb := b.isLt
  have hlt : (512 + t.val) * 128 + b.val < 131072 := by omega
  have e15 := v15_right W t b ⟨(512 + t.val) * 128 + b.val, hlt⟩ rfl
  have eI := (v28_read W ⟨(512 + t.val) * 128 + b.val, hlt⟩ (by rw [e15]; exact hr.1)).trans e15
  show Q W (Proc.devRef .tc main_v35) _ = _
  rw [g_main_v35]
  exact core 512 (by decide) _ (W (Proc.devRef .tc main_v5_1)) (Q W (Proc.devRef .tc main_v28)) _ _ t b c
    ⟨(512 + t.val) * 128 + b.val, hlt⟩ rfl _ eI hr.1 hr.2

end Cert.KernelIdeal.KHost

end
-- ==== Proof.KHost0.lean ====
/- The host operations that run before region 0, read at an index, for arbitrary buffer contents `W` at the start:
   the embedding table padded below with 768 rows to 32768 (a row below 32000 is the table's row), the two weight
   matrices after their format change (the identity over the extended reals), and the two bias vectors viewed as
   one-row matrices. -/
import proofs.«100950_j13675175871137_2_alg».proof.Proof.Gen.KernelIdeal.Launch
import proofs.«100950_j13675175871137_2_alg».proof.Proof.Spec
import Idealize.ShloMosaic.Lib.StableHlo.Run
import Idealize.ShloMosaic.Lib.KernelVsHost
import Idealize.ShloMosaic.Lib.Pipeline.Value
import Idealize.ShloMosaic.Lib.ValueIdx

set_option maxRecDepth 8192

noncomputable section

namespace Cert.KernelIdeal.KHost0

open Cert.KernelIdeal Cert.KernelIdeal.Gen Cert.Spec
open Idealize.ShloMosaic Idealize.ShloMosaic.TcCoe Idealize.SL.Sem Idealize.ShloMosaic.StableHlo
open Idealize.ShloMosaic.ValueIdx

variable (W : Valuation τ sig (Elt Ideal))

/-- The buffer contents after the three host stretches that precede region 0, in program order. -/
abbrev P : Valuation τ sig (Elt Ideal) :=
  StableHlo.after (hostOps0_2 (F := Ideal)) (StableHlo.after (hostOps0_1 (F := Ideal)) (StableHlo.after (hostOps0 (F := Ideal)) W))

set_option maxHeartbeats 1000000 in
/-- The first weight matrix handed to region 0 is the encoder weight (the format change is the identity over the
    extended reals). -/
theorem v1_eq (i : S1024x1024.Idx) :
    StableHlo.after (hostOps0_2 (F := Ideal)) (StableHlo.after (hostOps0_1 (F := Ideal)) (StableHlo.after (hostOps0 (F := Ideal)) W))
      (Proc.devRef .tc main_v1) i = W (Proc.devRef .tc main_arg3) i := by
  after_results
  rfl

set_option maxHeartbeats 1000000 in
/-- The second weight matrix handed to region 0 is the action weight. -/
theorem v2_eq (i : S1024x2.Idx) :
    StableHlo.after (hostOps0_2 (F := Ideal)) (StableHlo.after (hostOps0_1 (F := Ideal)) (StableHlo.after (hostOps0 (F := Ideal)) W))
      (Proc.devRef .tc main_v2) i = W (Proc.devRef .tc main_arg5) i := by
  after_results
  rfl

set_option maxHeartbeats 1000000 in
/-- The encoder bias as a one-row matrix: entry (0, h) is entry h of the vector. -/
theorem v3_apply (h : Fin 1024) :
    StableHlo.after (hostOps0_2 (F := Ideal)) (StableHlo.after (hostOps0_1 (F := Ideal)) (StableHlo.after (hostOps0 (F := Ideal)) W))
      (Proc.devRef .tc main_v3) (ix2 (0 : Fin 1) h) = W (Proc.devRef .tc main_arg4) (ix1 h) := by
  after_results
  show shapeCast S1x1024 (W (Proc.devRef .tc main_arg4)) shapeCasts_S1024_S1x1024 (ix2 (0 : Fin 1) h) = _
  refine shapeCast_apply _ _ (ix2 (0 : Fin 1) h) (ix1 h) ?_
  rw [Shape.rowMajor_val_one, Shape.rowMajor_val_two]
  show h.val = 0 * 1024 + h.val
  omega

set_option maxHeartbeats 1000000 in
/-- The action bias as a one-row matrix: entry (0, a) is entry a of the vector. -/
theorem v4_apply (a : Fin 2) :
    StableHlo.after (hostOps0_2 (F := Ideal)) (StableHlo.after (hostOps0_1 (F := Ideal)) (StableHlo.after (hostOps0 (F := Ideal)) W))
      (Proc.devRef .tc main_v4) (ix2 (0 : Fin 1) a) = W (Proc.devRef .tc main_arg6) (ix1 a) := by
  after_results
  show shapeCast S1x2 (W (Proc.devRef .tc main_arg6)) shapeCasts_S2_S1x2 (ix2 (0 : Fin 1) a) = _
  refine shapeCast_apply _ _ (ix2 (0 : Fin 1) a) (ix1 a) ?_
  rw [Shape.rowMajor_val_one, Shape.rowMajor_val_two]
  show a.val = 0 * 2 + a.val
  omega

set_option maxHeartbeats 1000000 in
/-- The embedding table padded below to 32768 rows: a row below 32000 is the table's row (the padding value is
    never read there). -/
theorem v0_apply (r : Fin 32000) (e : Fin 1024) :
    StableHlo.after (hostOps0_2 (F := Ideal)) (StableHlo.after (hostOps0_1 (F := Ideal)) (StableHlo.after (hostOps0 (F := Ideal)) W))
      (Proc.devRef .tc main_v0) (ix2 (⟨r.val, Nat.lt_of_lt_of_le r.isLt (by decide)⟩ : Fin 32768) e) = W (Proc.devRef .tc main_arg2) (ix2 r e) := by
  after_results
  show pad S32768x1024 ![0, 0] ![768, 0] ![0, 0] (W (Proc.devRef .tc main_arg2)) (sitofp (F := Ideal) .f32 (constantI S_ 32 0#32))
      pads_S32000x1024_S32768x1024_07680_000 h_S_ (ix2 (⟨r.val, Nat.lt_of_lt_of_le r.isLt (by decide)⟩ : Fin 32768) e) = _
  refine pad_apply_of_inside _ _ _ _ _ _ _ _ (ix2 r e) fun a => ?_
  match a with
  | ⟨0, _⟩ => show r.val = 0 + r.val * (0 + 1); omega
  | ⟨1, _⟩ => show e.val = 0 + e.val * (0 + 1); omega

/-- The same as equalities of functions. -/
theorem v1_fn :
    (StableHlo.after (hostOps0_2 (F := Ideal)) (StableHlo.after (hostOps0_1 (F := Ideal)) (StableHlo.after (hostOps0 (F := Ideal)) W))
      (Proc.devRef .tc main_v1) : Mat 1024 1024) = (W (Proc.devRef .tc main_arg3) : Mat 1024 1024) :=
  funext (v1_eq W)

theorem v2_fn :
    (StableHlo.after (hostOps0_2 (F := Ideal)) (StableHlo.after (hostOps0_1 (F := Ideal)) (StableHlo.after (hostOps0 (F := Ideal)) W))
      (Proc.devRef .tc main_v2) : Mat 1024 2) = (W (Proc.devRef .tc main_arg5) : Mat 1024 2) :=
  funext (v2_eq W)

theorem v3_fn :
    (fun h : Fin 1024 => StableHlo.after (hostOps0_2 (F := Ideal)) (StableHlo.after (hostOps0_1 (F := Ideal)) (StableHlo.after (hostOps0 (F := Ideal)) W))
      (Proc.devRef .tc main_v3) (ix2 (0 : Fin 1) h)) = fun h : Fin 1024 => W (Proc.devRef .tc main_arg4) (ix1 h) :=
  funext (v3_apply W)

theorem v4_fn :
    (fun a : Fin 2 => StableHlo.after (hostOps0_2 (F := Ideal)) (StableHlo.after (hostOps0_1 (F := Ideal)) (StableHlo.after (hostOps0 (F := Ideal)) W))
      (Proc.devRef .tc main_v4) (ix2 (0 : Fin 1) a)) = fun a : Fin 2 => W (Proc.devRef .tc main_arg6) (ix1 a) :=
  funext (v4_apply W)

theorem v0_row (r : Fin 32000) :
    (fun e : Fin 1024 => StableHlo.after (hostOps0_2 (F := Ideal)) (StableHlo.after (hostOps0_1 (F := Ideal)) (StableHlo.after (hostOps0 (F := Ideal)) W))
      (Proc.devRef .tc main_v0) (ix2 (⟨r.val, Nat.lt_of_lt_of_le r.isLt (by decide)⟩ : Fin 32768) e))
      = fun e : Fin 1024 => W (Proc.devRef .tc main_arg2) (ix2 r e) :=
  funext (v0_apply W r)

end Cert.KernelIdeal.KHost0

end
-- ==== Proof.BridgeTab.lean ====
/- The kernel's two tables as they stand at region 0's exit, read at the row of a token word below 32000: the
   encoder table's row is the encoder row of the word's embedding row, the action table's row its action row. The
   table's arrays at the exit are what the region's write-backs leave; their inputs at the region's entry are the
   host stretches' readings of the launch contents (the padded embedding table, the weights, the one-row biases). -/
import proofs.«100950_j13675175871137_2_alg».proof.Proof.KIRun
import proofs.«100950_j13675175871137_2_alg».proof.Proof.KHost0
import proofs.«100950_j13675175871137_2_alg».proof.Proof.PreFacts
import proofs.«100950_j13675175871137_2_alg».proof.Proof.Arr
import proofs.«100950_j13675175871137_2_alg».proof.Proof.Spec

set_option maxRecDepth 8192

noncomputable section

namespace Cert.BridgeTab

open Cert.KernelIdeal Cert.KernelIdeal.Gen Cert.KernelIdeal.Hand Cert.Spec
open Idealize.ShloMosaic Idealize.ShloMosaic.TcCoe Idealize.ShloMosaic.ValueIdx Idealize.SL.Sem

/-- The encoder row is a function of its three arguments. -/
theorem top_congr3 {x x' : Fin 1024 → EReal} {W W' : Mat 1024 1024} {b b' : Fin 1024 → EReal} (h : Fin 1024)
    (hx : x = x') (hW : W = W') (hb : b = b') : top x W b h = top x' W' b' h := by
  subst hx hW hb; rfl

/-- The action row is a function of its three arguments. -/
theorem act_congr3 {x x' : Fin 1024 → EReal} {W W' : Mat 1024 2} {b b' : Fin 2 → EReal} (a : Fin 2)
    (hx : x = x') (hW : W = W') (hb : b = b') : act x W b a = act x' W' b' a := by
  subst hx hW hb; rfl

variable (m : (ℓ : Loc nD τ sig) → Buf (Elt Ideal) ℓ) (ρ : Dev nD → PrngReg) (c : Dev nD)

/-- Row v of the padded embedding table at region 0's entry is the embedding row of the word v, for v below 32000. -/
theorem emb_row (v : BitVec 32) (hv : v.toNat < 32000) :
    (fun e : Fin 1024 => V3 (F := Ideal) m ρ c main_v0 (ix2 (⟨v.toNat, by omega⟩ : Fin 32768) e))
      = embRow (m ((c : Thread nD τ).loc main_arg2)) v := by
  funext e
  rw [PreFacts.embRow_of_lt _ v hv e]
  exact KHost0.v0_apply (W0 (F := Ideal) m ρ c) ⟨v.toNat, hv⟩ e

set_option maxHeartbeats 2000000 in
/-- The encoder table at region 0's exit, at the row of a word below 32000: the encoder row of the word's embedding. -/
theorem tab_top (v : BitVec 32) (hv : v.toNat < 32000) (h : Fin 1024) :
    W4 (F := Ideal) m ρ c (Proc.devRef .tc main_v5_0) (ix2 (⟨v.toNat, by omega⟩ : Fin 32768) h)
      = top (embRow (m ((c : Thread nD τ).loc main_arg2)) v) (m ((c : Thread nD τ).loc main_arg3)) (fun h' => m ((c : Thread nD τ).loc main_arg4) (ix1 h')) h := by
  rw [Run.W4_v5_0]
  refine (Arr.top_arr (V3 (F := Ideal) m ρ) c (⟨v.toNat, by omega⟩ : Fin 32768) h).trans ?_
  exact top_congr3 h (emb_row m ρ c v hv) (KHost0.v1_fn (W0 (F := Ideal) m ρ c)) (KHost0.v3_fn (W0 (F := Ideal) m ρ c))

set_option maxHeartbeats 2000000 in
/-- The action table at region 0's exit, at the row of a word below 32000: the action row of the word's embedding. -/
theorem tab_act (v : BitVec 32) (hv : v.toNat < 32000) (a : Fin 2) :
    W4 (F := Ideal) m ρ c (Proc.devRef .tc main_v5_1) (ix2 (⟨v.toNat, by omega⟩ : Fin 32768) a)
      = act (embRow (m ((c : Thread nD τ).loc main_arg2)) v) (m ((c : Thread nD τ).loc main_arg5)) (fun a' => m ((c : Thread nD τ).loc main_arg6) (ix1 a')) a := by
  rw [Run.W4_v5_1]
  refine (Arr.act_arr (V3 (F := Ideal) m ρ) c (⟨v.toNat, by omega⟩ : Fin 32768) a).trans ?_
  exact act_congr3 a (emb_row m ρ c v hv) (KHost0.v2_fn (W0 (F := Ideal) m ρ c)) (KHost0.v4_fn (W0 (F := Ideal) m ρ c))

end Cert.BridgeTab

end
-- ==== Proof.RefVal.lean ====
/-
  The reference's stages, read at an index, are the specification's functions.

  A token word in [0, 32000) selects its own row of the embedding table: the index normalisation leaves it as it is
  and the gather's clamp does not move it. So the row gathered at extended time t of column b is the embedding row
  of the token there; its two logits followed by the shifted softmax give the action row, its affine image under
  tanh the encoder row. A last-step row word in [0, 511) and a column's own counter likewise pass the normalisation
  and the clamp unchanged, so the ragged gather reads the encoder row of the token at the last step's row. The four
  pieces laid side by side are the head's input row, and the two dense layers with the rectifier between them are the
  classifier head. The step counts and last-step rows are the specification's integer vectors, term for term.
-/
import proofs.«100950_j13675175871137_2_alg».proof.Proof.RefReadP
import proofs.«100950_j13675175871137_2_alg».proof.Proof.Gen.Pre_finite_inputs
import proofs.«100950_j13675175871137_2_alg».proof.Proof.Spec
import Idealize.ShloMosaic.Lib.Pipeline.Value
import Idealize.ShloMosaic.Lib.ValueIdx
import Idealize.ShloMosaic.Lib.Affine
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.ValueIdx Cert.Spec

/-! ## Words -/

/-- A word read signed in [0, n) is its own natural number, below n. -/
theorem toNat_of_range (v : BitVec 32) (n : Nat) (h0 : 0 ≤ v.toInt) (h1 : v.toInt < n) :
    v.toInt.toNat = v.toNat ∧ v.toNat < n := by
  have hlt := v.isLt
  rw [BitVec.toInt_eq_toNat_cond] at h0 h1 ⊢
  split at h0 <;> omega

/-- Index normalisation leaves a non-negative word as it is. -/
theorem select_nonneg (v p : BitVec 32) (h0 : 0 ≤ v.toInt) :
    Scalar.select (IntOp.cmpi .slt v 0#32) p v = v := by
  unfold Scalar.select
  rw [if_neg]
  intro h
  have h := (IntOp.cmpi_slt (x := v) (y := 0#32)).mp h
  have : (0#32 : BitVec 32).toInt = 0 := by decide
  omega

/-- Under the token hypothesis every extended-time token is a table row. -/
theorem tokAt_range (x : (⟨2, ![256, 128]⟩ : Shape).Idx → BitVec 32) (h : HTok x) (t : Fin 511) (b : Fin 128) :
    0 ≤ (tokAt x t b).toInt ∧ (tokAt x t b).toInt < 32000 := by
  unfold tokAt
  split
  · exact h _
  · exact h _

/-- The token array followed by its first 255 rows, read at (t, b). -/
theorem concatTok_apply (x : S256x128.Idx → BitVec 32) (y : S255x128.Idx → BitVec 32)
    (hy : ∀ (r : Fin 255) (c : Fin 128), y (ix2 r c) = x (ix2 (⟨r.val, by omega⟩ : Fin 256) c)) (t : Fin 511) (b : Fin 128) :
    concatenate S511x128 0 [⟨S256x128, x⟩, ⟨S255x128, y⟩] concatenates_S256x128_S255x128_S511x128_d0 (ix2 t b)
      = tokAt x t b := by
  unfold tokAt
  by_cases ht : t.val < 256
  · rw [dif_pos ht]
    exact concatenate_pair_apply_left (0 : Fin 2) x y concatenates_S256x128_S255x128_S511x128_d0 (ix2 t b) rfl
      (ix2 (⟨t.val, ht⟩ : Fin 256) b) (fun c => by match c with | ⟨0, _⟩ => rfl | ⟨1, _⟩ => rfl)
  · rw [dif_neg ht]
    have h2 : t.val - 256 < 255 := by omega
    rw [concatenate_pair_apply_right (0 : Fin 2) x y concatenates_S256x128_S255x128_S511x128_d0 (ix2 t b) rfl rfl
      (ix2 (⟨t.val - 256, h2⟩ : Fin 255) b)
      (fun c hc => by match c with | ⟨0, _⟩ => exact absurd rfl hc | ⟨1, _⟩ => rfl)
      (by show t.val - 256 + 256 = t.val; omega)]
    exact hy _ _

/-- The two start-index columns side by side, read at (b, 0) and (b, 1). -/
theorem concatIdx_apply0 (p q : S128x1.Idx → BitVec 32) (b : Fin 128) :
    concatenate S128x2 1 [⟨S128x1, p⟩, ⟨S128x1, q⟩] concatenates_S128x1_S128x1_S128x2_d1 (ix2 b (0 : Fin 2)) = p (ix2 b (0 : Fin 1)) :=
  concatenate_pair_apply_left (1 : Fin 2) p q concatenates_S128x1_S128x1_S128x2_d1 (ix2 b (0 : Fin 2)) rfl
    (ix2 b (0 : Fin 1)) (fun c => by match c with | ⟨0, _⟩ => rfl | ⟨1, _⟩ => rfl)
theorem concatIdx_apply1 (p q : S128x1.Idx → BitVec 32) (b : Fin 128) :
    concatenate S128x2 1 [⟨S128x1, p⟩, ⟨S128x1, q⟩] concatenates_S128x1_S128x1_S128x2_d1 (ix2 b (1 : Fin 2)) = q (ix2 b (0 : Fin 1)) :=
  concatenate_pair_apply_right (1 : Fin 2) p q concatenates_S128x1_S128x1_S128x2_d1 (ix2 b (1 : Fin 2)) rfl rfl
    (ix2 b (0 : Fin 1)) (fun c hc => by match c with | ⟨0, _⟩ => rfl | ⟨1, _⟩ => exact absurd rfl hc) (by rfl)

/-- The column counter at b is the word b, non-negative and below 128. -/
theorem iota_apply (b : Fin 128) : iotaInDim S128 32 0 (ix1 b) = BitVec.ofNat 32 b.val := rfl
theorem iota_range (b : Fin 128) : 0 ≤ (BitVec.ofNat 32 b.val).toInt ∧ (BitVec.ofNat 32 b.val).toInt.toNat = b.val := by
  have hb := b.isLt
  have h1 : (BitVec.ofNat 32 b.val).toNat = b.val := by
    rw [BitVec.toNat_ofNat]; exact Nat.mod_eq_of_lt (by omega)
  rw [BitVec.toInt_eq_toNat_cond, h1]
  split <;> omega

/-! ## The two gathers read at an index -/

/-- The row gather read at (t, b, e): the table at the start index read signed and clamped into its 32000 rows, column e. -/
theorem gatherRows_apply {α : Type} (x : S32000x1024.Idx → α) (idx : IVec S511x128x1 32)
    (t : Fin 511) (b : Fin 128) (e : Fin 1024) :
    Host.gather gather_S32000x1024_S511x128x1_S511x128x1024_2_0_n_n_0_2_11024 x idx (ix3 t b e)
      = x (ix2 (⟨min (idx (ix3 t b 0)).toInt.toNat 31999, by omega⟩ : Fin 32000) e) := by
  unfold Host.gather
  refine congrArg x (funext fun a => Fin.ext ?_)
  match a with
  | ⟨0, _⟩ =>
    show gather_S32000x1024_S511x128x1_S511x128x1024_2_0_n_n_0_2_11024.start (ix3 t b e) idx 0
      + gather_S32000x1024_S511x128x1_S511x128x1024_2_0_n_n_0_2_11024.batchCoord (ix3 t b e) 0
      + gather_S32000x1024_S511x128x1_S511x128x1024_2_0_n_n_0_2_11024.offCoord (ix3 t b e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32000x1024_S511x128x1_S511x128x1024_2_0_n_n_0_2_11024.startIndexMap from
      List.mem_singleton.mpr rfl)]
    have hsi : gather_S32000x1024_S511x128x1_S511x128x1024_2_0_n_n_0_2_11024.siIdx (ix3 t b e)
        ⟨List.idxOf (0 : Fin 2) gather_S32000x1024_S511x128x1_S511x128x1024_2_0_n_n_0_2_11024.startIndexMap,
          List.idxOf_lt_length_iff.2 (List.mem_singleton.mpr rfl)⟩ = ix3 t b 0 := by
      funext c; refine Fin.ext ?_
      match c with
      | ⟨0, _⟩ => rfl
      | ⟨1, _⟩ => rfl
      | ⟨2, _⟩ => rfl
    rw [hsi]
    rfl
  | ⟨1, _⟩ =>
    show gather_S32000x1024_S511x128x1_S511x128x1024_2_0_n_n_0_2_11024.start (ix3 t b e) idx 1
      + gather_S32000x1024_S511x128x1_S511x128x1024_2_0_n_n_0_2_11024.batchCoord (ix3 t b e) 1
      + gather_S32000x1024_S511x128x1_S511x128x1024_2_0_n_n_0_2_11024.offCoord (ix3 t b e) 1 = e.val
    rw [GatherDims.batchCoord_eq_zero _ _ _ List.not_mem_nil]
    have hs : gather_S32000x1024_S511x128x1_S511x128x1024_2_0_n_n_0_2_11024.start (ix3 t b e) idx 1 = 0 := by
      unfold GatherDims.start
      rw [dif_neg (show ¬ (1 : Fin 2) ∈ gather_S32000x1024_S511x128x1_S511x128x1024_2_0_n_n_0_2_11024.startIndexMap by decide)]
    have ho : gather_S32000x1024_S511x128x1_S511x128x1024_2_0_n_n_0_2_11024.offCoord (ix3 t b e) 1 = e.val := by
      unfold GatherDims.offCoord
      rw [dif_pos (show (1 : Fin 2) ∈ gather_S32000x1024_S511x128x1_S511x128x1024_2_0_n_n_0_2_11024.sKept by decide)]
      rfl
    rw [hs, ho]; omega

/-- The row gather at a start index known to be a table row: the embedding row of that word. -/
theorem gatherRows_tok (x : S32000x1024.Idx → EReal) (idx : IVec S511x128x1 32) (t : Fin 511) (b : Fin 128) (e : Fin 1024)
    (v : BitVec 32) (hv : idx (ix3 t b 0) = v) (h0 : 0 ≤ v.toInt) (h1 : v.toInt < 32000) :
    Host.gather gather_S32000x1024_S511x128x1_S511x128x1024_2_0_n_n_0_2_11024 x idx (ix3 t b e) = embRow x v e := by
  subst hv
  rw [gatherRows_apply]
  obtain ⟨e1, e2⟩ := toNat_of_range _ 32000 h0 h1
  unfold embRow
  refine congrArg x (funext fun a => Fin.ext ?_)
  match a with
  | ⟨0, _⟩ =>
    show min (idx (ix3 t b 0)).toInt.toNat 31999 = (idx (ix3 t b 0)).toNat % 32000
    rw [e1, Nat.mod_eq_of_lt e2]; omega
  | ⟨1, _⟩ => rfl

/-- The last-step gather read at (b, h): the operand at the two start indices of column b, each read signed and clamped
    into its axis, unit h. -/
theorem gatherLast_apply {α : Type} (x : S511x128x1024.Idx → α) (idx : IVec S128x2 32) (b : Fin 128) (h : Fin 1024) :
    Host.gather gather_S511x128x1024_S128x2_S128x1024_1_01_n_n_01_1_111024 x idx (ix2 b h)
      = x (ix3 (⟨min (idx (ix2 b 0)).toInt.toNat 510, by omega⟩ : Fin 511)
          (⟨min (idx (ix2 b 1)).toInt.toNat 127, by omega⟩ : Fin 128) h) := by
  unfold Host.gather
  refine congrArg x (funext fun a => Fin.ext ?_)
  match a with
  | ⟨0, _⟩ =>
    show gather_S511x128x1024_S128x2_S128x1024_1_01_n_n_01_1_111024.start (ix2 b h) idx 0 + gather_S511x128x1024_S128x2_S128x1024_1_01_n_n_01_1_111024.batchCoord (ix2 b h) 0 + gather_S511x128x1024_S128x2_S128x1024_1_01_n_n_01_1_111024.offCoord (ix2 b h) 0 = _
    rw [GatherDims.batchCoord_eq_zero _ _ _ List.not_mem_nil,
      GatherDims.offCoord_eq_zero _ _ _ (fun hm => ((GatherDims.mem_sKept _ _).mp hm).1 (by decide))]
    simp only [Nat.add_zero]
    unfold GatherDims.start
    rw [dif_pos (show (0 : Fin 3) ∈ gather_S511x128x1024_S128x2_S128x1024_1_01_n_n_01_1_111024.startIndexMap by decide)]
    have hsi : gather_S511x128x1024_S128x2_S128x1024_1_01_n_n_01_1_111024.siIdx (ix2 b h) ⟨List.idxOf (0 : Fin 3) gather_S511x128x1024_S128x2_S128x1024_1_01_n_n_01_1_111024.startIndexMap,
          List.idxOf_lt_length_iff.2 (by decide)⟩ = ix2 b 0 := by
      funext c; refine Fin.ext ?_
      match c with
      | ⟨0, _⟩ => rfl
      | ⟨1, _⟩ => rfl
    rw [hsi]
    rfl
  | ⟨1, _⟩ =>
    show gather_S511x128x1024_S128x2_S128x1024_1_01_n_n_01_1_111024.start (ix2 b h) idx 1 + gather_S511x128x1024_S128x2_S128x1024_1_01_n_n_01_1_111024.batchCoord (ix2 b h) 1 + gather_S511x128x1024_S128x2_S128x1024_1_01_n_n_01_1_111024.offCoord (ix2 b h) 1 = _
    rw [GatherDims.batchCoord_eq_zero _ _ _ List.not_mem_nil,
      GatherDims.offCoord_eq_zero _ _ _ (fun hm => ((GatherDims.mem_sKept _ _).mp hm).1 (by decide))]
    simp only [Nat.add_zero]
    unfold GatherDims.start
    rw [dif_pos (show (1 : Fin 3) ∈ gather_S511x128x1024_S128x2_S128x1024_1_01_n_n_01_1_111024.startIndexMap by decide)]
    have hsi : gather_S511x128x1024_S128x2_S128x1024_1_01_n_n_01_1_111024.siIdx (ix2 b h) ⟨List.idxOf (1 : Fin 3) gather_S511x128x1024_S128x2_S128x1024_1_01_n_n_01_1_111024.startIndexMap,
          List.idxOf_lt_length_iff.2 (by decide)⟩ = ix2 b 1 := by
      funext c; refine Fin.ext ?_
      match c with
      | ⟨0, _⟩ => rfl
      | ⟨1, _⟩ => rfl
    rw [hsi]
    rfl
  | ⟨2, _⟩ =>
    show gather_S511x128x1024_S128x2_S128x1024_1_01_n_n_01_1_111024.start (ix2 b h) idx 2 + gather_S511x128x1024_S128x2_S128x1024_1_01_n_n_01_1_111024.batchCoord (ix2 b h) 2 + gather_S511x128x1024_S128x2_S128x1024_1_01_n_n_01_1_111024.offCoord (ix2 b h) 2 = h.val
    rw [GatherDims.batchCoord_eq_zero _ _ _ List.not_mem_nil]
    have hs : gather_S511x128x1024_S128x2_S128x1024_1_01_n_n_01_1_111024.start (ix2 b h) idx 2 = 0 := by
      unfold GatherDims.start
      rw [dif_neg (show ¬ (2 : Fin 3) ∈ gather_S511x128x1024_S128x2_S128x1024_1_01_n_n_01_1_111024.startIndexMap by decide)]
    have ho : gather_S511x128x1024_S128x2_S128x1024_1_01_n_n_01_1_111024.offCoord (ix2 b h) 2 = h.val := by
      unfold GatherDims.offCoord
      rw [dif_pos (show (2 : Fin 3) ∈ gather_S511x128x1024_S128x2_S128x1024_1_01_n_n_01_1_111024.sKept by decide)]
      rfl
    rw [hs, ho]; omega

/-- The last-step gather at start indices known to be a row word in [0, 511) and the column's own counter: the operand
    at that row, column b. -/
theorem gatherLast_row (x : S511x128x1024.Idx → EReal) (idx : IVec S128x2 32) (b : Fin 128) (h : Fin 1024)
    (r : BitVec 32) (hr : idx (ix2 b 0) = r) (hc : idx (ix2 b 1) = BitVec.ofNat 32 b.val)
    (h0 : 0 ≤ r.toInt) (h1 : r.toInt < 511) :
    Host.gather gather_S511x128x1024_S128x2_S128x1024_1_01_n_n_01_1_111024 x idx (ix2 b h) = x (ix3 (rowOf r) b h) := by
  subst hr
  rw [gatherLast_apply]
  obtain ⟨e1, e2⟩ := toNat_of_range _ 511 h0 h1
  obtain ⟨_, c2⟩ := iota_range b
  have hb := b.isLt
  unfold rowOf
  refine congrArg x (funext fun a => Fin.ext ?_)
  match a with
  | ⟨0, _⟩ =>
    show min (idx (ix2 b 0)).toInt.toNat 510 = (idx (ix2 b 0)).toNat % 511
    rw [e1, Nat.mod_eq_of_lt e2]; omega
  | ⟨1, _⟩ =>
    show min (idx (ix2 b 1)).toInt.toNat 127 = b.val
    rw [hc, c2]; omega
  | ⟨2, _⟩ => rfl

/-! ## The maximum over the two lanes -/

/-- The fold of max from -∞ over two values is their maximum. -/
theorem fold_max2 (f : Fin 2 → EReal) :
    (Finset.univ : Finset (Fin 2)).fold (FloatOps.maximumf (F := Ideal) (φ := .f32)) ⊥ f = max (f 0) (f 1) := by
  rw [show (Finset.univ : Finset (Fin 2)) = {0, 1} from by decide, Finset.fold_insert (by decide), Finset.fold_singleton]
  show max (f 0) (max (f 1) ⊥) = _
  rw [max_bot_right]

/-- The maximum over the two lanes from -∞, read at (t, b). -/
theorem max2_apply (y : (⟨S511x128x2, .f32⟩ : BufTy).Contents (Elt Ideal)) (init : (⟨S_, .f32⟩ : BufTy).Contents (Elt Ideal))
    (hinit : init (Shape.Idx.first h_S_) = ⊥) (t : Fin 511) (b : Fin 128) :
    Host.reduce (FloatOps.maximumf (F := Ideal) (φ := .f32)) y init reducesTo_S511x128x2_S511x128_d2 h_S_ (ix2 t b)
      = max (y (ix3 t b 0)) (y (ix3 t b 1)) := by
  have hR : S511x128x2.Reduces [2] S511x128 := by decide
  rw [Host.reduce_eq_fold_single _ y init reducesTo_S511x128x2_S511x128_d2 hR h_S_ (ix2 t b), hinit]
  have e0 : hR.lift (ix2 t b) (0 : Fin 2) = ix3 t b 0 := funext fun a => Fin.ext (by
    match a with | ⟨0, _⟩ => rfl | ⟨1, _⟩ => rfl | ⟨2, _⟩ => rfl)
  have e1 : hR.lift (ix2 t b) (1 : Fin 2) = ix3 t b 1 := funext fun a => Fin.ext (by
    match a with | ⟨0, _⟩ => rfl | ⟨1, _⟩ => rfl | ⟨2, _⟩ => rfl)
  refine (fold_max2 (y ∘ hR.lift (ix2 t b))).trans ?_
  show max (y (hR.lift (ix2 t b) (0 : Fin 2))) (y (hR.lift (ix2 t b) (1 : Fin 2))) = _
  rw [e0, e1]

/-! ## Four pieces side by side -/

/-- Four [128, 1024] pieces side by side, read at (b, k): piece k / 1024 at column k % 1024. -/
theorem concat4_apply {α : Type} (p0 p1 p2 p3 : S128x1024.Idx → α) (b : Fin 128) (k : Fin 4096) :
    concatenate S128x4096 1 [⟨S128x1024, p0⟩, ⟨S128x1024, p1⟩, ⟨S128x1024, p2⟩, ⟨S128x1024, p3⟩] concatenates_S128x1024_S128x1024_S128x1024_S128x1024_S128x4096_d1 (ix2 b k)
      = if h0 : k.val < 1024 then p0 (ix2 b (⟨k.val, h0⟩ : Fin 1024))
        else if h1 : k.val < 2048 then p1 (ix2 b (⟨k.val - 1024, by omega⟩ : Fin 1024))
        else if h2 : k.val < 3072 then p2 (ix2 b (⟨k.val - 2048, by omega⟩ : Fin 1024))
        else p3 (ix2 b (⟨k.val - 3072, by omega⟩ : Fin 1024)) := by
  have hk := k.isLt
  by_cases h0 : k.val < 1024
  · rw [dif_pos h0]
    exact concatenate_apply_piece (t := S128x4096) (1 : Fin 2) [⟨S128x1024, p0⟩, ⟨S128x1024, p1⟩, ⟨S128x1024, p2⟩, ⟨S128x1024, p3⟩] concatenates_S128x1024_S128x1024_S128x1024_S128x1024_S128x4096_d1 (ix2 b k) 0 (by show (0 : Nat) < 4; omega) S128x1024 p0 rfl rfl 0 rfl
      (ix2 b (⟨k.val, h0⟩ : Fin 1024)) (fun c hc => by match c with | ⟨0, _⟩ => rfl | ⟨1, _⟩ => exact absurd rfl hc)
      (by show 0 + k.val = k.val; omega)
  · rw [dif_neg h0]
    by_cases h1 : k.val < 2048
    · rw [dif_pos h1]
      exact concatenate_apply_piece (t := S128x4096) (1 : Fin 2) [⟨S128x1024, p0⟩, ⟨S128x1024, p1⟩, ⟨S128x1024, p2⟩, ⟨S128x1024, p3⟩] concatenates_S128x1024_S128x1024_S128x1024_S128x1024_S128x4096_d1 (ix2 b k) 1 (by show (1 : Nat) < 4; omega) S128x1024 p1 rfl rfl 1024 rfl
        (ix2 b (⟨k.val - 1024, by omega⟩ : Fin 1024)) (fun c hc => by match c with | ⟨0, _⟩ => rfl | ⟨1, _⟩ => exact absurd rfl hc)
        (by show 1024 + (k.val - 1024) = k.val; omega)
    · rw [dif_neg h1]
      by_cases h2 : k.val < 3072
      · rw [dif_pos h2]
        exact concatenate_apply_piece (t := S128x4096) (1 : Fin 2) [⟨S128x1024, p0⟩, ⟨S128x1024, p1⟩, ⟨S128x1024, p2⟩, ⟨S128x1024, p3⟩] concatenates_S128x1024_S128x1024_S128x1024_S128x1024_S128x4096_d1 (ix2 b k) 2 (by show (2 : Nat) < 4; omega) S128x1024 p2 rfl rfl 2048 rfl
          (ix2 b (⟨k.val - 2048, by omega⟩ : Fin 1024)) (fun c hc => by match c with | ⟨0, _⟩ => rfl | ⟨1, _⟩ => exact absurd rfl hc)
          (by show 2048 + (k.val - 2048) = k.val; omega)
      · rw [dif_neg h2]
        exact concatenate_apply_piece (t := S128x4096) (1 : Fin 2) [⟨S128x1024, p0⟩, ⟨S128x1024, p1⟩, ⟨S128x1024, p2⟩, ⟨S128x1024, p3⟩] concatenates_S128x1024_S128x1024_S128x1024_S128x1024_S128x4096_d1 (ix2 b k) 3 (by show (3 : Nat) < 4; omega) S128x1024 p3 rfl rfl 3072 rfl
          (ix2 b (⟨k.val - 3072, by omega⟩ : Fin 1024)) (fun c hc => by match c with | ⟨0, _⟩ => rfl | ⟨1, _⟩ => exact absurd rfl hc)
          (by show 3072 + (k.val - 3072) = k.val; omega)

/-! ## The action rows of the first token array -/

/-- The gathered embedding row of the token at (t, b). -/
theorem emb_apply (x0 : (⟨S256x128, .i32⟩ : BufTy).Contents (Elt Ideal)) (x2 : (⟨S32000x1024, .f32⟩ : BufTy).Contents (Elt Ideal)) (h0 : HTok x0)
    (t : Fin 511) (b : Fin 128) (e : Fin 1024) :
    val_main_v8 (F := Ideal) x0 x2 (ix3 t b e) = embRow x2 (tokAt x0 t b) e := by
  have hv1 : val_main_v1 (F := Ideal) x0 (ix2 t b) = tokAt x0 t b := by
    unfold val_main_v1
    refine concatTok_apply x0 _ (fun r c => ?_) t b
    rw [val_main_v0_apply]
    exact congrArg x0 (funext fun a => by match a with | ⟨0, _⟩ => rfl | ⟨1, _⟩ => rfl)
  have hr := tokAt_range x0 h0 t b
  have hv7 : val_main_v7 (F := Ideal) x0 (ix3 t b (0 : Fin 1)) = tokAt x0 t b := by
    rw [val_main_v7_apply, show idx_main_v7 (ix3 t b (0 : Fin 1)) = ix2 t b from
      funext fun a => by match a with | ⟨0, _⟩ => rfl | ⟨1, _⟩ => rfl,
      val_main_v6_apply, val_main_v3_apply, val_main_v2_apply, val_main_c_apply, hv1]
    exact select_nonneg _ _ hr.1
  unfold val_main_v8
  exact gatherRows_tok x2 (val_main_v7 (F := Ideal) x0) t b e (tokAt x0 t b) hv7 hr.1 hr.2

/-- The two action logits of the token at (t, b). -/
theorem logit_apply (x0 : (⟨S256x128, .i32⟩ : BufTy).Contents (Elt Ideal)) (x2 : (⟨S32000x1024, .f32⟩ : BufTy).Contents (Elt Ideal)) (x5 : (⟨S1024x2, .f32⟩ : BufTy).Contents (Elt Ideal))
    (x6 : (⟨S2, .f32⟩ : BufTy).Contents (Elt Ideal)) (h0 : HTok x0) (t : Fin 511) (b : Fin 128) (a : Fin 2) :
    val_main_v17 (F := Ideal) x0 x2 x5 x6 (ix3 t b a)
      = logit (embRow x2 (tokAt x0 t b)) x5 (fun a' => x6 (ix1 a')) a := by
  rw [val_main_v17_apply, val_main_v14_apply, val_main_v16_apply, val_main_v15_apply]
  unfold logit
  rw [Ideal.addf_def]
  refine congrArg₂ (· + ·) (Finset.sum_congr rfl fun k _ => ?_) ?_
  · rw [show lidx_main_v14 (ix3 t b a) k = ix3 t b k from
        funext fun c => by match c with | ⟨0, _⟩ => rfl | ⟨1, _⟩ => rfl | ⟨2, _⟩ => rfl,
      emb_apply x0 x2 h0 t b k]
    exact congrArg (_ * x5 ·) (funext fun c => by match c with | ⟨0, _⟩ => rfl | ⟨1, _⟩ => rfl)
  · exact congrArg x6 (funext fun c => by match c with | ⟨0, _⟩ => rfl)

/-- The action row of the token at (t, b): the softmax of its two logits. -/
theorem act_apply (x0 : (⟨S256x128, .i32⟩ : BufTy).Contents (Elt Ideal)) (x2 : (⟨S32000x1024, .f32⟩ : BufTy).Contents (Elt Ideal)) (x5 : (⟨S1024x2, .f32⟩ : BufTy).Contents (Elt Ideal))
    (x6 : (⟨S2, .f32⟩ : BufTy).Contents (Elt Ideal)) (h0 : HTok x0) (t : Fin 511) (b : Fin 128) (a : Fin 2) :
    val_main_v28 (F := Ideal) x0 x2 x5 x6 (ix3 t b a)
      = act (embRow x2 (tokAt x0 t b)) x5 (fun a' => x6 (ix1 a')) a := by
  have hbot : Ideal.ofBits .f32 0xFF800000#32 = (⊥ : EReal) := by simp [Ideal.ofBits, Ideal.ieee]
  -- the row maximum
  have hm : val_main_v20 (F := Ideal) x0 x2 x5 x6 (ix2 t b)
      = max (val_main_v17 (F := Ideal) x0 x2 x5 x6 (ix3 t b 0)) (val_main_v17 (F := Ideal) x0 x2 x5 x6 (ix3 t b 1)) := by
    rw [val_main_v20_apply, val_main_v19_apply, val_main_cst_1_apply]
    unfold val_main_v18
    rw [max2_apply _ _ (by rw [val_main_cst_apply]; exact hbot) t b, Ideal.maximumf_def, Ideal.ofBits_def, hbot, max_bot_left]
  -- the shifted exponentials
  have hexp : ∀ a' : Fin 2, val_main_v24 (F := Ideal) x0 x2 x5 x6 (ix3 t b a')
      = Ideal.exp (val_main_v17 (F := Ideal) x0 x2 x5 x6 (ix3 t b a')
          - max (val_main_v17 (F := Ideal) x0 x2 x5 x6 (ix3 t b 0)) (val_main_v17 (F := Ideal) x0 x2 x5 x6 (ix3 t b 1))) := by
    intro a'
    rw [val_main_v24_apply, val_main_v23_apply, val_main_v22_apply, val_main_v21_apply,
      show idx_main_v21 (idx_main_v22 (ix3 t b a')) = ix2 t b from
        funext fun c => by match c with | ⟨0, _⟩ => rfl | ⟨1, _⟩ => rfl,
      hm, Ideal.hostUnary_exp_def, Ideal.subf_def]
  -- their sum
  have hden : val_main_v27 (F := Ideal) x0 x2 x5 x6 (ix3 t b a)
      = val_main_v24 (F := Ideal) x0 x2 x5 x6 (ix3 t b 0) + val_main_v24 (F := Ideal) x0 x2 x5 x6 (ix3 t b 1) := by
    rw [val_main_v27_apply, val_main_v26_apply,
      show idx_main_v26 (idx_main_v27 (ix3 t b a)) = ix2 t b from
        funext fun c => by match c with | ⟨0, _⟩ => rfl | ⟨1, _⟩ => rfl,
      val_main_v25_apply, val_main_cst_2_apply, Ideal.ofBits_def, Ideal.ofBits_zero_f32, zero_add, Fin.sum_univ_two,
      show idx_main_v25 (ix2 t b) (0 : Fin 2) = ix3 t b 0 from
        funext fun c => by match c with | ⟨0, _⟩ => rfl | ⟨1, _⟩ => rfl | ⟨2, _⟩ => rfl,
      show idx_main_v25 (ix2 t b) (1 : Fin 2) = ix3 t b 1 from
        funext fun c => by match c with | ⟨0, _⟩ => rfl | ⟨1, _⟩ => rfl | ⟨2, _⟩ => rfl]
  rw [val_main_v28_apply, hden, hexp a, hexp 0, hexp 1, Ideal.hostDivf_def,
    logit_apply x0 x2 x5 x6 h0 t b a, logit_apply x0 x2 x5 x6 h0 t b 0, logit_apply x0 x2 x5 x6 h0 t b 1]
  rfl

/-! ## The action rows of the second token array -/

/-- The gathered embedding row of the token at (t, b). -/
theorem emb_apply' (x1 : (⟨S256x128, .i32⟩ : BufTy).Contents (Elt Ideal)) (x2 : (⟨S32000x1024, .f32⟩ : BufTy).Contents (Elt Ideal)) (h1 : HTok x1)
    (t : Fin 511) (b : Fin 128) (e : Fin 1024) :
    val_main_v37 (F := Ideal) x1 x2 (ix3 t b e) = embRow x2 (tokAt x1 t b) e := by
  have hv1 : val_main_v30 (F := Ideal) x1 (ix2 t b) = tokAt x1 t b := by
    unfold val_main_v30
    refine concatTok_apply x1 _ (fun r c => ?_) t b
    rw [val_main_v29_apply]
    exact congrArg x1 (funext fun a => by match a with | ⟨0, _⟩ => rfl | ⟨1, _⟩ => rfl)
  have hr := tokAt_range x1 h1 t b
  have hv7 : val_main_v36 (F := Ideal) x1 (ix3 t b (0 : Fin 1)) = tokAt x1 t b := by
    rw [val_main_v36_apply, show idx_main_v36 (ix3 t b (0 : Fin 1)) = ix2 t b from
      funext fun a => by match a with | ⟨0, _⟩ => rfl | ⟨1, _⟩ => rfl,
      val_main_v35_apply, val_main_v32_apply, val_main_v31_apply, val_main_c_3_apply, hv1]
    exact select_nonneg _ _ hr.1
  unfold val_main_v37
  exact gatherRows_tok x2 (val_main_v36 (F := Ideal) x1) t b e (tokAt x1 t b) hv7 hr.1 hr.2

/-- The two action logits of the token at (t, b). -/
theorem logit_apply' (x1 : (⟨S256x128, .i32⟩ : BufTy).Contents (Elt Ideal)) (x2 : (⟨S32000x1024, .f32⟩ : BufTy).Contents (Elt Ideal)) (x5 : (⟨S1024x2, .f32⟩ : BufTy).Contents (Elt Ideal))
    (x6 : (⟨S2, .f32⟩ : BufTy).Contents (Elt Ideal)) (h1 : HTok x1) (t : Fin 511) (b : Fin 128) (a : Fin 2) :
    val_main_v46 (F := Ideal) x1 x2 x5 x6 (ix3 t b a)
      = logit (embRow x2 (tokAt x1 t b)) x5 (fun a' => x6 (ix1 a')) a := by
  rw [val_main_v46_apply, val_main_v43_apply, val_main_v45_apply, val_main_v44_apply]
  unfold logit
  rw [Ideal.addf_def]
  refine congrArg₂ (· + ·) (Finset.sum_congr rfl fun k _ => ?_) ?_
  · rw [show lidx_main_v43 (ix3 t b a) k = ix3 t b k from
        funext fun c => by match c with | ⟨0, _⟩ => rfl | ⟨1, _⟩ => rfl | ⟨2, _⟩ => rfl,
      emb_apply' x1 x2 h1 t b k]
    exact congrArg (_ * x5 ·) (funext fun c => by match c with | ⟨0, _⟩ => rfl | ⟨1, _⟩ => rfl)
  · exact congrArg x6 (funext fun c => by match c with | ⟨0, _⟩ => rfl)

/-- The action row of the token at (t, b): the softmax of its two logits. -/
theorem act_apply' (x1 : (⟨S256x128, .i32⟩ : BufTy).Contents (Elt Ideal)) (x2 : (⟨S32000x1024, .f32⟩ : BufTy).Contents (Elt Ideal)) (x5 : (⟨S1024x2, .f32⟩ : BufTy).Contents (Elt Ideal))
    (x6 : (⟨S2, .f32⟩ : BufTy).Contents (Elt Ideal)) (h1 : HTok x1) (t : Fin 511) (b : Fin 128) (a : Fin 2) :
    val_main_v57 (F := Ideal) x1 x2 x5 x6 (ix3 t b a)
      = act (embRow x2 (tokAt x1 t b)) x5 (fun a' => x6 (ix1 a')) a := by
  have hbot : Ideal.ofBits .f32 0xFF800000#32 = (⊥ : EReal) := by simp [Ideal.ofBits, Ideal.ieee]
  -- the row maximum
  have hm : val_main_v49 (F := Ideal) x1 x2 x5 x6 (ix2 t b)
      = max (val_main_v46 (F := Ideal) x1 x2 x5 x6 (ix3 t b 0)) (val_main_v46 (F := Ideal) x1 x2 x5 x6 (ix3 t b 1)) := by
    rw [val_main_v49_apply, val_main_v48_apply, val_main_cst_6_apply]
    unfold val_main_v47
    rw [max2_apply _ _ (by rw [val_main_cst_5_apply]; exact hbot) t b, Ideal.maximumf_def, Ideal.ofBits_def, hbot, max_bot_left]
  -- the shifted exponentials
  have hexp : ∀ a' : Fin 2, val_main_v53 (F := Ideal) x1 x2 x5 x6 (ix3 t b a')
      = Ideal.exp (val_main_v46 (F := Ideal) x1 x2 x5 x6 (ix3 t b a')
          - max (val_main_v46 (F := Ideal) x1 x2 x5 x6 (ix3 t b 0)) (val_main_v46 (F := Ideal) x1 x2 x5 x6 (ix3 t b 1))) := by
    intro a'
    rw [val_main_v53_apply, val_main_v52_apply, val_main_v51_apply, val_main_v50_apply,
      show idx_main_v50 (idx_main_v51 (ix3 t b a')) = ix2 t b from
        funext fun c => by match c with | ⟨0, _⟩ => rfl | ⟨1, _⟩ => rfl,
      hm, Ideal.hostUnary_exp_def, Ideal.subf_def]
  -- their sum
  have hden : val_main_v56 (F := Ideal) x1 x2 x5 x6 (ix3 t b a)
      = val_main_v53 (F := Ideal) x1 x2 x5 x6 (ix3 t b 0) + val_main_v53 (F := Ideal) x1 x2 x5 x6 (ix3 t b 1) := by
    rw [val_main_v56_apply, val_main_v55_apply,
      show idx_main_v55 (idx_main_v56 (ix3 t b a)) = ix2 t b from
        funext fun c => by match c with | ⟨0, _⟩ => rfl | ⟨1, _⟩ => rfl,
      val_main_v54_apply, val_main_cst_7_apply, Ideal.ofBits_def, Ideal.ofBits_zero_f32, zero_add, Fin.sum_univ_two,
      show idx_main_v54 (ix2 t b) (0 : Fin 2) = ix3 t b 0 from
        funext fun c => by match c with | ⟨0, _⟩ => rfl | ⟨1, _⟩ => rfl | ⟨2, _⟩ => rfl,
      show idx_main_v54 (ix2 t b) (1 : Fin 2) = ix3 t b 1 from
        funext fun c => by match c with | ⟨0, _⟩ => rfl | ⟨1, _⟩ => rfl | ⟨2, _⟩ => rfl]
  rw [val_main_v57_apply, hden, hexp a, hexp 0, hexp 1, Ideal.hostDivf_def,
    logit_apply' x1 x2 x5 x6 h1 t b a, logit_apply' x1 x2 x5 x6 h1 t b 0, logit_apply' x1 x2 x5 x6 h1 t b 1]
  rfl

/-! ## The encoder rows and the last step of the first token array -/

/-- The encoder row of the token at (t, b). -/
theorem top_apply (x0 : (⟨S256x128, .i32⟩ : BufTy).Contents (Elt Ideal)) (x2 : (⟨S32000x1024, .f32⟩ : BufTy).Contents (Elt Ideal)) (x3 : (⟨S1024x1024, .f32⟩ : BufTy).Contents (Elt Ideal))
    (x4 : (⟨S1024, .f32⟩ : BufTy).Contents (Elt Ideal)) (h0 : HTok x0) (t : Fin 511) (b : Fin 128) (h : Fin 1024) :
    val_main_v13 (F := Ideal) x0 x2 x3 x4 (ix3 t b h)
      = top (embRow x2 (tokAt x0 t b)) x3 (fun h' => x4 (ix1 h')) h := by
  rw [val_main_v13_apply, val_main_v12_apply, val_main_v9_apply, val_main_v11_apply, val_main_v10_apply]
  unfold top
  rw [Ideal.hostUnary_tanh_def, Ideal.addf_def]
  refine congrArg Ideal.tanh (congrArg₂ (· + ·) (Finset.sum_congr rfl fun k _ => ?_) ?_)
  · rw [show lidx_main_v9 (ix3 t b h) k = ix3 t b k from
        funext fun c => by match c with | ⟨0, _⟩ => rfl | ⟨1, _⟩ => rfl | ⟨2, _⟩ => rfl,
      emb_apply x0 x2 h0 t b k]
    exact congrArg (_ * x3 ·) (funext fun c => by match c with | ⟨0, _⟩ => rfl | ⟨1, _⟩ => rfl)
  · exact congrArg x4 (funext fun c => by match c with | ⟨0, _⟩ => rfl)

/-- The step count and the last step's row of the reference are the specification's. -/
theorem steps_eq (x0 : (⟨S256x128, .i32⟩ : BufTy).Contents (Elt Ideal)) : val_main_v77 (F := Ideal) x0 = steps x0 := rfl
theorem lastRow_eq (x0 : (⟨S256x128, .i32⟩ : BufTy).Contents (Elt Ideal)) : val_main_v84 (F := Ideal) x0 = lastRow x0 := rfl

/-- The encoder row at each column's last step. -/
theorem last_apply (x0 : (⟨S256x128, .i32⟩ : BufTy).Contents (Elt Ideal)) (x2 : (⟨S32000x1024, .f32⟩ : BufTy).Contents (Elt Ideal)) (x3 : (⟨S1024x1024, .f32⟩ : BufTy).Contents (Elt Ideal))
    (x4 : (⟨S1024, .f32⟩ : BufTy).Contents (Elt Ideal)) (h0 : HTok x0) (r0 : HRow x0) (b : Fin 128) (h : Fin 1024) :
    val_main_v98 (F := Ideal) x0 x2 x3 x4 (ix2 b h)
      = top (embRow x2 (tokAt x0 (rowOf (lastRow x0 (ix1 b))) b)) x3 (fun h' => x4 (ix1 h')) h := by
  have hrow := r0 (ix1 b)
  have hv84 : val_main_v84 (F := Ideal) x0 (ix1 b) = lastRow x0 (ix1 b) := congrFun (lastRow_eq x0) (ix1 b)
  have hr : val_main_v97 (F := Ideal) x0 (ix2 b (0 : Fin 2)) = lastRow x0 (ix1 b) := by
    unfold val_main_v97
    rw [concatIdx_apply0, val_main_v95_apply, show idx_main_v95 (ix2 b (0 : Fin 1)) = ix1 b from
        funext fun c => by match c with | ⟨0, _⟩ => rfl,
      val_main_v89_apply, val_main_v86_apply, val_main_v85_apply, val_main_c_21_apply, hv84]
    exact select_nonneg _ _ hrow.1
  have hc : val_main_v97 (F := Ideal) x0 (ix2 b (1 : Fin 2)) = BitVec.ofNat 32 b.val := by
    unfold val_main_v97
    rw [concatIdx_apply1, val_main_v96_apply, show idx_main_v96 (ix2 b (0 : Fin 1)) = ix1 b from
        funext fun c => by match c with | ⟨0, _⟩ => rfl,
      val_main_v94_apply, val_main_v91_apply, val_main_v90_apply, val_main_c_23_apply]
    show Scalar.select (IntOp.cmpi .slt (BitVec.ofNat 32 b.val) 0#32) _ (BitVec.ofNat 32 b.val) = _
    exact select_nonneg _ _ (iota_range b).1
  unfold val_main_v98
  rw [gatherLast_row _ _ b h (lastRow x0 (ix1 b)) hr hc hrow.1 hrow.2]
  exact top_apply x0 x2 x3 x4 h0 _ b h

/-! ## The encoder rows and the last step of the second token array -/

/-- The encoder row of the token at (t, b). -/
theorem top_apply' (x1 : (⟨S256x128, .i32⟩ : BufTy).Contents (Elt Ideal)) (x2 : (⟨S32000x1024, .f32⟩ : BufTy).Contents (Elt Ideal)) (x3 : (⟨S1024x1024, .f32⟩ : BufTy).Contents (Elt Ideal))
    (x4 : (⟨S1024, .f32⟩ : BufTy).Contents (Elt Ideal)) (h1 : HTok x1) (t : Fin 511) (b : Fin 128) (h : Fin 1024) :
    val_main_v42 (F := Ideal) x1 x2 x3 x4 (ix3 t b h)
      = top (embRow x2 (tokAt x1 t b)) x3 (fun h' => x4 (ix1 h')) h := by
  rw [val_main_v42_apply, val_main_v41_apply, val_main_v38_apply, val_main_v40_apply, val_main_v39_apply]
  unfold top
  rw [Ideal.hostUnary_tanh_def, Ideal.addf_def]
  refine congrArg Ideal.tanh (congrArg₂ (· + ·) (Finset.sum_congr rfl fun k _ => ?_) ?_)
  · rw [show lidx_main_v38 (ix3 t b h) k = ix3 t b k from
        funext fun c => by match c with | ⟨0, _⟩ => rfl | ⟨1, _⟩ => rfl | ⟨2, _⟩ => rfl,
      emb_apply' x1 x2 h1 t b k]
    exact congrArg (_ * x3 ·) (funext fun c => by match c with | ⟨0, _⟩ => rfl | ⟨1, _⟩ => rfl)
  · exact congrArg x4 (funext fun c => by match c with | ⟨0, _⟩ => rfl)

/-- The step count and the last step's row of the reference are the specification's. -/
theorem steps_eq' (x1 : (⟨S256x128, .i32⟩ : BufTy).Contents (Elt Ideal)) : val_main_v81 (F := Ideal) x1 = steps x1 := rfl
theorem lastRow_eq' (x1 : (⟨S256x128, .i32⟩ : BufTy).Contents (Elt Ideal)) : val_main_v100 (F := Ideal) x1 = lastRow x1 := rfl

/-- The encoder row at each column's last step. -/
theorem last_apply' (x1 : (⟨S256x128, .i32⟩ : BufTy).Contents (Elt Ideal)) (x2 : (⟨S32000x1024, .f32⟩ : BufTy).Contents (Elt Ideal)) (x3 : (⟨S1024x1024, .f32⟩ : BufTy).Contents (Elt Ideal))
    (x4 : (⟨S1024, .f32⟩ : BufTy).Contents (Elt Ideal)) (h1 : HTok x1) (r1 : HRow x1) (b : Fin 128) (h : Fin 1024) :
    val_main_v114 (F := Ideal) x1 x2 x3 x4 (ix2 b h)
      = top (embRow x2 (tokAt x1 (rowOf (lastRow x1 (ix1 b))) b)) x3 (fun h' => x4 (ix1 h')) h := by
  have hrow := r1 (ix1 b)
  have hv84 : val_main_v100 (F := Ideal) x1 (ix1 b) = lastRow x1 (ix1 b) := congrFun (lastRow_eq' x1) (ix1 b)
  have hr : val_main_v113 (F := Ideal) x1 (ix2 b (0 : Fin 2)) = lastRow x1 (ix1 b) := by
    unfold val_main_v113
    rw [concatIdx_apply0, val_main_v111_apply, show idx_main_v111 (ix2 b (0 : Fin 1)) = ix1 b from
        funext fun c => by match c with | ⟨0, _⟩ => rfl,
      val_main_v105_apply, val_main_v102_apply, val_main_v101_apply, val_main_c_26_apply, hv84]
    exact select_nonneg _ _ hrow.1
  have hc : val_main_v113 (F := Ideal) x1 (ix2 b (1 : Fin 2)) = BitVec.ofNat 32 b.val := by
    unfold val_main_v113
    rw [concatIdx_apply1, val_main_v112_apply, show idx_main_v112 (ix2 b (0 : Fin 1)) = ix1 b from
        funext fun c => by match c with | ⟨0, _⟩ => rfl,
      val_main_v110_apply, val_main_v107_apply, val_main_v106_apply, val_main_c_28_apply]
    show Scalar.select (IntOp.cmpi .slt (BitVec.ofNat 32 b.val) 0#32) _ (BitVec.ofNat 32 b.val) = _
    exact select_nonneg _ _ (iota_range b).1
  unfold val_main_v114
  rw [gatherLast_row _ _ b h (lastRow x1 (ix1 b)) hr hc hrow.1 hrow.2]
  exact top_apply' x1 x2 x3 x4 h1 _ b h

/-! ## The head -/

/-- The head's input row: the two last-step encoder rows, their absolute difference and their product side by side. -/
theorem feat_apply (x0 x1 : (⟨S256x128, .i32⟩ : BufTy).Contents (Elt Ideal)) (x2 : (⟨S32000x1024, .f32⟩ : BufTy).Contents (Elt Ideal)) (x3 : (⟨S1024x1024, .f32⟩ : BufTy).Contents (Elt Ideal))
    (x4 : (⟨S1024, .f32⟩ : BufTy).Contents (Elt Ideal)) (b : Fin 128) (k : Fin 4096) :
    val_main_v118 (F := Ideal) x0 x1 x2 x3 x4 (ix2 b k)
      = feat (fun h => val_main_v98 (F := Ideal) x0 x2 x3 x4 (ix2 b h)) (fun h => val_main_v114 (F := Ideal) x1 x2 x3 x4 (ix2 b h)) k := by
  unfold val_main_v118
  rw [concat4_apply]
  unfold feat
  by_cases h0 : k.val < 1024
  · rw [dif_pos h0, dif_pos h0]
  · rw [dif_neg h0, dif_neg h0]
    by_cases h1 : k.val < 2048
    · rw [dif_pos h1, dif_pos h1]
    · rw [dif_neg h1, dif_neg h1]
      by_cases h2 : k.val < 3072
      · rw [dif_pos h2, dif_pos h2]; rfl
      · rw [dif_neg h2, dif_neg h2]; rfl

/-- The head's hidden layer at (b, h). -/
theorem hid_apply (x0 x1 : (⟨S256x128, .i32⟩ : BufTy).Contents (Elt Ideal)) (x2 : (⟨S32000x1024, .f32⟩ : BufTy).Contents (Elt Ideal)) (x3 : (⟨S1024x1024, .f32⟩ : BufTy).Contents (Elt Ideal))
    (x4 : (⟨S1024, .f32⟩ : BufTy).Contents (Elt Ideal)) (x7 : (⟨S4096x1024, .f32⟩ : BufTy).Contents (Elt Ideal)) (x8 : (⟨S1024, .f32⟩ : BufTy).Contents (Elt Ideal)) (b : Fin 128) (h : Fin 1024) :
    val_main_v123 (F := Ideal) x0 x1 x2 x3 x4 x7 x8 (ix2 b h)
      = hid (fun j => val_main_v118 (F := Ideal) x0 x1 x2 x3 x4 (ix2 b j)) x7 (fun h' => x8 (ix1 h')) h := by
  rw [val_main_v123_apply, val_main_v122_apply, val_main_v119_apply, val_main_v121_apply, val_main_v120_apply,
    val_main_call0_v0_apply, val_main_call0_cst_apply, Ideal.ofBits_def, Ideal.ofBits_zero_f32, Ideal.maximumf_def, Ideal.addf_def]
  unfold hid
  refine congrArg (max · 0) (congrArg₂ (· + ·) (Finset.sum_congr rfl fun j _ => ?_) ?_)
  · exact congrArg₂ (fun p q => val_main_v118 (F := Ideal) x0 x1 x2 x3 x4 p * x7 q)
      (funext fun c => by match c with | ⟨0, _⟩ => rfl | ⟨1, _⟩ => rfl)
      (funext fun c => by match c with | ⟨0, _⟩ => rfl | ⟨1, _⟩ => rfl)
  · exact congrArg x8 (funext fun c => by match c with | ⟨0, _⟩ => rfl)

/-- The classifier head at (b, k). -/
theorem head_apply (x0 x1 : (⟨S256x128, .i32⟩ : BufTy).Contents (Elt Ideal)) (x2 : (⟨S32000x1024, .f32⟩ : BufTy).Contents (Elt Ideal)) (x3 : (⟨S1024x1024, .f32⟩ : BufTy).Contents (Elt Ideal))
    (x4 : (⟨S1024, .f32⟩ : BufTy).Contents (Elt Ideal)) (x7 : (⟨S4096x1024, .f32⟩ : BufTy).Contents (Elt Ideal)) (x8 : (⟨S1024, .f32⟩ : BufTy).Contents (Elt Ideal)) (x9 : (⟨S1024x3, .f32⟩ : BufTy).Contents (Elt Ideal))
    (x10 : (⟨S3, .f32⟩ : BufTy).Contents (Elt Ideal)) (b : Fin 128) (k : Fin 3) :
    val_main_v127 (F := Ideal) x0 x1 x2 x3 x4 x7 x8 x9 x10 (ix2 b k)
      = head (fun j => val_main_v118 (F := Ideal) x0 x1 x2 x3 x4 (ix2 b j)) x7 (fun h => x8 (ix1 h)) x9 (fun k' => x10 (ix1 k')) k := by
  rw [val_main_v127_apply, val_main_v124_apply, val_main_v126_apply, val_main_v125_apply, Ideal.addf_def]
  unfold head
  refine congrArg₂ (· + ·) (Finset.sum_congr rfl fun h _ => ?_) ?_
  · rw [show lidx_main_v124 (ix2 b k) h = ix2 b h from
        funext fun c => by match c with | ⟨0, _⟩ => rfl | ⟨1, _⟩ => rfl,
      hid_apply x0 x1 x2 x3 x4 x7 x8 b h]
    exact congrArg (_ * x9 ·) (funext fun c => by match c with | ⟨0, _⟩ => rfl | ⟨1, _⟩ => rfl)
  · exact congrArg x10 (funext fun c => by match c with | ⟨0, _⟩ => rfl)

end Cert.ReferenceIdeal.RefVal

end
-- ==== Proof.BridgeRes.lean ====
/-
  The kernel's classifier output equals the reference's classifier stage: where the run leaves the second region's
  output array, each entry is the head of the feature row built from the two last-step encoder rows, and both programs
  compute those rows as the specification's encoder row of the same token of the same launched arrays.
-/
import proofs.«100950_j13675175871137_2_alg».proof.Proof.KIRun
import proofs.«100950_j13675175871137_2_alg».proof.Proof.Arr
import proofs.«100950_j13675175871137_2_alg».proof.Proof.KHostU
import proofs.«100950_j13675175871137_2_alg».proof.Proof.KHostR
import proofs.«100950_j13675175871137_2_alg».proof.Proof.KHost
import proofs.«100950_j13675175871137_2_alg».proof.Proof.BridgeTab
import proofs.«100950_j13675175871137_2_alg».proof.Proof.RefVal
import proofs.«100950_j13675175871137_2_alg».proof.Proof.PreFacts
import proofs.«100950_j13675175871137_2_alg».proof.Proof.Spec
import Idealize.ShloMosaic.Lib.ValueIdx

set_option maxRecDepth 16384

noncomputable section

namespace Cert.BridgeRes

open Cert.KernelIdeal Cert.KernelIdeal.Gen Cert.KernelIdeal.Hand Cert.Spec Cert.ReferenceIdeal.Read
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- Two matrices of 128 rows and 3 columns that agree at every row and column are equal. -/
theorem ext2 {f g : (⟨2, ![128, 3]⟩ : Shape).Idx → EReal} (h : ∀ (p : Fin 128) (k : Fin 3), f (ix2 p k) = g (ix2 p k)) : f = g :=
  funext fun i => by rw [eq_ix2 i]; exact h _ _

/-- The last-step encoder row of column p gathered by the kernel's host stretch, first token array: the
    specification's encoder row of the token at that column's last step. -/
theorem row1 (X : IVec S256x128 32) (e : W4 (F := Ideal) m ρ c (Proc.devRef .tc main_arg0) = X) (h0 : HTok X) (r0 : HRow X)
    (p : Fin 128) (h : Fin 1024) :
    StableHlo.after (hostOps1 (F := Ideal)) (W4 m ρ c) (Proc.devRef .tc main_v93) (ix2 p h)
      = top (embRow (m ((c : Thread nD τ).loc main_arg2)) (tokAt X (rowOf (lastRow X (ix1 p))) p))
          (m ((c : Thread nD τ).loc main_arg3)) (fun h' => m ((c : Thread nD τ).loc main_arg4) (ix1 h')) h := by
  subst e
  refine (KHostR.f1 (W4 m ρ c) r0 p h).trans ?_
  refine (KHost.top1 (W4 m ρ c) h0 (rowOf (lastRow (W4 m ρ c (Proc.devRef .tc main_arg0)) (ix1 p))) p h).trans ?_
  exact Cert.BridgeTab.tab_top m ρ c _ (Cert.PreFacts.tokAt_toNat_lt _ h0 _ p) h

/-- The same for the second token array. -/
theorem row2 (X : IVec S256x128 32) (e : W4 (F := Ideal) m ρ c (Proc.devRef .tc main_arg1) = X) (h1 : HTok X) (r1 : HRow X)
    (p : Fin 128) (h : Fin 1024) :
    StableHlo.after (hostOps1 (F := Ideal)) (W4 m ρ c) (Proc.devRef .tc main_v94) (ix2 p h)
      = top (embRow (m ((c : Thread nD τ).loc main_arg2)) (tokAt X (rowOf (lastRow X (ix1 p))) p))
          (m ((c : Thread nD τ).loc main_arg3)) (fun h' => m ((c : Thread nD τ).loc main_arg4) (ix1 h')) h := by
  subst e
  refine (KHostR.f2 (W4 m ρ c) r1 p h).trans ?_
  refine (KHost.top2 (W4 m ρ c) h1 (rowOf (lastRow (W4 m ρ c (Proc.devRef .tc main_arg1)) (ix1 p))) p h).trans ?_
  exact Cert.BridgeTab.tab_top m ρ c _ (Cert.PreFacts.tokAt_toNat_lt _ h1 _ p) h

/-- The kernel's classifier output, where the run leaves it, is the reference's classifier stage of the launched
    arguments. -/
theorem res0 (h0 : HTok (m ((c : Thread nD τ).loc main_arg0))) (h1 : HTok (m ((c : Thread nD τ).loc main_arg1)))
    (r0 : HRow (m ((c : Thread nD τ).loc main_arg0))) (r1 : HRow (m ((c : Thread nD τ).loc main_arg1))) :
    W11 (F := Ideal) m ρ c (Proc.devRef .tc main_v104)
      = val_main_v127 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg7)) (m ((c : Thread nD τ).loc main_arg8)) (m ((c : Thread nD τ).loc main_arg9))
          (m ((c : Thread nD τ).loc main_arg10)) := by
  rw [Run.W11_v104]
  refine ext2 fun p k => ?_
  rw [Cert.KernelIdeal.Arr.out_arr (V5 m ρ) c p k, Cert.ReferenceIdeal.RefVal.head_apply]
  refine Cert.KernelIdeal.Arr.head_congr (funext fun j => ?_) ?_ (funext fun h => ?_) ?_ (funext fun k' => ?_) rfl
  · rw [Cert.ReferenceIdeal.RefVal.feat_apply]
    refine (Cert.KernelIdeal.KHostU.u_apply (W4 m ρ c) p j).trans ?_
    refine congrArg₂ (fun f1 f2 => feat f1 f2 j) (funext fun h => ?_) (funext fun h => ?_)
    · rw [Cert.ReferenceIdeal.RefVal.last_apply _ _ _ _ h0 r0]
      exact row1 m ρ c _ (Run.W4_main_arg0 m ρ c) h0 r0 p h
    · rw [Cert.ReferenceIdeal.RefVal.last_apply' _ _ _ _ h1 r1]
      exact row2 m ρ c _ (Run.W4_main_arg1 m ρ c) h1 r1 p h
  · exact (Cert.KernelIdeal.KHostU.w1_eq (W4 m ρ c)).trans (Run.W4_main_arg7 m ρ c)
  · exact (Cert.KernelIdeal.KHostU.b1_apply (W4 m ρ c) h).trans (congrFun (Run.W4_main_arg8 m ρ c) (ix1 h))
  · exact (Cert.KernelIdeal.KHostU.w2_eq (W4 m ρ c)).trans (Run.W4_main_arg9 m ρ c)
  · exact (Cert.KernelIdeal.KHostU.b2_apply (W4 m ρ c) k').trans (congrFun (Run.W4_main_arg10 m ρ c) (ix1 k'))

end Cert.BridgeRes

end
-- ==== Proof.StatsCore.lean ====
/-
  The masked statistics. Both programs compute, from an action tensor act[t, b, a] and per-column step counts ts[b],
  the mask m[t, b] = 1 if t < ts[b] else 0 and three masked sums over the time rows t,
    s1[b] = 0 + sum_t act[t, b, 0] * m[t, b],  s2[b] = 0 + sum_t act[t, b, 1] * m[t, b],
    s3[b] = 0 + sum_t (act[t, b, 0] - act[t, b, 1])^2 * m[t, b],
  and then two scalars, the same functions of (s1, s2, s3, ts) in both:
    tailDis s1 s2 ts = sqrt (0 + sum_b (s1[b] / ts[b] - (s2[b] + 1) / ts[b])^2) / 128,
    tailDiff s3 ts   = (0 + sum_b sqrt s3[b] / ts[b]) / 128.
  One program sums over 512 time rows, the other over 511. When the two tensors agree on the first 511 rows and no
  step count exceeds 511, the mask of row 511 is 0, its terms are x * 0 = 0 for every extended real x, and the sums agree.
-/
import proofs.«100950_j13675175871137_2_alg».proof.Proof.Gen.KernelIdeal.Launch
import proofs.«100950_j13675175871137_2_alg».proof.Proof.Spec
import proofs.«100950_j13675175871137_2_alg».proof.Proof.Gen.ReferenceIdeal
import Idealize.ShloMosaic.Lib.Pipeline.Value
import Idealize.ShloMosaic.Lib.ValueIdx
import Idealize.ShloMosaic.PureOps.Ideal.Laws

set_option maxRecDepth 2500

noncomputable section

namespace Cert.Stats

open Idealize.ShloMosaic Idealize.ShloMosaic.TcCoe Idealize.SL.Sem Idealize.ShloMosaic.StableHlo Idealize.ShloMosaic.ValueIdx
section K
open Cert.KernelIdeal Cert.KernelIdeal.Gen

/-- A column vector of 128 extended reals, one per batch column. -/
abbrev Col : Type := (⟨S128, .f32⟩ : BufTy).Contents (Elt Ideal)
/-- The step counts, one 32-bit word per batch column. -/
abbrev Cnt : Type := (⟨S128, .i32⟩ : BufTy).Contents (Elt Ideal)
/-- A scalar result. -/
abbrev Sc : Type := (⟨S_, .f32⟩ : BufTy).Contents (Elt Ideal)

/-- The per-column difference of the two normalised masked sums: s1 / ts - (s2 + 1) / ts. -/
def colDiff (s1 s2 : Col) (ts : Cnt) : Col :=
  subf (F := Ideal) (Host.divf (F := Ideal) s1 (sitofp (F := Ideal) .f32 ts))
    (Host.divf (F := Ideal) (addf (F := Ideal) s2 (broadcastInDim S128 ![] bcast_S_S128 (constant (F := Ideal) S_ .f32 0x3F800000#32)))
      (sitofp (F := Ideal) .f32 ts))

/-- The Euclidean norm of a column vector: the square root of 0 + the sum of squares. -/
def normOf (d : Col) : Sc :=
  Host.sqrt (F := Ideal) (Host.reduceAdd (F := Ideal) (mulf (F := Ideal) d d) (constant (F := Ideal) S_ .f32 0x00000000#32) reducesTo_S128_S_d0 h_S_)

/-- The first statistic as a function of the first two masked sums and the step counts: norm (s1 / ts - (s2 + 1) / ts) / 128. -/
def tailDis (s1 s2 : Col) (ts : Cnt) : Sc :=
  Host.divf (F := Ideal) (normOf (colDiff s1 s2 ts)) (constant (F := Ideal) S_ .f32 0x43000000#32)

/-- The second statistic as a function of the third masked sum and the step counts: (0 + the sum over columns of sqrt s3 / ts) / 128. -/
def tailDiff (s3 : Col) (ts : Cnt) : Sc :=
  Host.divf (F := Ideal)
    (Host.reduceAdd (F := Ideal) (Host.divf (F := Ideal) (Host.sqrt (F := Ideal) s3) (sitofp (F := Ideal) .f32 ts))
      (constant (F := Ideal) S_ .f32 0x00000000#32) reducesTo_S128_S_d0 h_S_)
    (constant (F := Ideal) S_ .f32 0x43000000#32)

/-! ## The kernel's side: 512 time rows -/

/-- The kernel's action tensor: 512 time rows, 128 columns, two actions. -/
abbrev ActK : Type := (⟨S512x128x2, .f32⟩ : BufTy).Contents (Elt Ideal)
abbrev MatK : Type := (⟨S512x128, .f32⟩ : BufTy).Contents (Elt Ideal)

/-- mask[t, b] = 1 when t < ts[b] (signed), else 0, over 512 time rows. -/
def maskK (ts : Cnt) : MatK :=
  uitofp (F := Ideal) .f32
    (cmpi .slt
      (broadcastInDim S512x128 ![0, 1] bcast_S512x1_S512x128_0_1 (broadcastInDim S512x1 ![0] bcast_S512_S512x1_0 (iotaInDim S512 32 0)))
      (broadcastInDim S512x128 ![0, 1] bcast_S1x128_S512x128_0_1 (broadcastInDim S1x128 ![1] bcast_S128_S1x128_1 ts)))

/-- The first action's plane. -/
def pushK (act : ActK) : MatK :=
  shapeCast S512x128 (extractStridedSlice S512x128x1 ![0, 0, 0] act slices_S512x128x2_S512x128x1_0_0_0) shapeCasts_S512x128x1_S512x128
/-- The second action's plane. -/
def popK (act : ActK) : MatK :=
  shapeCast S512x128 (extractStridedSlice S512x128x1 ![0, 0, 1] act slices_S512x128x2_S512x128x1_0_0_1) shapeCasts_S512x128x1_S512x128

/-- 0 + the sum over the 512 time rows of push * mask. -/
def ksum1 (act : ActK) (ts : Cnt) : Col :=
  Host.reduceAdd (F := Ideal) (mulf (F := Ideal) (pushK act) (maskK ts)) (constant (F := Ideal) S_ .f32 0x00000000#32) reducesTo_S512x128_S128_d0 h_S_
/-- 0 + the sum over the 512 time rows of pop * mask. -/
def ksum2 (act : ActK) (ts : Cnt) : Col :=
  Host.reduceAdd (F := Ideal) (mulf (F := Ideal) (popK act) (maskK ts)) (constant (F := Ideal) S_ .f32 0x00000000#32) reducesTo_S512x128_S128_d0 h_S_
/-- 0 + the sum over the 512 time rows of (push - pop)^2 * mask. -/
def ksum3 (act : ActK) (ts : Cnt) : Col :=
  Host.reduceAdd (F := Ideal)
    (mulf (F := Ideal) (mulf (F := Ideal) (subf (F := Ideal) (pushK act) (popK act)) (subf (F := Ideal) (pushK act) (popK act))) (maskK ts))
    (constant (F := Ideal) S_ .f32 0x00000000#32) reducesTo_S512x128_S128_d0 h_S_

/-- The contents after the five closing host stretches, from contents W. -/
local notation "afterStats " W:max =>
  StableHlo.after (hostOps2_4 (F := Ideal)) (StableHlo.after (hostOps2_3 (F := Ideal)) (StableHlo.after (hostOps2_2 (F := Ideal))
    (StableHlo.after (hostOps2_1 (F := Ideal)) (StableHlo.after (hostOps2 (F := Ideal)) W))))

/-! ### The kernel's four statistics are the shared tail of its masked sums -/

set_option maxHeartbeats 4000000 in
theorem k_v133 (W : Valuation τ sig (Elt Ideal)) :
    (afterStats W) (Proc.devRef .tc main_v133)
      = tailDis (ksum1 (W (Proc.devRef .tc main_v34)) (W (Proc.devRef .tc main_v55)))
          (ksum2 (W (Proc.devRef .tc main_v34)) (W (Proc.devRef .tc main_v55))) (W (Proc.devRef .tc main_v55)) := by
  after_results_simp
  rfl

set_option maxHeartbeats 4000000 in
theorem k_v135 (W : Valuation τ sig (Elt Ideal)) :
    (afterStats W) (Proc.devRef .tc main_v135)
      = tailDiff (ksum3 (W (Proc.devRef .tc main_v34)) (W (Proc.devRef .tc main_v55))) (W (Proc.devRef .tc main_v55)) := by
  after_results_simp
  rfl

set_option maxHeartbeats 4000000 in
theorem k_v164 (W : Valuation τ sig (Elt Ideal)) :
    (afterStats W) (Proc.devRef .tc main_v164)
      = tailDis (ksum1 (W (Proc.devRef .tc main_v35)) (W (Proc.devRef .tc main_v59)))
          (ksum2 (W (Proc.devRef .tc main_v35)) (W (Proc.devRef .tc main_v59))) (W (Proc.devRef .tc main_v59)) := by
  after_results_simp
  rfl

set_option maxHeartbeats 4000000 in
theorem k_v166 (W : Valuation τ sig (Elt Ideal)) :
    (afterStats W) (Proc.devRef .tc main_v166)
      = tailDiff (ksum3 (W (Proc.devRef .tc main_v35)) (W (Proc.devRef .tc main_v59))) (W (Proc.devRef .tc main_v59)) := by
  after_results_simp
  rfl

/-- The classifier's output is not touched by the closing host stretches. -/
theorem k_v104 (W : Valuation τ sig (Elt Ideal)) :
    (afterStats W) (Proc.devRef .tc main_v104) = W (Proc.devRef .tc main_v104) := by
  after_results_simp

/-! ### The kernel's masked sums at a column -/

theorem maskK_apply (ts : Cnt) (k : Fin 512) (b : Fin 128) :
    maskK ts (ix2 k b) = FloatOps.uitofp (F := Ideal) .f32 (IntOp.cmpi .slt (BitVec.ofNat 32 k.val) (ts (ix1 b))) := by
  unfold maskK
  show FloatOps.uitofp (F := Ideal) .f32 (IntOp.cmpi .slt _ _) = _
  rw [broadcastInDim_apply _ bcast_S512x1_S512x128_0_1 _ (ix2 k b) (ix2 k 0) (fun a => match a with
      | ⟨0, _⟩ => by show k.val = if (512 : Nat) = 1 then 0 else k.val; rw [if_neg (by decide)]
      | ⟨1, _⟩ => by show 0 = if (1 : Nat) = 1 then 0 else b.val; rw [if_pos rfl]),
    broadcastInDim_apply _ bcast_S512_S512x1_0 _ (ix2 k 0) (ix1 k) (fun a => match a with
      | ⟨0, _⟩ => by show k.val = if (512 : Nat) = 1 then 0 else k.val; rw [if_neg (by decide)]),
    broadcastInDim_apply _ bcast_S1x128_S512x128_0_1 _ (ix2 k b) (ix2 0 b) (fun a => match a with
      | ⟨0, _⟩ => by show 0 = if (1 : Nat) = 1 then 0 else k.val; rw [if_pos rfl]
      | ⟨1, _⟩ => by show b.val = if (128 : Nat) = 1 then 0 else b.val; rw [if_neg (by decide)]),
    broadcastInDim_apply _ bcast_S128_S1x128_1 ts (ix2 0 b) (ix1 b) (fun a => match a with
      | ⟨0, _⟩ => by show b.val = if (128 : Nat) = 1 then 0 else b.val; rw [if_neg (by decide)])]
  rfl

theorem pushK_apply (act : ActK) (k : Fin 512) (b : Fin 128) : pushK act (ix2 k b) = act (ix3 k b 0) := by
  unfold pushK
  rw [shapeCast_apply _ shapeCasts_S512x128x1_S512x128 (ix2 k b) (ix3 k b 0)
      (by rewrite [Shape.rowMajor_val_three, Shape.rowMajor_val_two]; show (k.val * 128 + b.val) * 1 + 0 = k.val * 128 + b.val; omega),
    extractStridedSlice_apply ![0, 0, 0] act slices_S512x128x2_S512x128x1_0_0_0 (ix3 k b 0) (ix3 k b 0) (fun a => match a with
      | ⟨0, _⟩ => by show k.val = 0 + k.val; omega
      | ⟨1, _⟩ => by show b.val = 0 + b.val; omega
      | ⟨2, _⟩ => by show 0 = 0 + 0; omega)]

theorem popK_apply (act : ActK) (k : Fin 512) (b : Fin 128) : popK act (ix2 k b) = act (ix3 k b 1) := by
  unfold popK
  rw [shapeCast_apply _ shapeCasts_S512x128x1_S512x128 (ix2 k b) (ix3 k b 0)
      (by rewrite [Shape.rowMajor_val_three, Shape.rowMajor_val_two]; show (k.val * 128 + b.val) * 1 + 0 = k.val * 128 + b.val; omega),
    extractStridedSlice_apply ![0, 0, 1] act slices_S512x128x2_S512x128x1_0_0_1 (ix3 k b 0) (ix3 k b 1) (fun a => match a with
      | ⟨0, _⟩ => by show k.val = 0 + k.val; omega
      | ⟨1, _⟩ => by show b.val = 0 + b.val; omega
      | ⟨2, _⟩ => by show 1 = 1 + 0; omega)]

/-- A host sum over the 512 time rows at a column: 0 + the sum over the rows. -/
theorem sumK_apply (x : MatK) (b : Fin 128) :
    Host.reduceAdd (F := Ideal) x (constant (F := Ideal) S_ .f32 0x00000000#32) reducesTo_S512x128_S128_d0 h_S_ (ix1 b)
      = ∑ k : Fin 512, x (ix2 k b) := by
  simp only [Host.reduceAdd, Ideal.hostReduceAdd_def]
  rw [Ideal.hostReduceAdd_single reducesTo_S512x128_S128_d0 (by decide)]
  rw [show (constant (F := Ideal) S_ .f32 0x00000000#32) (Shape.Idx.first h_S_) = (0 : EReal) from Ideal.ofBits_zero_f32, zero_add]
  refine Finset.sum_congr rfl fun k _ => ?_
  exact congrArg x (funext fun a => Fin.ext (by match a with | ⟨0, _⟩ => rfl | ⟨1, _⟩ => rfl))

end K

/-! ## The reference's side: 511 time rows -/

section R
open Cert.ReferenceIdeal Cert.ReferenceIdeal.Gen

/-- The reference's action tensor: 511 time rows, 128 columns, two actions. -/
abbrev ActR : Type := (⟨S511x128x2, .f32⟩ : BufTy).Contents (Elt Ideal)
abbrev MatR : Type := (⟨S511x128, .f32⟩ : BufTy).Contents (Elt Ideal)

/-- mask[t, b] = 1 when t < ts[b] (signed), else 0, over 511 time rows. -/
def maskR (ts : Cnt) : MatR :=
  uitofp (F := Ideal) .f32
    (cmpi .slt
      (broadcastInDim S511x128 ![0, 1] bcast_S511x1_S511x128_0_1 (broadcastInDim S511x1 ![0] bcast_S511_S511x1_0 (iotaInDim S511 32 0)))
      (broadcastInDim S511x128 ![0, 1] bcast_S1x128_S511x128_0_1 (broadcastInDim S1x128 ![1] bcast_S128_S1x128_1 ts)))

/-- The first action's plane. -/
def pushR (act : ActR) : MatR :=
  shapeCast S511x128 (extractStridedSlice S511x128x1 ![0, 0, 0] act slices_S511x128x2_S511x128x1_0_0_0) shapeCasts_S511x128x1_S511x128
/-- The second action's plane. -/
def popR (act : ActR) : MatR :=
  shapeCast S511x128 (extractStridedSlice S511x128x1 ![0, 0, 1] act slices_S511x128x2_S511x128x1_0_0_1) shapeCasts_S511x128x1_S511x128

/-- 0 + the sum over the 511 time rows of push * mask. -/
def rsum1 (act : ActR) (ts : Cnt) : Col :=
  Host.reduceAdd (F := Ideal) (mulf (F := Ideal) (pushR act) (maskR ts)) (constant (F := Ideal) S_ .f32 0x00000000#32) reducesTo_S511x128_S128_d0 h_S_
/-- 0 + the sum over the 511 time rows of pop * mask. -/
def rsum2 (act : ActR) (ts : Cnt) : Col :=
  Host.reduceAdd (F := Ideal) (mulf (F := Ideal) (popR act) (maskR ts)) (constant (F := Ideal) S_ .f32 0x00000000#32) reducesTo_S511x128_S128_d0 h_S_
/-- 0 + the sum over the 511 time rows of (push - pop)^2 * mask. -/
def rsum3 (act : ActR) (ts : Cnt) : Col :=
  Host.reduceAdd (F := Ideal)
    (mulf (F := Ideal) (mulf (F := Ideal) (subf (F := Ideal) (pushR act) (popR act)) (subf (F := Ideal) (pushR act) (popR act))) (maskR ts))
    (constant (F := Ideal) S_ .f32 0x00000000#32) reducesTo_S511x128_S128_d0 h_S_

theorem maskR_apply (ts : Cnt) (k : Fin 511) (b : Fin 128) :
    maskR ts (ix2 k b) = FloatOps.uitofp (F := Ideal) .f32 (IntOp.cmpi .slt (BitVec.ofNat 32 k.val) (ts (ix1 b))) := by
  unfold maskR
  show FloatOps.uitofp (F := Ideal) .f32 (IntOp.cmpi .slt _ _) = _
  rw [broadcastInDim_apply _ bcast_S511x1_S511x128_0_1 _ (ix2 k b) (ix2 k 0) (fun a => match a with
      | ⟨0, _⟩ => by show k.val = if (511 : Nat) = 1 then 0 else k.val; rw [if_neg (by decide)]
      | ⟨1, _⟩ => by show 0 = if (1 : Nat) = 1 then 0 else b.val; rw [if_pos rfl]),
    broadcastInDim_apply _ bcast_S511_S511x1_0 _ (ix2 k 0) (ix1 k) (fun a => match a with
      | ⟨0, _⟩ => by show k.val = if (511 : Nat) = 1 then 0 else k.val; rw [if_neg (by decide)]),
    broadcastInDim_apply _ bcast_S1x128_S511x128_0_1 _ (ix2 k b) (ix2 0 b) (fun a => match a with
      | ⟨0, _⟩ => by show 0 = if (1 : Nat) = 1 then 0 else k.val; rw [if_pos rfl]
      | ⟨1, _⟩ => by show b.val = if (128 : Nat) = 1 then 0 else b.val; rw [if_neg (by decide)]),
    broadcastInDim_apply _ bcast_S128_S1x128_1 ts (ix2 0 b) (ix1 b) (fun a => match a with
      | ⟨0, _⟩ => by show b.val = if (128 : Nat) = 1 then 0 else b.val; rw [if_neg (by decide)])]
  rfl

theorem pushR_apply (act : ActR) (k : Fin 511) (b : Fin 128) : pushR act (ix2 k b) = act (ix3 k b 0) := by
  unfold pushR
  rw [shapeCast_apply _ shapeCasts_S511x128x1_S511x128 (ix2 k b) (ix3 k b 0)
      (by rewrite [Shape.rowMajor_val_three, Shape.rowMajor_val_two]; show (k.val * 128 + b.val) * 1 + 0 = k.val * 128 + b.val; omega),
    extractStridedSlice_apply ![0, 0, 0] act slices_S511x128x2_S511x128x1_0_0_0 (ix3 k b 0) (ix3 k b 0) (fun a => match a with
      | ⟨0, _⟩ => by show k.val = 0 + k.val; omega
      | ⟨1, _⟩ => by show b.val = 0 + b.val; omega
      | ⟨2, _⟩ => by show 0 = 0 + 0; omega)]

theorem popR_apply (act : ActR) (k : Fin 511) (b : Fin 128) : popR act (ix2 k b) = act (ix3 k b 1) := by
  unfold popR
  rw [shapeCast_apply _ shapeCasts_S511x128x1_S511x128 (ix2 k b) (ix3 k b 0)
      (by rewrite [Shape.rowMajor_val_three, Shape.rowMajor_val_two]; show (k.val * 128 + b.val) * 1 + 0 = k.val * 128 + b.val; omega),
    extractStridedSlice_apply ![0, 0, 1] act slices_S511x128x2_S511x128x1_0_0_1 (ix3 k b 0) (ix3 k b 1) (fun a => match a with
      | ⟨0, _⟩ => by show k.val = 0 + k.val; omega
      | ⟨1, _⟩ => by show b.val = 0 + b.val; omega
      | ⟨2, _⟩ => by show 1 = 1 + 0; omega)]

/-- A host sum over the 511 time rows at a column: 0 + the sum over the rows. -/
theorem sumR_apply (x : MatR) (b : Fin 128) :
    Host.reduceAdd (F := Ideal) x (constant (F := Ideal) S_ .f32 0x00000000#32) reducesTo_S511x128_S128_d0 h_S_ (ix1 b)
      = ∑ k : Fin 511, x (ix2 k b) := by
  simp only [Host.reduceAdd, Ideal.hostReduceAdd_def]
  rw [Ideal.hostReduceAdd_single reducesTo_S511x128_S128_d0 (by decide)]
  rw [show (constant (F := Ideal) S_ .f32 0x00000000#32) (Shape.Idx.first h_S_) = (0 : EReal) from Ideal.ofBits_zero_f32, zero_add]
  refine Finset.sum_congr rfl fun k _ => ?_
  exact congrArg x (funext fun a => Fin.ext (by match a with | ⟨0, _⟩ => rfl | ⟨1, _⟩ => rfl))

end R

/-! ## The 512th row adds nothing -/

/-- A sum over 512 rows whose last term is zero is the sum over the first 511. -/
theorem sum_512 (f : Fin 512 → EReal) (g : Fin 511 → EReal)
    (h : ∀ k : Fin 511, f ⟨k.val, Nat.lt_succ_of_lt k.isLt⟩ = g k) (hl : f ⟨511, by decide⟩ = 0) :
    ∑ k : Fin 512, f k = ∑ k : Fin 511, g k := by
  have e := Fin.sum_univ_castSucc (n := 511) f
  have hl' : f (Fin.last 511) = 0 := hl
  rw [e, hl', add_zero]
  exact Finset.sum_congr rfl fun k _ => h k

/-- When the step count is not above 511, the mask of time row 511 is zero. -/
theorem mask_last (s : BitVec 32) (hs : IntOp.cmpi .slt 511#32 s = 0#1) :
    FloatOps.uitofp (F := Ideal) .f32 (IntOp.cmpi .slt (BitVec.ofNat 32 511) s) = (0 : EReal) := by
  show (((IntOp.cmpi .slt (BitVec.ofNat 32 511) s).toNat : ℝ) : EReal) = 0
  rw [hs]; simp

/-! ## The kernel's three masked sums are the reference's -/

section Sums
variable (actK : ActK) (actR : ActR) (ts : Cnt)
  (hact : ∀ (t : Fin 511) (b : Fin 128) (a : Fin 2),
    actK (ix3 (⟨t.val, Nat.lt_succ_of_lt t.isLt⟩ : Fin 512) b a) = actR (ix3 t b a))
  (hts : ∀ b : Cert.KernelIdeal.S128.Idx, IntOp.cmpi .slt 511#32 (ts b) = 0#1)
include hact hts

theorem ksum1_eq : ksum1 actK ts = rsum1 actR ts := by
  funext i
  obtain ⟨b, rfl⟩ : ∃ b : Fin 128, i = ix1 b := ⟨i 0, eq_ix1 i⟩
  unfold ksum1 rsum1
  rw [sumK_apply, sumR_apply]
  refine sum_512 _ _ (fun k => ?_) ?_
  · simp only [mulf_apply, pushK_apply, pushR_apply, maskK_apply, maskR_apply, hact]
  · simp only [mulf_apply, maskK_apply]
    rw [mask_last _ (hts (ix1 b)), mul_zero]

theorem ksum2_eq : ksum2 actK ts = rsum2 actR ts := by
  funext i
  obtain ⟨b, rfl⟩ : ∃ b : Fin 128, i = ix1 b := ⟨i 0, eq_ix1 i⟩
  unfold ksum2 rsum2
  rw [sumK_apply, sumR_apply]
  refine sum_512 _ _ (fun k => ?_) ?_
  · simp only [mulf_apply, popK_apply, popR_apply, maskK_apply, maskR_apply, hact]
  · simp only [mulf_apply, maskK_apply]
    rw [mask_last _ (hts (ix1 b)), mul_zero]

theorem ksum3_eq : ksum3 actK ts = rsum3 actR ts := by
  funext i
  obtain ⟨b, rfl⟩ : ∃ b : Fin 128, i = ix1 b := ⟨i 0, eq_ix1 i⟩
  unfold ksum3 rsum3
  rw [sumK_apply, sumR_apply]
  refine sum_512 _ _ (fun k => ?_) ?_
  · simp only [mulf_apply, subf_apply, pushK_apply, pushR_apply, popK_apply, popR_apply, maskK_apply, maskR_apply, hact]
  · simp only [mulf_apply, maskK_apply]
    rw [mask_last _ (hts (ix1 b)), mul_zero]

end Sums

end Cert.Stats

end
-- ==== Proof.Stats.lean ====
/-
  The reference's two pairs of statistics are the shared tails of its three masked sums over 511 time rows, read off
  its operations; with the kernel's side and the equality of the sums this pairs each statistic of one program with
  the same function of equal arguments in the other.
-/
import proofs.«100950_j13675175871137_2_alg».proof.Proof.StatsCore
import proofs.«100950_j13675175871137_2_alg».proof.Proof.RefReadP

set_option maxRecDepth 2500

noncomputable section

namespace Cert.Stats

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.Read

section Ref
variable (x0 x1 : (⟨S256x128, .i32⟩ : BufTy).Contents (Elt Ideal)) (x2 : (⟨S32000x1024, .f32⟩ : BufTy).Contents (Elt Ideal))
  (x5 : (⟨S1024x2, .f32⟩ : BufTy).Contents (Elt Ideal)) (x6 : (⟨S2, .f32⟩ : BufTy).Contents (Elt Ideal))

/-- The first sequence's first statistic: the tail of its first two masked sums. -/
theorem r_v156 :
    val_main_v156 (F := Ideal) x0 x2 x5 x6
      = tailDis (rsum1 (val_main_v28 (F := Ideal) x0 x2 x5 x6) (val_main_v77 (F := Ideal) x0))
          (rsum2 (val_main_v28 (F := Ideal) x0 x2 x5 x6) (val_main_v77 (F := Ideal) x0)) (val_main_v77 (F := Ideal) x0) := by
  unfold val_main_v156 val_main_v155 val_main_call1_v1 val_main_call1_v0 val_main_v154 val_main_v142 val_main_v147 val_main_v146
    val_main_v145 val_main_v141 val_main_v144 val_main_v140 val_main_v143 val_main_v137 val_main_v139 val_main_v136 val_main_v138
    val_main_v134 val_main_v133 val_main_v131 val_main_v132 val_main_v130 val_main_v129 val_main_v128 val_main_v135
    val_main_cst_30 val_main_cst_31 val_main_cst_32 val_main_cst_34 val_main_call1_cst
  generalize val_main_v28 (F := Ideal) x0 x2 x5 x6 = act
  generalize val_main_v77 (F := Ideal) x0 = ts
  rfl

/-- The first sequence's second statistic: the tail of its third masked sum. -/
theorem r_v158 :
    val_main_v158 (F := Ideal) x0 x2 x5 x6
      = tailDiff (rsum3 (val_main_v28 (F := Ideal) x0 x2 x5 x6) (val_main_v77 (F := Ideal) x0)) (val_main_v77 (F := Ideal) x0) := by
  unfold val_main_v158 val_main_v157 val_main_v153 val_main_v152 val_main_v151 val_main_v150 val_main_v149 val_main_v148
    val_main_v137 val_main_v139 val_main_v136 val_main_v138
    val_main_v134 val_main_v133 val_main_v131 val_main_v132 val_main_v130 val_main_v129 val_main_v128 val_main_v135
    val_main_cst_33 val_main_cst_35 val_main_cst_36
  generalize val_main_v28 (F := Ideal) x0 x2 x5 x6 = act
  generalize val_main_v77 (F := Ideal) x0 = ts
  rfl

/-- The second sequence's first statistic. -/
theorem r_v187 :
    val_main_v187 (F := Ideal) x1 x2 x5 x6
      = tailDis (rsum1 (val_main_v57 (F := Ideal) x1 x2 x5 x6) (val_main_v81 (F := Ideal) x1))
          (rsum2 (val_main_v57 (F := Ideal) x1 x2 x5 x6) (val_main_v81 (F := Ideal) x1)) (val_main_v81 (F := Ideal) x1) := by
  unfold val_main_v187 val_main_v186 val_main_call2_v1 val_main_call2_v0 val_main_v185 val_main_v173 val_main_v178 val_main_v177
    val_main_v176 val_main_v172 val_main_v175 val_main_v171 val_main_v174 val_main_v168 val_main_v170 val_main_v167 val_main_v169
    val_main_v165 val_main_v164 val_main_v162 val_main_v163 val_main_v161 val_main_v160 val_main_v159 val_main_v166
    val_main_cst_37 val_main_cst_38 val_main_cst_39 val_main_cst_41 val_main_call2_cst
  generalize val_main_v57 (F := Ideal) x1 x2 x5 x6 = act
  generalize val_main_v81 (F := Ideal) x1 = ts
  rfl

/-- The second sequence's second statistic. -/
theorem r_v189 :
    val_main_v189 (F := Ideal) x1 x2 x5 x6
      = tailDiff (rsum3 (val_main_v57 (F := Ideal) x1 x2 x5 x6) (val_main_v81 (F := Ideal) x1)) (val_main_v81 (F := Ideal) x1) := by
  unfold val_main_v189 val_main_v188 val_main_v184 val_main_v183 val_main_v182 val_main_v181 val_main_v180 val_main_v179
    val_main_v168 val_main_v170 val_main_v167 val_main_v169
    val_main_v165 val_main_v164 val_main_v162 val_main_v163 val_main_v161 val_main_v160 val_main_v159 val_main_v166
    val_main_cst_40 val_main_cst_42 val_main_cst_43
  generalize val_main_v57 (F := Ideal) x1 x2 x5 x6 = act
  generalize val_main_v81 (F := Ideal) x1 = ts
  rfl

end Ref

/-! ## Each statistic of the kernel is the reference's -/

section Pair
variable (W : Valuation Cert.KernelIdeal.τ Cert.KernelIdeal.sig (Elt Ideal))
  (x0 x1 : (⟨S256x128, .i32⟩ : BufTy).Contents (Elt Ideal)) (x2 : (⟨S32000x1024, .f32⟩ : BufTy).Contents (Elt Ideal))
  (x5 : (⟨S1024x2, .f32⟩ : BufTy).Contents (Elt Ideal)) (x6 : (⟨S2, .f32⟩ : BufTy).Contents (Elt Ideal))

local notation "afterStats " W:max =>
  StableHlo.after (Cert.KernelIdeal.Gen.hostOps2_4 (F := Ideal)) (StableHlo.after (Cert.KernelIdeal.Gen.hostOps2_3 (F := Ideal))
    (StableHlo.after (Cert.KernelIdeal.Gen.hostOps2_2 (F := Ideal)) (StableHlo.after (Cert.KernelIdeal.Gen.hostOps2_1 (F := Ideal))
      (StableHlo.after (Cert.KernelIdeal.Gen.hostOps2 (F := Ideal)) W))))

/-- The first sequence: when the kernel's step counts are the reference's, none above 511, and its action tensor agrees
    with the reference's on the first 511 time rows, its two statistics are the reference's. -/
theorem stats1_eq
    (hts : W (Proc.devRef .tc Cert.KernelIdeal.main_v55) = val_main_v77 (F := Ideal) x0)
    (hact : ∀ (t : Fin 511) (b : Fin 128) (a : Fin 2),
      (W (Proc.devRef .tc Cert.KernelIdeal.main_v34) : ActK) (ix3 (⟨t.val, Nat.lt_succ_of_lt t.isLt⟩ : Fin 512) b a)
        = val_main_v28 (F := Ideal) x0 x2 x5 x6 (ix3 t b a))
    (hs : ∀ b : Cert.KernelIdeal.S128.Idx, IntOp.cmpi .slt 511#32 (val_main_v77 (F := Ideal) x0 b) = 0#1) :
    (afterStats W) (Proc.devRef .tc Cert.KernelIdeal.main_v133) = val_main_v156 (F := Ideal) x0 x2 x5 x6
    ∧ (afterStats W) (Proc.devRef .tc Cert.KernelIdeal.main_v135) = val_main_v158 (F := Ideal) x0 x2 x5 x6 := by
  refine ⟨?_, ?_⟩
  · rw [k_v133, r_v156, hts, ksum1_eq _ _ _ hact hs, ksum2_eq _ _ _ hact hs]
  · rw [k_v135, r_v158, hts, ksum3_eq _ _ _ hact hs]

/-- The second sequence likewise. -/
theorem stats2_eq
    (hts : W (Proc.devRef .tc Cert.KernelIdeal.main_v59) = val_main_v81 (F := Ideal) x1)
    (hact : ∀ (t : Fin 511) (b : Fin 128) (a : Fin 2),
      (W (Proc.devRef .tc Cert.KernelIdeal.main_v35) : ActK) (ix3 (⟨t.val, Nat.lt_succ_of_lt t.isLt⟩ : Fin 512) b a)
        = val_main_v57 (F := Ideal) x1 x2 x5 x6 (ix3 t b a))
    (hs : ∀ b : Cert.KernelIdeal.S128.Idx, IntOp.cmpi .slt 511#32 (val_main_v81 (F := Ideal) x1 b) = 0#1) :
    (afterStats W) (Proc.devRef .tc Cert.KernelIdeal.main_v164) = val_main_v187 (F := Ideal) x1 x2 x5 x6
    ∧ (afterStats W) (Proc.devRef .tc Cert.KernelIdeal.main_v166) = val_main_v189 (F := Ideal) x1 x2 x5 x6 := by
  refine ⟨?_, ?_⟩
  · rw [k_v164, r_v187, hts, ksum1_eq _ _ _ hact hs, ksum2_eq _ _ _ hact hs]
  · rw [k_v166, r_v189, hts, ksum3_eq _ _ _ hact hs]

end Pair

end Cert.Stats

end
-- ==== Proof.BridgeStats.lean ====
/-
  The kernel's four statistics are the reference's.

  At the end of the kernel's run the statistics are the masked-sum tails of the action tensor and the step counts
  standing after the long host stretch. The step counts there are the specification's, hence the reference's, and
  under the row hypothesis none exceeds 511. The action tensor's row at extended time t of column b is the action
  table's row at the token there; the table's row at a token below 32000 is the softmax of the token's two logits,
  which is what the reference's tensor holds at (t, b). With equal step counts and action tensors equal on the first
  511 time rows the two programs' statistics agree.
-/
import proofs.«100950_j13675175871137_2_alg».proof.Proof.KIRun
import proofs.«100950_j13675175871137_2_alg».proof.Proof.KHost
import proofs.«100950_j13675175871137_2_alg».proof.Proof.KHostR
import proofs.«100950_j13675175871137_2_alg».proof.Proof.BridgeTab
import proofs.«100950_j13675175871137_2_alg».proof.Proof.Stats
import proofs.«100950_j13675175871137_2_alg».proof.Proof.RefVal
import proofs.«100950_j13675175871137_2_alg».proof.Proof.PreFacts
import proofs.«100950_j13675175871137_2_alg».proof.Proof.Spec

noncomputable section

namespace Cert.BridgeStats

open Cert.KernelIdeal Cert.KernelIdeal.Gen Cert.KernelIdeal.Hand Cert.Spec Cert.ReferenceIdeal.Read
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The action row the long host stretch gathers at extended time t of column b, when the token array before the
    stretch is X: the action table's row at the token there. -/
theorem gathered1 (W : Valuation τ sig (Elt Ideal)) (X : (⟨2, ![256, 128]⟩ : Shape).Idx → BitVec 32)
    (hX : W (Proc.devRef .tc main_arg0) = X) (h : HTok X) (t : Fin 511) (b : Fin 128) (a : Fin 2) :
    (StableHlo.after (hostOps1 (F := Ideal)) W (Proc.devRef .tc main_v34) : (⟨S512x128x2, .f32⟩ : BufTy).Contents (Elt Ideal))
        (ix3 (⟨t.val, Nat.lt_succ_of_lt t.isLt⟩ : Fin 512) b a)
      = (W (Proc.devRef .tc main_v5_1) : (⟨S32768x2, .f32⟩ : BufTy).Contents (Elt Ideal))
          (ix2 (⟨(tokAt X t b).toNat, Nat.lt_trans (Cert.PreFacts.tokAt_toNat_lt X h t b) (by decide)⟩ : Fin 32768) a) := by
  subst hX
  exact Cert.KernelIdeal.KHost.act1 W h t b a

/-- The same for the second token array. -/
theorem gathered2 (W : Valuation τ sig (Elt Ideal)) (X : (⟨2, ![256, 128]⟩ : Shape).Idx → BitVec 32)
    (hX : W (Proc.devRef .tc main_arg1) = X) (h : HTok X) (t : Fin 511) (b : Fin 128) (a : Fin 2) :
    (StableHlo.after (hostOps1 (F := Ideal)) W (Proc.devRef .tc main_v35) : (⟨S512x128x2, .f32⟩ : BufTy).Contents (Elt Ideal))
        (ix3 (⟨t.val, Nat.lt_succ_of_lt t.isLt⟩ : Fin 512) b a)
      = (W (Proc.devRef .tc main_v5_1) : (⟨S32768x2, .f32⟩ : BufTy).Contents (Elt Ideal))
          (ix2 (⟨(tokAt X t b).toNat, Nat.lt_trans (Cert.PreFacts.tokAt_toNat_lt X h t b) (by decide)⟩ : Fin 32768) a) := by
  subst hX
  exact Cert.KernelIdeal.KHost.act2 W h t b a

/-- The first sequence's two statistics at the end of the kernel's run are the reference's. -/
theorem stats1 (h0 : HTok (m ((c : Thread nD τ).loc main_arg0))) (r0 : HRow (m ((c : Thread nD τ).loc main_arg0))) :
    W11 (F := Ideal) m ρ c (Proc.devRef .tc main_v133) = val_main_v156 (F := Ideal) (m ((c : Thread nD τ).loc main_arg0)) (m ((c : Thread nD τ).loc main_arg2)) (m ((c : Thread nD τ).loc main_arg5)) (m ((c : Thread nD τ).loc main_arg6))
    ∧ W11 (F := Ideal) m ρ c (Proc.devRef .tc main_v135) = val_main_v158 (F := Ideal) (m ((c : Thread nD τ).loc main_arg0)) (m ((c : Thread nD τ).loc main_arg2)) (m ((c : Thread nD τ).loc main_arg5)) (m ((c : Thread nD τ).loc main_arg6)) := by
  have hts : W6 (F := Ideal) m ρ c (Proc.devRef .tc main_v55) = val_main_v77 (F := Ideal) (m ((c : Thread nD τ).loc main_arg0)) := by
    rw [Run.W6_keep_v55]
    refine (Cert.KernelIdeal.KHostR.v55_eq (W4 (F := Ideal) m ρ c)).trans ?_
    rw [Run.W4_main_arg0]
    exact (Cert.ReferenceIdeal.RefVal.steps_eq (m ((c : Thread nD τ).loc main_arg0))).symm
  have hact : ∀ (t : Fin 511) (b : Fin 128) (a : Fin 2),
      (W6 (F := Ideal) m ρ c (Proc.devRef .tc main_v34) : Cert.Stats.ActK) (ix3 (⟨t.val, Nat.lt_succ_of_lt t.isLt⟩ : Fin 512) b a)
        = val_main_v28 (F := Ideal) (m ((c : Thread nD τ).loc main_arg0)) (m ((c : Thread nD τ).loc main_arg2)) (m ((c : Thread nD τ).loc main_arg5)) (m ((c : Thread nD τ).loc main_arg6)) (ix3 t b a) := by
    intro t b a
    rw [Run.W6_keep_v34]
    refine (gathered1 (W4 (F := Ideal) m ρ c) (m ((c : Thread nD τ).loc main_arg0)) (Run.W4_main_arg0 m ρ c) h0 t b a).trans ?_
    rw [Cert.ReferenceIdeal.RefVal.act_apply (m ((c : Thread nD τ).loc main_arg0)) (m ((c : Thread nD τ).loc main_arg2)) (m ((c : Thread nD τ).loc main_arg5)) (m ((c : Thread nD τ).loc main_arg6)) h0 t b a]
    exact Cert.BridgeTab.tab_act m ρ c (tokAt (m ((c : Thread nD τ).loc main_arg0)) t b) (Cert.PreFacts.tokAt_toNat_lt (m ((c : Thread nD τ).loc main_arg0)) h0 t b) a
  have hs : ∀ b : S128.Idx, IntOp.cmpi .slt 511#32 (val_main_v77 (F := Ideal) (m ((c : Thread nD τ).loc main_arg0)) b) = 0#1 := by
    intro b
    rw [Cert.ReferenceIdeal.RefVal.steps_eq]
    exact Cert.PreFacts.not_slt_steps (m ((c : Thread nD τ).loc main_arg0)) r0 b
  exact Cert.Stats.stats1_eq (W6 (F := Ideal) m ρ c) (m ((c : Thread nD τ).loc main_arg0)) (m ((c : Thread nD τ).loc main_arg2)) (m ((c : Thread nD τ).loc main_arg5)) (m ((c : Thread nD τ).loc main_arg6)) hts hact hs

/-- The second sequence's two statistics at the end of the kernel's run are the reference's. -/
theorem stats2 (h1 : HTok (m ((c : Thread nD τ).loc main_arg1))) (r1 : HRow (m ((c : Thread nD τ).loc main_arg1))) :
    W11 (F := Ideal) m ρ c (Proc.devRef .tc main_v164) = val_main_v187 (F := Ideal) (m ((c : Thread nD τ).loc main_arg1)) (m ((c : Thread nD τ).loc main_arg2)) (m ((c : Thread nD τ).loc main_arg5)) (m ((c : Thread nD τ).loc main_arg6))
    ∧ W11 (F := Ideal) m ρ c (Proc.devRef .tc main_v166) = val_main_v189 (F := Ideal) (m ((c : Thread nD τ).loc main_arg1)) (m ((c : Thread nD τ).loc main_arg2)) (m ((c : Thread nD τ).loc main_arg5)) (m ((c : Thread nD τ).loc main_arg6)) := by
  have hts : W6 (F := Ideal) m ρ c (Proc.devRef .tc main_v59) = val_main_v81 (F := Ideal) (m ((c : Thread nD τ).loc main_arg1)) := by
    rw [Run.W6_keep_v59]
    refine (Cert.KernelIdeal.KHostR.v59_eq (W4 (F := Ideal) m ρ c)).trans ?_
    rw [Run.W4_main_arg1]
    exact (Cert.ReferenceIdeal.RefVal.steps_eq' (m ((c : Thread nD τ).loc main_arg1))).symm
  have hact : ∀ (t : Fin 511) (b : Fin 128) (a : Fin 2),
      (W6 (F := Ideal) m ρ c (Proc.devRef .tc main_v35) : Cert.Stats.ActK) (ix3 (⟨t.val, Nat.lt_succ_of_lt t.isLt⟩ : Fin 512) b a)
        = val_main_v57 (F := Ideal) (m ((c : Thread nD τ).loc main_arg1)) (m ((c : Thread nD τ).loc main_arg2)) (m ((c : Thread nD τ).loc main_arg5)) (m ((c : Thread nD τ).loc main_arg6)) (ix3 t b a) := by
    intro t b a
    rw [Run.W6_keep_v35]
    refine (gathered2 (W4 (F := Ideal) m ρ c) (m ((c : Thread nD τ).loc main_arg1)) (Run.W4_main_arg1 m ρ c) h1 t b a).trans ?_
    rw [Cert.ReferenceIdeal.RefVal.act_apply' (m ((c : Thread nD τ).loc main_arg1)) (m ((c : Thread nD τ).loc main_arg2)) (m ((c : Thread nD τ).loc main_arg5)) (m ((c : Thread nD τ).loc main_arg6)) h1 t b a]
    exact Cert.BridgeTab.tab_act m ρ c (tokAt (m ((c : Thread nD τ).loc main_arg1)) t b) (Cert.PreFacts.tokAt_toNat_lt (m ((c : Thread nD τ).loc main_arg1)) h1 t b) a
  have hs : ∀ b : S128.Idx, IntOp.cmpi .slt 511#32 (val_main_v81 (F := Ideal) (m ((c : Thread nD τ).loc main_arg1)) b) = 0#1 := by
    intro b
    rw [Cert.ReferenceIdeal.RefVal.steps_eq']
    exact Cert.PreFacts.not_slt_steps (m ((c : Thread nD τ).loc main_arg1)) r1 b
  exact Cert.Stats.stats2_eq (W6 (F := Ideal) m ρ c) (m ((c : Thread nD τ).loc main_arg1)) (m ((c : Thread nD τ).loc main_arg2)) (m ((c : Thread nD τ).loc main_arg5)) (m ((c : Thread nD τ).loc main_arg6)) hts hact hs

end Cert.BridgeStats

end
-- ==== Proof.lean ====
/-
  The certificate of a two-sentence entailment model: a vocabulary-hoisted encoder and a small classifier head
  against the plain formulation.

  Both programs take two token arrays (256 time rows, 128 columns), an embedding table of 32000 rows, and the
  weights of an encoder (a tanh layer and a two-way softmax) and of a classifier head. Each column's tokens are
  extended in time (the array followed by its first 255 rows: 511 steps); the encoder row of a step is
  tanh (emb tok · W + b), its action row softmax (emb tok · Wa + ba). The head sees, per column, the encoder rows of
  the two sequences at their last step, f1 and f2, side by side with |f1 - f2| and f1 * f2, and returns
  max (u · W1 + b1) 0 · W2 + b2. Four statistics sum the action rows over the steps before each column's step count.

  One program encodes EVERY row of the table once (padded to 32768 rows, in blocks of 1024) and then looks rows up
  by token; the other looks the token's embedding up first and encodes the 511 steps. A row of a matrix product
  depends on that row alone, so encoding commutes with the lookup — for tokens that are rows of the table, which the
  precondition states. The first program also pads time to 512 steps: the extra step carries a zero mask (its index
  511 is not below any step count, the last step's row being below 511 by the precondition) and zero times any
  extended real is zero, so the masked sums agree; and a last-step row that is nonnegative is read as it stands by
  both, whatever the length it would have been wrapped by.

  The three frames are runs of the programs: the two kernels' through their two regions and the host stretches
  between them, the reference's its list of host operations. The idealization changed no operation.
-/
import proofs.«100950_j13675175871137_2_alg».proof.Defs
import proofs.«100950_j13675175871137_2_alg».proof.Proof.Gen.Kernel
import proofs.«100950_j13675175871137_2_alg».proof.Proof.Gen.KernelIdeal
import proofs.«100950_j13675175871137_2_alg».proof.Proof.Gen.ReferenceIdeal
import proofs.«100950_j13675175871137_2_alg».proof.Proof.Gen.Pre_finite_inputs
import proofs.«100950_j13675175871137_2_alg».proof.Proof.KRun
import proofs.«100950_j13675175871137_2_alg».proof.Proof.KIRun
import proofs.«100950_j13675175871137_2_alg».proof.Proof.RefRun
import proofs.«100950_j13675175871137_2_alg».proof.Proof.PreFacts
import proofs.«100950_j13675175871137_2_alg».proof.Proof.BridgeRes
import proofs.«100950_j13675175871137_2_alg».proof.Proof.BridgeStats

noncomputable section

namespace Cert.Proof

open Idealize.ShloMosaic Idealize.ShloMosaic.TcCoe Idealize.SL.Sem

section KernelRun

open Cert.KernelIdeal Cert.KernelIdeal.Gen Cert.KernelIdeal.Hand

variable (m : (ℓ : Loc nD τ sig) → Buf (Elt Ideal) ℓ) (ρ : Dev nD → PrngReg)

/-- The idealized kernel's run with its five results named: what the last host stretch leaves in them, the
    arguments as launched. -/
theorem kernel_run :
    θ_run (defs (F := Ideal)) (onTc (τ := τ) (main (F := Ideal))) ⟨m, fun _ => 0, ρ⟩ (fun r => ∀ c : Dev nD,
      r.2.mem ((c.tc : Thread nD τ).loc main_v104) = W11 (F := Ideal) m ρ c (Proc.devRef .tc main_v104)
      ∧ r.2.mem ((c.tc : Thread nD τ).loc main_v133) = W11 (F := Ideal) m ρ c (Proc.devRef .tc main_v133)
      ∧ r.2.mem ((c.tc : Thread nD τ).loc main_v164) = W11 (F := Ideal) m ρ c (Proc.devRef .tc main_v164)
      ∧ r.2.mem ((c.tc : Thread nD τ).loc main_v135) = W11 (F := Ideal) m ρ c (Proc.devRef .tc main_v135)
      ∧ r.2.mem ((c.tc : Thread nD τ).loc main_v166) = W11 (F := Ideal) m ρ c (Proc.devRef .tc main_v166)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun r h c =>
    ⟨h c _ (mem_uc main_v104 (by decide)), h c _ (mem_uc main_v133 (by decide)), h c _ (mem_uc main_v164 (by decide)),
     h c _ (mem_uc main_v135 (by decide)), h c _ (mem_uc main_v166 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c)⟩)
    (run_main (F := Ideal) m ρ)

end KernelRun

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2)
    (Cert.ReferenceIdeal.RefRun.run m ρ)

/-- Both idealized programs run; the reference's five results are the kernel's: the classifier output by the
    encoder commuting with the token lookup, the statistics by the masked sums agreeing across the padded step. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, _, _, _, kernel_run m ρ, ?_⟩
  refine (θ_run Cert.ReferenceIdeal.defs _ _).mono (fun _ h c => ?_) (Cert.ReferenceIdeal.RefRun.run m' ρ')
  obtain ⟨e0, e1, e2, e3, e4, hargs⟩ := h c
  obtain ⟨a0, a1, a2, a3, a4, a5, a6, a7, a8, a9, a10⟩ := hagree c
  obtain ⟨h0, h1, r0, r1⟩ := Cert.PreFacts.of_pre m hpre c
  obtain ⟨s1, s3⟩ := Cert.BridgeStats.stats1 m ρ c h0 r0
  obtain ⟨s2, s4⟩ := Cert.BridgeStats.stats2 m ρ c h1 r1
  refine ⟨e0.trans ?_, e1.trans ?_, e2.trans ?_, e3.trans ?_, e4.trans ?_, hargs⟩
  · rw [a0, a1, a2, a3, a4, a7, a8, a9, a10]
    exact (Cert.BridgeRes.res0 m ρ c h0 h1 r0 r1).symm
  · rw [a0, a2, a5, a6]; exact s1.symm
  · rw [a1, a2, a5, a6]; exact s2.symm
  · rw [a0, a2, a5, a6]; exact s3.symm
  · rw [a1, a2, a5, a6]; exact s4.symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
